-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x200 : Shape := ⟨2, ![100000, 200]⟩
abbrev S2x1600000 : Shape := ⟨2, ![2, 1600000]⟩
abbrev S1600000 : Shape := ⟨1, ![1600000]⟩
abbrev S200x128 : Shape := ⟨2, ![200, 128]⟩
abbrev S128 : Shape := ⟨1, ![128]⟩
abbrev S128x128 : Shape := ⟨2, ![128, 128]⟩
abbrev S456x128 : Shape := ⟨2, ![456, 128]⟩
abbrev S128x64 : Shape := ⟨2, ![128, 64]⟩
abbrev S64 : Shape := ⟨1, ![64]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S456x128 : S_.BroadcastsInDim S456x128 (![] : Fin 0 → Fin S456x128.rank)
  reducesTo_S456x128_S_d0_1 : S456x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x64 .f32) (main_arg14 : FVec F S64 .f32) (main_v48 : IVec S_ 1) (main_v49 : FVec F S456x128 .f32) (main_v50 : FVec F S456x128 .f32) : IVec S_ 1 :=
  let main_v51 : IVec S456x128 1 := cmpf .olt main_v49 main_v50
  let main_c_19 : IVec S_ 1 := constantI S_ 1 1#1
  let main_v52 : IVec S_ 1 := (fun x v => Host.reduce IntOp.andi x v reducesTo_S456x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S128 .f32) (main_arg9 : FVec F S128 .f32) (main_arg10 : FVec F S128 .f32) (main_arg11 : FVec F S456x128 .f32) (main_arg12 : FVec F S128 .f32) (main_arg13 : FVec F S128x64 .f32) (main_arg14 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S456x128 .f32 := Host.absf main_arg11
  let main_cst_18 : FVec F S_ .f32 := constant S_ .f32 0x7F800000#32
  let main_v50 : FVec F S456x128 .f32 := broadcastInDim S456x128 ![] bcast_S_S456x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S456x128 .f32) (main_arg12 : FVec F S128 .f32) (main_arg13 : FVec F S128x64 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x200 .f32) (main_arg1 : IVec S2x1600000 32) (main_arg2 : FVec F S1600000 .f32) (main_arg3 : FVec F S200x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S456x128 .f32) (main_arg12 : FVec F S128 .f32) (main_arg13 : FVec F S128x64 .f32) (main_arg14 : FVec F S64 .f32) : IVec S_ 1 :=
  let main_v0 : FVec F S100000x200 .f32 := Host.absf main_arg0
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S200x128 .f32 := Host.absf main_arg3
  let main_cst_2 : FVec F S_ .f32 := constant S_ .f32 0x7F800000#32
  let main_v10 : FVec F S200x128 .f32 := broadcastInDim S200x128 ![] bcast_S_S200x128 main_cst_2
  let main_v11 : IVec S200x128 1 := cmpf .olt main_v9 main_v10
  let main_c_3 : IVec S_ 1 := constantI S_ 1 1#1
  let main_v12 : IVec S_ 1 := (fun x v => Host.reduce IntOp.andi x v reducesTo_S200x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x200 : Shape := ⟨2, ![100000, 200]⟩
abbrev S2x1600000 : Shape := ⟨2, ![2, 1600000]⟩
abbrev S1600000 : Shape := ⟨1, ![1600000]⟩
abbrev S200x128 : Shape := ⟨2, ![200, 128]⟩
abbrev S128 : Shape := ⟨1, ![128]⟩
abbrev S128x128 : Shape := ⟨2, ![128, 128]⟩
abbrev S456x128 : Shape := ⟨2, ![456, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S2000x200 : Shape := ⟨2, ![2000, 200]⟩
abbrev S2000x128 : Shape := ⟨2, ![2000, 128]⟩
abbrev S1700000x128 : Shape := ⟨2, ![1700000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 148
  | .vmem => 60
  | .smem => 0
  | _ => 0

abbrev hbmTy0_0 (i : Nat) : BufTy := match i % 128 with
  | 0 => ⟨S100000x200, .f32⟩
  | 1 => ⟨S2x1600000, .i32⟩
  | 2 => ⟨S1600000, .f32⟩
  | 3 => ⟨S200x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S456x128, .f32⟩
  | 12 => ⟨S128, .f32⟩
  | 13 => ⟨S128x64, .f32⟩
  | 14 => ⟨S64, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S100000, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .f32⟩
  | 58 => ⟨S128, .f32⟩
  | 59 => ⟨S1x128, .f32⟩
  | 60 => ⟨S100000x128, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x1, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S100000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S100000x128, .f32⟩
  | 99 => ⟨S_, .f32⟩
  | 100 => ⟨S128, .f32⟩
  | 101 => ⟨S1x128, .f32⟩
  | 102 => ⟨S100000x128, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x128, .f32⟩
  | 112 => ⟨S1700000x1, .f32⟩
  | 113 => ⟨S1700000x128, .f32⟩
  | 114 => ⟨S1700000x128, .f32⟩
  | 115 => ⟨S_, .f32⟩
  | 116 => ⟨S100000x128, .f32⟩
  | 117 => ⟨S1700000x1, .i32⟩
  | 118 => ⟨S100000x128, .f32⟩
  | 119 => ⟨S1x128, .f32⟩
  | 120 => ⟨S100000x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S_, .f32⟩
  | 127 => ⟨S1x128, .f32⟩
  | _ => ⟨S100000x200, .f32⟩

abbrev hbmTy0_1 (i : Nat) : BufTy := match i % 128 with
  | 0 => ⟨S1x128, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S100000x128, .f32⟩
  | 13 => ⟨S200x128, .f32⟩
  | 14 => ⟨S128x128, .f32⟩
  | 15 => ⟨S128x128, .f32⟩
  | 16 => ⟨S1x128, .f32⟩
  | 17 => ⟨S100000x128, .f32⟩
  | 18 => ⟨S1x64, .f32⟩
  | 19 => ⟨S100000x64, .f32⟩
  | _ => ⟨S100000x200, .f32⟩

abbrev hbmTy (i : Nat) : BufTy := match i / 128 with
  | 0 => hbmTy0_0 i
  | 1 => hbmTy0_1 i
  | _ => ⟨S100000x200, .f32⟩

abbrev bufTy : (tb : Table) → Fin (tcTables nBuf tb) → BufTy
  | .hbm, ⟨i, _⟩ => hbmTy i
  | .local _ .vmem, ⟨0, _⟩ => ⟨S2000x200, .f32⟩
  | .local _ .vmem, ⟨1, _⟩ => ⟨S2000x200, .f32⟩
  | .local _ .vmem, ⟨2, _⟩ => ⟨S200x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x200, .f32⟩
  | .local _ .vmem, ⟨43, _⟩ => ⟨S2000x200, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S200x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x64, .f32⟩
  | .local _ .vmem, ⟨57, _⟩ => ⟨S1x64, .f32⟩
  | .local _ .vmem, ⟨58, _⟩ => ⟨S2000x64, .f32⟩
  | .local _ .vmem, ⟨59, _⟩ => ⟨S2000x64, .f32⟩
  | _, _ => ⟨S100000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev main_v49_2 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_14 : Ref sig .tc := ⟨.hbm, 103, rfl⟩
abbrev main_v68 : Ref sig .tc := ⟨.hbm, 104, rfl⟩
abbrev main_v69 : Ref sig .tc := ⟨.hbm, 105, rfl⟩
abbrev main_c_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_16 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82_0 : Ref sig .tc := ⟨.hbm, 120, rfl⟩
abbrev main_v82_1 : Ref sig .tc := ⟨.hbm, 121, rfl⟩
abbrev main_v82_2 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_scratch0 : Ref sig .tc := ⟨.vmem, 13, rfl⟩
abbrev cc1_scratch1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_scratch0 : Ref sig .tc := ⟨.vmem, 34, rfl⟩
abbrev cc4_scratch1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg6_0 : Ref sig .tc := ⟨.vmem, 51, rfl⟩
abbrev cc6_stg7_0 : Ref sig .tc := ⟨.vmem, 52, rfl⟩
abbrev cc6_stg7_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem4_0 : DmaSem sig := 45
abbrev cc6_sem5_0 : DmaSem sig := 46
abbrev cc6_sem6_0 : DmaSem sig := 47
abbrev cc6_sem7_0 : DmaSem sig := 48
abbrev cc6_sem7_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def k1_cond3 (i : grid1.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_10 : BitVec 32 := 0#32
  let v22 : BitVec 1 := Scalar.cmpi .ne v21 c0_i32_10
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def k4_cond3 (i : grid4.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_10 : BitVec 32 := 0#32
  let v22 : BitVec 1 := Scalar.cmpi .ne v21 c0_i32_10
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x200 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S200x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S_S128 : S_.BroadcastsInDim S128 (![] : Fin 0 → Fin S128.rank)
  shapeCasts_S128_S1x128 : S128.ShapeCasts S1x128
  inb_S2000x200_S2000x200_0_0 : ∀ a, (![0, 0] : Fin 2 → Nat) a + S2000x200.size a ≤ S2000x200.size a
  h_S2000x200 : 0 < S2000x200.numel
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S2000x128_S2000x128 : S2000x128.ShapeCasts S2000x128
  reduces_S2000x128_S128 : S2000x128.Reduces [0] S128
  bcast_S_S1x128 : S_.BroadcastsInDim S1x128 (![] : Fin 0 → Fin S1x128.rank)
  bcast_S128_S1x128_1 : S128.BroadcastsInDim S1x128 (![1] : Fin 1 → Fin S1x128.rank)
  inb_S128x128_S128x128_0_0 : ∀ a, (![0, 0] : Fin 2 → Nat) a + S128x128.size a ≤ S128x128.size a
  h_S128x128 : 0 < S128x128.numel
  slices_S456x128_S200x128_0_0 : S456x128.Slices ![0, 0] S200x128
  slices_S456x128_S128x128_200_0 : S456x128.Slices ![200, 0] S128x128
  slices_S456x128_S128x128_328_0 : S456x128.Slices ![328, 0] S128x128
  shapeCasts_S200x128_S200x128 : S200x128.ShapeCasts S200x128
  shapeCasts_S128x128_S128x128 : S128x128.ShapeCasts S128x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x200_S200x128_S2000x128_1_0_0_1_n_n_wf : DotDims.WF S2000x200 S200x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x200.size a ≤ S100000x200.size a
  hwx0_0 : ∀ i : grid0.Coords, EltTy.bits .f32 = 32 ∨ (Rect.block (s := S100000x200) S2000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S200x128.size a
  hwx0_1 : ∀ i : grid0.Coords, EltTy.bits .f32 = 32 ∨ (Rect.block (s := S200x128) S200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x200.size a ≤ S100000x200.size a
  hwx6_0 : ∀ i : grid6.Coords, EltTy.bits .f32 = 32 ∨ (Rect.block (s := S100000x200) S2000x200.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S200x128.size a ≤ S200x128.size a
  hwx6_3 : ∀ i : grid6.Coords, EltTy.bits .f32 = 32 ∨ (Rect.block (s := S200x128) S200x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S100000x128.size a
  hwx6_7 : ∀ i : grid6.Coords, EltTy.bits .f32 = 32 ∨ (Rect.block (s := S100000x128) S2000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S100000x64.size a
  hwx7_3 : ∀ i : grid7.Coords, EltTy.bits .f32 = 32 ∨ (Rect.block (s := S100000x64) S2000x64.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x200_S200x128_S2000x128_1_0_0_1_n_n : DotDims S2000x200 S200x128 S2000x128 where
  lhsContracting := [1]
  rhsContracting := [0]
  lhsNonContracting := [0]
  rhsNonContracting := [1]
  lhsBatch := []
  rhsBatch := []
  wf := dot_S2000x200_S200x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S200x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_0) S2000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond3 i == 1#1) | 4 => fun i => !(k1_cond3 i == 1#1) | ⟨_ + 5, h⟩ => absurd h (Nat.not_lt.2 (Nat.le_add_left _ _))

abbrev win2_0 : Pipeline.Window sig grid2 :=
  Pipeline.Window.ofSpec (Memref.whole main_v49_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v64) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v80) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82_0) S2000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v82_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun i => !(k4_cond3 i == 1#1) | 4 => fun i => !(k4_cond3 i == 1#1) | ⟨_ + 5, h⟩ => absurd h (Nat.not_lt.2 (Nat.le_add_left _ _))

abbrev win5_0 : Pipeline.Window sig grid5 :=
  Pipeline.Window.ofSpec (Memref.whole main_v82_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v96) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg0) S2000x200.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v64) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v97) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v98) S200x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v99) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v100) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v101) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v102) S2000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v102) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v103) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v104) S2000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x200 : Shape := ⟨2, ![100000, 200]⟩
abbrev S2x1600000 : Shape := ⟨2, ![2, 1600000]⟩
abbrev S1600000 : Shape := ⟨1, ![1600000]⟩
abbrev S200x128 : Shape := ⟨2, ![200, 128]⟩
abbrev S128 : Shape := ⟨1, ![128]⟩
abbrev S128x128 : Shape := ⟨2, ![128, 128]⟩
abbrev S456x128 : Shape := ⟨2, ![456, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S100000x128 : Shape := ⟨2, ![100000, 128]⟩
abbrev S1700000x1 : Shape := ⟨2, ![1700000, 1]⟩
abbrev S1700000x128 : Shape := ⟨2, ![1700000, 128]⟩
abbrev S1x128 : Shape := ⟨2, ![1, 128]⟩
abbrev S100000x456 : Shape := ⟨2, ![100000, 456]⟩
abbrev S100000x64 : Shape := ⟨2, ![100000, 64]⟩
abbrev S1x64 : Shape := ⟨2, ![1, 64]⟩

abbrev nBuf : Space → Nat
  | .hbm => 210
  | .vmem => 0
  | .smem => 0
  | _ => 0

abbrev hbmTy0_0 (i : Nat) : BufTy := match i % 128 with
  | 0 => ⟨S100000x200, .f32⟩
  | 1 => ⟨S2x1600000, .i32⟩
  | 2 => ⟨S1600000, .f32⟩
  | 3 => ⟨S200x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S456x128, .f32⟩
  | 12 => ⟨S128, .f32⟩
  | 13 => ⟨S128x64, .f32⟩
  | 14 => ⟨S64, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S100000, .f32⟩
  | 24 => ⟨S1700000, .f32⟩
  | 25 => ⟨S100000x128, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S100000x128, .f32⟩
  | 111 => ⟨S_, .f32⟩
  | 112 => ⟨S100000, .f32⟩
  | 113 => ⟨S1700000x1, .i32⟩
  | 114 => ⟨S100000, .f32⟩
  | 115 => ⟨S_, .f32⟩
  | 116 => ⟨S100000, .f32⟩
  | 117 => ⟨S100000, .i1⟩
  | 118 => ⟨S100000, .f32⟩
  | 119 => ⟨S_, .f32⟩
  | 120 => ⟨S_, .f32⟩
  | 121 => ⟨S100000, .f32⟩
  | 122 => ⟨S100000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x200, .f32⟩

abbrev hbmTy0_1 (i : Nat) : BufTy := match i % 128 with
  | 0 => ⟨S1700000, .i32⟩
  | 1 => ⟨S1700000, .i32⟩
  | 2 => ⟨S1700000x1, .i32⟩
  | 3 => ⟨S1700000, .f32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000, .f32⟩
  | 14 => ⟨S1700000, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x128, .f32⟩
  | 24 => ⟨S1700000x1, .f32⟩
  | 25 => ⟨S1700000x128, .f32⟩
  | 26 => ⟨S1700000x128, .f32⟩
  | 27 => ⟨S_, .f32⟩
  | 28 => ⟨S100000x128, .f32⟩
  | 29 => ⟨S1700000x1, .i32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S_, .f32⟩
  | 38 => ⟨S128, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S128, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S100000x456, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | _ => ⟨S100000x200, .f32⟩

abbrev hbmTy (i : Nat) : BufTy := match i / 128 with
  | 0 => hbmTy0_0 i
  | 1 => hbmTy0_1 i
  | _ => ⟨S100000x200, .f32⟩

abbrev bufTy : (tb : Table) → Fin (tcTables nBuf tb) → BufTy
  | .hbm, ⟨i, _⟩ => hbmTy i
  | _, _ => ⟨S100000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_cst : Ref sig .tc := ⟨.hbm, 77, rfl⟩
abbrev main_call1_v0 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_14 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_call2_v0 : Ref sig .tc := ⟨.hbm, 120, rfl⟩
abbrev main_call2_v1 : Ref sig .tc := ⟨.hbm, 121, rfl⟩
abbrev main_v82 : Ref sig .tc := ⟨.hbm, 122, rfl⟩
abbrev main_c_17 : Ref sig .tc := ⟨.hbm, 123, rfl⟩
abbrev main_v83 : Ref sig .tc := ⟨.hbm, 124, rfl⟩
abbrev main_v84 : Ref sig .tc := ⟨.hbm, 125, rfl⟩
abbrev main_c_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_19 : Ref sig .tc := ⟨.hbm, 133, rfl⟩
abbrev main_v91 : Ref sig .tc := ⟨.hbm, 134, rfl⟩
abbrev main_v92 : Ref sig .tc := ⟨.hbm, 135, rfl⟩
abbrev main_c_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_c_21 : Ref sig .tc := ⟨.hbm, 143, rfl⟩
abbrev main_v99 : Ref sig .tc := ⟨.hbm, 144, rfl⟩
abbrev main_v100 : Ref sig .tc := ⟨.hbm, 145, rfl⟩
abbrev main_c_22 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_23 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_call3_cst : Ref sig .tc := ⟨.hbm, 162, rfl⟩
abbrev main_call3_v0 : Ref sig .tc := ⟨.hbm, 163, rfl⟩
abbrev main_v115 : Ref sig .tc := ⟨.hbm, 164, rfl⟩
abbrev main_cst_24 : Ref sig .tc := ⟨.hbm, 165, rfl⟩
abbrev main_v116 : Ref sig .tc := ⟨.hbm, 166, rfl⟩
abbrev main_cst_25 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_cst_26 : Ref sig .tc := ⟨.hbm, 174, rfl⟩
abbrev main_v123 : Ref sig .tc := ⟨.hbm, 175, rfl⟩
abbrev main_cst_27 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_28 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_call4_cst : Ref sig .tc := ⟨.hbm, 200, rfl⟩
abbrev main_call4_v0 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_call5_cst : Ref sig .tc := ⟨.hbm, 207, rfl⟩
abbrev main_call5_v0 : Ref sig .tc := ⟨.hbm, 208, rfl⟩
abbrev main_v151 : Ref sig .tc := ⟨.hbm, 209, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  concatenates_S100000x200_S100000x128_S100000x128_S100000x456_d1 : Shape.Concatenates [S100000x200, S100000x128, S100000x128] S100000x456 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  dot_S100000x200_S200x128_S100000x128_1_0_0_1_n_n_wf : DotDims.WF S100000x200 S200x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x456_S456x128_S100000x128_1_0_0_1_n_n_wf : DotDims.WF S100000x456 S456x128 S100000x128 [1] [0] [0] [1] [] []
  dot_S100000x128_S128x64_S100000x64_1_0_0_1_n_n_wf : DotDims.WF S100000x128 S128x64 S100000x64 [1] [0] [0] [1] [] []

variable [Facts₀]

def dot_S100000x200_S200x128_S100000x128_1_0_0_1_n_n : DotDims S100000x200 S200x128 S100000x128 where
  lhsContracting := [1]
  rhsContracting := [0]
  lhsNonContracting := [0]
  rhsNonContracting := [1]
  lhsBatch := []
  rhsBatch := []
  wf := dot_S100000x200_S200x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x456_S456x128_S100000x128_1_0_0_1_n_n : DotDims S100000x456 S456x128 S100000x128 where
  lhsContracting := [1]
  rhsContracting := [0]
  lhsNonContracting := [0]
  rhsNonContracting := [1]
  lhsBatch := []
  rhsBatch := []
  wf := dot_S100000x456_S456x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.K.Reg0.lean ====
import proofs.«168427_j26276609917010_1_alg».proof.Proof.Gen.Kernel.Launch
import proofs.«168427_j26276609917010_1_alg».proof.Proof.Gen.Kernel.Skeleton
import proofs.«168427_j26276609917010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether it was fetched at that point
    or kept from an earlier one (then the block index has not moved), for any data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, whether it was fetched at that point
    or kept from an earlier one (then the block index has not moved), for any data whose array is `V`'s and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, whether it was fetched at that point
    or kept from an earlier one (then the block index has not moved), for any data whose array is `V`'s and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x200 := Rect.unit (s := S2000x200) ![0, 0] S2000x200.size inb_S2000x200_S2000x200_0_0
abbrev r0_1 : Rect S200x128 := Rect.unit (s := S200x128) ![0, 0] S200x128.size inb_S200x128_S200x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-- The output window's staging buffer after the body, from the input windows' blocks: the body's single store,
    of the matrix product of the first block by the second (both rounded to the narrower format first) plus the third (a row, repeated down the rows). -/
def out0_3 (x0 : Vec F S2000x200 .f32) (x1 : Vec F S200x128 .f32) (x2 : Vec F S1x128 .f32) : Vec F S2000x128 .f32 :=
  View.canon [⟨r0_3, k0_pay1 (View.ld x0 r0_0) (View.ld x1 r0_1) (View.ld x2 r0_2)⟩]

/-- The single store is of the whole buffer, so it covers it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 4000000 in
/-- The body on whole staging memrefs, the inputs' at contents `xW` and the output's at anything, runs to a
    continuation that holds the inputs' as they were and the output's at `out0_3` of the inputs'. -/
theorem sound_kernel0 (c : Dev nD) (E : Set ℕ) (i : grid0.Coords) (arg1 : Memref sig .tc .vmem S2000x200 .f32) (harg1 : arg1.IsWhole) (arg2 : Memref sig .tc .vmem S200x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x200 .f32) (x1 : Vec F S200x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The data of the region's pipeline on core `c`: the arrays as the region finds them; after the body at point `t`
    each input's buffer at its block and the output's at `out0_3` of the input blocks; the invariant is the
    untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg
-- ==== Proof.K.Reg1Run.lean ====
import proofs.«168427_j26276609917010_1_alg».proof.Proof.Gen.Kernel.Launch
import proofs.«168427_j26276609917010_1_alg».proof.Proof.Gen.Kernel.Skeleton
import proofs.«168427_j26276609917010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body, case by case

The body adds the bias row to the 2000-row tile, takes the maximum with zero, stores the tile, and folds the
tile's column sums and column sums of squares into two one-row scratch accumulators: stored at the first grid
point, added to at the later ones, and copied to the two one-row outputs at the last. -/

/-- The first branch is taken at grid coordinate 0, -/
abbrev cond1_0 (i : grid1.Coords) : Prop := (Scalar.cmpi .ne (Scalar.extui (Scalar.cmpi .eq (BitVec.ofNat 32 (i 0).val) 0#32)) 0#32) = 1#1
/-- the second at every other coordinate, -/
abbrev cond1_1 (i : grid1.Coords) : Prop := (Scalar.cmpi .ne (Scalar.extui (Scalar.cmpi .ne (BitVec.ofNat 32 (i 0).val) 0#32)) 0#32) = 1#1
/-- the third at coordinate 49. -/
abbrev cond1_2 (i : grid1.Coords) : Prop := k1_cond3 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ 1 ≤ t.val :=
  (by decide +kernel : ∀ t : Fin grid1.N, cond1_1 (grid1.coords t) ↔ 1 ≤ t.val)
theorem hcond1_2 : ∀ t : Fin cfg1.N, cond1_2 (grid1.coords t) ↔ t.val = 49 :=
  (by decide +kernel : ∀ t : Fin grid1.N, cond1_2 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_2 (grid1.coords t) → cfg1.idle 3 (grid1.coords t) = true := by decide +kernel
theorem idleAt1_4 : ∀ t : Fin cfg1.N, ¬cond1_2 (grid1.coords t) → cfg1.idle 4 (grid1.coords t) = true := by decide +kernel
theorem noFlush1_3 : ∀ t : Fin cfg1.N, ¬cond1_2 (grid1.coords t) → (cfg1.win 3).flush t = false := by decide +kernel
theorem noFlush1_4 : ∀ t : Fin cfg1.N, ¬cond1_2 (grid1.coords t) → (cfg1.win 4).flush t = false := by decide +kernel
theorem liveAt1_3 : ∀ t : Fin cfg1.N, cond1_2 (grid1.coords t) → cfg1.idle 3 (grid1.coords t) = false := by decide +kernel
theorem liveAt1_4 : ∀ t : Fin cfg1.N, cond1_2 (grid1.coords t) → cfg1.idle 4 (grid1.coords t) = false := by decide +kernel

/-! ## The body's accesses and what it leaves -/

/-- The whole 2000 x 128 tile and the whole 1 x 128 row: the only rectangles the body reads or writes. -/
abbrev rb1 : Rect S2000x128 := Rect.unit (s := S2000x128) ![0, 0] S2000x128.size inb_S2000x128_S2000x128_0_0
abbrev rs1 : Rect S1x128 := Rect.unit (s := S1x128) ![0, 0] S1x128.size inb_S1x128_S1x128_0_0

/-- The tile output: max (tile + bias row, 0). -/
def out1_2 (x0 : Vec F S2000x128 .f32) (x1 : Vec F S1x128 .f32) : Vec F S2000x128 .f32 :=
  View.canon [⟨rb1, k1_pay1 (View.ld x0 rb1) (View.ld x1 rs1)⟩]
/-- The two accumulators after the first grid point: the tile's column sums, and column sums of squares. -/
def scA1_0 (x0 : Vec F S2000x128 .f32) (x1 : Vec F S1x128 .f32) : Vec F S1x128 .f32 :=
  View.canon [⟨rs1, k1_pay4 (View.ld x0 rb1) (View.ld x1 rs1)⟩]
def scA1_1 (x0 : Vec F S2000x128 .f32) (x1 : Vec F S1x128 .f32) : Vec F S1x128 .f32 :=
  View.canon [⟨rs1, k1_pay5 (View.ld x0 rb1) (View.ld x1 rs1)⟩]
/-- The two accumulators after a later grid point, from what the point before left (`s`): `s` plus the tile's sums. -/
def scB1_0 (x0 : Vec F S2000x128 .f32) (x1 : Vec F S1x128 .f32) (s : Vec F S1x128 .f32) : Vec F S1x128 .f32 :=
  View.canon [⟨rs1, k1_pay6 (View.ld x0 rb1) (View.ld x1 rs1) (View.ld s rs1)⟩]
def scB1_1 (x0 : Vec F S2000x128 .f32) (x1 : Vec F S1x128 .f32) (s : Vec F S1x128 .f32) : Vec F S1x128 .f32 :=
  View.canon [⟨rs1, k1_pay7 (View.ld x0 rb1) (View.ld x1 rs1) (View.ld s rs1)⟩]
/-- The two one-row outputs at the last grid point: copies of the accumulators' contents `s`. -/
def out1_3 (s : Vec F S1x128 .f32) : Vec F S1x128 .f32 := View.canon [⟨rs1, View.ld s rs1⟩]
def out1_4 (s : Vec F S1x128 .f32) : Vec F S1x128 .f32 := View.canon [⟨rs1, View.ld s rs1⟩]

/-- One store of the whole shape covers it. -/
theorem cover1_b (p : rb1.shape.Idx → Elt F .f32) (y : S2000x128.Idx) :
    ∃ pc ∈ ([⟨rb1, p⟩] : List (View.Piece (Elt F) S2000x128 .f32)), y ∈ pc.1.set :=
  View.cover_of_tiled [⟨rb1, p⟩] S2000x128.size (by rfl) y
theorem cover1_s (p : rs1.shape.Idx → Elt F .f32) (y : S1x128.Idx) :
    ∃ pc ∈ ([⟨rs1, p⟩] : List (View.Piece (Elt F) S1x128 .f32)), y ∈ pc.1.set :=
  View.cover_of_tiled [⟨rs1, p⟩] S1x128.size (by rfl) y

/-! ## The body's triple in each case -/

set_option maxHeartbeats 4000000 in
/-- At the first grid point: the tile output and both accumulators are stored whole; the one-row outputs are not touched. -/
theorem sound_kernel1_A (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : cond1_0 i) (hc1 : ¬cond1_1 i) (hc2 : ¬cond1_2 i)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out1_2 x0 x1)
            ∗ owns (c : Thread nD τ) arg6 fullShare (scA1_0 x0 x1) ∗ owns (c : Thread nD τ) arg7 fullShare (scA1_1 x0 x1)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d2, %f2, -, H2⟩, ⟨%d5, %f5, -, H5⟩, ⟨%d6, %f6, -, H6⟩, Hk⟩
  subst hf0; subst hf1
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover1_b _)
  isplitl [H5]
  · iexists _; isplitr
    swap; · iexact H5
    ipureintro; exact View.read_writes_eq_canon _ _ _ (cover1_s _)
  iexists _; isplitr
  swap; · iexact H6
  ipureintro; exact View.read_writes_eq_canon _ _ _ (cover1_s _)

set_option maxHeartbeats 4000000 in
/-- At a later grid point that is not the last: the tile output is stored whole and each accumulator gets the tile's sums added. -/
theorem sound_kernel1_B (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond1_0 i) (hc1 : cond1_1 i) (hc2 : ¬cond1_2 i)
    (x0 : Vec F S2000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out1_2 x0 x1)
            ∗ owns (c : Thread nD τ) arg6 fullShare (scB1_0 x0 x1 s0) ∗ owns (c : Thread nD τ) arg7 fullShare (scB1_1 x0 x1 s1)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d2, %f2, -, H2⟩, ⟨%f5, %hf5, H5⟩, ⟨%f6, %hf6, H6⟩, Hk⟩
  subst hf0; subst hf1; subst hf5; subst hf6
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover1_b _)
  isplitl [H5]
  · iexists _; isplitr
    swap; · iexact H5
    ipureintro; exact View.read_writes_eq_canon _ _ _ (cover1_s _)
  iexists _; isplitr
  swap; · iexact H6
  ipureintro; exact View.read_writes_eq_canon _ _ _ (cover1_s _)

set_option maxHeartbeats 4000000 in
/-- At the last grid point: as at the other later points, and then each accumulator is copied to its one-row output. -/
theorem sound_kernel1_C (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond1_0 i) (hc1 : cond1_1 i) (hc2 : cond1_2 i)
    (x0 : Vec F S2000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out1_2 x0 x1)
            ∗ owns (c : Thread nD τ) arg4 fullShare (out1_3 (scB1_0 x0 x1 s0)) ∗ owns (c : Thread nD τ) arg5 fullShare (out1_4 (scB1_1 x0 x1 s1))
            ∗ owns (c : Thread nD τ) arg6 fullShare (scB1_0 x0 x1 s0) ∗ owns (c : Thread nD τ) arg7 fullShare (scB1_1 x0 x1 s1)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover1_b _)
  isplitl [H3]
  · iexists _; isplitr
    swap; · iexact H3
    ipureintro
    rw [View.read_writes_eq_canon _ _ _ (cover1_s _), View.readCov_eq_canon_ld _ _ _ (cover1_s _)]
    rfl
  isplitl [H4]
  · iexists _; isplitr
    swap; · iexact H4
    ipureintro
    rw [View.read_writes_eq_canon _ _ _ (cover1_s _), View.readCov_eq_canon_ld _ _ _ (cover1_s _)]
    rfl
  isplitl [H5]
  · iexists _; isplitr
    swap; · iexact H5
    ipureintro; exact View.read_writes_eq_canon _ _ _ (cover1_s _)
  iexists _; isplitr
  swap; · iexact H6
  ipureintro; exact View.read_writes_eq_canon _ _ _ (cover1_s _)

end Cert.Kernel.Reg

end
-- ==== Proof.K.Reg1.lean ====
import proofs.«168427_j26276609917010_1_alg».proof.Proof.K.Reg1Run

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the proof data over the 50 grid points, the two scratch accumulators carried between them -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- What the two scratch accumulators hold after the body at point `n`: at the first point the tile's column sums
    and column sums of squares; afterwards those of the point before plus this tile's. -/
def acc1 (c : Dev nD) : (n : ℕ) → n < cfg1.N → Vec F S1x128 .f32 × Vec F S1x128 .f32
  | 0, hn => (scA1_0 (iblk1 V c 0 ⟨0, hn⟩) (iblk1 V c 1 ⟨0, hn⟩), scA1_1 (iblk1 V c 0 ⟨0, hn⟩) (iblk1 V c 1 ⟨0, hn⟩))
  | n + 1, hn => (scB1_0 (iblk1 V c 0 ⟨n + 1, hn⟩) (iblk1 V c 1 ⟨n + 1, hn⟩) (acc1 c n (Nat.lt_of_succ_lt hn)).1,
      scB1_1 (iblk1 V c 0 ⟨n + 1, hn⟩) (iblk1 V c 1 ⟨n + 1, hn⟩) (acc1 c n (Nat.lt_of_succ_lt hn)).2)

theorem acc1_zero (c : Dev nD) (t : Fin cfg1.N) (h : t.val = 0) :
    acc1 V c t.val t.isLt = (scA1_0 (iblk1 V c 0 t) (iblk1 V c 1 t), scA1_1 (iblk1 V c 0 t) (iblk1 V c 1 t)) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = (scB1_0 (iblk1 V c 0 t) (iblk1 V c 1 t) (acc1 V c (t.val - 1) (Nat.lt_of_le_of_lt (Nat.sub_le _ _) t.isLt)).1,
      scB1_1 (iblk1 V c 0 t) (iblk1 V c 1 t) (acc1 V c (t.val - 1) (Nat.lt_of_le_of_lt (Nat.sub_le _ _) t.isLt)).2) := by
  obtain ⟨n, hn⟩ := t
  cases n with
  | zero => exact absurd rfl h
  | succ n => rfl

/-! ## The region invariant -/

/-- The two scratch operands: whole scoped buffers of the kernel's own. -/
abbrev scM1_0 : Memref sig .tc .vmem S1x128 .f32 := Memref.whole cc1_scratch0
abbrev scM1_1 : Memref sig .tc .vmem S1x128 .f32 := Memref.whole cc1_scratch1

/-- The class invariant with the two scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-- The invariant before position `n`: before the first point every scratch at anything; afterwards the two
    accumulators at what the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((acc1 V c n hn).1) ∗ owns (c : Thread nD τ) scM1_1 fullShare ((acc1 V c n hn).2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((acc1 V c n hn).1) ∗ owns (c : Thread nD τ) scM1_1 fullShare ((acc1 V c n hn).2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((acc1 V c (n - 1) (by omega)).1) ∗ owns (c : Thread nD τ) scM1_1 fullShare ((acc1 V c (n - 1) (by omega)).2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The proof data of pipeline 1 on core `c`: the arrays as the region finds them; after the body at point `t` each
    input's buffer at its block, the tile output at `out1_2` of the blocks, the two one-row outputs at copies of the
    accumulators after `t` (consulted at the last point only: elsewhere those windows are idle); the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (acc1 V c t.val t.isLt).1
    | ⟨4, _⟩ => out1_4 (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (acc1 V c t.val t.isLt).1 := by dsimp only [dat1]
theorem after1_4 (c : Dev nD) (t : Fin cfg1.N) : (dat1 V c).after 4 t = out1_4 (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (out1_2 (iblk1 V c 0 t) (iblk1 V c 1 t)) := by
  unfold Dat.leavesExact; rw [liveAt1_2 t, after1_2]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 50 := lt_of_lt_of_eq t.isLt (show cfg1.N = 50 from N_1)
  by_cases hz : t.val = 0
  · -- the first point
    have h0 : cond1_0 (grid1.coords t) := (hcond1_0 t).mpr hz
    have h1 : ¬cond1_1 (grid1.coords t) := fun h => by have := (hcond1_1 t).mp h; omega
    have h2 : ¬cond1_2 (grid1.coords t) := fun h => by have := (hcond1_2 t).mp h; omega
    rw [Dat.leavesExact_idle (dat1 V c) 3 t (idleAt1_3 t h2) (noFlush1_3 t h2),
      Dat.leavesExact_idle (dat1 V c) 4 t (idleAt1_4 t h2) (noFlush1_4 t h2)]
    rw [acc1_zero V c t hz]
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, H3, H4⟩
    iapply (sound_kernel1_A c Set.univ (grid1.coords t) _ _ _ _ _ _ _ _ _ _ _ _ _ _ h0 h1 h2 (iblk1 V c 0 t) (iblk1 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4
  · have h0 : ¬cond1_0 (grid1.coords t) := fun h => hz ((hcond1_0 t).mp h)
    have h1 : cond1_1 (grid1.coords t) := (hcond1_1 t).mpr (by omega)
    rw [acc1_pos V c t hz]
    rw [PhiS1_castSucc V c t, PhiS1_pos V c _ _ hz]
    by_cases hl : t.val = 49
    · -- the last point
      have h2 : cond1_2 (grid1.coords t) := (hcond1_2 t).mpr hl
      rw [show (dat1 V c).leavesExact 3 t = owns (c : Thread nD τ) (st1_3 t) fullShare ((dat1 V c).after 3 t) from by
          unfold Dat.leavesExact; rw [liveAt1_3 t h2],
        show (dat1 V c).leavesExact 4 t = owns (c : Thread nD τ) (st1_4 t) fullShare ((dat1 V c).after 4 t) from by
          unfold Dat.leavesExact; rw [liveAt1_4 t h2],
        after1_3, after1_4, acc1_pos V c t hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ h0 h1 h2 (iblk1 V c 0 t) (iblk1 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · -- a point between
      have h2 : ¬cond1_2 (grid1.coords t) := fun h => hl ((hcond1_2 t).mp h)
      rw [Dat.leavesExact_idle (dat1 V c) 3 t (idleAt1_3 t h2) (noFlush1_3 t h2),
        Dat.leavesExact_idle (dat1 V c) 4 t (idleAt1_4 t h2) (noFlush1_4 t h2)]
      iintro ⟨⟨⟨⟨HS0, HS1⟩, Hrest⟩, Hg⟩, Ho, ⟨%d0, H0⟩, ⟨%d1, H1⟩, ⟨%d2, H2⟩, H3, H4⟩
      iapply (sound_kernel1_B c Set.univ (grid1.coords t) _ _ _ _ _ _ _ _ _ _ _ _ _ _ h0 h1 h2 (iblk1 V c 0 t) (iblk1 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) : (dat1 V c).Φ (Fin.last cfg1.N) ⊢ Pipeline.ΦA spec1 c := by
  have hN : cfg1.N = 50 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- What a region segment hands the invariant at the first point: the generator register at some state, anything
    `P` that rides along (the prefetched tables: none here), and the scoped buffers no window stages. -/
theorem phi_in1 (c : Dev nD) {P : sProp 𝕄} :
    iprop((∃ r, prngReg c r) ∗ P ∗ Pipeline.scopedRest (Ix := Unit) (Name := ℕ) (U := UR sig nD τ) (Lvl := ℕ) (Val := Elt F) spec1 c) ⊢ (dat1 V c).Φ 0 := by
  have h : iprop((∃ r, prngReg c r) ∗ P ∗ Pipeline.scopedRest (Ix := Unit) (Name := ℕ) (U := UR sig nD τ) (Lvl := ℕ) (Val := Elt F) spec1 c) ⊢ (Pipeline.ΦA spec1 c : sProp 𝕄) := by
    unfold Pipeline.ΦA
    iintro ⟨Hp, -, Hr⟩
    isplitl [Hr]; · iexact Hr
    iexact Hp
  exact h.trans (Phi1_in V c)

/-- What the invariant gives back after the last point: the generator register and those scoped buffers, the
    accumulators' contents forgotten. -/
theorem phi_out1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  have h : (Pipeline.ΦA spec1 c : sProp 𝕄) ⊢ iprop((∃ r, prngReg c r) ∗ Pipeline.scopedRest (Ix := Unit) (Name := ℕ) (U := UR sig nD τ) (Lvl := ℕ) (Val := Elt F) spec1 c) := by
    unfold Pipeline.ΦA
    iintro ⟨Hr, Hp⟩
    isplitl [Hp]; · iexact Hp
    iexact Hr
  exact (Phi1_out V c).trans h

/-- The same with an empty middle conjunct, as a segment with no semaphores of its own wants it. -/
theorem phi_out1_emp (c : Dev nD) :
    (dat1 V c).Φ (Fin.last cfg1.N) ⊢ iprop((∃ r, prngReg c r) ∗ (BI.emp : sProp 𝕄) ∗ Pipeline.scopedRest (Ix := Unit) (Name := ℕ) (U := UR sig nD τ) (Lvl := ℕ) (Val := Elt F) spec1 c) := by
  have h : (Pipeline.ΦA spec1 c : sProp 𝕄) ⊢ iprop((∃ r, prngReg c r) ∗ (BI.emp : sProp 𝕄) ∗ Pipeline.scopedRest (Ix := Unit) (Name := ℕ) (U := UR sig nD τ) (Lvl := ℕ) (Val := Elt F) spec1 c) := by
    unfold Pipeline.ΦA
    iintro ⟨Hr, Hp⟩
    isplitl [Hp]; · iexact Hp
    isplitr; · iempintro
    iexact Hr
  exact (Phi1_out V c).trans h

end Cert.Kernel.Reg

end
-- ==== Proof.K.Reg2.lean ====
import proofs.«168427_j26276609917010_1_alg».proof.Proof.Gen.Kernel.Launch
import proofs.«168427_j26276609917010_1_alg».proof.Proof.Gen.Kernel.Skeleton
import proofs.«168427_j26276609917010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether it was fetched at that point
    or kept from an earlier one (then the block index has not moved), for any data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, whether it was fetched at that point
    or kept from an earlier one (then the block index has not moved), for any data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, whether it was fetched at that point
    or kept from an earlier one (then the block index has not moved), for any data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

/-- The output window's staging buffer after the body, from the input windows' blocks: the body's single store,
    of the first block times the second (a row, repeated down the rows) plus the third (a row, repeated likewise). -/
def out2_3 (x0 : Vec F S2000x128 .f32) (x1 : Vec F S1x128 .f32) (x2 : Vec F S1x128 .f32) : Vec F S2000x128 .f32 :=
  View.canon [⟨r2_0, k2_pay1 (View.ld x0 r2_0) (View.ld x1 r2_1) (View.ld x2 r2_1)⟩]

/-- The single store is of the whole buffer, so it covers it. -/
theorem cover2_3 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 4000000 in
/-- The body on whole staging memrefs, the inputs' at contents `xW` and the output's at anything, runs to a
    continuation that holds the inputs' as they were and the output's at `out2_3` of the inputs'. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The data of the region's pipeline on core `c`: the arrays as the region finds them; after the body at point `t`
    each input's buffer at its block and the output's at `out2_3` of the input blocks; the invariant is the
    untouched rest of the core's state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg
-- ==== Proof.K.Reg3.lean ====
import proofs.«168427_j26276609917010_1_alg».proof.Proof.Gen.Kernel.Launch
import proofs.«168427_j26276609917010_1_alg».proof.Proof.Gen.Kernel.Skeleton
import proofs.«168427_j26276609917010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether it was fetched at that point
    or kept from an earlier one (then the block index has not moved), for any data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, whether it was fetched at that point
    or kept from an earlier one (then the block index has not moved), for any data whose array is `V`'s and whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, whether it was fetched at that point
    or kept from an earlier one (then the block index has not moved), for any data whose array is `V`'s and whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-- The output window's staging buffer after the body, from the input windows' blocks: the body's single store,
    of the matrix product of the first block by the second (both rounded to the narrower format first) plus the third (a row, repeated down the rows). -/
def out3_3 (x0 : Vec F S2000x128 .f32) (x1 : Vec F S128x128 .f32) (x2 : Vec F S1x128 .f32) : Vec F S2000x128 .f32 :=
  View.canon [⟨r3_0, k3_pay1 (View.ld x0 r3_0) (View.ld x1 r3_1) (View.ld x2 r3_2)⟩]

/-- The single store is of the whole buffer, so it covers it. -/
theorem cover3_3 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 4000000 in
/-- The body on whole staging memrefs, the inputs' at contents `xW` and the output's at anything, runs to a
    continuation that holds the inputs' as they were and the output's at `out3_3` of the inputs'. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The data of the region's pipeline on core `c`: the arrays as the region finds them; after the body at point `t`
    each input's buffer at its block and the output's at `out3_3` of the input blocks; the invariant is the
    untouched rest of the core's state; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg
-- ==== Proof.K.Reg4Run.lean ====
import proofs.«168427_j26276609917010_1_alg».proof.Proof.Gen.Kernel.Launch
import proofs.«168427_j26276609917010_1_alg».proof.Proof.Gen.Kernel.Skeleton
import proofs.«168427_j26276609917010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the kernel body, case by case

The body adds the bias row to the 2000-row tile, takes the maximum with zero, stores the tile, and folds the
tile's column sums and column sums of squares into two one-row scratch accumulators: stored at the first grid
point, added to at the later ones, and copied to the two one-row outputs at the last. -/

/-- The first branch is taken at grid coordinate 0, -/
abbrev cond4_0 (i : grid4.Coords) : Prop := (Scalar.cmpi .ne (Scalar.extui (Scalar.cmpi .eq (BitVec.ofNat 32 (i 0).val) 0#32)) 0#32) = 1#1
/-- the second at every other coordinate, -/
abbrev cond4_1 (i : grid4.Coords) : Prop := (Scalar.cmpi .ne (Scalar.extui (Scalar.cmpi .ne (BitVec.ofNat 32 (i 0).val) 0#32)) 0#32) = 1#1
/-- the third at coordinate 49. -/
abbrev cond4_2 (i : grid4.Coords) : Prop := k4_cond3 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ 1 ≤ t.val :=
  (by decide +kernel : ∀ t : Fin grid4.N, cond4_1 (grid4.coords t) ↔ 1 ≤ t.val)
theorem hcond4_2 : ∀ t : Fin cfg4.N, cond4_2 (grid4.coords t) ↔ t.val = 49 :=
  (by decide +kernel : ∀ t : Fin grid4.N, cond4_2 (grid4.coords t) ↔ t.val = 49)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_2 (grid4.coords t) → cfg4.idle 3 (grid4.coords t) = true := by decide +kernel
theorem idleAt4_4 : ∀ t : Fin cfg4.N, ¬cond4_2 (grid4.coords t) → cfg4.idle 4 (grid4.coords t) = true := by decide +kernel
theorem noFlush4_3 : ∀ t : Fin cfg4.N, ¬cond4_2 (grid4.coords t) → (cfg4.win 3).flush t = false := by decide +kernel
theorem noFlush4_4 : ∀ t : Fin cfg4.N, ¬cond4_2 (grid4.coords t) → (cfg4.win 4).flush t = false := by decide +kernel
theorem liveAt4_3 : ∀ t : Fin cfg4.N, cond4_2 (grid4.coords t) → cfg4.idle 3 (grid4.coords t) = false := by decide +kernel
theorem liveAt4_4 : ∀ t : Fin cfg4.N, cond4_2 (grid4.coords t) → cfg4.idle 4 (grid4.coords t) = false := by decide +kernel

/-! ## The body's accesses and what it leaves -/

/-- The whole 2000 x 128 tile and the whole 1 x 128 row: the only rectangles the body reads or writes. -/
abbrev rb4 : Rect S2000x128 := Rect.unit (s := S2000x128) ![0, 0] S2000x128.size inb_S2000x128_S2000x128_0_0
abbrev rs4 : Rect S1x128 := Rect.unit (s := S1x128) ![0, 0] S1x128.size inb_S1x128_S1x128_0_0

/-- The tile output: max (tile + bias row, 0). -/
def out4_2 (x0 : Vec F S2000x128 .f32) (x1 : Vec F S1x128 .f32) : Vec F S2000x128 .f32 :=
  View.canon [⟨rb4, k4_pay1 (View.ld x0 rb4) (View.ld x1 rs4)⟩]
/-- The two accumulators after the first grid point: the tile's column sums, and column sums of squares. -/
def scA4_0 (x0 : Vec F S2000x128 .f32) (x1 : Vec F S1x128 .f32) : Vec F S1x128 .f32 :=
  View.canon [⟨rs4, k4_pay4 (View.ld x0 rb4) (View.ld x1 rs4)⟩]
def scA4_1 (x0 : Vec F S2000x128 .f32) (x1 : Vec F S1x128 .f32) : Vec F S1x128 .f32 :=
  View.canon [⟨rs4, k4_pay5 (View.ld x0 rb4) (View.ld x1 rs4)⟩]
/-- The two accumulators after a later grid point, from what the point before left (`s`): `s` plus the tile's sums. -/
def scB4_0 (x0 : Vec F S2000x128 .f32) (x1 : Vec F S1x128 .f32) (s : Vec F S1x128 .f32) : Vec F S1x128 .f32 :=
  View.canon [⟨rs4, k4_pay6 (View.ld x0 rb4) (View.ld x1 rs4) (View.ld s rs4)⟩]
def scB4_1 (x0 : Vec F S2000x128 .f32) (x1 : Vec F S1x128 .f32) (s : Vec F S1x128 .f32) : Vec F S1x128 .f32 :=
  View.canon [⟨rs4, k4_pay7 (View.ld x0 rb4) (View.ld x1 rs4) (View.ld s rs4)⟩]
/-- The two one-row outputs at the last grid point: copies of the accumulators' contents `s`. -/
def out4_3 (s : Vec F S1x128 .f32) : Vec F S1x128 .f32 := View.canon [⟨rs4, View.ld s rs4⟩]
def out4_4 (s : Vec F S1x128 .f32) : Vec F S1x128 .f32 := View.canon [⟨rs4, View.ld s rs4⟩]

/-- One store of the whole shape covers it. -/
theorem cover4_b (p : rb4.shape.Idx → Elt F .f32) (y : S2000x128.Idx) :
    ∃ pc ∈ ([⟨rb4, p⟩] : List (View.Piece (Elt F) S2000x128 .f32)), y ∈ pc.1.set :=
  View.cover_of_tiled [⟨rb4, p⟩] S2000x128.size (by rfl) y
theorem cover4_s (p : rs4.shape.Idx → Elt F .f32) (y : S1x128.Idx) :
    ∃ pc ∈ ([⟨rs4, p⟩] : List (View.Piece (Elt F) S1x128 .f32)), y ∈ pc.1.set :=
  View.cover_of_tiled [⟨rs4, p⟩] S1x128.size (by rfl) y

/-! ## The body's triple in each case -/

set_option maxHeartbeats 4000000 in
/-- At the first grid point: the tile output and both accumulators are stored whole; the one-row outputs are not touched. -/
theorem sound_kernel4_A (c : Dev nD) (E : Set ℕ) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : cond4_0 i) (hc1 : ¬cond4_1 i) (hc2 : ¬cond4_2 i)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out4_2 x0 x1)
            ∗ owns (c : Thread nD τ) arg6 fullShare (scA4_0 x0 x1) ∗ owns (c : Thread nD τ) arg7 fullShare (scA4_1 x0 x1)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%d2, %f2, -, H2⟩, ⟨%d5, %f5, -, H5⟩, ⟨%d6, %f6, -, H6⟩, Hk⟩
  subst hf0; subst hf1
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover4_b _)
  isplitl [H5]
  · iexists _; isplitr
    swap; · iexact H5
    ipureintro; exact View.read_writes_eq_canon _ _ _ (cover4_s _)
  iexists _; isplitr
  swap; · iexact H6
  ipureintro; exact View.read_writes_eq_canon _ _ _ (cover4_s _)

set_option maxHeartbeats 4000000 in
/-- At a later grid point that is not the last: the tile output is stored whole and each accumulator gets the tile's sums added. -/
theorem sound_kernel4_B (c : Dev nD) (E : Set ℕ) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond4_0 i) (hc1 : cond4_1 i) (hc2 : ¬cond4_2 i)
    (x0 : Vec F S2000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out4_2 x0 x1)
            ∗ owns (c : Thread nD τ) arg6 fullShare (scB4_0 x0 x1 s0) ∗ owns (c : Thread nD τ) arg7 fullShare (scB4_1 x0 x1 s1)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%d2, %f2, -, H2⟩, ⟨%f5, %hf5, H5⟩, ⟨%f6, %hf6, H6⟩, Hk⟩
  subst hf0; subst hf1; subst hf5; subst hf6
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover4_b _)
  isplitl [H5]
  · iexists _; isplitr
    swap; · iexact H5
    ipureintro; exact View.read_writes_eq_canon _ _ _ (cover4_s _)
  iexists _; isplitr
  swap; · iexact H6
  ipureintro; exact View.read_writes_eq_canon _ _ _ (cover4_s _)

set_option maxHeartbeats 4000000 in
/-- At the last grid point: as at the other later points, and then each accumulator is copied to its one-row output. -/
theorem sound_kernel4_C (c : Dev nD) (E : Set ℕ) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond4_0 i) (hc1 : cond4_1 i) (hc2 : cond4_2 i)
    (x0 : Vec F S2000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out4_2 x0 x1)
            ∗ owns (c : Thread nD τ) arg4 fullShare (out4_3 (scB4_0 x0 x1 s0)) ∗ owns (c : Thread nD τ) arg5 fullShare (out4_4 (scB4_1 x0 x1 s1))
            ∗ owns (c : Thread nD τ) arg6 fullShare (scB4_0 x0 x1 s0) ∗ owns (c : Thread nD τ) arg7 fullShare (scB4_1 x0 x1 s1)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover4_b _)
  isplitl [H3]
  · iexists _; isplitr
    swap; · iexact H3
    ipureintro
    rw [View.read_writes_eq_canon _ _ _ (cover4_s _), View.readCov_eq_canon_ld _ _ _ (cover4_s _)]
    rfl
  isplitl [H4]
  · iexists _; isplitr
    swap; · iexact H4
    ipureintro
    rw [View.read_writes_eq_canon _ _ _ (cover4_s _), View.readCov_eq_canon_ld _ _ _ (cover4_s _)]
    rfl
  isplitl [H5]
  · iexists _; isplitr
    swap; · iexact H5
    ipureintro; exact View.read_writes_eq_canon _ _ _ (cover4_s _)
  iexists _; isplitr
  swap; · iexact H6
  ipureintro; exact View.read_writes_eq_canon _ _ _ (cover4_s _)

end Cert.Kernel.Reg

end
-- ==== Proof.K.Reg4.lean ====
import proofs.«168427_j26276609917010_1_alg».proof.Proof.K.Reg4Run

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the proof data over the 50 grid points, the two scratch accumulators carried between them -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulators after each point -/

/-- What the two scratch accumulators hold after the body at point `n`: at the first point the tile's column sums
    and column sums of squares; afterwards those of the point before plus this tile's. -/
def acc4 (c : Dev nD) : (n : ℕ) → n < cfg4.N → Vec F S1x128 .f32 × Vec F S1x128 .f32
  | 0, hn => (scA4_0 (iblk4 V c 0 ⟨0, hn⟩) (iblk4 V c 1 ⟨0, hn⟩), scA4_1 (iblk4 V c 0 ⟨0, hn⟩) (iblk4 V c 1 ⟨0, hn⟩))
  | n + 1, hn => (scB4_0 (iblk4 V c 0 ⟨n + 1, hn⟩) (iblk4 V c 1 ⟨n + 1, hn⟩) (acc4 c n (Nat.lt_of_succ_lt hn)).1,
      scB4_1 (iblk4 V c 0 ⟨n + 1, hn⟩) (iblk4 V c 1 ⟨n + 1, hn⟩) (acc4 c n (Nat.lt_of_succ_lt hn)).2)

theorem acc4_zero (c : Dev nD) (t : Fin cfg4.N) (h : t.val = 0) :
    acc4 V c t.val t.isLt = (scA4_0 (iblk4 V c 0 t) (iblk4 V c 1 t), scA4_1 (iblk4 V c 0 t) (iblk4 V c 1 t)) := by
  obtain ⟨n, hn⟩ := t
  cases n with
  | zero => rfl
  | succ n => exact absurd h (Nat.succ_ne_zero n)

theorem acc4_pos (c : Dev nD) (t : Fin cfg4.N) (h : t.val ≠ 0) :
    acc4 V c t.val t.isLt = (scB4_0 (iblk4 V c 0 t) (iblk4 V c 1 t) (acc4 V c (t.val - 1) (Nat.lt_of_le_of_lt (Nat.sub_le _ _) t.isLt)).1,
      scB4_1 (iblk4 V c 0 t) (iblk4 V c 1 t) (acc4 V c (t.val - 1) (Nat.lt_of_le_of_lt (Nat.sub_le _ _) t.isLt)).2) := by
  obtain ⟨n, hn⟩ := t
  cases n with
  | zero => exact absurd rfl h
  | succ n => rfl

/-! ## The region invariant -/

/-- The two scratch operands: whole scoped buffers of the kernel's own. -/
abbrev scM4_0 : Memref sig .tc .vmem S1x128 .f32 := Memref.whole cc4_scratch0
abbrev scM4_1 : Memref sig .tc .vmem S1x128 .f32 := Memref.whole cc4_scratch1

/-- The class invariant with the two scratch operands as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The invariant before position `n`: before the first point every scratch at anything; afterwards the two
    accumulators at what the point before left, the other scoped buffers at anything, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((acc4 V c n hn).1) ∗ owns (c : Thread nD τ) scM4_1 fullShare ((acc4 V c n hn).2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((acc4 V c n hn).1) ∗ owns (c : Thread nD τ) scM4_1 fullShare ((acc4 V c n hn).2))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((acc4 V c (n - 1) (by omega)).1) ∗ owns (c : Thread nD τ) scM4_1 fullShare ((acc4 V c (n - 1) (by omega)).2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of pipeline 4 on core `c`: the arrays as the region finds them; after the body at point `t` each
    input's buffer at its block, the tile output at `out4_2` of the blocks, the two one-row outputs at copies of the
    accumulators after `t` (consulted at the last point only: elsewhere those windows are idle); the invariant `PhiS4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => out4_3 (acc4 V c t.val t.isLt).1
    | ⟨4, _⟩ => out4_4 (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = out4_3 (acc4 V c t.val t.isLt).1 := by dsimp only [dat4]
theorem after4_4 (c : Dev nD) (t : Fin cfg4.N) : (dat4 V c).after 4 t = out4_4 (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (out4_2 (iblk4 V c 0 t) (iblk4 V c 1 t)) := by
  unfold Dat.leavesExact; rw [liveAt4_2 t, after4_2]

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 50 := lt_of_lt_of_eq t.isLt (show cfg4.N = 50 from N_4)
  by_cases hz : t.val = 0
  · -- the first point
    have h0 : cond4_0 (grid4.coords t) := (hcond4_0 t).mpr hz
    have h1 : ¬cond4_1 (grid4.coords t) := fun h => by have := (hcond4_1 t).mp h; omega
    have h2 : ¬cond4_2 (grid4.coords t) := fun h => by have := (hcond4_2 t).mp h; omega
    rw [Dat.leavesExact_idle (dat4 V c) 3 t (idleAt4_3 t h2) (noFlush4_3 t h2),
      Dat.leavesExact_idle (dat4 V c) 4 t (idleAt4_4 t h2) (noFlush4_4 t h2)]
    rw [acc4_zero V c t hz]
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, H3, H4⟩
    iapply (sound_kernel4_A c Set.univ (grid4.coords t) _ _ _ _ _ _ _ _ _ _ _ _ _ _ h0 h1 h2 (iblk4 V c 0 t) (iblk4 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4
  · have h0 : ¬cond4_0 (grid4.coords t) := fun h => hz ((hcond4_0 t).mp h)
    have h1 : cond4_1 (grid4.coords t) := (hcond4_1 t).mpr (by omega)
    rw [acc4_pos V c t hz]
    rw [PhiS4_castSucc V c t, PhiS4_pos V c _ _ hz]
    by_cases hl : t.val = 49
    · -- the last point
      have h2 : cond4_2 (grid4.coords t) := (hcond4_2 t).mpr hl
      rw [show (dat4 V c).leavesExact 3 t = owns (c : Thread nD τ) (st4_3 t) fullShare ((dat4 V c).after 3 t) from by
          unfold Dat.leavesExact; rw [liveAt4_3 t h2],
        show (dat4 V c).leavesExact 4 t = owns (c : Thread nD τ) (st4_4 t) fullShare ((dat4 V c).after 4 t) from by
          unfold Dat.leavesExact; rw [liveAt4_4 t h2],
        after4_3, after4_4, acc4_pos V c t hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ _ _ h0 h1 h2 (iblk4 V c 0 t) (iblk4 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · -- a point between
      have h2 : ¬cond4_2 (grid4.coords t) := fun h => hl ((hcond4_2 t).mp h)
      rw [Dat.leavesExact_idle (dat4 V c) 3 t (idleAt4_3 t h2) (noFlush4_3 t h2),
        Dat.leavesExact_idle (dat4 V c) 4 t (idleAt4_4 t h2) (noFlush4_4 t h2)]
      iintro ⟨⟨⟨⟨HS0, HS1⟩, Hrest⟩, Hg⟩, Ho, ⟨%d0, H0⟩, ⟨%d1, H1⟩, ⟨%d2, H2⟩, H3, H4⟩
      iapply (sound_kernel4_B c Set.univ (grid4.coords t) _ _ _ _ _ _ _ _ _ _ _ _ _ _ h0 h1 h2 (iblk4 V c 0 t) (iblk4 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

theorem Phi4_in (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi4_out (c : Dev nD) : (dat4 V c).Φ (Fin.last cfg4.N) ⊢ Pipeline.ΦA spec4 c := by
  have hN : cfg4.N = 50 := N_4
  rw [show (dat4 V c).Φ (Fin.last cfg4.N) = PhiS4 V c (Fin.last cfg4.N).val (Nat.le_of_lt_succ (Fin.last cfg4.N).isLt) from rfl,
    PhiS4_pos V c _ _ (by rw [Fin.val_last]; omega), PhiA4_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- What a region segment hands the invariant at the first point: the generator register at some state, anything
    `P` that rides along (the prefetched tables: none here), and the scoped buffers no window stages. -/
theorem phi_in4 (c : Dev nD) {P : sProp 𝕄} :
    iprop((∃ r, prngReg c r) ∗ P ∗ Pipeline.scopedRest (Ix := Unit) (Name := ℕ) (U := UR sig nD τ) (Lvl := ℕ) (Val := Elt F) spec4 c) ⊢ (dat4 V c).Φ 0 := by
  have h : iprop((∃ r, prngReg c r) ∗ P ∗ Pipeline.scopedRest (Ix := Unit) (Name := ℕ) (U := UR sig nD τ) (Lvl := ℕ) (Val := Elt F) spec4 c) ⊢ (Pipeline.ΦA spec4 c : sProp 𝕄) := by
    unfold Pipeline.ΦA
    iintro ⟨Hp, -, Hr⟩
    isplitl [Hr]; · iexact Hr
    iexact Hp
  exact h.trans (Phi4_in V c)

/-- What the invariant gives back after the last point: the generator register and those scoped buffers, the
    accumulators' contents forgotten. -/
theorem phi_out4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  have h : (Pipeline.ΦA spec4 c : sProp 𝕄) ⊢ iprop((∃ r, prngReg c r) ∗ Pipeline.scopedRest (Ix := Unit) (Name := ℕ) (U := UR sig nD τ) (Lvl := ℕ) (Val := Elt F) spec4 c) := by
    unfold Pipeline.ΦA
    iintro ⟨Hr, Hp⟩
    isplitl [Hp]; · iexact Hp
    iexact Hr
  exact (Phi4_out V c).trans h

/-- The same with an empty middle conjunct, as a segment with no semaphores of its own wants it. -/
theorem phi_out4_emp (c : Dev nD) :
    (dat4 V c).Φ (Fin.last cfg4.N) ⊢ iprop((∃ r, prngReg c r) ∗ (BI.emp : sProp 𝕄) ∗ Pipeline.scopedRest (Ix := Unit) (Name := ℕ) (U := UR sig nD τ) (Lvl := ℕ) (Val := Elt F) spec4 c) := by
  have h : (Pipeline.ΦA spec4 c : sProp 𝕄) ⊢ iprop((∃ r, prngReg c r) ∗ (BI.emp : sProp 𝕄) ∗ Pipeline.scopedRest (Ix := Unit) (Name := ℕ) (U := UR sig nD τ) (Lvl := ℕ) (Val := Elt F) spec4 c) := by
    unfold Pipeline.ΦA
    iintro ⟨Hr, Hp⟩
    isplitl [Hp]; · iexact Hp
    isplitr; · iempintro
    iexact Hr
  exact (Phi4_out V c).trans h

end Cert.Kernel.Reg

end
-- ==== Proof.K.Reg5.lean ====
import proofs.«168427_j26276609917010_1_alg».proof.Proof.Gen.Kernel.Launch
import proofs.«168427_j26276609917010_1_alg».proof.Proof.Gen.Kernel.Skeleton
import proofs.«168427_j26276609917010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every point, whether it was fetched at that point
    or kept from an earlier one (then the block index has not moved), for any data whose array is `V`'s and whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds the window's block at every point, whether it was fetched at that point
    or kept from an earlier one (then the block index has not moved), for any data whose array is `V`'s and whose
    body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds the window's block at every point, whether it was fetched at that point
    or kept from an earlier one (then the block index has not moved), for any data whose array is `V`'s and whose
    body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-- The output window's staging buffer after the body, from the input windows' blocks: the body's single store,
    of the first block times the second (a row, repeated down the rows) plus the third (a row, repeated likewise). -/
def out5_3 (x0 : Vec F S2000x128 .f32) (x1 : Vec F S1x128 .f32) (x2 : Vec F S1x128 .f32) : Vec F S2000x128 .f32 :=
  View.canon [⟨r5_0, k5_pay1 (View.ld x0 r5_0) (View.ld x1 r5_1) (View.ld x2 r5_1)⟩]

/-- The single store is of the whole buffer, so it covers it. -/
theorem cover5_3 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 4000000 in
/-- The body on whole staging memrefs, the inputs' at contents `xW` and the output's at anything, runs to a
    continuation that holds the inputs' as they were and the output's at `out5_3` of the inputs'. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The data of the region's pipeline on core `c`: the arrays as the region finds them; after the body at point `t`
    each input's buffer at its block and the output's at `out5_3` of the input blocks; the invariant is the
    untouched rest of the core's state; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Reg
-- ==== Proof.K.Reg6.lean ====
import proofs.«168427_j26276609917010_1_alg».proof.Proof.Gen.Kernel.Launch
import proofs.«168427_j26276609917010_1_alg».proof.Proof.Gen.Kernel.Skeleton
import proofs.«168427_j26276609917010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 6 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's block at every point, whether it was fetched at that point
    or kept from an earlier one (then the block index has not moved), for any data whose array is `V`'s and whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x200 := Rect.unit (s := S2000x200) ![0, 0] S2000x200.size inb_S2000x200_S2000x200_0_0
abbrev r6_1 : Rect S2000x128 := Rect.unit (s := S2000x128) ![0, 0] S2000x128.size inb_S2000x128_S2000x128_0_0
abbrev r6_2 : Rect S200x128 := Rect.unit (s := S200x128) ![0, 0] S200x128.size inb_S200x128_S200x128_0_0
abbrev r6_3 : Rect S128x128 := Rect.unit (s := S128x128) ![0, 0] S128x128.size inb_S128x128_S128x128_0_0
abbrev r6_4 : Rect S1x128 := Rect.unit (s := S1x128) ![0, 0] S1x128.size inb_S1x128_S1x128_0_0

/-- The output window's staging buffer after the body, from the input windows' blocks: the body's single store,
    of the sum of three matrix products (blocks 0, 1, 2 by blocks 3, 4, 5; see the payload for the roundings) plus block 6 (a row, repeated down the rows), cut below at zero. -/
def out6_7 (x0 : Vec F S2000x200 .f32) (x1 : Vec F S2000x128 .f32) (x2 : Vec F S2000x128 .f32) (x3 : Vec F S200x128 .f32) (x4 : Vec F S128x128 .f32) (x5 : Vec F S128x128 .f32) (x6 : Vec F S1x128 .f32) : Vec F S2000x128 .f32 :=
  View.canon [⟨r6_1, k6_pay1 (View.ld x0 r6_0) (View.ld x3 r6_2) (View.ld x1 r6_1) (View.ld x4 r6_3) (View.ld x2 r6_1) (View.ld x5 r6_3) (View.ld x6 r6_4)⟩]

/-- The single store is of the whole buffer, so it covers it. -/
theorem cover6_7 (p0 : Vec F S2000x128 .f32) (y : S2000x128.Idx) :
    ∃ pc ∈ ([⟨r6_1, p0⟩] : List (View.Piece (Elt F) S2000x128 .f32)), y ∈ pc.1.set :=
  View.cover_of_tiled [⟨r6_1, p0⟩] S2000x128.size (by rfl) y

set_option maxHeartbeats 4000000 in
/-- The body on whole staging memrefs, the inputs' at contents `xW` and the output's at anything, runs to a
    continuation that holds the inputs' as they were and the output's at `out6_7` of the inputs'. -/
theorem sound_kernel6 (c : Dev nD) (E : Set ℕ) (i : grid6.Coords) (arg1 : Memref sig .tc .vmem S2000x200 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S200x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x200 .f32) (x1 : Vec F S2000x128 .f32) (x2 : Vec F S2000x128 .f32) (x3 : Vec F S200x128 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6_kernel i arg1 harg1 arg2 harg2 arg3 harg3 arg4 harg4 arg5 harg5 arg6 harg6 arg7 harg7 arg8 harg8) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-- The data of the region's pipeline on core `c`: the arrays as the region finds them; after the body at point `t`
    each input's buffer at its block and the output's at `out6_7` of the input blocks; the invariant is the
    untouched rest of the core's state; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Reg
-- ==== Proof.K.Reg7.lean ====
import proofs.«168427_j26276609917010_1_alg».proof.Proof.Gen.Kernel.Launch
import proofs.«168427_j26276609917010_1_alg».proof.Proof.Gen.Kernel.Skeleton
import proofs.«168427_j26276609917010_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's block at every point, whether it was fetched at that point
    or kept from an earlier one (then the block index has not moved), for any data whose array is `V`'s and whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, whether it was fetched at that point
    or kept from an earlier one (then the block index has not moved), for any data whose array is `V`'s and whose
    body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, whether it was fetched at that point
    or kept from an earlier one (then the block index has not moved), for any data whose array is `V`'s and whose
    body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S2000x128 := Rect.unit (s := S2000x128) ![0, 0] S2000x128.size inb_S2000x128_S2000x128_0_0
abbrev r7_1 : Rect S128x64 := Rect.unit (s := S128x64) ![0, 0] S128x64.size inb_S128x64_S128x64_0_0
abbrev r7_2 : Rect S1x64 := Rect.unit (s := S1x64) ![0, 0] S1x64.size inb_S1x64_S1x64_0_0
abbrev r7_3 : Rect S2000x64 := Rect.unit (s := S2000x64) ![0, 0] S2000x64.size inb_S2000x64_S2000x64_0_0

/-- The output window's staging buffer after the body, from the input windows' blocks: the body's single store,
    of the matrix product of the first block by the second (both rounded to the narrower format first) plus the third (a row, repeated down the rows), cut below at zero. -/
def out7_3 (x0 : Vec F S2000x128 .f32) (x1 : Vec F S128x64 .f32) (x2 : Vec F S1x64 .f32) : Vec F S2000x64 .f32 :=
  View.canon [⟨r7_3, k7_pay1 (View.ld x0 r7_0) (View.ld x1 r7_1) (View.ld x2 r7_2)⟩]

/-- The single store is of the whole buffer, so it covers it. -/
theorem cover7_3 (p0 : Vec F S2000x64 .f32) (y : S2000x64.Idx) :
    ∃ pc ∈ ([⟨r7_3, p0⟩] : List (View.Piece (Elt F) S2000x64 .f32)), y ∈ pc.1.set :=
  View.cover_of_tiled [⟨r7_3, p0⟩] S2000x64.size (by rfl) y

set_option maxHeartbeats 4000000 in
/-- The body on whole staging memrefs, the inputs' at contents `xW` and the output's at anything, runs to a
    continuation that holds the inputs' as they were and the output's at `out7_3` of the inputs'. -/
theorem sound_kernel7 (c : Dev nD) (E : Set ℕ) (i : grid7.Coords) (arg1 : Memref sig .tc .vmem S2000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The data of the region's pipeline on core `c`: the arrays as the region finds them; after the body at point `t`
    each input's buffer at its block and the output's at `out7_3` of the input blocks; the invariant is the
    untouched rest of the core's state; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Reg
-- ==== Proof.K.Run.lean ====
/-
  The whole run of @main: eight kernel regions among ten stretches of host operations, composed in order.
  At every boundary between two items the contents of a core's unscoped buffers are NAMED: `W0` is the launch
  memory, a stretch of host operations takes `Wj` to the fold of its operations over `Wj`, and a region takes `Wj`
  to `Wj` with each of the region's arrays replaced by what the pipeline's write-backs leave there (an input array:
  what it was; an output array: its blocks as the grid's points wrote them). Each region is entered from the
  unscoped buffers at its boundary's contents and left at the next boundary's; the generator register and the
  core's debt (nothing) ride along. The run's last state holds every unscoped buffer at `W18`.
-/
import proofs.«168427_j26276609917010_1_alg».proof.Proof.K.Reg0
import proofs.«168427_j26276609917010_1_alg».proof.Proof.K.Reg1
import proofs.«168427_j26276609917010_1_alg».proof.Proof.K.Reg2
import proofs.«168427_j26276609917010_1_alg».proof.Proof.K.Reg3
import proofs.«168427_j26276609917010_1_alg».proof.Proof.K.Reg4
import proofs.«168427_j26276609917010_1_alg».proof.Proof.K.Reg5
import proofs.«168427_j26276609917010_1_alg».proof.Proof.K.Reg6
import proofs.«168427_j26276609917010_1_alg».proof.Proof.K.Reg7
import proofs.«168427_j26276609917010_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- A boundary's contents read at the TensorCore's references: what a region's proof data take. -/
abbrev atTc (W : Dev nD → Valuation τ sig (Elt F)) : (c : Dev nD) → (b : Ref sig .tc) → Buf (Elt F) ((c : Thread nD τ).loc b) :=
  fun c b => W c b

/-- The launch memory. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After region 0: its arrays at what the pipeline leaves, every other buffer as entered. -/
def W4 (c : Dev nD) : Valuation τ sig (Elt F) :=
  Pipeline.withArrays spec0 c (W3 m c) fun w => (dat0 (atTc (W3 m)) c).arrAt w cfg0.N
theorem W4_arr (c : Dev nD) (w : Fin cfg0.W) :
    W4 m c (Proc.devRef .tc (Pipeline.arrRef spec0 w)) = (dat0 (atTc (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem exitArr0 (c : Dev nD) (w : Fin cfg0.W) : (dat0 (atTc (W3 m)) c).arrAt w cfg0.N = atTc (W4 m) c (Pipeline.arrRef spec0 w) :=
  (W4_arr m c w).symm
theorem exitRest0 (c : Dev nD) : ∀ b, b ∉ Finset.univ.image (Pipeline.arrRef spec0) → atTc (W4 m) c b = atTc (W3 m) c b :=
  fun b hb => W4_of_ne m c b fun w e => hb (Finset.mem_image.mpr ⟨w, Finset.mem_univ _, e⟩)
/-- After the host stretch `hostOps1`. -/
abbrev W5 : Dev nD → Valuation τ sig (Elt F) := fun c => StableHlo.after hostOps1 (W4 m c)
/-- After region 1: its arrays at what the pipeline leaves, every other buffer as entered. -/
def W6 (c : Dev nD) : Valuation τ sig (Elt F) :=
  Pipeline.withArrays spec1 c (W5 m c) fun w => (dat1 (atTc (W5 m)) c).arrAt w cfg1.N
theorem W6_arr (c : Dev nD) (w : Fin cfg1.W) :
    W6 m c (Proc.devRef .tc (Pipeline.arrRef spec1 w)) = (dat1 (atTc (W5 m)) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem exitArr1 (c : Dev nD) (w : Fin cfg1.W) : (dat1 (atTc (W5 m)) c).arrAt w cfg1.N = atTc (W6 m) c (Pipeline.arrRef spec1 w) :=
  (W6_arr m c w).symm
theorem exitRest1 (c : Dev nD) : ∀ b, b ∉ Finset.univ.image (Pipeline.arrRef spec1) → atTc (W6 m) c b = atTc (W5 m) c b :=
  fun b hb => W6_of_ne m c b fun w e => hb (Finset.mem_image.mpr ⟨w, Finset.mem_univ _, e⟩)
/-- After the host stretch `hostOps2`. -/
abbrev W7 : Dev nD → Valuation τ sig (Elt F) := fun c => StableHlo.after hostOps2 (W6 m c)
/-- After region 2: its arrays at what the pipeline leaves, every other buffer as entered. -/
def W8 (c : Dev nD) : Valuation τ sig (Elt F) :=
  Pipeline.withArrays spec2 c (W7 m c) fun w => (dat2 (atTc (W7 m)) c).arrAt w cfg2.N
theorem W8_arr (c : Dev nD) (w : Fin cfg2.W) :
    W8 m c (Proc.devRef .tc (Pipeline.arrRef spec2 w)) = (dat2 (atTc (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem exitArr2 (c : Dev nD) (w : Fin cfg2.W) : (dat2 (atTc (W7 m)) c).arrAt w cfg2.N = atTc (W8 m) c (Pipeline.arrRef spec2 w) :=
  (W8_arr m c w).symm
theorem exitRest2 (c : Dev nD) : ∀ b, b ∉ Finset.univ.image (Pipeline.arrRef spec2) → atTc (W8 m) c b = atTc (W7 m) c b :=
  fun b hb => W8_of_ne m c b fun w e => hb (Finset.mem_image.mpr ⟨w, Finset.mem_univ _, e⟩)
/-- After the host stretch `hostOps3`. -/
abbrev W9 : Dev nD → Valuation τ sig (Elt F) := fun c => StableHlo.after hostOps3 (W8 m c)
/-- After region 3: its arrays at what the pipeline leaves, every other buffer as entered. -/
def W10 (c : Dev nD) : Valuation τ sig (Elt F) :=
  Pipeline.withArrays spec3 c (W9 m c) fun w => (dat3 (atTc (W9 m)) c).arrAt w cfg3.N
theorem W10_arr (c : Dev nD) (w : Fin cfg3.W) :
    W10 m c (Proc.devRef .tc (Pipeline.arrRef spec3 w)) = (dat3 (atTc (W9 m)) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
theorem exitArr3 (c : Dev nD) (w : Fin cfg3.W) : (dat3 (atTc (W9 m)) c).arrAt w cfg3.N = atTc (W10 m) c (Pipeline.arrRef spec3 w) :=
  (W10_arr m c w).symm
theorem exitRest3 (c : Dev nD) : ∀ b, b ∉ Finset.univ.image (Pipeline.arrRef spec3) → atTc (W10 m) c b = atTc (W9 m) c b :=
  fun b hb => W10_of_ne m c b fun w e => hb (Finset.mem_image.mpr ⟨w, Finset.mem_univ _, e⟩)
/-- After the host stretch `hostOps4`. -/
abbrev W11 : Dev nD → Valuation τ sig (Elt F) := fun c => StableHlo.after hostOps4 (W10 m c)
/-- After region 4: its arrays at what the pipeline leaves, every other buffer as entered. -/
def W12 (c : Dev nD) : Valuation τ sig (Elt F) :=
  Pipeline.withArrays spec4 c (W11 m c) fun w => (dat4 (atTc (W11 m)) c).arrAt w cfg4.N
theorem W12_arr (c : Dev nD) (w : Fin cfg4.W) :
    W12 m c (Proc.devRef .tc (Pipeline.arrRef spec4 w)) = (dat4 (atTc (W11 m)) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
theorem exitArr4 (c : Dev nD) (w : Fin cfg4.W) : (dat4 (atTc (W11 m)) c).arrAt w cfg4.N = atTc (W12 m) c (Pipeline.arrRef spec4 w) :=
  (W12_arr m c w).symm
theorem exitRest4 (c : Dev nD) : ∀ b, b ∉ Finset.univ.image (Pipeline.arrRef spec4) → atTc (W12 m) c b = atTc (W11 m) c b :=
  fun b hb => W12_of_ne m c b fun w e => hb (Finset.mem_image.mpr ⟨w, Finset.mem_univ _, e⟩)
/-- After the host stretch `hostOps5`. -/
abbrev W13 : Dev nD → Valuation τ sig (Elt F) := fun c => StableHlo.after hostOps5 (W12 m c)
/-- After region 5: its arrays at what the pipeline leaves, every other buffer as entered. -/
def W14 (c : Dev nD) : Valuation τ sig (Elt F) :=
  Pipeline.withArrays spec5 c (W13 m c) fun w => (dat5 (atTc (W13 m)) c).arrAt w cfg5.N
theorem W14_arr (c : Dev nD) (w : Fin cfg5.W) :
    W14 m c (Proc.devRef .tc (Pipeline.arrRef spec5 w)) = (dat5 (atTc (W13 m)) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
theorem exitArr5 (c : Dev nD) (w : Fin cfg5.W) : (dat5 (atTc (W13 m)) c).arrAt w cfg5.N = atTc (W14 m) c (Pipeline.arrRef spec5 w) :=
  (W14_arr m c w).symm
theorem exitRest5 (c : Dev nD) : ∀ b, b ∉ Finset.univ.image (Pipeline.arrRef spec5) → atTc (W14 m) c b = atTc (W13 m) c b :=
  fun b hb => W14_of_ne m c b fun w e => hb (Finset.mem_image.mpr ⟨w, Finset.mem_univ _, e⟩)
/-- After the host stretch `hostOps6`. -/
abbrev W15 : Dev nD → Valuation τ sig (Elt F) := fun c => StableHlo.after hostOps6 (W14 m c)
/-- After region 6: its arrays at what the pipeline leaves, every other buffer as entered. -/
def W16 (c : Dev nD) : Valuation τ sig (Elt F) :=
  Pipeline.withArrays spec6 c (W15 m c) fun w => (dat6 (atTc (W15 m)) c).arrAt w cfg6.N
theorem W16_arr (c : Dev nD) (w : Fin cfg6.W) :
    W16 m c (Proc.devRef .tc (Pipeline.arrRef spec6 w)) = (dat6 (atTc (W15 m)) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) := by
  unfold W16; exact Pipeline.withArrays_of_ne spec6 c _ _ b hb
theorem exitArr6 (c : Dev nD) (w : Fin cfg6.W) : (dat6 (atTc (W15 m)) c).arrAt w cfg6.N = atTc (W16 m) c (Pipeline.arrRef spec6 w) :=
  (W16_arr m c w).symm
theorem exitRest6 (c : Dev nD) : ∀ b, b ∉ Finset.univ.image (Pipeline.arrRef spec6) → atTc (W16 m) c b = atTc (W15 m) c b :=
  fun b hb => W16_of_ne m c b fun w e => hb (Finset.mem_image.mpr ⟨w, Finset.mem_univ _, e⟩)
/-- After the host stretch `hostOps7`. -/
abbrev W17 : Dev nD → Valuation τ sig (Elt F) := fun c => StableHlo.after hostOps7 (W16 m c)
/-- After region 7: its arrays at what the pipeline leaves, every other buffer as entered. -/
def W18 (c : Dev nD) : Valuation τ sig (Elt F) :=
  Pipeline.withArrays spec7 c (W17 m c) fun w => (dat7 (atTc (W17 m)) c).arrAt w cfg7.N
theorem W18_arr (c : Dev nD) (w : Fin cfg7.W) :
    W18 m c (Proc.devRef .tc (Pipeline.arrRef spec7 w)) = (dat7 (atTc (W17 m)) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m c (Proc.devRef .tc b) = W17 m c (Proc.devRef .tc b) := by
  unfold W18; exact Pipeline.withArrays_of_ne spec7 c _ _ b hb
theorem exitArr7 (c : Dev nD) (w : Fin cfg7.W) : (dat7 (atTc (W17 m)) c).arrAt w cfg7.N = atTc (W18 m) c (Pipeline.arrRef spec7 w) :=
  (W18_arr m c w).symm
theorem exitRest7 (c : Dev nD) : ∀ b, b ∉ Finset.univ.image (Pipeline.arrRef spec7) → atTc (W18 m) c b = atTc (W17 m) c b :=
  fun b hb => W18_of_ne m c b fun w e => hb (Finset.mem_image.mpr ⟨w, Finset.mem_univ _, e⟩)

/-! ## The proof data family and what rides beside the buffers -/

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (atTc (W3 m)) c
  | ⟨1, _⟩ => fun c => dat1 (atTc (W5 m)) c
  | ⟨2, _⟩ => fun c => dat2 (atTc (W7 m)) c
  | ⟨3, _⟩ => fun c => dat3 (atTc (W9 m)) c
  | ⟨4, _⟩ => fun c => dat4 (atTc (W11 m)) c
  | ⟨5, _⟩ => fun c => dat5 (atTc (W13 m)) c
  | ⟨6, _⟩ => fun c => dat6 (atTc (W15 m)) c
  | ⟨7, _⟩ => fun c => dat7 (atTc (W17 m)) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and its debt, which is nothing. -/
abbrev R (c : Dev nD) : sProp 𝕄 := iprop((∃ r, prngReg c r) ∗ ∃ W, owes (c : Thread nD τ) (0 : CellTallies nD τ sig Unit) W)
/-- A stretch of host operations as an item: from the contents `W` to the fold of the operations over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last item's exit without the debt: every unscoped buffer at `W18`, the generator register at some state. -/
abbrev Tₙ (c : Dev nD) : sProp 𝕄 := iprop(StableHlo.held (c : Thread nD τ) (Pipeline.ucRefs τ sig) (W18 m c) ∗ ∃ r, prngReg c r)

/-! ## The regions as items -/

set_option backward.isDefEq.respectTransparency.types false in
/-- Region 0: entered from every unscoped buffer at `W3`, left at `W4`. Its arrays are split out of the
    unscoped buffers at entry and put back at their final contents at exit; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`. Its arrays are split out of the
    unscoped buffers at entry and put back at their final contents at exit; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in1 _ c
  hout c := by rw [Pipeline.ownSems0_none]; exact phi_out1_emp _ c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W7`, left at `W8`. Its arrays are split out of the
    unscoped buffers at entry and put back at their final contents at exit; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atTc (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W7 m) c) (atTc (W8 m) c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W9`, left at `W10`. Its arrays are split out of the
    unscoped buffers at entry and put back at their final contents at exit; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (atTc (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W9 m) c) (atTc (W10 m) c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W11`, left at `W12`. Its arrays are split out of the
    unscoped buffers at entry and put back at their final contents at exit; the generator register goes into the
    pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (atTc (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in4 _ c
  hout c := by rw [Pipeline.ownSems0_none]; exact phi_out4_emp _ c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W11 m) c) (atTc (W12 m) c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W13`, left at `W14`. Its arrays are split out of the
    unscoped buffers at entry and put back at their final contents at exit; the generator register goes into the
    pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W13 m)) c).loose
  hwaits := Pipeline.hwaits_of_owed_zero _ _ _ _ L lv 5 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec5 c (atTc (W13 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W13 m) c) (atTc (W14 m) c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W15`, left at `W16`. Its arrays are split out of the
    unscoped buffers at entry and put back at their final contents at exit; the generator register goes into the
    pipeline's invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (W15 m)) c).loose
  hwaits := Pipeline.hwaits_of_owed_zero _ _ _ _ L lv 6 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec6 c (atTc (W15 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (W15 m) c) (atTc (W16 m) c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W17`, left at `W18`. Its arrays are split out of the
    unscoped buffers at entry and put back at their final contents at exit; the generator register goes into the
    pipeline's invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atTc (W17 m)) c).loose
  hwaits := Pipeline.hwaits_of_owed_zero _ _ _ _ L lv 7 fun _ _ => rfl
  pre c := iprop(StableHlo.held (c : Thread nD τ) (Pipeline.ucRefs τ sig) (W17 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (atTc (W17 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (W17 m) c) (atTc (W18 m) c) ((pdats m 7 c).arrAt · cfg7.N) (exitArr7 m c) (exitRest7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

/-- @main's eighteen items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)),
    .region (reg6 m),
    .host (hseg hostOps7 hostOps7_sub hostOps7_fresh (W16 m)),
    .region (reg7 m) ]
/-- @main is the run of its items. -/
theorem main_run (c : Dev nD) : main (F := F) c = Pipeline.Seg.run (segs m) := (main_chain c).trans (by chain_rfl)

/-- An unscoped TensorCore reference is among those the run's last state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters, every weakly fair execution of @main terminates, nothing faulting, and in every
    final state each unscoped buffer of each core holds the last boundary's contents `W18`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

end Cert.Kernel.Reg

end
-- ==== Proof.K.Keep.lean ====
/-
  What the run never touches. A stretch of host operations changes only the buffers its operations write; a region
  changes only its output arrays (an input array is never written back). So a buffer that no stretch writes and that
  is no region's output holds at the last boundary what the launch memory held: every argument array is such a
  buffer, which is the frame claim.
-/
import proofs.«168427_j26276609917010_1_alg».proof.Proof.K.Run

set_option maxRecDepth 16384

noncomputable section

namespace Cert.Kernel.Reg

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem keep_W1 (c : Dev nD) (r : Ref sig .tc) (h : r ∉ hostOps0_W) : W1 m c (Proc.devRef .tc r) = W0 m c (Proc.devRef .tc r) :=
  StableHlo.after_of_writes_sub hostOps0 _ hostOps0_writes h
theorem keep_W2 (c : Dev nD) (r : Ref sig .tc) (h : r ∉ hostOps0_1_W) : W2 m c (Proc.devRef .tc r) = W1 m c (Proc.devRef .tc r) :=
  StableHlo.after_of_writes_sub hostOps0_1 _ hostOps0_1_writes h
theorem keep_W3 (c : Dev nD) (r : Ref sig .tc) (h : r ∉ hostOps0_2_W) : W3 m c (Proc.devRef .tc r) = W2 m c (Proc.devRef .tc r) :=
  StableHlo.after_of_writes_sub hostOps0_2 _ hostOps0_2_writes h
theorem keep_W4 (c : Dev nD) (r : Ref sig .tc) (h : r ∉ ([main_v34] : List (Ref sig .tc))) :
    W4 m c (Proc.devRef .tc r) = W3 m c (Proc.devRef .tc r) := by
  by_cases hw : ∃ w, Pipeline.arrRef spec0 w = r
  · obtain ⟨w, rfl⟩ := hw
    rw [W4_arr]
    have hin : (cfg0.win w).isOut = false := by
      fin_cases w <;> first | rfl | (exfalso; exact h (by decide))
    exact ((dat0 (atTc (W3 m)) c).arrAt_in w hin _).trans (A_eq0 (atTc (W3 m)) c w)
  · exact W4_of_ne m c r (fun w e => hw ⟨w, e⟩)
theorem keep_W5 (c : Dev nD) (r : Ref sig .tc) (h : r ∉ hostOps1_W) : W5 m c (Proc.devRef .tc r) = W4 m c (Proc.devRef .tc r) :=
  StableHlo.after_of_writes_sub hostOps1 _ hostOps1_writes h
theorem keep_W6 (c : Dev nD) (r : Ref sig .tc) (h : r ∉ ([main_v49_0, main_v49_1, main_v49_2] : List (Ref sig .tc))) :
    W6 m c (Proc.devRef .tc r) = W5 m c (Proc.devRef .tc r) := by
  by_cases hw : ∃ w, Pipeline.arrRef spec1 w = r
  · obtain ⟨w, rfl⟩ := hw
    rw [W6_arr]
    have hin : (cfg1.win w).isOut = false := by
      fin_cases w <;> first | rfl | (exfalso; exact h (by decide))
    exact ((dat1 (atTc (W5 m)) c).arrAt_in w hin _).trans (A_eq1 (atTc (W5 m)) c w)
  · exact W6_of_ne m c r (fun w e => hw ⟨w, e⟩)
theorem keep_W7 (c : Dev nD) (r : Ref sig .tc) (h : r ∉ hostOps2_W) : W7 m c (Proc.devRef .tc r) = W6 m c (Proc.devRef .tc r) :=
  StableHlo.after_of_writes_sub hostOps2 _ hostOps2_writes h
theorem keep_W8 (c : Dev nD) (r : Ref sig .tc) (h : r ∉ ([main_v64] : List (Ref sig .tc))) :
    W8 m c (Proc.devRef .tc r) = W7 m c (Proc.devRef .tc r) := by
  by_cases hw : ∃ w, Pipeline.arrRef spec2 w = r
  · obtain ⟨w, rfl⟩ := hw
    rw [W8_arr]
    have hin : (cfg2.win w).isOut = false := by
      fin_cases w <;> first | rfl | (exfalso; exact h (by decide))
    exact ((dat2 (atTc (W7 m)) c).arrAt_in w hin _).trans (A_eq2 (atTc (W7 m)) c w)
  · exact W8_of_ne m c r (fun w e => hw ⟨w, e⟩)
theorem keep_W9 (c : Dev nD) (r : Ref sig .tc) (h : r ∉ hostOps3_W) : W9 m c (Proc.devRef .tc r) = W8 m c (Proc.devRef .tc r) :=
  StableHlo.after_of_writes_sub hostOps3 _ hostOps3_writes h
theorem keep_W10 (c : Dev nD) (r : Ref sig .tc) (h : r ∉ ([main_v67] : List (Ref sig .tc))) :
    W10 m c (Proc.devRef .tc r) = W9 m c (Proc.devRef .tc r) := by
  by_cases hw : ∃ w, Pipeline.arrRef spec3 w = r
  · obtain ⟨w, rfl⟩ := hw
    rw [W10_arr]
    have hin : (cfg3.win w).isOut = false := by
      fin_cases w <;> first | rfl | (exfalso; exact h (by decide))
    exact ((dat3 (atTc (W9 m)) c).arrAt_in w hin _).trans (A_eq3 (atTc (W9 m)) c w)
  · exact W10_of_ne m c r (fun w e => hw ⟨w, e⟩)
theorem keep_W11 (c : Dev nD) (r : Ref sig .tc) (h : r ∉ hostOps4_W) : W11 m c (Proc.devRef .tc r) = W10 m c (Proc.devRef .tc r) :=
  StableHlo.after_of_writes_sub hostOps4 _ hostOps4_writes h
theorem keep_W12 (c : Dev nD) (r : Ref sig .tc) (h : r ∉ ([main_v82_0, main_v82_1, main_v82_2] : List (Ref sig .tc))) :
    W12 m c (Proc.devRef .tc r) = W11 m c (Proc.devRef .tc r) := by
  by_cases hw : ∃ w, Pipeline.arrRef spec4 w = r
  · obtain ⟨w, rfl⟩ := hw
    rw [W12_arr]
    have hin : (cfg4.win w).isOut = false := by
      fin_cases w <;> first | rfl | (exfalso; exact h (by decide))
    exact ((dat4 (atTc (W11 m)) c).arrAt_in w hin _).trans (A_eq4 (atTc (W11 m)) c w)
  · exact W12_of_ne m c r (fun w e => hw ⟨w, e⟩)
theorem keep_W13 (c : Dev nD) (r : Ref sig .tc) (h : r ∉ hostOps5_W) : W13 m c (Proc.devRef .tc r) = W12 m c (Proc.devRef .tc r) :=
  StableHlo.after_of_writes_sub hostOps5 _ hostOps5_writes h
theorem keep_W14 (c : Dev nD) (r : Ref sig .tc) (h : r ∉ ([main_v97] : List (Ref sig .tc))) :
    W14 m c (Proc.devRef .tc r) = W13 m c (Proc.devRef .tc r) := by
  by_cases hw : ∃ w, Pipeline.arrRef spec5 w = r
  · obtain ⟨w, rfl⟩ := hw
    rw [W14_arr]
    have hin : (cfg5.win w).isOut = false := by
      fin_cases w <;> first | rfl | (exfalso; exact h (by decide))
    exact ((dat5 (atTc (W13 m)) c).arrAt_in w hin _).trans (A_eq5 (atTc (W13 m)) c w)
  · exact W14_of_ne m c r (fun w e => hw ⟨w, e⟩)
theorem keep_W15 (c : Dev nD) (r : Ref sig .tc) (h : r ∉ hostOps6_W) : W15 m c (Proc.devRef .tc r) = W14 m c (Proc.devRef .tc r) :=
  StableHlo.after_of_writes_sub hostOps6 _ hostOps6_writes h
theorem keep_W16 (c : Dev nD) (r : Ref sig .tc) (h : r ∉ ([main_v102] : List (Ref sig .tc))) :
    W16 m c (Proc.devRef .tc r) = W15 m c (Proc.devRef .tc r) := by
  by_cases hw : ∃ w, Pipeline.arrRef spec6 w = r
  · obtain ⟨w, rfl⟩ := hw
    rw [W16_arr]
    have hin : (cfg6.win w).isOut = false := by
      fin_cases w <;> first | rfl | (exfalso; exact h (by decide))
    exact ((dat6 (atTc (W15 m)) c).arrAt_in w hin _).trans (A_eq6 (atTc (W15 m)) c w)
  · exact W16_of_ne m c r (fun w e => hw ⟨w, e⟩)
theorem keep_W17 (c : Dev nD) (r : Ref sig .tc) (h : r ∉ hostOps7_W) : W17 m c (Proc.devRef .tc r) = W16 m c (Proc.devRef .tc r) :=
  StableHlo.after_of_writes_sub hostOps7 _ hostOps7_writes h
theorem keep_W18 (c : Dev nD) (r : Ref sig .tc) (h : r ∉ ([main_v104] : List (Ref sig .tc))) :
    W18 m c (Proc.devRef .tc r) = W17 m c (Proc.devRef .tc r) := by
  by_cases hw : ∃ w, Pipeline.arrRef spec7 w = r
  · obtain ⟨w, rfl⟩ := hw
    rw [W18_arr]
    have hin : (cfg7.win w).isOut = false := by
      fin_cases w <;> first | rfl | (exfalso; exact h (by decide))
    exact ((dat7 (atTc (W17 m)) c).arrAt_in w hin _).trans (A_eq7 (atTc (W17 m)) c w)
  · exact W18_of_ne m c r (fun w e => hw ⟨w, e⟩)

/-- The buffers each item may change, item by item. -/
abbrev touched : List (List (Ref sig .tc)) :=
  [hostOps0_W,
   hostOps0_1_W,
   hostOps0_2_W,
   ([main_v34] : List (Ref sig .tc)),
   hostOps1_W,
   ([main_v49_0, main_v49_1, main_v49_2] : List (Ref sig .tc)),
   hostOps2_W,
   ([main_v64] : List (Ref sig .tc)),
   hostOps3_W,
   ([main_v67] : List (Ref sig .tc)),
   hostOps4_W,
   ([main_v82_0, main_v82_1, main_v82_2] : List (Ref sig .tc)),
   hostOps5_W,
   ([main_v97] : List (Ref sig .tc)),
   hostOps6_W,
   ([main_v102] : List (Ref sig .tc)),
   hostOps7_W,
   ([main_v104] : List (Ref sig .tc))]

/-- A buffer no item changes holds at the last boundary its launch contents. -/
theorem W18_untouched (c : Dev nD) (r : Ref sig .tc) (h : ∀ L ∈ touched, r ∉ L) :
    W18 m c (Proc.devRef .tc r) = m ((c : Thread nD τ).loc r) := by
  have h0 : r ∉ hostOps0_W := h _ (List.Mem.head _)
  have h1 : r ∉ hostOps0_1_W := h _ (List.Mem.tail _ (List.Mem.head _))
  have h2 : r ∉ hostOps0_2_W := h _ (List.Mem.tail _ (List.Mem.tail _ (List.Mem.head _)))
  have h3 : r ∉ ([main_v34] : List (Ref sig .tc)) := h _ (List.Mem.tail _ (List.Mem.tail _ (List.Mem.tail _ (List.Mem.head _))))
  have h4 : r ∉ hostOps1_W := h _ (List.Mem.tail _ (List.Mem.tail _ (List.Mem.tail _ (List.Mem.tail _ (List.Mem.head _)))))
  have h5 : r ∉ ([main_v49_0, main_v49_1, main_v49_2] : List (Ref sig .tc)) := h _ (List.Mem.tail _ (List.Mem.tail _ (List.Mem.tail _ (List.Mem.tail _ (List.Mem.tail _ (List.Mem.head _))))))
  have h6 : r ∉ hostOps2_W := h _ (List.Mem.tail _ (List.Mem.tail _ (List.Mem.tail _ (List.Mem.tail _ (List.Mem.tail _ (List.Mem.tail _ (List.Mem.head _)))))))
  have h7 : r ∉ ([main_v64] : List (Ref sig .tc)) := h _ (List.Mem.tail _ (List.Mem.tail _ (List.Mem.tail _ (List.Mem.tail _ (List.Mem.tail _ (List.Mem.tail _ (List.Mem.tail _ (List.Mem.head _))))))))
  have h8 : r ∉ hostOps3_W := h _ (List.Mem.tail _ (List.Mem.tail _ (List.Mem.tail _ (List.Mem.tail _ (List.Mem.tail _ (List.Mem.tail _ (List.Mem.tail _ (List.Mem.tail _ (List.Mem.head _)))))))))
  have h9 : r ∉ ([main_v67] : List (Ref sig .tc)) := h _ (List.Mem.tail _ (List.Mem.tail _ (List.Mem.tail _ (List.Mem.tail _ (List.Mem.tail _ (List.Mem.tail _ (List.Mem.tail _ (List.Mem.tail _ (List.Mem.tail _ (List.Mem.head _))))))))))
  have h10 : r ∉ hostOps4_W := h _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))
  have h11 : r ∉ ([main_v82_0, main_v82_1, main_v82_2] : List (Ref sig .tc)) := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))
  have h12 : r ∉ hostOps5_W := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))
  have h13 : r ∉ ([main_v97] : List (Ref sig .tc)) := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))
  have h14 : r ∉ hostOps6_W := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))
  have h15 : r ∉ ([main_v102] : List (Ref sig .tc)) := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))
  have h16 : r ∉ hostOps7_W := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))
  have h17 : r ∉ ([main_v104] : List (Ref sig .tc)) := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))
  calc W18 m c (Proc.devRef .tc r)
    _ = W17 m c (Proc.devRef .tc r) := keep_W18 m c r h17
    _ = W16 m c (Proc.devRef .tc r) := keep_W17 m c r h16
    _ = W15 m c (Proc.devRef .tc r) := keep_W16 m c r h15
    _ = W14 m c (Proc.devRef .tc r) := keep_W15 m c r h14
    _ = W13 m c (Proc.devRef .tc r) := keep_W14 m c r h13
    _ = W12 m c (Proc.devRef .tc r) := keep_W13 m c r h12
    _ = W11 m c (Proc.devRef .tc r) := keep_W12 m c r h11
    _ = W10 m c (Proc.devRef .tc r) := keep_W11 m c r h10
    _ = W9 m c (Proc.devRef .tc r) := keep_W10 m c r h9
    _ = W8 m c (Proc.devRef .tc r) := keep_W9 m c r h8
    _ = W7 m c (Proc.devRef .tc r) := keep_W8 m c r h7
    _ = W6 m c (Proc.devRef .tc r) := keep_W7 m c r h6
    _ = W5 m c (Proc.devRef .tc r) := keep_W6 m c r h5
    _ = W4 m c (Proc.devRef .tc r) := keep_W5 m c r h4
    _ = W3 m c (Proc.devRef .tc r) := keep_W4 m c r h3
    _ = W2 m c (Proc.devRef .tc r) := keep_W3 m c r h2
    _ = W1 m c (Proc.devRef .tc r) := keep_W2 m c r h1
    _ = W0 m c (Proc.devRef .tc r) := keep_W1 m c r h0
    _ = m ((c : Thread nD τ).loc r) := rfl

/-- The frame: every weakly fair execution of @main terminates without a fault and leaves the fifteen argument arrays as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W18_untouched m c main_arg0 (by decide)),
     (h c _ (mem_uc main_arg1 (by decide))).trans (W18_untouched m c main_arg1 (by decide)),
     (h c _ (mem_uc main_arg2 (by decide))).trans (W18_untouched m c main_arg2 (by decide)),
     (h c _ (mem_uc main_arg3 (by decide))).trans (W18_untouched m c main_arg3 (by decide)),
     (h c _ (mem_uc main_arg4 (by decide))).trans (W18_untouched m c main_arg4 (by decide)),
     (h c _ (mem_uc main_arg5 (by decide))).trans (W18_untouched m c main_arg5 (by decide)),
     (h c _ (mem_uc main_arg6 (by decide))).trans (W18_untouched m c main_arg6 (by decide)),
     (h c _ (mem_uc main_arg7 (by decide))).trans (W18_untouched m c main_arg7 (by decide)),
     (h c _ (mem_uc main_arg8 (by decide))).trans (W18_untouched m c main_arg8 (by decide)),
     (h c _ (mem_uc main_arg9 (by decide))).trans (W18_untouched m c main_arg9 (by decide)),
     (h c _ (mem_uc main_arg10 (by decide))).trans (W18_untouched m c main_arg10 (by decide)),
     (h c _ (mem_uc main_arg11 (by decide))).trans (W18_untouched m c main_arg11 (by decide)),
     (h c _ (mem_uc main_arg12 (by decide))).trans (W18_untouched m c main_arg12 (by decide)),
     (h c _ (mem_uc main_arg13 (by decide))).trans (W18_untouched m c main_arg13 (by decide)),
     (h c _ (mem_uc main_arg14 (by decide))).trans (W18_untouched m c main_arg14 (by decide))⟩)
    (run_all m ρ)

end Cert.Kernel.Reg

end
-- ==== Proof.KI.Reg0.lean ====
import proofs.«168427_j26276609917010_1_alg».proof.Proof.Gen.KernelIdeal.Launch
import proofs.«168427_j26276609917010_1_alg».proof.Proof.Gen.KernelIdeal.Skeleton
import proofs.«168427_j26276609917010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 0 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether it was fetched at that point
    or kept from an earlier one (then the block index has not moved), for any data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, whether it was fetched at that point
    or kept from an earlier one (then the block index has not moved), for any data whose array is `V`'s and whose
    body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds the window's block at every point, whether it was fetched at that point
    or kept from an earlier one (then the block index has not moved), for any data whose array is `V`'s and whose
    body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x200 := Rect.unit (s := S2000x200) ![0, 0] S2000x200.size inb_S2000x200_S2000x200_0_0
abbrev r0_1 : Rect S200x128 := Rect.unit (s := S200x128) ![0, 0] S200x128.size inb_S200x128_S200x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-- The output window's staging buffer after the body, from the input windows' blocks: the body's single store,
    of the matrix product of the first block by the second (both rounded to the narrower format first) plus the third (a row, repeated down the rows). -/
def out0_3 (x0 : Vec F S2000x200 .f32) (x1 : Vec F S200x128 .f32) (x2 : Vec F S1x128 .f32) : Vec F S2000x128 .f32 :=
  View.canon [⟨r0_3, k0_pay1 (View.ld x0 r0_0) (View.ld x1 r0_1) (View.ld x2 r0_2)⟩]

/-- The single store is of the whole buffer, so it covers it. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

set_option maxHeartbeats 4000000 in
/-- The body on whole staging memrefs, the inputs' at contents `xW` and the output's at anything, runs to a
    continuation that holds the inputs' as they were and the output's at `out0_3` of the inputs'. -/
theorem sound_kernel0 (c : Dev nD) (E : Set ℕ) (i : grid0.Coords) (arg1 : Memref sig .tc .vmem S2000x200 .f32) (harg1 : arg1.IsWhole) (arg2 : Memref sig .tc .vmem S200x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x200 .f32) (x1 : Vec F S200x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The data of the region's pipeline on core `c`: the arrays as the region finds them; after the body at point `t`
    each input's buffer at its block and the output's at `out0_3` of the input blocks; the invariant is the
    untouched rest of the core's state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg
-- ==== Proof.KI.Reg1Run.lean ====
import proofs.«168427_j26276609917010_1_alg».proof.Proof.Gen.KernelIdeal.Launch
import proofs.«168427_j26276609917010_1_alg».proof.Proof.Gen.KernelIdeal.Skeleton
import proofs.«168427_j26276609917010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body, case by case

The body adds the bias row to the 2000-row tile, takes the maximum with zero, stores the tile, and folds the
tile's column sums and column sums of squares into two one-row scratch accumulators: stored at the first grid
point, added to at the later ones, and copied to the two one-row outputs at the last. -/

/-- The first branch is taken at grid coordinate 0, -/
abbrev cond1_0 (i : grid1.Coords) : Prop := (Scalar.cmpi .ne (Scalar.extui (Scalar.cmpi .eq (BitVec.ofNat 32 (i 0).val) 0#32)) 0#32) = 1#1
/-- the second at every other coordinate, -/
abbrev cond1_1 (i : grid1.Coords) : Prop := (Scalar.cmpi .ne (Scalar.extui (Scalar.cmpi .ne (BitVec.ofNat 32 (i 0).val) 0#32)) 0#32) = 1#1
/-- the third at coordinate 49. -/
abbrev cond1_2 (i : grid1.Coords) : Prop := k1_cond3 i = 1#1

theorem hcond1_0 : ∀ t : Fin cfg1.N, cond1_0 (grid1.coords t) ↔ t.val = 0 :=
  (by decide +kernel : ∀ t : Fin grid1.N, cond1_0 (grid1.coords t) ↔ t.val = 0)
theorem hcond1_1 : ∀ t : Fin cfg1.N, cond1_1 (grid1.coords t) ↔ 1 ≤ t.val :=
  (by decide +kernel : ∀ t : Fin grid1.N, cond1_1 (grid1.coords t) ↔ 1 ≤ t.val)
theorem hcond1_2 : ∀ t : Fin cfg1.N, cond1_2 (grid1.coords t) ↔ t.val = 49 :=
  (by decide +kernel : ∀ t : Fin grid1.N, cond1_2 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_2 (grid1.coords t) → cfg1.idle 3 (grid1.coords t) = true := by decide +kernel
theorem idleAt1_4 : ∀ t : Fin cfg1.N, ¬cond1_2 (grid1.coords t) → cfg1.idle 4 (grid1.coords t) = true := by decide +kernel
theorem noFlush1_3 : ∀ t : Fin cfg1.N, ¬cond1_2 (grid1.coords t) → (cfg1.win 3).flush t = false := by decide +kernel
theorem noFlush1_4 : ∀ t : Fin cfg1.N, ¬cond1_2 (grid1.coords t) → (cfg1.win 4).flush t = false := by decide +kernel
theorem liveAt1_3 : ∀ t : Fin cfg1.N, cond1_2 (grid1.coords t) → cfg1.idle 3 (grid1.coords t) = false := by decide +kernel
theorem liveAt1_4 : ∀ t : Fin cfg1.N, cond1_2 (grid1.coords t) → cfg1.idle 4 (grid1.coords t) = false := by decide +kernel

/-! ## The body's accesses and what it leaves -/

/-- The whole 2000 x 128 tile and the whole 1 x 128 row: the only rectangles the body reads or writes. -/
abbrev rb1 : Rect S2000x128 := Rect.unit (s := S2000x128) ![0, 0] S2000x128.size inb_S2000x128_S2000x128_0_0
abbrev rs1 : Rect S1x128 := Rect.unit (s := S1x128) ![0, 0] S1x128.size inb_S1x128_S1x128_0_0

/-- The tile output: max (tile + bias row, 0). -/
def out1_2 (x0 : Vec F S2000x128 .f32) (x1 : Vec F S1x128 .f32) : Vec F S2000x128 .f32 :=
  View.canon [⟨rb1, k1_pay1 (View.ld x0 rb1) (View.ld x1 rs1)⟩]
/-- The two accumulators after the first grid point: the tile's column sums, and column sums of squares. -/
def scA1_0 (x0 : Vec F S2000x128 .f32) (x1 : Vec F S1x128 .f32) : Vec F S1x128 .f32 :=
  View.canon [⟨rs1, k1_pay4 (View.ld x0 rb1) (View.ld x1 rs1)⟩]
def scA1_1 (x0 : Vec F S2000x128 .f32) (x1 : Vec F S1x128 .f32) : Vec F S1x128 .f32 :=
  View.canon [⟨rs1, k1_pay5 (View.ld x0 rb1) (View.ld x1 rs1)⟩]
/-- The two accumulators after a later grid point, from what the point before left (`s`): `s` plus the tile's sums. -/
def scB1_0 (x0 : Vec F S2000x128 .f32) (x1 : Vec F S1x128 .f32) (s : Vec F S1x128 .f32) : Vec F S1x128 .f32 :=
  View.canon [⟨rs1, k1_pay6 (View.ld x0 rb1) (View.ld x1 rs1) (View.ld s rs1)⟩]
def scB1_1 (x0 : Vec F S2000x128 .f32) (x1 : Vec F S1x128 .f32) (s : Vec F S1x128 .f32) : Vec F S1x128 .f32 :=
  View.canon [⟨rs1, k1_pay7 (View.ld x0 rb1) (View.ld x1 rs1) (View.ld s rs1)⟩]
/-- The two one-row outputs at the last grid point: copies of the accumulators' contents `s`. -/
def out1_3 (s : Vec F S1x128 .f32) : Vec F S1x128 .f32 := View.canon [⟨rs1, View.ld s rs1⟩]
def out1_4 (s : Vec F S1x128 .f32) : Vec F S1x128 .f32 := View.canon [⟨rs1, View.ld s rs1⟩]

/-- One store of the whole shape covers it. -/
theorem cover1_b (p : rb1.shape.Idx → Elt F .f32) (y : S2000x128.Idx) :
    ∃ pc ∈ ([⟨rb1, p⟩] : List (View.Piece (Elt F) S2000x128 .f32)), y ∈ pc.1.set :=
  View.cover_of_tiled [⟨rb1, p⟩] S2000x128.size (by rfl) y
theorem cover1_s (p : rs1.shape.Idx → Elt F .f32) (y : S1x128.Idx) :
    ∃ pc ∈ ([⟨rs1, p⟩] : List (View.Piece (Elt F) S1x128 .f32)), y ∈ pc.1.set :=
  View.cover_of_tiled [⟨rs1, p⟩] S1x128.size (by rfl) y

/-! ## The body's triple in each case -/

set_option maxHeartbeats 4000000 in
/-- At the first grid point: the tile output and both accumulators are stored whole; the one-row outputs are not touched. -/
theorem sound_kernel1_A (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : cond1_0 i) (hc1 : ¬cond1_1 i) (hc2 : ¬cond1_2 i)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out1_2 x0 x1)
            ∗ owns (c : Thread nD τ) arg6 fullShare (scA1_0 x0 x1) ∗ owns (c : Thread nD τ) arg7 fullShare (scA1_1 x0 x1)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d2, %f2, -, H2⟩, ⟨%d5, %f5, -, H5⟩, ⟨%d6, %f6, -, H6⟩, Hk⟩
  subst hf0; subst hf1
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover1_b _)
  isplitl [H5]
  · iexists _; isplitr
    swap; · iexact H5
    ipureintro; exact View.read_writes_eq_canon _ _ _ (cover1_s _)
  iexists _; isplitr
  swap; · iexact H6
  ipureintro; exact View.read_writes_eq_canon _ _ _ (cover1_s _)

set_option maxHeartbeats 4000000 in
/-- At a later grid point that is not the last: the tile output is stored whole and each accumulator gets the tile's sums added. -/
theorem sound_kernel1_B (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond1_0 i) (hc1 : cond1_1 i) (hc2 : ¬cond1_2 i)
    (x0 : Vec F S2000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out1_2 x0 x1)
            ∗ owns (c : Thread nD τ) arg6 fullShare (scB1_0 x0 x1 s0) ∗ owns (c : Thread nD τ) arg7 fullShare (scB1_1 x0 x1 s1)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d2, %f2, -, H2⟩, ⟨%f5, %hf5, H5⟩, ⟨%f6, %hf6, H6⟩, Hk⟩
  subst hf0; subst hf1; subst hf5; subst hf6
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover1_b _)
  isplitl [H5]
  · iexists _; isplitr
    swap; · iexact H5
    ipureintro; exact View.read_writes_eq_canon _ _ _ (cover1_s _)
  iexists _; isplitr
  swap; · iexact H6
  ipureintro; exact View.read_writes_eq_canon _ _ _ (cover1_s _)

set_option maxHeartbeats 4000000 in
/-- At the last grid point: as at the other later points, and then each accumulator is copied to its one-row output. -/
theorem sound_kernel1_C (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond1_0 i) (hc1 : cond1_1 i) (hc2 : cond1_2 i)
    (x0 : Vec F S2000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out1_2 x0 x1)
            ∗ owns (c : Thread nD τ) arg4 fullShare (out1_3 (scB1_0 x0 x1 s0)) ∗ owns (c : Thread nD τ) arg5 fullShare (out1_4 (scB1_1 x0 x1 s1))
            ∗ owns (c : Thread nD τ) arg6 fullShare (scB1_0 x0 x1 s0) ∗ owns (c : Thread nD τ) arg7 fullShare (scB1_1 x0 x1 s1)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover1_b _)
  isplitl [H3]
  · iexists _; isplitr
    swap; · iexact H3
    ipureintro
    rw [View.read_writes_eq_canon _ _ _ (cover1_s _), View.readCov_eq_canon_ld _ _ _ (cover1_s _)]
    rfl
  isplitl [H4]
  · iexists _; isplitr
    swap; · iexact H4
    ipureintro
    rw [View.read_writes_eq_canon _ _ _ (cover1_s _), View.readCov_eq_canon_ld _ _ _ (cover1_s _)]
    rfl
  isplitl [H5]
  · iexists _; isplitr
    swap; · iexact H5
    ipureintro; exact View.read_writes_eq_canon _ _ _ (cover1_s _)
  iexists _; isplitr
  swap; · iexact H6
  ipureintro; exact View.read_writes_eq_canon _ _ _ (cover1_s _)

end Cert.KernelIdeal.Reg

end
-- ==== Proof.KI.Reg1.lean ====
import proofs.«168427_j26276609917010_1_alg».proof.Proof.KI.Reg1Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the proof data over the 50 grid points, the two scratch accumulators carried between them -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- What the two scratch accumulators hold after the body at point `n`: at the first point the tile's column sums
    and column sums of squares; afterwards those of the point before plus this tile's. -/
def acc1 (c : Dev nD) : (n : ℕ) → n < cfg1.N → Vec F S1x128 .f32 × Vec F S1x128 .f32
  | 0, hn => (scA1_0 (iblk1 V c 0 ⟨0, hn⟩) (iblk1 V c 1 ⟨0, hn⟩), scA1_1 (iblk1 V c 0 ⟨0, hn⟩) (iblk1 V c 1 ⟨0, hn⟩))
  | n + 1, hn => (scB1_0 (iblk1 V c 0 ⟨n + 1, hn⟩) (iblk1 V c 1 ⟨n + 1, hn⟩) (acc1 c n (Nat.lt_of_succ_lt hn)).1,
      scB1_1 (iblk1 V c 0 ⟨n + 1, hn⟩) (iblk1 V c 1 ⟨n + 1, hn⟩) (acc1 c n (Nat.lt_of_succ_lt hn)).2)

theorem acc1_zero (c : Dev nD) (t : Fin cfg1.N) (h : t.val = 0) :
    acc1 V c t.val t.isLt = (scA1_0 (iblk1 V c 0 t) (iblk1 V c 1 t), scA1_1 (iblk1 V c 0 t) (iblk1 V c 1 t)) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = (scB1_0 (iblk1 V c 0 t) (iblk1 V c 1 t) (acc1 V c (t.val - 1) (Nat.lt_of_le_of_lt (Nat.sub_le _ _) t.isLt)).1,
      scB1_1 (iblk1 V c 0 t) (iblk1 V c 1 t) (acc1 V c (t.val - 1) (Nat.lt_of_le_of_lt (Nat.sub_le _ _) t.isLt)).2) := by
  obtain ⟨n, hn⟩ := t
  cases n with
  | zero => exact absurd rfl h
  | succ n => rfl

/-! ## The region invariant -/

/-- The two scratch operands: whole scoped buffers of the kernel's own. -/
abbrev scM1_0 : Memref sig .tc .vmem S1x128 .f32 := Memref.whole cc1_scratch0
abbrev scM1_1 : Memref sig .tc .vmem S1x128 .f32 := Memref.whole cc1_scratch1

/-- The class invariant with the two scratch operands as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-- The invariant before position `n`: before the first point every scratch at anything; afterwards the two
    accumulators at what the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((acc1 V c n hn).1) ∗ owns (c : Thread nD τ) scM1_1 fullShare ((acc1 V c n hn).2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((acc1 V c n hn).1) ∗ owns (c : Thread nD τ) scM1_1 fullShare ((acc1 V c n hn).2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((acc1 V c (n - 1) (by omega)).1) ∗ owns (c : Thread nD τ) scM1_1 fullShare ((acc1 V c (n - 1) (by omega)).2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

/-- The proof data of pipeline 1 on core `c`: the arrays as the region finds them; after the body at point `t` each
    input's buffer at its block, the tile output at `out1_2` of the blocks, the two one-row outputs at copies of the
    accumulators after `t` (consulted at the last point only: elsewhere those windows are idle); the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (acc1 V c t.val t.isLt).1
    | ⟨4, _⟩ => out1_4 (acc1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (acc1 V c t.val t.isLt).1 := by dsimp only [dat1]
theorem after1_4 (c : Dev nD) (t : Fin cfg1.N) : (dat1 V c).after 4 t = out1_4 (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (out1_2 (iblk1 V c 0 t) (iblk1 V c 1 t)) := by
  unfold Dat.leavesExact; rw [liveAt1_2 t, after1_2]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 50 := lt_of_lt_of_eq t.isLt (show cfg1.N = 50 from N_1)
  by_cases hz : t.val = 0
  · -- the first point
    have h0 : cond1_0 (grid1.coords t) := (hcond1_0 t).mpr hz
    have h1 : ¬cond1_1 (grid1.coords t) := fun h => by have := (hcond1_1 t).mp h; omega
    have h2 : ¬cond1_2 (grid1.coords t) := fun h => by have := (hcond1_2 t).mp h; omega
    rw [Dat.leavesExact_idle (dat1 V c) 3 t (idleAt1_3 t h2) (noFlush1_3 t h2),
      Dat.leavesExact_idle (dat1 V c) 4 t (idleAt1_4 t h2) (noFlush1_4 t h2)]
    rw [acc1_zero V c t hz]
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, H3, H4⟩
    iapply (sound_kernel1_A c Set.univ (grid1.coords t) _ _ _ _ _ _ _ _ _ _ _ _ _ _ h0 h1 h2 (iblk1 V c 0 t) (iblk1 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4
  · have h0 : ¬cond1_0 (grid1.coords t) := fun h => hz ((hcond1_0 t).mp h)
    have h1 : cond1_1 (grid1.coords t) := (hcond1_1 t).mpr (by omega)
    rw [acc1_pos V c t hz]
    rw [PhiS1_castSucc V c t, PhiS1_pos V c _ _ hz]
    by_cases hl : t.val = 49
    · -- the last point
      have h2 : cond1_2 (grid1.coords t) := (hcond1_2 t).mpr hl
      rw [show (dat1 V c).leavesExact 3 t = owns (c : Thread nD τ) (st1_3 t) fullShare ((dat1 V c).after 3 t) from by
          unfold Dat.leavesExact; rw [liveAt1_3 t h2],
        show (dat1 V c).leavesExact 4 t = owns (c : Thread nD τ) (st1_4 t) fullShare ((dat1 V c).after 4 t) from by
          unfold Dat.leavesExact; rw [liveAt1_4 t h2],
        after1_3, after1_4, acc1_pos V c t hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ h0 h1 h2 (iblk1 V c 0 t) (iblk1 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · -- a point between
      have h2 : ¬cond1_2 (grid1.coords t) := fun h => hl ((hcond1_2 t).mp h)
      rw [Dat.leavesExact_idle (dat1 V c) 3 t (idleAt1_3 t h2) (noFlush1_3 t h2),
        Dat.leavesExact_idle (dat1 V c) 4 t (idleAt1_4 t h2) (noFlush1_4 t h2)]
      iintro ⟨⟨⟨⟨HS0, HS1⟩, Hrest⟩, Hg⟩, Ho, ⟨%d0, H0⟩, ⟨%d1, H1⟩, ⟨%d2, H2⟩, H3, H4⟩
      iapply (sound_kernel1_B c Set.univ (grid1.coords t) _ _ _ _ _ _ _ _ _ _ _ _ _ _ h0 h1 h2 (iblk1 V c 0 t) (iblk1 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

theorem Phi1_in (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) : (dat1 V c).Φ (Fin.last cfg1.N) ⊢ Pipeline.ΦA spec1 c := by
  have hN : cfg1.N = 50 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- What a region segment hands the invariant at the first point: the generator register at some state, anything
    `P` that rides along (the prefetched tables: none here), and the scoped buffers no window stages. -/
theorem phi_in1 (c : Dev nD) {P : sProp 𝕄} :
    iprop((∃ r, prngReg c r) ∗ P ∗ Pipeline.scopedRest (Ix := Unit) (Name := ℕ) (U := UR sig nD τ) (Lvl := ℕ) (Val := Elt F) spec1 c) ⊢ (dat1 V c).Φ 0 := by
  have h : iprop((∃ r, prngReg c r) ∗ P ∗ Pipeline.scopedRest (Ix := Unit) (Name := ℕ) (U := UR sig nD τ) (Lvl := ℕ) (Val := Elt F) spec1 c) ⊢ (Pipeline.ΦA spec1 c : sProp 𝕄) := by
    unfold Pipeline.ΦA
    iintro ⟨Hp, -, Hr⟩
    isplitl [Hr]; · iexact Hr
    iexact Hp
  exact h.trans (Phi1_in V c)

/-- What the invariant gives back after the last point: the generator register and those scoped buffers, the
    accumulators' contents forgotten. -/
theorem phi_out1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  have h : (Pipeline.ΦA spec1 c : sProp 𝕄) ⊢ iprop((∃ r, prngReg c r) ∗ Pipeline.scopedRest (Ix := Unit) (Name := ℕ) (U := UR sig nD τ) (Lvl := ℕ) (Val := Elt F) spec1 c) := by
    unfold Pipeline.ΦA
    iintro ⟨Hr, Hp⟩
    isplitl [Hp]; · iexact Hp
    iexact Hr
  exact (Phi1_out V c).trans h

/-- The same with an empty middle conjunct, as a segment with no semaphores of its own wants it. -/
theorem phi_out1_emp (c : Dev nD) :
    (dat1 V c).Φ (Fin.last cfg1.N) ⊢ iprop((∃ r, prngReg c r) ∗ (BI.emp : sProp 𝕄) ∗ Pipeline.scopedRest (Ix := Unit) (Name := ℕ) (U := UR sig nD τ) (Lvl := ℕ) (Val := Elt F) spec1 c) := by
  have h : (Pipeline.ΦA spec1 c : sProp 𝕄) ⊢ iprop((∃ r, prngReg c r) ∗ (BI.emp : sProp 𝕄) ∗ Pipeline.scopedRest (Ix := Unit) (Name := ℕ) (U := UR sig nD τ) (Lvl := ℕ) (Val := Elt F) spec1 c) := by
    unfold Pipeline.ΦA
    iintro ⟨Hr, Hp⟩
    isplitl [Hp]; · iexact Hp
    isplitr; · iempintro
    iexact Hr
  exact (Phi1_out V c).trans h

end Cert.KernelIdeal.Reg

end
-- ==== Proof.KI.Reg2.lean ====
import proofs.«168427_j26276609917010_1_alg».proof.Proof.Gen.KernelIdeal.Launch
import proofs.«168427_j26276609917010_1_alg».proof.Proof.Gen.KernelIdeal.Skeleton
import proofs.«168427_j26276609917010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 2 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether it was fetched at that point
    or kept from an earlier one (then the block index has not moved), for any data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, whether it was fetched at that point
    or kept from an earlier one (then the block index has not moved), for any data whose array is `V`'s and whose
    body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds the window's block at every point, whether it was fetched at that point
    or kept from an earlier one (then the block index has not moved), for any data whose array is `V`'s and whose
    body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

/-- The output window's staging buffer after the body, from the input windows' blocks: the body's single store,
    of the first block times the second (a row, repeated down the rows) plus the third (a row, repeated likewise). -/
def out2_3 (x0 : Vec F S2000x128 .f32) (x1 : Vec F S1x128 .f32) (x2 : Vec F S1x128 .f32) : Vec F S2000x128 .f32 :=
  View.canon [⟨r2_0, k2_pay1 (View.ld x0 r2_0) (View.ld x1 r2_1) (View.ld x2 r2_1)⟩]

/-- The single store is of the whole buffer, so it covers it. -/
theorem cover2_3 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 4000000 in
/-- The body on whole staging memrefs, the inputs' at contents `xW` and the output's at anything, runs to a
    continuation that holds the inputs' as they were and the output's at `out2_3` of the inputs'. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The data of the region's pipeline on core `c`: the arrays as the region finds them; after the body at point `t`
    each input's buffer at its block and the output's at `out2_3` of the input blocks; the invariant is the
    untouched rest of the core's state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg
-- ==== Proof.KI.Reg3.lean ====
import proofs.«168427_j26276609917010_1_alg».proof.Proof.Gen.KernelIdeal.Launch
import proofs.«168427_j26276609917010_1_alg».proof.Proof.Gen.KernelIdeal.Skeleton
import proofs.«168427_j26276609917010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 3 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether it was fetched at that point
    or kept from an earlier one (then the block index has not moved), for any data whose array is `V`'s and whose
    body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, whether it was fetched at that point
    or kept from an earlier one (then the block index has not moved), for any data whose array is `V`'s and whose
    body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds the window's block at every point, whether it was fetched at that point
    or kept from an earlier one (then the block index has not moved), for any data whose array is `V`'s and whose
    body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0
abbrev r3_2 : Rect S1x128 := Rect.unit (s := S1x128) ![0, 0] S1x128.size inb_S1x128_S1x128_0_0

/-- The output window's staging buffer after the body, from the input windows' blocks: the body's single store,
    of the matrix product of the first block by the second (both rounded to the narrower format first) plus the third (a row, repeated down the rows). -/
def out3_3 (x0 : Vec F S2000x128 .f32) (x1 : Vec F S128x128 .f32) (x2 : Vec F S1x128 .f32) : Vec F S2000x128 .f32 :=
  View.canon [⟨r3_0, k3_pay1 (View.ld x0 r3_0) (View.ld x1 r3_1) (View.ld x2 r3_2)⟩]

/-- The single store is of the whole buffer, so it covers it. -/
theorem cover3_3 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 4000000 in
/-- The body on whole staging memrefs, the inputs' at contents `xW` and the output's at anything, runs to a
    continuation that holds the inputs' as they were and the output's at `out3_3` of the inputs'. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The data of the region's pipeline on core `c`: the arrays as the region finds them; after the body at point `t`
    each input's buffer at its block and the output's at `out3_3` of the input blocks; the invariant is the
    untouched rest of the core's state; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg
-- ==== Proof.KI.Reg4Run.lean ====
import proofs.«168427_j26276609917010_1_alg».proof.Proof.Gen.KernelIdeal.Launch
import proofs.«168427_j26276609917010_1_alg».proof.Proof.Gen.KernelIdeal.Skeleton
import proofs.«168427_j26276609917010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the kernel body, case by case

The body adds the bias row to the 2000-row tile, takes the maximum with zero, stores the tile, and folds the
tile's column sums and column sums of squares into two one-row scratch accumulators: stored at the first grid
point, added to at the later ones, and copied to the two one-row outputs at the last. -/

/-- The first branch is taken at grid coordinate 0, -/
abbrev cond4_0 (i : grid4.Coords) : Prop := (Scalar.cmpi .ne (Scalar.extui (Scalar.cmpi .eq (BitVec.ofNat 32 (i 0).val) 0#32)) 0#32) = 1#1
/-- the second at every other coordinate, -/
abbrev cond4_1 (i : grid4.Coords) : Prop := (Scalar.cmpi .ne (Scalar.extui (Scalar.cmpi .ne (BitVec.ofNat 32 (i 0).val) 0#32)) 0#32) = 1#1
/-- the third at coordinate 49. -/
abbrev cond4_2 (i : grid4.Coords) : Prop := k4_cond3 i = 1#1

theorem hcond4_0 : ∀ t : Fin cfg4.N, cond4_0 (grid4.coords t) ↔ t.val = 0 :=
  (by decide +kernel : ∀ t : Fin grid4.N, cond4_0 (grid4.coords t) ↔ t.val = 0)
theorem hcond4_1 : ∀ t : Fin cfg4.N, cond4_1 (grid4.coords t) ↔ 1 ≤ t.val :=
  (by decide +kernel : ∀ t : Fin grid4.N, cond4_1 (grid4.coords t) ↔ 1 ≤ t.val)
theorem hcond4_2 : ∀ t : Fin cfg4.N, cond4_2 (grid4.coords t) ↔ t.val = 49 :=
  (by decide +kernel : ∀ t : Fin grid4.N, cond4_2 (grid4.coords t) ↔ t.val = 49)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond4_2 (grid4.coords t) → cfg4.idle 3 (grid4.coords t) = true := by decide +kernel
theorem idleAt4_4 : ∀ t : Fin cfg4.N, ¬cond4_2 (grid4.coords t) → cfg4.idle 4 (grid4.coords t) = true := by decide +kernel
theorem noFlush4_3 : ∀ t : Fin cfg4.N, ¬cond4_2 (grid4.coords t) → (cfg4.win 3).flush t = false := by decide +kernel
theorem noFlush4_4 : ∀ t : Fin cfg4.N, ¬cond4_2 (grid4.coords t) → (cfg4.win 4).flush t = false := by decide +kernel
theorem liveAt4_3 : ∀ t : Fin cfg4.N, cond4_2 (grid4.coords t) → cfg4.idle 3 (grid4.coords t) = false := by decide +kernel
theorem liveAt4_4 : ∀ t : Fin cfg4.N, cond4_2 (grid4.coords t) → cfg4.idle 4 (grid4.coords t) = false := by decide +kernel

/-! ## The body's accesses and what it leaves -/

/-- The whole 2000 x 128 tile and the whole 1 x 128 row: the only rectangles the body reads or writes. -/
abbrev rb4 : Rect S2000x128 := Rect.unit (s := S2000x128) ![0, 0] S2000x128.size inb_S2000x128_S2000x128_0_0
abbrev rs4 : Rect S1x128 := Rect.unit (s := S1x128) ![0, 0] S1x128.size inb_S1x128_S1x128_0_0

/-- The tile output: max (tile + bias row, 0). -/
def out4_2 (x0 : Vec F S2000x128 .f32) (x1 : Vec F S1x128 .f32) : Vec F S2000x128 .f32 :=
  View.canon [⟨rb4, k4_pay1 (View.ld x0 rb4) (View.ld x1 rs4)⟩]
/-- The two accumulators after the first grid point: the tile's column sums, and column sums of squares. -/
def scA4_0 (x0 : Vec F S2000x128 .f32) (x1 : Vec F S1x128 .f32) : Vec F S1x128 .f32 :=
  View.canon [⟨rs4, k4_pay4 (View.ld x0 rb4) (View.ld x1 rs4)⟩]
def scA4_1 (x0 : Vec F S2000x128 .f32) (x1 : Vec F S1x128 .f32) : Vec F S1x128 .f32 :=
  View.canon [⟨rs4, k4_pay5 (View.ld x0 rb4) (View.ld x1 rs4)⟩]
/-- The two accumulators after a later grid point, from what the point before left (`s`): `s` plus the tile's sums. -/
def scB4_0 (x0 : Vec F S2000x128 .f32) (x1 : Vec F S1x128 .f32) (s : Vec F S1x128 .f32) : Vec F S1x128 .f32 :=
  View.canon [⟨rs4, k4_pay6 (View.ld x0 rb4) (View.ld x1 rs4) (View.ld s rs4)⟩]
def scB4_1 (x0 : Vec F S2000x128 .f32) (x1 : Vec F S1x128 .f32) (s : Vec F S1x128 .f32) : Vec F S1x128 .f32 :=
  View.canon [⟨rs4, k4_pay7 (View.ld x0 rb4) (View.ld x1 rs4) (View.ld s rs4)⟩]
/-- The two one-row outputs at the last grid point: copies of the accumulators' contents `s`. -/
def out4_3 (s : Vec F S1x128 .f32) : Vec F S1x128 .f32 := View.canon [⟨rs4, View.ld s rs4⟩]
def out4_4 (s : Vec F S1x128 .f32) : Vec F S1x128 .f32 := View.canon [⟨rs4, View.ld s rs4⟩]

/-- One store of the whole shape covers it. -/
theorem cover4_b (p : rb4.shape.Idx → Elt F .f32) (y : S2000x128.Idx) :
    ∃ pc ∈ ([⟨rb4, p⟩] : List (View.Piece (Elt F) S2000x128 .f32)), y ∈ pc.1.set :=
  View.cover_of_tiled [⟨rb4, p⟩] S2000x128.size (by rfl) y
theorem cover4_s (p : rs4.shape.Idx → Elt F .f32) (y : S1x128.Idx) :
    ∃ pc ∈ ([⟨rs4, p⟩] : List (View.Piece (Elt F) S1x128 .f32)), y ∈ pc.1.set :=
  View.cover_of_tiled [⟨rs4, p⟩] S1x128.size (by rfl) y

/-! ## The body's triple in each case -/

set_option maxHeartbeats 4000000 in
/-- At the first grid point: the tile output and both accumulators are stored whole; the one-row outputs are not touched. -/
theorem sound_kernel4_A (c : Dev nD) (E : Set ℕ) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : cond4_0 i) (hc1 : ¬cond4_1 i) (hc2 : ¬cond4_2 i)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (out4_2 x0 x1)
            ∗ owns (c : Thread nD τ) arg6 fullShare (scA4_0 x0 x1) ∗ owns (c : Thread nD τ) arg7 fullShare (scA4_1 x0 x1)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%d2, %f2, -, H2⟩, ⟨%d5, %f5, -, H5⟩, ⟨%d6, %f6, -, H6⟩, Hk⟩
  subst hf0; subst hf1
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover4_b _)
  isplitl [H5]
  · iexists _; isplitr
    swap; · iexact H5
    ipureintro; exact View.read_writes_eq_canon _ _ _ (cover4_s _)
  iexists _; isplitr
  swap; · iexact H6
  ipureintro; exact View.read_writes_eq_canon _ _ _ (cover4_s _)

set_option maxHeartbeats 4000000 in
/-- At a later grid point that is not the last: the tile output is stored whole and each accumulator gets the tile's sums added. -/
theorem sound_kernel4_B (c : Dev nD) (E : Set ℕ) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond4_0 i) (hc1 : cond4_1 i) (hc2 : ¬cond4_2 i)
    (x0 : Vec F S2000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out4_2 x0 x1)
            ∗ owns (c : Thread nD τ) arg6 fullShare (scB4_0 x0 x1 s0) ∗ owns (c : Thread nD τ) arg7 fullShare (scB4_1 x0 x1 s1)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%d2, %f2, -, H2⟩, ⟨%f5, %hf5, H5⟩, ⟨%f6, %hf6, H6⟩, Hk⟩
  subst hf0; subst hf1; subst hf5; subst hf6
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover4_b _)
  isplitl [H5]
  · iexists _; isplitr
    swap; · iexact H5
    ipureintro; exact View.read_writes_eq_canon _ _ _ (cover4_s _)
  iexists _; isplitr
  swap; · iexact H6
  ipureintro; exact View.read_writes_eq_canon _ _ _ (cover4_s _)

set_option maxHeartbeats 4000000 in
/-- At the last grid point: as at the other later points, and then each accumulator is copied to its one-row output. -/
theorem sound_kernel4_C (c : Dev nD) (E : Set ℕ) (i : grid4.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole)
    (hc0 : ¬cond4_0 i) (hc1 : cond4_1 i) (hc2 : cond4_2 i)
    (x0 : Vec F S2000x128 .f32) (x1 : Vec F S1x128 .f32) (s0 s1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare (out4_2 x0 x1)
            ∗ owns (c : Thread nD τ) arg4 fullShare (out4_3 (scB4_0 x0 x1 s0)) ∗ owns (c : Thread nD τ) arg5 fullShare (out4_4 (scB4_1 x0 x1 s1))
            ∗ owns (c : Thread nD τ) arg6 fullShare (scB4_0 x0 x1 s0) ∗ owns (c : Thread nD τ) arg7 fullShare (scB4_1 x0 x1 s1)) -∗ K ⟨⟩))
      ⊢ wp frame (wpE (defs₀ (F := F)) Variants.none c none) E (cc4_kernel i arg1 harg1 arg2 harg2 arg3 harg3 arg4 harg4 arg5 harg5 arg6 harg6 arg7 harg7) K := by
  simp only [cc4_kernel_eq_skeleton]; unfold cc4_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0; subst hf1; subst hf5; subst hf6
  sl_exec (disch := first | exact hc0 | exact hc1 | exact hc2)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (cover4_b _)
  isplitl [H3]
  · iexists _; isplitr
    swap; · iexact H3
    ipureintro
    rw [View.read_writes_eq_canon _ _ _ (cover4_s _), View.readCov_eq_canon_ld _ _ _ (cover4_s _)]
    rfl
  isplitl [H4]
  · iexists _; isplitr
    swap; · iexact H4
    ipureintro
    rw [View.read_writes_eq_canon _ _ _ (cover4_s _), View.readCov_eq_canon_ld _ _ _ (cover4_s _)]
    rfl
  isplitl [H5]
  · iexists _; isplitr
    swap; · iexact H5
    ipureintro; exact View.read_writes_eq_canon _ _ _ (cover4_s _)
  iexists _; isplitr
  swap; · iexact H6
  ipureintro; exact View.read_writes_eq_canon _ _ _ (cover4_s _)

end Cert.KernelIdeal.Reg

end
-- ==== Proof.KI.Reg4.lean ====
import proofs.«168427_j26276609917010_1_alg».proof.Proof.KI.Reg4Run

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the proof data over the 50 grid points, the two scratch accumulators carried between them -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The accumulators after each point -/

/-- What the two scratch accumulators hold after the body at point `n`: at the first point the tile's column sums
    and column sums of squares; afterwards those of the point before plus this tile's. -/
def acc4 (c : Dev nD) : (n : ℕ) → n < cfg4.N → Vec F S1x128 .f32 × Vec F S1x128 .f32
  | 0, hn => (scA4_0 (iblk4 V c 0 ⟨0, hn⟩) (iblk4 V c 1 ⟨0, hn⟩), scA4_1 (iblk4 V c 0 ⟨0, hn⟩) (iblk4 V c 1 ⟨0, hn⟩))
  | n + 1, hn => (scB4_0 (iblk4 V c 0 ⟨n + 1, hn⟩) (iblk4 V c 1 ⟨n + 1, hn⟩) (acc4 c n (Nat.lt_of_succ_lt hn)).1,
      scB4_1 (iblk4 V c 0 ⟨n + 1, hn⟩) (iblk4 V c 1 ⟨n + 1, hn⟩) (acc4 c n (Nat.lt_of_succ_lt hn)).2)

theorem acc4_zero (c : Dev nD) (t : Fin cfg4.N) (h : t.val = 0) :
    acc4 V c t.val t.isLt = (scA4_0 (iblk4 V c 0 t) (iblk4 V c 1 t), scA4_1 (iblk4 V c 0 t) (iblk4 V c 1 t)) := by
  obtain ⟨n, hn⟩ := t
  cases n with
  | zero => rfl
  | succ n => exact absurd h (Nat.succ_ne_zero n)

theorem acc4_pos (c : Dev nD) (t : Fin cfg4.N) (h : t.val ≠ 0) :
    acc4 V c t.val t.isLt = (scB4_0 (iblk4 V c 0 t) (iblk4 V c 1 t) (acc4 V c (t.val - 1) (Nat.lt_of_le_of_lt (Nat.sub_le _ _) t.isLt)).1,
      scB4_1 (iblk4 V c 0 t) (iblk4 V c 1 t) (acc4 V c (t.val - 1) (Nat.lt_of_le_of_lt (Nat.sub_le _ _) t.isLt)).2) := by
  obtain ⟨n, hn⟩ := t
  cases n with
  | zero => exact absurd rfl h
  | succ n => rfl

/-! ## The region invariant -/

/-- The two scratch operands: whole scoped buffers of the kernel's own. -/
abbrev scM4_0 : Memref sig .tc .vmem S1x128 .f32 := Memref.whole cc4_scratch0
abbrev scM4_1 : Memref sig .tc .vmem S1x128 .f32 := Memref.whole cc4_scratch1

/-- The class invariant with the two scratch operands as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The invariant before position `n`: before the first point every scratch at anything; afterwards the two
    accumulators at what the point before left, the other scoped buffers at anything, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((acc4 V c n hn).1) ∗ owns (c : Thread nD τ) scM4_1 fullShare ((acc4 V c n hn).2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((acc4 V c n hn).1) ∗ owns (c : Thread nD τ) scM4_1 fullShare ((acc4 V c n hn).2))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((acc4 V c (n - 1) (by omega)).1) ∗ owns (c : Thread nD τ) scM4_1 fullShare ((acc4 V c (n - 1) (by omega)).2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of pipeline 4 on core `c`: the arrays as the region finds them; after the body at point `t` each
    input's buffer at its block, the tile output at `out4_2` of the blocks, the two one-row outputs at copies of the
    accumulators after `t` (consulted at the last point only: elsewhere those windows are idle); the invariant `PhiS4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => out4_3 (acc4 V c t.val t.isLt).1
    | ⟨4, _⟩ => out4_4 (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = out4_3 (acc4 V c t.val t.isLt).1 := by dsimp only [dat4]
theorem after4_4 (c : Dev nD) (t : Fin cfg4.N) : (dat4 V c).after 4 t = out4_4 (acc4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (out4_2 (iblk4 V c 0 t) (iblk4 V c 1 t)) := by
  unfold Dat.leavesExact; rw [liveAt4_2 t, after4_2]

set_option maxHeartbeats 4000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 50 := lt_of_lt_of_eq t.isLt (show cfg4.N = 50 from N_4)
  by_cases hz : t.val = 0
  · -- the first point
    have h0 : cond4_0 (grid4.coords t) := (hcond4_0 t).mpr hz
    have h1 : ¬cond4_1 (grid4.coords t) := fun h => by have := (hcond4_1 t).mp h; omega
    have h2 : ¬cond4_2 (grid4.coords t) := fun h => by have := (hcond4_2 t).mp h; omega
    rw [Dat.leavesExact_idle (dat4 V c) 3 t (idleAt4_3 t h2) (noFlush4_3 t h2),
      Dat.leavesExact_idle (dat4 V c) 4 t (idleAt4_4 t h2) (noFlush4_4 t h2)]
    rw [acc4_zero V c t hz]
    rw [PhiS4_castSucc V c t, PhiS4_zero V c _ _ hz, PhiA4_eq]
    iintro ⟨⟨⟨⟨HS0, HS1⟩, Hrest⟩, Hg⟩, Ho, ⟨%d0, H0⟩, ⟨%d1, H1⟩, ⟨%d2, H2⟩, H3, H4⟩
    iapply (sound_kernel4_A c Set.univ (grid4.coords t) _ _ _ _ _ _ _ _ _ _ _ _ _ _ h0 h1 h2 (iblk4 V c 0 t) (iblk4 V c 1 t) _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    iexact H4
  · have h0 : ¬cond4_0 (grid4.coords t) := fun h => hz ((hcond4_0 t).mp h)
    have h1 : cond4_1 (grid4.coords t) := (hcond4_1 t).mpr (by omega)
    rw [acc4_pos V c t hz]
    rw [PhiS4_castSucc V c t, PhiS4_pos V c _ _ hz]
    by_cases hl : t.val = 49
    · -- the last point
      have h2 : cond4_2 (grid4.coords t) := (hcond4_2 t).mpr hl
      rw [show (dat4 V c).leavesExact 3 t = owns (c : Thread nD τ) (st4_3 t) fullShare ((dat4 V c).after 3 t) from by
          unfold Dat.leavesExact; rw [liveAt4_3 t h2],
        show (dat4 V c).leavesExact 4 t = owns (c : Thread nD τ) (st4_4 t) fullShare ((dat4 V c).after 4 t) from by
          unfold Dat.leavesExact; rw [liveAt4_4 t h2],
        after4_3, after4_4, acc4_pos V c t hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel4_C c Set.univ (grid4.coords t) _ _ _ _ _ _ _ _ _ _ _ _ _ _ h0 h1 h2 (iblk4 V c 0 t) (iblk4 V c 1 t) _ _ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · -- a point between
      have h2 : ¬cond4_2 (grid4.coords t) := fun h => hl ((hcond4_2 t).mp h)
      rw [Dat.leavesExact_idle (dat4 V c) 3 t (idleAt4_3 t h2) (noFlush4_3 t h2),
        Dat.leavesExact_idle (dat4 V c) 4 t (idleAt4_4 t h2) (noFlush4_4 t h2)]
      iintro ⟨⟨⟨⟨HS0, HS1⟩, Hrest⟩, Hg⟩, Ho, ⟨%d0, H0⟩, ⟨%d1, H1⟩, ⟨%d2, H2⟩, H3, H4⟩
      iapply (sound_kernel4_B c Set.univ (grid4.coords t) _ _ _ _ _ _ _ _ _ _ _ _ _ _ h0 h1 h2 (iblk4 V c 0 t) (iblk4 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Into and out of the invariant -/

theorem Phi4_in (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi4_out (c : Dev nD) : (dat4 V c).Φ (Fin.last cfg4.N) ⊢ Pipeline.ΦA spec4 c := by
  have hN : cfg4.N = 50 := N_4
  rw [show (dat4 V c).Φ (Fin.last cfg4.N) = PhiS4 V c (Fin.last cfg4.N).val (Nat.le_of_lt_succ (Fin.last cfg4.N).isLt) from rfl,
    PhiS4_pos V c _ _ (by rw [Fin.val_last]; omega), PhiA4_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- What a region segment hands the invariant at the first point: the generator register at some state, anything
    `P` that rides along (the prefetched tables: none here), and the scoped buffers no window stages. -/
theorem phi_in4 (c : Dev nD) {P : sProp 𝕄} :
    iprop((∃ r, prngReg c r) ∗ P ∗ Pipeline.scopedRest (Ix := Unit) (Name := ℕ) (U := UR sig nD τ) (Lvl := ℕ) (Val := Elt F) spec4 c) ⊢ (dat4 V c).Φ 0 := by
  have h : iprop((∃ r, prngReg c r) ∗ P ∗ Pipeline.scopedRest (Ix := Unit) (Name := ℕ) (U := UR sig nD τ) (Lvl := ℕ) (Val := Elt F) spec4 c) ⊢ (Pipeline.ΦA spec4 c : sProp 𝕄) := by
    unfold Pipeline.ΦA
    iintro ⟨Hp, -, Hr⟩
    isplitl [Hr]; · iexact Hr
    iexact Hp
  exact h.trans (Phi4_in V c)

/-- What the invariant gives back after the last point: the generator register and those scoped buffers, the
    accumulators' contents forgotten. -/
theorem phi_out4 (c : Dev nD) :
    (dat4 V c).Φ (Fin.last cfg4.N) ⊢ iprop((∃ r, prngReg c r) ∗ Pipeline.scopedRest (Ix := Unit) (Name := ℕ) (U := UR sig nD τ) (Lvl := ℕ) (Val := Elt F) spec4 c) := by
  have h : (Pipeline.ΦA spec4 c : sProp 𝕄) ⊢ iprop((∃ r, prngReg c r) ∗ Pipeline.scopedRest (Ix := Unit) (Name := ℕ) (U := UR sig nD τ) (Lvl := ℕ) (Val := Elt F) spec4 c) := by
    unfold Pipeline.ΦA
    iintro ⟨Hr, Hp⟩
    isplitl [Hp]; · iexact Hp
    iexact Hr
  exact (Phi4_out V c).trans h

/-- The same with an empty middle conjunct, as a segment with no semaphores of its own wants it. -/
theorem phi_out4_emp (c : Dev nD) :
    (dat4 V c).Φ (Fin.last cfg4.N) ⊢ iprop((∃ r, prngReg c r) ∗ (BI.emp : sProp 𝕄) ∗ Pipeline.scopedRest (Ix := Unit) (Name := ℕ) (U := UR sig nD τ) (Lvl := ℕ) (Val := Elt F) spec4 c) := by
  have h : (Pipeline.ΦA spec4 c : sProp 𝕄) ⊢ iprop((∃ r, prngReg c r) ∗ (BI.emp : sProp 𝕄) ∗ Pipeline.scopedRest (Ix := Unit) (Name := ℕ) (U := UR sig nD τ) (Lvl := ℕ) (Val := Elt F) spec4 c) := by
    unfold Pipeline.ΦA
    iintro ⟨Hr, Hp⟩
    isplitl [Hp]; · iexact Hp
    isplitr; · iempintro
    iexact Hr
  exact (Phi4_out V c).trans h

end Cert.KernelIdeal.Reg

end
-- ==== Proof.KI.Reg5.lean ====
import proofs.«168427_j26276609917010_1_alg».proof.Proof.Gen.KernelIdeal.Launch
import proofs.«168427_j26276609917010_1_alg».proof.Proof.Gen.KernelIdeal.Skeleton
import proofs.«168427_j26276609917010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 5 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every point, whether it was fetched at that point
    or kept from an earlier one (then the block index has not moved), for any data whose array is `V`'s and whose
    body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds the window's block at every point, whether it was fetched at that point
    or kept from an earlier one (then the block index has not moved), for any data whose array is `V`'s and whose
    body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds the window's block at every point, whether it was fetched at that point
    or kept from an earlier one (then the block index has not moved), for any data whose array is `V`'s and whose
    body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-- The output window's staging buffer after the body, from the input windows' blocks: the body's single store,
    of the first block times the second (a row, repeated down the rows) plus the third (a row, repeated likewise). -/
def out5_3 (x0 : Vec F S2000x128 .f32) (x1 : Vec F S1x128 .f32) (x2 : Vec F S1x128 .f32) : Vec F S2000x128 .f32 :=
  View.canon [⟨r5_0, k5_pay1 (View.ld x0 r5_0) (View.ld x1 r5_1) (View.ld x2 r5_1)⟩]

/-- The single store is of the whole buffer, so it covers it. -/
theorem cover5_3 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 4000000 in
/-- The body on whole staging memrefs, the inputs' at contents `xW` and the output's at anything, runs to a
    continuation that holds the inputs' as they were and the output's at `out5_3` of the inputs'. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The data of the region's pipeline on core `c`: the arrays as the region finds them; after the body at point `t`
    each input's buffer at its block and the output's at `out5_3` of the input blocks; the invariant is the
    untouched rest of the core's state; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg
-- ==== Proof.KI.Reg6.lean ====
import proofs.«168427_j26276609917010_1_alg».proof.Proof.Gen.KernelIdeal.Launch
import proofs.«168427_j26276609917010_1_alg».proof.Proof.Gen.KernelIdeal.Skeleton
import proofs.«168427_j26276609917010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 6 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's block at every point, whether it was fetched at that point
    or kept from an earlier one (then the block index has not moved), for any data whose array is `V`'s and whose
    body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- An input window's staging buffer holds the window's block at every point, whether it was fetched at that point
    or kept from an earlier one (then the block index has not moved), for any data whose array is `V`'s and whose
    body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x200 := Rect.unit (s := S2000x200) ![0, 0] S2000x200.size inb_S2000x200_S2000x200_0_0
abbrev r6_1 : Rect S2000x128 := Rect.unit (s := S2000x128) ![0, 0] S2000x128.size inb_S2000x128_S2000x128_0_0
abbrev r6_2 : Rect S200x128 := Rect.unit (s := S200x128) ![0, 0] S200x128.size inb_S200x128_S200x128_0_0
abbrev r6_3 : Rect S128x128 := Rect.unit (s := S128x128) ![0, 0] S128x128.size inb_S128x128_S128x128_0_0
abbrev r6_4 : Rect S1x128 := Rect.unit (s := S1x128) ![0, 0] S1x128.size inb_S1x128_S1x128_0_0

/-- The output window's staging buffer after the body, from the input windows' blocks: the body's single store,
    of the sum of three matrix products (blocks 0, 1, 2 by blocks 3, 4, 5; see the payload for the roundings) plus block 6 (a row, repeated down the rows), cut below at zero. -/
def out6_7 (x0 : Vec F S2000x200 .f32) (x1 : Vec F S2000x128 .f32) (x2 : Vec F S2000x128 .f32) (x3 : Vec F S200x128 .f32) (x4 : Vec F S128x128 .f32) (x5 : Vec F S128x128 .f32) (x6 : Vec F S1x128 .f32) : Vec F S2000x128 .f32 :=
  View.canon [⟨r6_1, k6_pay1 (View.ld x0 r6_0) (View.ld x3 r6_2) (View.ld x1 r6_1) (View.ld x4 r6_3) (View.ld x2 r6_1) (View.ld x5 r6_3) (View.ld x6 r6_4)⟩]

/-- The single store is of the whole buffer, so it covers it. -/
theorem cover6_7 (p0 : Vec F S2000x128 .f32) (y : S2000x128.Idx) :
    ∃ pc ∈ ([⟨r6_1, p0⟩] : List (View.Piece (Elt F) S2000x128 .f32)), y ∈ pc.1.set :=
  View.cover_of_tiled [⟨r6_1, p0⟩] S2000x128.size (by rfl) y

set_option maxHeartbeats 4000000 in
/-- The body on whole staging memrefs, the inputs' at contents `xW` and the output's at anything, runs to a
    continuation that holds the inputs' as they were and the output's at `out6_7` of the inputs'. -/
theorem sound_kernel6 (c : Dev nD) (E : Set ℕ) (i : grid6.Coords) (arg1 : Memref sig .tc .vmem S2000x200 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S200x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2000x128 .f32) (harg8 : arg8.IsWhole)
    (x0 : Vec F S2000x200 .f32) (x1 : Vec F S2000x128 .f32) (x2 : Vec F S2000x128 .f32) (x3 : Vec F S200x128 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6_kernel i arg1 harg1 arg2 harg2 arg3 harg3 arg4 harg4 arg5 harg5 arg6 harg6 arg7 harg7 arg8 harg8) K := by
  simp only [cc6_kernel_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-- The data of the region's pipeline on core `c`: the arrays as the region finds them; after the body at point `t`
    each input's buffer at its block and the output's at `out6_7` of the input blocks; the invariant is the
    untouched rest of the core's state; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-- What the body is called with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the body's triple applies; the invariant and
    what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Reg
-- ==== Proof.KI.Reg7.lean ====
import proofs.«168427_j26276609917010_1_alg».proof.Proof.Gen.KernelIdeal.Launch
import proofs.«168427_j26276609917010_1_alg».proof.Proof.Gen.KernelIdeal.Skeleton
import proofs.«168427_j26276609917010_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! Region 7 of the program, at an arbitrary entry contents `V` of the core's buffers: each window's block at a
    grid point, what the body leaves in the output window's buffer as a function of the input blocks, the body's
    triple, and the data the pipeline rule asks for together with its body obligation. -/

-- membership in a rectangle with thousands of rows is decided by a structural recursion, one step per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's block at every point, whether it was fetched at that point
    or kept from an earlier one (then the block index has not moved), for any data whose array is `V`'s and whose
    body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, whether it was fetched at that point
    or kept from an earlier one (then the block index has not moved), for any data whose array is `V`'s and whose
    body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's staging buffer holds the window's block at every point, whether it was fetched at that point
    or kept from an earlier one (then the block index has not moved), for any data whose array is `V`'s and whose
    body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S2000x128 := Rect.unit (s := S2000x128) ![0, 0] S2000x128.size inb_S2000x128_S2000x128_0_0
abbrev r7_1 : Rect S128x64 := Rect.unit (s := S128x64) ![0, 0] S128x64.size inb_S128x64_S128x64_0_0
abbrev r7_2 : Rect S1x64 := Rect.unit (s := S1x64) ![0, 0] S1x64.size inb_S1x64_S1x64_0_0
abbrev r7_3 : Rect S2000x64 := Rect.unit (s := S2000x64) ![0, 0] S2000x64.size inb_S2000x64_S2000x64_0_0

/-- The output window's staging buffer after the body, from the input windows' blocks: the body's single store,
    of the matrix product of the first block by the second (both rounded to the narrower format first) plus the third (a row, repeated down the rows), cut below at zero. -/
def out7_3 (x0 : Vec F S2000x128 .f32) (x1 : Vec F S128x64 .f32) (x2 : Vec F S1x64 .f32) : Vec F S2000x64 .f32 :=
  View.canon [⟨r7_3, k7_pay1 (View.ld x0 r7_0) (View.ld x1 r7_1) (View.ld x2 r7_2)⟩]

/-- The single store is of the whole buffer, so it covers it. -/
theorem cover7_3 (p0 : Vec F S2000x64 .f32) (y : S2000x64.Idx) :
    ∃ pc ∈ ([⟨r7_3, p0⟩] : List (View.Piece (Elt F) S2000x64 .f32)), y ∈ pc.1.set :=
  View.cover_of_tiled [⟨r7_3, p0⟩] S2000x64.size (by rfl) y

set_option maxHeartbeats 4000000 in
/-- The body on whole staging memrefs, the inputs' at contents `xW` and the output's at anything, runs to a
    continuation that holds the inputs' as they were and the output's at `out7_3` of the inputs'. -/
theorem sound_kernel7 (c : Dev nD) (E : Set ℕ) (i : grid7.Coords) (arg1 : Memref sig .tc .vmem S2000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The data of the region's pipeline on core `c`: the arrays as the region finds them; after the body at point `t`
    each input's buffer at its block and the output's at `out7_3` of the input blocks; the invariant is the
    untouched rest of the core's state; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Reg
-- ==== Proof.KI.Run.lean ====
/-
  The whole run of @main: eight kernel regions among ten stretches of host operations, composed in order.
  At every boundary between two items the contents of a core's unscoped buffers are NAMED: `W0` is the launch
  memory, a stretch of host operations takes `Wj` to the fold of its operations over `Wj`, and a region takes `Wj`
  to `Wj` with each of the region's arrays replaced by what the pipeline's write-backs leave there (an input array:
  what it was; an output array: its blocks as the grid's points wrote them). Each region is entered from the
  unscoped buffers at its boundary's contents and left at the next boundary's; the generator register and the
  core's debt (nothing) ride along. The run's last state holds every unscoped buffer at `W18`.
-/
import proofs.«168427_j26276609917010_1_alg».proof.Proof.KI.Reg0
import proofs.«168427_j26276609917010_1_alg».proof.Proof.KI.Reg1
import proofs.«168427_j26276609917010_1_alg».proof.Proof.KI.Reg2
import proofs.«168427_j26276609917010_1_alg».proof.Proof.KI.Reg3
import proofs.«168427_j26276609917010_1_alg».proof.Proof.KI.Reg4
import proofs.«168427_j26276609917010_1_alg».proof.Proof.KI.Reg5
import proofs.«168427_j26276609917010_1_alg».proof.Proof.KI.Reg6
import proofs.«168427_j26276609917010_1_alg».proof.Proof.KI.Reg7
import proofs.«168427_j26276609917010_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- A boundary's contents read at the TensorCore's references: what a region's proof data take. -/
abbrev atTc (W : Dev nD → Valuation τ sig (Elt F)) : (c : Dev nD) → (b : Ref sig .tc) → Buf (Elt F) ((c : Thread nD τ).loc b) :=
  fun c b => W c b

/-- The launch memory. -/
abbrev W0 : Dev nD → Valuation τ sig (Elt F) := fun c b => m (c, b)
/-- After the host stretch `hostOps0`. -/
abbrev W1 : Dev nD → Valuation τ sig (Elt F) := fun c => StableHlo.after hostOps0 (W0 m c)
/-- After the host stretch `hostOps0_1`. -/
abbrev W2 : Dev nD → Valuation τ sig (Elt F) := fun c => StableHlo.after hostOps0_1 (W1 m c)
/-- After the host stretch `hostOps0_2`. -/
abbrev W3 : Dev nD → Valuation τ sig (Elt F) := fun c => StableHlo.after hostOps0_2 (W2 m c)
/-- After region 0: its arrays at what the pipeline leaves, every other buffer as entered. -/
def W4 (c : Dev nD) : Valuation τ sig (Elt F) :=
  Pipeline.withArrays spec0 c (W3 m c) fun w => (dat0 (atTc (W3 m)) c).arrAt w cfg0.N
theorem W4_arr (c : Dev nD) (w : Fin cfg0.W) :
    W4 m c (Proc.devRef .tc (Pipeline.arrRef spec0 w)) = (dat0 (atTc (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem exitArr0 (c : Dev nD) (w : Fin cfg0.W) : (dat0 (atTc (W3 m)) c).arrAt w cfg0.N = atTc (W4 m) c (Pipeline.arrRef spec0 w) :=
  (W4_arr m c w).symm
theorem exitRest0 (c : Dev nD) : ∀ b, b ∉ Finset.univ.image (Pipeline.arrRef spec0) → atTc (W4 m) c b = atTc (W3 m) c b :=
  fun b hb => W4_of_ne m c b fun w e => hb (Finset.mem_image.mpr ⟨w, Finset.mem_univ _, e⟩)
/-- After the host stretch `hostOps1`. -/
abbrev W5 : Dev nD → Valuation τ sig (Elt F) := fun c => StableHlo.after hostOps1 (W4 m c)
/-- After region 1: its arrays at what the pipeline leaves, every other buffer as entered. -/
def W6 (c : Dev nD) : Valuation τ sig (Elt F) :=
  Pipeline.withArrays spec1 c (W5 m c) fun w => (dat1 (atTc (W5 m)) c).arrAt w cfg1.N
theorem W6_arr (c : Dev nD) (w : Fin cfg1.W) :
    W6 m c (Proc.devRef .tc (Pipeline.arrRef spec1 w)) = (dat1 (atTc (W5 m)) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem exitArr1 (c : Dev nD) (w : Fin cfg1.W) : (dat1 (atTc (W5 m)) c).arrAt w cfg1.N = atTc (W6 m) c (Pipeline.arrRef spec1 w) :=
  (W6_arr m c w).symm
theorem exitRest1 (c : Dev nD) : ∀ b, b ∉ Finset.univ.image (Pipeline.arrRef spec1) → atTc (W6 m) c b = atTc (W5 m) c b :=
  fun b hb => W6_of_ne m c b fun w e => hb (Finset.mem_image.mpr ⟨w, Finset.mem_univ _, e⟩)
/-- After the host stretch `hostOps2`. -/
abbrev W7 : Dev nD → Valuation τ sig (Elt F) := fun c => StableHlo.after hostOps2 (W6 m c)
/-- After region 2: its arrays at what the pipeline leaves, every other buffer as entered. -/
def W8 (c : Dev nD) : Valuation τ sig (Elt F) :=
  Pipeline.withArrays spec2 c (W7 m c) fun w => (dat2 (atTc (W7 m)) c).arrAt w cfg2.N
theorem W8_arr (c : Dev nD) (w : Fin cfg2.W) :
    W8 m c (Proc.devRef .tc (Pipeline.arrRef spec2 w)) = (dat2 (atTc (W7 m)) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem exitArr2 (c : Dev nD) (w : Fin cfg2.W) : (dat2 (atTc (W7 m)) c).arrAt w cfg2.N = atTc (W8 m) c (Pipeline.arrRef spec2 w) :=
  (W8_arr m c w).symm
theorem exitRest2 (c : Dev nD) : ∀ b, b ∉ Finset.univ.image (Pipeline.arrRef spec2) → atTc (W8 m) c b = atTc (W7 m) c b :=
  fun b hb => W8_of_ne m c b fun w e => hb (Finset.mem_image.mpr ⟨w, Finset.mem_univ _, e⟩)
/-- After the host stretch `hostOps3`. -/
abbrev W9 : Dev nD → Valuation τ sig (Elt F) := fun c => StableHlo.after hostOps3 (W8 m c)
/-- After region 3: its arrays at what the pipeline leaves, every other buffer as entered. -/
def W10 (c : Dev nD) : Valuation τ sig (Elt F) :=
  Pipeline.withArrays spec3 c (W9 m c) fun w => (dat3 (atTc (W9 m)) c).arrAt w cfg3.N
theorem W10_arr (c : Dev nD) (w : Fin cfg3.W) :
    W10 m c (Proc.devRef .tc (Pipeline.arrRef spec3 w)) = (dat3 (atTc (W9 m)) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
theorem exitArr3 (c : Dev nD) (w : Fin cfg3.W) : (dat3 (atTc (W9 m)) c).arrAt w cfg3.N = atTc (W10 m) c (Pipeline.arrRef spec3 w) :=
  (W10_arr m c w).symm
theorem exitRest3 (c : Dev nD) : ∀ b, b ∉ Finset.univ.image (Pipeline.arrRef spec3) → atTc (W10 m) c b = atTc (W9 m) c b :=
  fun b hb => W10_of_ne m c b fun w e => hb (Finset.mem_image.mpr ⟨w, Finset.mem_univ _, e⟩)
/-- After the host stretch `hostOps4`. -/
abbrev W11 : Dev nD → Valuation τ sig (Elt F) := fun c => StableHlo.after hostOps4 (W10 m c)
/-- After region 4: its arrays at what the pipeline leaves, every other buffer as entered. -/
def W12 (c : Dev nD) : Valuation τ sig (Elt F) :=
  Pipeline.withArrays spec4 c (W11 m c) fun w => (dat4 (atTc (W11 m)) c).arrAt w cfg4.N
theorem W12_arr (c : Dev nD) (w : Fin cfg4.W) :
    W12 m c (Proc.devRef .tc (Pipeline.arrRef spec4 w)) = (dat4 (atTc (W11 m)) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
theorem exitArr4 (c : Dev nD) (w : Fin cfg4.W) : (dat4 (atTc (W11 m)) c).arrAt w cfg4.N = atTc (W12 m) c (Pipeline.arrRef spec4 w) :=
  (W12_arr m c w).symm
theorem exitRest4 (c : Dev nD) : ∀ b, b ∉ Finset.univ.image (Pipeline.arrRef spec4) → atTc (W12 m) c b = atTc (W11 m) c b :=
  fun b hb => W12_of_ne m c b fun w e => hb (Finset.mem_image.mpr ⟨w, Finset.mem_univ _, e⟩)
/-- After the host stretch `hostOps5`. -/
abbrev W13 : Dev nD → Valuation τ sig (Elt F) := fun c => StableHlo.after hostOps5 (W12 m c)
/-- After region 5: its arrays at what the pipeline leaves, every other buffer as entered. -/
def W14 (c : Dev nD) : Valuation τ sig (Elt F) :=
  Pipeline.withArrays spec5 c (W13 m c) fun w => (dat5 (atTc (W13 m)) c).arrAt w cfg5.N
theorem W14_arr (c : Dev nD) (w : Fin cfg5.W) :
    W14 m c (Proc.devRef .tc (Pipeline.arrRef spec5 w)) = (dat5 (atTc (W13 m)) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
theorem exitArr5 (c : Dev nD) (w : Fin cfg5.W) : (dat5 (atTc (W13 m)) c).arrAt w cfg5.N = atTc (W14 m) c (Pipeline.arrRef spec5 w) :=
  (W14_arr m c w).symm
theorem exitRest5 (c : Dev nD) : ∀ b, b ∉ Finset.univ.image (Pipeline.arrRef spec5) → atTc (W14 m) c b = atTc (W13 m) c b :=
  fun b hb => W14_of_ne m c b fun w e => hb (Finset.mem_image.mpr ⟨w, Finset.mem_univ _, e⟩)
/-- After the host stretch `hostOps6`. -/
abbrev W15 : Dev nD → Valuation τ sig (Elt F) := fun c => StableHlo.after hostOps6 (W14 m c)
/-- After region 6: its arrays at what the pipeline leaves, every other buffer as entered. -/
def W16 (c : Dev nD) : Valuation τ sig (Elt F) :=
  Pipeline.withArrays spec6 c (W15 m c) fun w => (dat6 (atTc (W15 m)) c).arrAt w cfg6.N
theorem W16_arr (c : Dev nD) (w : Fin cfg6.W) :
    W16 m c (Proc.devRef .tc (Pipeline.arrRef spec6 w)) = (dat6 (atTc (W15 m)) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) := by
  unfold W16; exact Pipeline.withArrays_of_ne spec6 c _ _ b hb
theorem exitArr6 (c : Dev nD) (w : Fin cfg6.W) : (dat6 (atTc (W15 m)) c).arrAt w cfg6.N = atTc (W16 m) c (Pipeline.arrRef spec6 w) :=
  (W16_arr m c w).symm
theorem exitRest6 (c : Dev nD) : ∀ b, b ∉ Finset.univ.image (Pipeline.arrRef spec6) → atTc (W16 m) c b = atTc (W15 m) c b :=
  fun b hb => W16_of_ne m c b fun w e => hb (Finset.mem_image.mpr ⟨w, Finset.mem_univ _, e⟩)
/-- After the host stretch `hostOps7`. -/
abbrev W17 : Dev nD → Valuation τ sig (Elt F) := fun c => StableHlo.after hostOps7 (W16 m c)
/-- After region 7: its arrays at what the pipeline leaves, every other buffer as entered. -/
def W18 (c : Dev nD) : Valuation τ sig (Elt F) :=
  Pipeline.withArrays spec7 c (W17 m c) fun w => (dat7 (atTc (W17 m)) c).arrAt w cfg7.N
theorem W18_arr (c : Dev nD) (w : Fin cfg7.W) :
    W18 m c (Proc.devRef .tc (Pipeline.arrRef spec7 w)) = (dat7 (atTc (W17 m)) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m c (Proc.devRef .tc b) = W17 m c (Proc.devRef .tc b) := by
  unfold W18; exact Pipeline.withArrays_of_ne spec7 c _ _ b hb
theorem exitArr7 (c : Dev nD) (w : Fin cfg7.W) : (dat7 (atTc (W17 m)) c).arrAt w cfg7.N = atTc (W18 m) c (Pipeline.arrRef spec7 w) :=
  (W18_arr m c w).symm
theorem exitRest7 (c : Dev nD) : ∀ b, b ∉ Finset.univ.image (Pipeline.arrRef spec7) → atTc (W18 m) c b = atTc (W17 m) c b :=
  fun b hb => W18_of_ne m c b fun w e => hb (Finset.mem_image.mpr ⟨w, Finset.mem_univ _, e⟩)

/-! ## The proof data family and what rides beside the buffers -/

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (atTc (W3 m)) c
  | ⟨1, _⟩ => fun c => dat1 (atTc (W5 m)) c
  | ⟨2, _⟩ => fun c => dat2 (atTc (W7 m)) c
  | ⟨3, _⟩ => fun c => dat3 (atTc (W9 m)) c
  | ⟨4, _⟩ => fun c => dat4 (atTc (W11 m)) c
  | ⟨5, _⟩ => fun c => dat5 (atTc (W13 m)) c
  | ⟨6, _⟩ => fun c => dat6 (atTc (W15 m)) c
  | ⟨7, _⟩ => fun c => dat7 (atTc (W17 m)) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the core's generator register at some state, and its debt, which is nothing. -/
abbrev R (c : Dev nD) : sProp 𝕄 := iprop((∃ r, prngReg c r) ∗ ∃ W, owes (c : Thread nD τ) (0 : CellTallies nD τ sig Unit) W)
/-- A stretch of host operations as an item: from the contents `W` to the fold of the operations over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last item's exit without the debt: every unscoped buffer at `W18`, the generator register at some state. -/
abbrev Tₙ (c : Dev nD) : sProp 𝕄 := iprop(StableHlo.held (c : Thread nD τ) (Pipeline.ucRefs τ sig) (W18 m c) ∗ ∃ r, prngReg c r)

/-! ## The regions as items -/

set_option backward.isDefEq.respectTransparency.types false in
/-- Region 0: entered from every unscoped buffer at `W3`, left at `W4`. Its arrays are split out of the
    unscoped buffers at entry and put back at their final contents at exit; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W3 m)) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`. Its arrays are split out of the
    unscoped buffers at entry and put back at their final contents at exit; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in1 _ c
  hout c := by rw [Pipeline.ownSems0_none]; exact phi_out1_emp _ c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W7`, left at `W8`. Its arrays are split out of the
    unscoped buffers at entry and put back at their final contents at exit; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atTc (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W7 m) c) (atTc (W8 m) c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W9`, left at `W10`. Its arrays are split out of the
    unscoped buffers at entry and put back at their final contents at exit; the generator register goes into the
    pipeline's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (atTc (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W9 m) c) (atTc (W10 m) c) ((pdats m 3 c).arrAt · cfg3.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W11`, left at `W12`. Its arrays are split out of the
    unscoped buffers at entry and put back at their final contents at exit; the generator register goes into the
    pipeline's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (atTc (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := phi_in4 _ c
  hout c := by rw [Pipeline.ownSems0_none]; exact phi_out4_emp _ c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W11 m) c) (atTc (W12 m) c) ((pdats m 4 c).arrAt · cfg4.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W13`, left at `W14`. Its arrays are split out of the
    unscoped buffers at entry and put back at their final contents at exit; the generator register goes into the
    pipeline's invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W13 m)) c).loose
  hwaits := Pipeline.hwaits_of_owed_zero _ _ _ _ L lv 5 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec5 c (atTc (W13 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W13 m) c) (atTc (W14 m) c) ((pdats m 5 c).arrAt · cfg5.N) (exitArr5 m c) (exitRest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W15`, left at `W16`. Its arrays are split out of the
    unscoped buffers at entry and put back at their final contents at exit; the generator register goes into the
    pipeline's invariant and comes back; nothing is owed; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (W15 m)) c).loose
  hwaits := Pipeline.hwaits_of_owed_zero _ _ _ _ L lv 6 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec6 c (atTc (W15 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (W15 m) c) (atTc (W16 m) c) ((pdats m 6 c).arrAt · cfg6.N) (exitArr6 m c) (exitRest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W17`, left at `W18`. Its arrays are split out of the
    unscoped buffers at entry and put back at their final contents at exit; the generator register goes into the
    pipeline's invariant and comes back; nothing is owed; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atTc (W17 m)) c).loose
  hwaits := Pipeline.hwaits_of_owed_zero _ _ _ _ L lv 7 fun _ _ => rfl
  pre c := iprop(StableHlo.held (c : Thread nD τ) (Pipeline.ucRefs τ sig) (W17 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (atTc (W17 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (W17 m) c) (atTc (W18 m) c) ((pdats m 7 c).arrAt · cfg7.N) (exitArr7 m c) (exitRest7 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the run -/

/-- @main's eighteen items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)),
    .region (reg6 m),
    .host (hseg hostOps7 hostOps7_sub hostOps7_fresh (W16 m)),
    .region (reg7 m) ]
/-- @main is the run of its items. -/
theorem main_run (c : Dev nD) : main (F := F) c = Pipeline.Seg.run (segs m) := (main_chain c).trans (by chain_rfl)

/-- An unscoped TensorCore reference is among those the run's last state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters, every weakly fair execution of @main terminates, nothing faulting, and in every
    final state each unscoped buffer of each core holds the last boundary's contents `W18`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

end Cert.KernelIdeal.Reg

end
-- ==== Proof.KI.Keep.lean ====
/-
  What the run never touches. A stretch of host operations changes only the buffers its operations write; a region
  changes only its output arrays (an input array is never written back). So a buffer that no stretch writes and that
  is no region's output holds at the last boundary what the launch memory held: every argument array is such a
  buffer, which is the frame claim.
-/
import proofs.«168427_j26276609917010_1_alg».proof.Proof.KI.Run

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem keep_W1 (c : Dev nD) (r : Ref sig .tc) (h : r ∉ hostOps0_W) : W1 m c (Proc.devRef .tc r) = W0 m c (Proc.devRef .tc r) :=
  StableHlo.after_of_writes_sub hostOps0 _ hostOps0_writes h
theorem keep_W2 (c : Dev nD) (r : Ref sig .tc) (h : r ∉ hostOps0_1_W) : W2 m c (Proc.devRef .tc r) = W1 m c (Proc.devRef .tc r) :=
  StableHlo.after_of_writes_sub hostOps0_1 _ hostOps0_1_writes h
theorem keep_W3 (c : Dev nD) (r : Ref sig .tc) (h : r ∉ hostOps0_2_W) : W3 m c (Proc.devRef .tc r) = W2 m c (Proc.devRef .tc r) :=
  StableHlo.after_of_writes_sub hostOps0_2 _ hostOps0_2_writes h
theorem keep_W4 (c : Dev nD) (r : Ref sig .tc) (h : r ∉ ([main_v34] : List (Ref sig .tc))) :
    W4 m c (Proc.devRef .tc r) = W3 m c (Proc.devRef .tc r) := by
  by_cases hw : ∃ w, Pipeline.arrRef spec0 w = r
  · obtain ⟨w, rfl⟩ := hw
    rw [W4_arr]
    have hin : (cfg0.win w).isOut = false := by
      fin_cases w <;> first | rfl | (exfalso; exact h (by decide))
    exact ((dat0 (atTc (W3 m)) c).arrAt_in w hin _).trans (A_eq0 (atTc (W3 m)) c w)
  · exact W4_of_ne m c r (fun w e => hw ⟨w, e⟩)
theorem keep_W5 (c : Dev nD) (r : Ref sig .tc) (h : r ∉ hostOps1_W) : W5 m c (Proc.devRef .tc r) = W4 m c (Proc.devRef .tc r) :=
  StableHlo.after_of_writes_sub hostOps1 _ hostOps1_writes h
theorem keep_W6 (c : Dev nD) (r : Ref sig .tc) (h : r ∉ ([main_v49_0, main_v49_1, main_v49_2] : List (Ref sig .tc))) :
    W6 m c (Proc.devRef .tc r) = W5 m c (Proc.devRef .tc r) := by
  by_cases hw : ∃ w, Pipeline.arrRef spec1 w = r
  · obtain ⟨w, rfl⟩ := hw
    rw [W6_arr]
    have hin : (cfg1.win w).isOut = false := by
      fin_cases w <;> first | rfl | (exfalso; exact h (by decide))
    exact ((dat1 (atTc (W5 m)) c).arrAt_in w hin _).trans (A_eq1 (atTc (W5 m)) c w)
  · exact W6_of_ne m c r (fun w e => hw ⟨w, e⟩)
theorem keep_W7 (c : Dev nD) (r : Ref sig .tc) (h : r ∉ hostOps2_W) : W7 m c (Proc.devRef .tc r) = W6 m c (Proc.devRef .tc r) :=
  StableHlo.after_of_writes_sub hostOps2 _ hostOps2_writes h
theorem keep_W8 (c : Dev nD) (r : Ref sig .tc) (h : r ∉ ([main_v64] : List (Ref sig .tc))) :
    W8 m c (Proc.devRef .tc r) = W7 m c (Proc.devRef .tc r) := by
  by_cases hw : ∃ w, Pipeline.arrRef spec2 w = r
  · obtain ⟨w, rfl⟩ := hw
    rw [W8_arr]
    have hin : (cfg2.win w).isOut = false := by
      fin_cases w <;> first | rfl | (exfalso; exact h (by decide))
    exact ((dat2 (atTc (W7 m)) c).arrAt_in w hin _).trans (A_eq2 (atTc (W7 m)) c w)
  · exact W8_of_ne m c r (fun w e => hw ⟨w, e⟩)
theorem keep_W9 (c : Dev nD) (r : Ref sig .tc) (h : r ∉ hostOps3_W) : W9 m c (Proc.devRef .tc r) = W8 m c (Proc.devRef .tc r) :=
  StableHlo.after_of_writes_sub hostOps3 _ hostOps3_writes h
theorem keep_W10 (c : Dev nD) (r : Ref sig .tc) (h : r ∉ ([main_v67] : List (Ref sig .tc))) :
    W10 m c (Proc.devRef .tc r) = W9 m c (Proc.devRef .tc r) := by
  by_cases hw : ∃ w, Pipeline.arrRef spec3 w = r
  · obtain ⟨w, rfl⟩ := hw
    rw [W10_arr]
    have hin : (cfg3.win w).isOut = false := by
      fin_cases w <;> first | rfl | (exfalso; exact h (by decide))
    exact ((dat3 (atTc (W9 m)) c).arrAt_in w hin _).trans (A_eq3 (atTc (W9 m)) c w)
  · exact W10_of_ne m c r (fun w e => hw ⟨w, e⟩)
theorem keep_W11 (c : Dev nD) (r : Ref sig .tc) (h : r ∉ hostOps4_W) : W11 m c (Proc.devRef .tc r) = W10 m c (Proc.devRef .tc r) :=
  StableHlo.after_of_writes_sub hostOps4 _ hostOps4_writes h
theorem keep_W12 (c : Dev nD) (r : Ref sig .tc) (h : r ∉ ([main_v82_0, main_v82_1, main_v82_2] : List (Ref sig .tc))) :
    W12 m c (Proc.devRef .tc r) = W11 m c (Proc.devRef .tc r) := by
  by_cases hw : ∃ w, Pipeline.arrRef spec4 w = r
  · obtain ⟨w, rfl⟩ := hw
    rw [W12_arr]
    have hin : (cfg4.win w).isOut = false := by
      fin_cases w <;> first | rfl | (exfalso; exact h (by decide))
    exact ((dat4 (atTc (W11 m)) c).arrAt_in w hin _).trans (A_eq4 (atTc (W11 m)) c w)
  · exact W12_of_ne m c r (fun w e => hw ⟨w, e⟩)
theorem keep_W13 (c : Dev nD) (r : Ref sig .tc) (h : r ∉ hostOps5_W) : W13 m c (Proc.devRef .tc r) = W12 m c (Proc.devRef .tc r) :=
  StableHlo.after_of_writes_sub hostOps5 _ hostOps5_writes h
theorem keep_W14 (c : Dev nD) (r : Ref sig .tc) (h : r ∉ ([main_v97] : List (Ref sig .tc))) :
    W14 m c (Proc.devRef .tc r) = W13 m c (Proc.devRef .tc r) := by
  by_cases hw : ∃ w, Pipeline.arrRef spec5 w = r
  · obtain ⟨w, rfl⟩ := hw
    rw [W14_arr]
    have hin : (cfg5.win w).isOut = false := by
      fin_cases w <;> first | rfl | (exfalso; exact h (by decide))
    exact ((dat5 (atTc (W13 m)) c).arrAt_in w hin _).trans (A_eq5 (atTc (W13 m)) c w)
  · exact W14_of_ne m c r (fun w e => hw ⟨w, e⟩)
theorem keep_W15 (c : Dev nD) (r : Ref sig .tc) (h : r ∉ hostOps6_W) : W15 m c (Proc.devRef .tc r) = W14 m c (Proc.devRef .tc r) :=
  StableHlo.after_of_writes_sub hostOps6 _ hostOps6_writes h
theorem keep_W16 (c : Dev nD) (r : Ref sig .tc) (h : r ∉ ([main_v102] : List (Ref sig .tc))) :
    W16 m c (Proc.devRef .tc r) = W15 m c (Proc.devRef .tc r) := by
  by_cases hw : ∃ w, Pipeline.arrRef spec6 w = r
  · obtain ⟨w, rfl⟩ := hw
    rw [W16_arr]
    have hin : (cfg6.win w).isOut = false := by
      fin_cases w <;> first | rfl | (exfalso; exact h (by decide))
    exact ((dat6 (atTc (W15 m)) c).arrAt_in w hin _).trans (A_eq6 (atTc (W15 m)) c w)
  · exact W16_of_ne m c r (fun w e => hw ⟨w, e⟩)
theorem keep_W17 (c : Dev nD) (r : Ref sig .tc) (h : r ∉ hostOps7_W) : W17 m c (Proc.devRef .tc r) = W16 m c (Proc.devRef .tc r) :=
  StableHlo.after_of_writes_sub hostOps7 _ hostOps7_writes h
theorem keep_W18 (c : Dev nD) (r : Ref sig .tc) (h : r ∉ ([main_v104] : List (Ref sig .tc))) :
    W18 m c (Proc.devRef .tc r) = W17 m c (Proc.devRef .tc r) := by
  by_cases hw : ∃ w, Pipeline.arrRef spec7 w = r
  · obtain ⟨w, rfl⟩ := hw
    rw [W18_arr]
    have hin : (cfg7.win w).isOut = false := by
      fin_cases w <;> first | rfl | (exfalso; exact h (by decide))
    exact ((dat7 (atTc (W17 m)) c).arrAt_in w hin _).trans (A_eq7 (atTc (W17 m)) c w)
  · exact W18_of_ne m c r (fun w e => hw ⟨w, e⟩)

/-- The buffers each item may change, item by item. -/
abbrev touched : List (List (Ref sig .tc)) :=
  [hostOps0_W,
   hostOps0_1_W,
   hostOps0_2_W,
   ([main_v34] : List (Ref sig .tc)),
   hostOps1_W,
   ([main_v49_0, main_v49_1, main_v49_2] : List (Ref sig .tc)),
   hostOps2_W,
   ([main_v64] : List (Ref sig .tc)),
   hostOps3_W,
   ([main_v67] : List (Ref sig .tc)),
   hostOps4_W,
   ([main_v82_0, main_v82_1, main_v82_2] : List (Ref sig .tc)),
   hostOps5_W,
   ([main_v97] : List (Ref sig .tc)),
   hostOps6_W,
   ([main_v102] : List (Ref sig .tc)),
   hostOps7_W,
   ([main_v104] : List (Ref sig .tc))]

/-- A buffer no item changes holds at the last boundary its launch contents. -/
theorem W18_untouched (c : Dev nD) (r : Ref sig .tc) (h : ∀ L ∈ touched, r ∉ L) :
    W18 m c (Proc.devRef .tc r) = m ((c : Thread nD τ).loc r) := by
  have h0 : r ∉ hostOps0_W := h _ (List.Mem.head _)
  have h1 : r ∉ hostOps0_1_W := h _ (List.Mem.tail _ (List.Mem.head _))
  have h2 : r ∉ hostOps0_2_W := h _ (List.Mem.tail _ (List.Mem.tail _ (List.Mem.head _)))
  have h3 : r ∉ ([main_v34] : List (Ref sig .tc)) := h _ (List.Mem.tail _ (List.Mem.tail _ (List.Mem.tail _ (List.Mem.head _))))
  have h4 : r ∉ hostOps1_W := h _ (List.Mem.tail _ (List.Mem.tail _ (List.Mem.tail _ (List.Mem.tail _ (List.Mem.head _)))))
  have h5 : r ∉ ([main_v49_0, main_v49_1, main_v49_2] : List (Ref sig .tc)) := h _ (List.Mem.tail _ (List.Mem.tail _ (List.Mem.tail _ (List.Mem.tail _ (List.Mem.tail _ (List.Mem.head _))))))
  have h6 : r ∉ hostOps2_W := h _ (List.Mem.tail _ (List.Mem.tail _ (List.Mem.tail _ (List.Mem.tail _ (List.Mem.tail _ (List.Mem.tail _ (List.Mem.head _)))))))
  have h7 : r ∉ ([main_v64] : List (Ref sig .tc)) := h _ (List.Mem.tail _ (List.Mem.tail _ (List.Mem.tail _ (List.Mem.tail _ (List.Mem.tail _ (List.Mem.tail _ (List.Mem.tail _ (List.Mem.head _))))))))
  have h8 : r ∉ hostOps3_W := h _ (List.Mem.tail _ (List.Mem.tail _ (List.Mem.tail _ (List.Mem.tail _ (List.Mem.tail _ (List.Mem.tail _ (List.Mem.tail _ (List.Mem.tail _ (List.Mem.head _)))))))))
  have h9 : r ∉ ([main_v67] : List (Ref sig .tc)) := h _ (List.Mem.tail _ (List.Mem.tail _ (List.Mem.tail _ (List.Mem.tail _ (List.Mem.tail _ (List.Mem.tail _ (List.Mem.tail _ (List.Mem.tail _ (List.Mem.tail _ (List.Mem.head _))))))))))
  have h10 : r ∉ hostOps4_W := h _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))
  have h11 : r ∉ ([main_v82_0, main_v82_1, main_v82_2] : List (Ref sig .tc)) := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))
  have h12 : r ∉ hostOps5_W := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))
  have h13 : r ∉ ([main_v97] : List (Ref sig .tc)) := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))
  have h14 : r ∉ hostOps6_W := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))
  have h15 : r ∉ ([main_v102] : List (Ref sig .tc)) := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))
  have h16 : r ∉ hostOps7_W := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))
  have h17 : r ∉ ([main_v104] : List (Ref sig .tc)) := h _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))
  calc W18 m c (Proc.devRef .tc r)
    _ = W17 m c (Proc.devRef .tc r) := keep_W18 m c r h17
    _ = W16 m c (Proc.devRef .tc r) := keep_W17 m c r h16
    _ = W15 m c (Proc.devRef .tc r) := keep_W16 m c r h15
    _ = W14 m c (Proc.devRef .tc r) := keep_W15 m c r h14
    _ = W13 m c (Proc.devRef .tc r) := keep_W14 m c r h13
    _ = W12 m c (Proc.devRef .tc r) := keep_W13 m c r h12
    _ = W11 m c (Proc.devRef .tc r) := keep_W12 m c r h11
    _ = W10 m c (Proc.devRef .tc r) := keep_W11 m c r h10
    _ = W9 m c (Proc.devRef .tc r) := keep_W10 m c r h9
    _ = W8 m c (Proc.devRef .tc r) := keep_W9 m c r h8
    _ = W7 m c (Proc.devRef .tc r) := keep_W8 m c r h7
    _ = W6 m c (Proc.devRef .tc r) := keep_W7 m c r h6
    _ = W5 m c (Proc.devRef .tc r) := keep_W6 m c r h5
    _ = W4 m c (Proc.devRef .tc r) := keep_W5 m c r h4
    _ = W3 m c (Proc.devRef .tc r) := keep_W4 m c r h3
    _ = W2 m c (Proc.devRef .tc r) := keep_W3 m c r h2
    _ = W1 m c (Proc.devRef .tc r) := keep_W2 m c r h1
    _ = W0 m c (Proc.devRef .tc r) := keep_W1 m c r h0
    _ = m ((c : Thread nD τ).loc r) := rfl

/-- The frame: every weakly fair execution of @main terminates without a fault and leaves the fifteen argument arrays as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W18_untouched m c main_arg0 (by decide)),
     (h c _ (mem_uc main_arg1 (by decide))).trans (W18_untouched m c main_arg1 (by decide)),
     (h c _ (mem_uc main_arg2 (by decide))).trans (W18_untouched m c main_arg2 (by decide)),
     (h c _ (mem_uc main_arg3 (by decide))).trans (W18_untouched m c main_arg3 (by decide)),
     (h c _ (mem_uc main_arg4 (by decide))).trans (W18_untouched m c main_arg4 (by decide)),
     (h c _ (mem_uc main_arg5 (by decide))).trans (W18_untouched m c main_arg5 (by decide)),
     (h c _ (mem_uc main_arg6 (by decide))).trans (W18_untouched m c main_arg6 (by decide)),
     (h c _ (mem_uc main_arg7 (by decide))).trans (W18_untouched m c main_arg7 (by decide)),
     (h c _ (mem_uc main_arg8 (by decide))).trans (W18_untouched m c main_arg8 (by decide)),
     (h c _ (mem_uc main_arg9 (by decide))).trans (W18_untouched m c main_arg9 (by decide)),
     (h c _ (mem_uc main_arg10 (by decide))).trans (W18_untouched m c main_arg10 (by decide)),
     (h c _ (mem_uc main_arg11 (by decide))).trans (W18_untouched m c main_arg11 (by decide)),
     (h c _ (mem_uc main_arg12 (by decide))).trans (W18_untouched m c main_arg12 (by decide)),
     (h c _ (mem_uc main_arg13 (by decide))).trans (W18_untouched m c main_arg13 (by decide)),
     (h c _ (mem_uc main_arg14 (by decide))).trans (W18_untouched m c main_arg14 (by decide))⟩)
    (run_all m ρ)

end Cert.KernelIdeal.Reg

end
-- ==== Proof.LibAfter.lean ====
import Idealize.ShloMosaic.Lib.StableHlo.Run
import Mathlib.Data.List.Forall2

/-! A straight line of host operations in which every buffer is written at most once (single assignment). The
    contents a buffer ends with are then those it has right after the one operation that writes it, and that
    operation reads operands whose contents no later operation changes: so the FINAL valuation satisfies one equation
    per operation, over the final contents of its operands — no walk through the later operations is needed. -/

noncomputable section

namespace Cert.Lib

open Idealize.ShloMosaic Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position `i` on writes ends with what it holds after the first `i` operations. -/
theorem after_eq_take (ops : List (HloOp τ sig Val)) (V : Valuation τ sig Val) (i : Nat) (b : DevRef τ sig)
    (h : ∀ op ∈ ops.drop i, b ∉ op.writes) : after ops V b = after (ops.take i) V b := by
  conv_lhs => rw [← List.take_append_drop i ops, after_append]
  exact after_of_forall_not_mem _ _ h

/-- Operations that each write the one buffer listed beside them write no reference that is not in the list. -/
theorem not_mem_writes_of_forall₂ {l : List (HloOp τ sig Val)} {W : List (Ref sig .tc)}
    (hW : List.Forall₂ (fun op y => op.writes = {Proc.devRef (τ := τ) .tc y}) l W) (r : Ref sig .tc) (hr : r ∉ W) :
    ∀ op ∈ l, Proc.devRef (τ := τ) .tc r ∉ op.writes := by
  induction hW with
  | nil => intro op hop; exact absurd hop List.not_mem_nil
  | @cons op' y l' W' h t ih =>
    intro op hop
    rcases List.mem_cons.mp hop with rfl | hop'
    · rw [h, Finset.mem_singleton]
      exact fun e => hr (Proc.devRef_injective _ e ▸ List.mem_cons_self)
    · exact ih (fun hm => hr (List.mem_cons_of_mem _ hm)) op hop'

/-- A reference that is not among the results of the operations from position `i` on ends with what it holds after the
    first `i` operations: the side condition is one membership in a literal list of references. -/
theorem after_eq_take_of_written {ops : List (HloOp τ sig Val)} {W : List (Ref sig .tc)}
    (hW : List.Forall₂ (fun op y => op.writes = {Proc.devRef (τ := τ) .tc y}) ops W) {V : Valuation τ sig Val}
    (i : Nat) (r : Ref sig .tc) (hr : r ∉ W.drop i) :
    after ops V (Proc.devRef .tc r) = after (ops.take i) V (Proc.devRef .tc r) :=
  after_eq_take ops V i _ (not_mem_writes_of_forall₂ (List.forall₂_drop i hW) r hr)

/-- THE STAGE EQUATION: the result `y` of the operation at position `N`, written by no later operation, ends at that
    operation's result over the contents after the first `N` operations. -/
theorem stage {ops : List (HloOp τ sig Val)} {W : List (Ref sig .tc)}
    (hW : List.Forall₂ (fun op y => op.writes = {Proc.devRef (τ := τ) .tc y}) ops W) {V : Valuation τ sig Val}
    (N : Nat) (op : HloOp τ sig Val) (hop : ops[N]? = some op) (y : Ref sig .tc) (hy : y ∉ W.drop (N + 1)) :
    after ops V (Proc.devRef .tc y) = op.result (after (ops.take N) V) (Proc.devRef .tc y) := by
  rw [after_eq_take_of_written hW (N + 1) y hy]
  have e : ops.take (N + 1) = ops.take N ++ [op] := by
    rw [List.take_succ, hop]; rfl
  rw [e, after_append]
  rfl

/-- A three-operand operation's result, the operands read one by one (the library states the four-operand form). -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib

end
-- ==== Proof.Ref.Ops.lean ====
/- The reference program's @main as a straight line: the host operations of its four windows in order, the
   module-local functions' bodies written out at their calls, and the list of the buffers the operations write,
   one each. -/
import proofs.«168427_j26276609917010_1_alg».proof.Proof.Gen.ReferenceIdeal
import Idealize.ShloMosaic.Lib.StableHlo.Run
import proofs.«168427_j26276609917010_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main, in order. -/
abbrev ops0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    binary main_arg0 main_arg3 main_v9 ((fun l r => Host.dotGeneral dot_S100000x200_S200x128_S100000x128_1_0_0_1_n_n none l r) : (⟨S100000x200, .f32⟩ : BufTy).Contents (Elt F) → (⟨S200x128, .f32⟩ : BufTy).Contents (Elt F) → (⟨S100000x128, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v6 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v8 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (.of main_cst_2) main_call0.v0 id,
    TRef.unary main_call0.v0 main_call0.v1 (broadcastInDim S100000 ![] bcast_S_S100000),
    TRef.ternary (.of main_v14) (.of main_v15) main_call0.v1 main_call0.v2 select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v8 main_v24 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v25 (broadcastInDim S1700000 ![] bcast_S_S1700000 : (⟨S_, .i32⟩ : BufTy).Contents (Elt F) → (⟨S1700000, .i32⟩ : BufTy).Contents (Elt F)),
    binary main_v6 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v27 (broadcastInDim S1700000 ![] bcast_S_S1700000 : (⟨S_, .i32⟩ : BufTy).Contents (Elt F) → (⟨S1700000, .i32⟩ : BufTy).Contents (Elt F)),
    binary main_v6 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v6 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v9 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v32 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The buffers those operations write, in the same order. -/
abbrev W0 : List (Ref sig .tc) :=
  [ main_v0, main_v1, main_v2, main_v3, main_v4, main_v5, main_v6, main_cst, main_v7, main_v8, main_v9, main_cst_0, main_v10, main_v11, main_v12, main_cst_1, main_v13, main_v14, main_v15, main_cst_2, main_call0_v0, main_call0_v1, main_v16, main_c, main_v17, main_v18, main_c_3, main_v19, main_v20, main_v21, main_v22, main_v23, main_v24, main_c_4, main_v25, main_v26, main_c_5, main_v27, main_v28, main_v29, main_v30, main_v31, main_v32, main_c_6, main_v33, main_v34, main_c_7, main_v35, main_v36, main_v37, main_v38, main_v39, main_v40, main_v41, main_v42, main_cst_8, main_v43, main_v44, main_v45, main_v46, main_v47, main_v48 ]

/-- The operations of window 1 of @main, in order. -/
abbrev ops1 : List (HloOp τ sig (Elt F)) :=
  [ TRef.nullary main_call1.cst (constant S_ .f32 0x00000000#32),
    TRef.unary main_call1.cst main_call1.v0 (broadcastInDim S100000x128 ![] bcast_S_S100000x128),
    TRef.binary (.of main_v48) main_call1.v0 main_call1.v1 maximumf,
    nullary main_cst_9 (constant S_ .f32 0x00000000#32),
    binary main_v49 main_cst_9 main_v50 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v51 (broadcastInDim S128 ![] bcast_S_S128 : (⟨S_, .f32⟩ : BufTy).Contents (Elt F) → (⟨S128, .f32⟩ : BufTy).Contents (Elt F)),
    binary main_v50 main_v51 main_v52 (Host.divf : (⟨S128, .f32⟩ : BufTy).Contents (Elt F) → (⟨S128, .f32⟩ : BufTy).Contents (Elt F) → (⟨S128, .f32⟩ : BufTy).Contents (Elt F)),
    unary main_v52 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v49 main_v54 main_v55 (subf : (⟨S100000x128, .f32⟩ : BufTy).Contents (Elt F) → (⟨S100000x128, .f32⟩ : BufTy).Contents (Elt F) → (⟨S100000x128, .f32⟩ : BufTy).Contents (Elt F)),
    binary main_v55 main_v55 main_v56 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v56 main_cst_11 main_v57 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v58 (broadcastInDim S128 ![] bcast_S_S128 : (⟨S_, .f32⟩ : BufTy).Contents (Elt F) → (⟨S128, .f32⟩ : BufTy).Contents (Elt F)),
    binary main_v57 main_v58 main_v59 (Host.divf : (⟨S128, .f32⟩ : BufTy).Contents (Elt F) → (⟨S128, .f32⟩ : BufTy).Contents (Elt F) → (⟨S128, .f32⟩ : BufTy).Contents (Elt F)),
    unary main_v52 main_v60 (broadcastInDim S1x128 ![1] bcast_S128_S1x128_1 : (⟨S128, .f32⟩ : BufTy).Contents (Elt F) → (⟨S1x128, .f32⟩ : BufTy).Contents (Elt F)),
    unary main_v60 main_v61 (broadcastInDim S100000x128 ![0, 1] bcast_S1x128_S100000x128_0_1 : (⟨S1x128, .f32⟩ : BufTy).Contents (Elt F) → (⟨S100000x128, .f32⟩ : BufTy).Contents (Elt F)),
    binary main_v49 main_v61 main_v62 (subf : (⟨S100000x128, .f32⟩ : BufTy).Contents (Elt F) → (⟨S100000x128, .f32⟩ : BufTy).Contents (Elt F) → (⟨S100000x128, .f32⟩ : BufTy).Contents (Elt F)),
    unary main_arg7 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v64 main_v62 main_v65 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v66 (broadcastInDim S128 ![] bcast_S_S128 : (⟨S_, .f32⟩ : BufTy).Contents (Elt F) → (⟨S128, .f32⟩ : BufTy).Contents (Elt F)),
    binary main_v59 main_v66 main_v67 (addf : (⟨S128, .f32⟩ : BufTy).Contents (Elt F) → (⟨S128, .f32⟩ : BufTy).Contents (Elt F) → (⟨S128, .f32⟩ : BufTy).Contents (Elt F)),
    unary main_v67 main_v68 (Host.rsqrt : (⟨S128, .f32⟩ : BufTy).Contents (Elt F) → (⟨S128, .f32⟩ : BufTy).Contents (Elt F)),
    unary main_v68 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v65 main_v70 main_v71 (mulf : (⟨S100000x128, .f32⟩ : BufTy).Contents (Elt F) → (⟨S100000x128, .f32⟩ : BufTy).Contents (Elt F) → (⟨S100000x128, .f32⟩ : BufTy).Contents (Elt F)),
    unary main_arg8 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v71 main_v73 main_v74 (addf : (⟨S100000x128, .f32⟩ : BufTy).Contents (Elt F) → (⟨S100000x128, .f32⟩ : BufTy).Contents (Elt F) → (⟨S100000x128, .f32⟩ : BufTy).Contents (Elt F)),
    binary main_v74 main_arg5 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_14 (constant S_ .f32 0x00000000#32),
    unary main_cst_14 main_v76 (broadcastInDim S100000 ![] bcast_S_S100000 : (⟨S_, .f32⟩ : BufTy).Contents (Elt F) → (⟨S100000, .f32⟩ : BufTy).Contents (Elt F)),
    unary main_v6 main_v77 (broadcastInDim S1700000x1 ![0] bcast_S1700000_S1700000x1_0 : (⟨S1700000, .i32⟩ : BufTy).Contents (Elt F) → (⟨S1700000x1, .i32⟩ : BufTy).Contents (Elt F)),
    ternary main_v76 main_v77 main_v8 main_v78 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_15 (constant S_ .f32 0x00000000#32),
    unary main_cst_15 main_v79 (broadcastInDim S100000 ![] bcast_S_S100000 : (⟨S_, .f32⟩ : BufTy).Contents (Elt F) → (⟨S100000, .f32⟩ : BufTy).Contents (Elt F)),
    binary main_v78 main_v79 main_v80 (cmpf .ogt : (⟨S100000, .f32⟩ : BufTy).Contents (Elt F) → (⟨S100000, .f32⟩ : BufTy).Contents (Elt F) → (⟨S100000, .i1⟩ : BufTy).Contents (Elt F)),
    unary main_v78 main_v81 (Host.rsqrt : (⟨S100000, .f32⟩ : BufTy).Contents (Elt F) → (⟨S100000, .f32⟩ : BufTy).Contents (Elt F)),
    nullary main_cst_16 (constant S_ .f32 0x00000000#32),
    TRef.unary (.of main_cst_16) main_call2.v0 id,
    TRef.unary main_call2.v0 main_call2.v1 (broadcastInDim S100000 ![] bcast_S_S100000),
    TRef.ternary (.of main_v80) (.of main_v81) main_call2.v1 main_call2.v2 select,
    nullary main_c_17 (constantI S_ 32 0#32),
    unary main_c_17 main_v83 (broadcastInDim S1700000 ![] bcast_S_S1700000 : (⟨S_, .i32⟩ : BufTy).Contents (Elt F) → (⟨S1700000, .i32⟩ : BufTy).Contents (Elt F)),
    binary main_v3 main_v83 main_v84 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v85 (broadcastInDim S1700000 ![] bcast_S_S1700000 : (⟨S_, .i32⟩ : BufTy).Contents (Elt F) → (⟨S1700000, .i32⟩ : BufTy).Contents (Elt F)),
    binary main_v3 main_v85 main_v86 (addi : (⟨S1700000, .i32⟩ : BufTy).Contents (Elt F) → (⟨S1700000, .i32⟩ : BufTy).Contents (Elt F) → (⟨S1700000, .i32⟩ : BufTy).Contents (Elt F)),
    ternary main_v84 main_v86 main_v3 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v87 main_v88 (broadcastInDim S1700000x1 ![0] bcast_S1700000_S1700000x1_0 : (⟨S1700000, .i32⟩ : BufTy).Contents (Elt F) → (⟨S1700000x1, .i32⟩ : BufTy).Contents (Elt F)),
    binary main_v82 main_v88 main_v89 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v89 main_v8 main_v90 (mulf : (⟨S1700000, .f32⟩ : BufTy).Contents (Elt F) → (⟨S1700000, .f32⟩ : BufTy).Contents (Elt F) → (⟨S1700000, .f32⟩ : BufTy).Contents (Elt F)),
    nullary main_c_19 (constantI S_ 32 0#32),
    unary main_c_19 main_v91 (broadcastInDim S1700000 ![] bcast_S_S1700000 : (⟨S_, .i32⟩ : BufTy).Contents (Elt F) → (⟨S1700000, .i32⟩ : BufTy).Contents (Elt F)),
    binary main_v6 main_v91 main_v92 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v93 (broadcastInDim S1700000 ![] bcast_S_S1700000 : (⟨S_, .i32⟩ : BufTy).Contents (Elt F) → (⟨S1700000, .i32⟩ : BufTy).Contents (Elt F)),
    binary main_v6 main_v93 main_v94 (addi : (⟨S1700000, .i32⟩ : BufTy).Contents (Elt F) → (⟨S1700000, .i32⟩ : BufTy).Contents (Elt F) → (⟨S1700000, .i32⟩ : BufTy).Contents (Elt F)),
    ternary main_v92 main_v94 main_v6 main_v95 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v95 main_v96 (broadcastInDim S1700000x1 ![0] bcast_S1700000_S1700000x1_0 : (⟨S1700000, .i32⟩ : BufTy).Contents (Elt F) → (⟨S1700000x1, .i32⟩ : BufTy).Contents (Elt F)) ]

/-- The buffers those operations write, in the same order. -/
abbrev W1 : List (Ref sig .tc) :=
  [ main_call1_cst, main_call1_v0, main_v49, main_cst_9, main_v50, main_cst_10, main_v51, main_v52, main_v53, main_v54, main_v55, main_v56, main_cst_11, main_v57, main_cst_12, main_v58, main_v59, main_v60, main_v61, main_v62, main_v63, main_v64, main_v65, main_cst_13, main_v66, main_v67, main_v68, main_v69, main_v70, main_v71, main_v72, main_v73, main_v74, main_v75, main_cst_14, main_v76, main_v77, main_v78, main_cst_15, main_v79, main_v80, main_v81, main_cst_16, main_call2_v0, main_call2_v1, main_v82, main_c_17, main_v83, main_v84, main_c_18, main_v85, main_v86, main_v87, main_v88, main_v89, main_v90, main_c_19, main_v91, main_v92, main_c_20, main_v93, main_v94, main_v95, main_v96 ]

/-- The operations of window 2 of @main, in order. -/
abbrev ops2 : List (HloOp τ sig (Elt F)) :=
  [ binary main_v82 main_v96 main_v97 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v90 main_v97 main_v98 (mulf : (⟨S1700000, .f32⟩ : BufTy).Contents (Elt F) → (⟨S1700000, .f32⟩ : BufTy).Contents (Elt F) → (⟨S1700000, .f32⟩ : BufTy).Contents (Elt F)),
    nullary main_c_21 (constantI S_ 32 0#32),
    unary main_c_21 main_v99 (broadcastInDim S1700000 ![] bcast_S_S1700000 : (⟨S_, .i32⟩ : BufTy).Contents (Elt F) → (⟨S1700000, .i32⟩ : BufTy).Contents (Elt F)),
    binary main_v3 main_v99 main_v100 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v101 (broadcastInDim S1700000 ![] bcast_S_S1700000 : (⟨S_, .i32⟩ : BufTy).Contents (Elt F) → (⟨S1700000, .i32⟩ : BufTy).Contents (Elt F)),
    binary main_v3 main_v101 main_v102 (addi : (⟨S1700000, .i32⟩ : BufTy).Contents (Elt F) → (⟨S1700000, .i32⟩ : BufTy).Contents (Elt F) → (⟨S1700000, .i32⟩ : BufTy).Contents (Elt F)),
    ternary main_v100 main_v102 main_v3 main_v103 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v103 main_v104 (broadcastInDim S1700000x1 ![0] bcast_S1700000_S1700000x1_0 : (⟨S1700000, .i32⟩ : BufTy).Contents (Elt F) → (⟨S1700000x1, .i32⟩ : BufTy).Contents (Elt F)),
    binary main_v75 main_v104 main_v105 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v98 main_v106 (broadcastInDim S1700000x1 ![0] bcast_S1700000_S1700000x1_0 : (⟨S1700000, .f32⟩ : BufTy).Contents (Elt F) → (⟨S1700000x1, .f32⟩ : BufTy).Contents (Elt F)),
    unary main_v106 main_v107 (broadcastInDim S1700000x128 ![0, 1] bcast_S1700000x1_S1700000x128_0_1 : (⟨S1700000x1, .f32⟩ : BufTy).Contents (Elt F) → (⟨S1700000x128, .f32⟩ : BufTy).Contents (Elt F)),
    binary main_v105 main_v107 main_v108 (mulf : (⟨S1700000x128, .f32⟩ : BufTy).Contents (Elt F) → (⟨S1700000x128, .f32⟩ : BufTy).Contents (Elt F) → (⟨S1700000x128, .f32⟩ : BufTy).Contents (Elt F)),
    nullary main_cst_23 (constant S_ .f32 0x00000000#32),
    unary main_cst_23 main_v109 (broadcastInDim S100000x128 ![] bcast_S_S100000x128 : (⟨S_, .f32⟩ : BufTy).Contents (Elt F) → (⟨S100000x128, .f32⟩ : BufTy).Contents (Elt F)),
    unary main_v6 main_v110 (broadcastInDim S1700000x1 ![0] bcast_S1700000_S1700000x1_0 : (⟨S1700000, .i32⟩ : BufTy).Contents (Elt F) → (⟨S1700000x1, .i32⟩ : BufTy).Contents (Elt F)),
    ternary main_v109 main_v110 main_v108 main_v111 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v112 (broadcastInDim S1x128 ![1] bcast_S128_S1x128_1 : (⟨S128, .f32⟩ : BufTy).Contents (Elt F) → (⟨S1x128, .f32⟩ : BufTy).Contents (Elt F)),
    unary main_v112 main_v113 (broadcastInDim S100000x128 ![0, 1] bcast_S1x128_S100000x128_0_1 : (⟨S1x128, .f32⟩ : BufTy).Contents (Elt F) → (⟨S100000x128, .f32⟩ : BufTy).Contents (Elt F)),
    binary main_v111 main_v113 main_v114 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v114) main_call3.v0 main_call3.v1 maximumf,
    nullary main_cst_24 (constant S_ .f32 0x00000000#32),
    binary main_v115 main_cst_24 main_v116 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_25 (constant S_ .f32 0x47C35000#32),
    unary main_cst_25 main_v117 (broadcastInDim S128 ![] bcast_S_S128 : (⟨S_, .f32⟩ : BufTy).Contents (Elt F) → (⟨S128, .f32⟩ : BufTy).Contents (Elt F)),
    binary main_v116 main_v117 main_v118 (Host.divf : (⟨S128, .f32⟩ : BufTy).Contents (Elt F) → (⟨S128, .f32⟩ : BufTy).Contents (Elt F) → (⟨S128, .f32⟩ : BufTy).Contents (Elt F)),
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S100000x128 ![0, 1] bcast_S1x128_S100000x128_0_1 : (⟨S1x128, .f32⟩ : BufTy).Contents (Elt F) → (⟨S100000x128, .f32⟩ : BufTy).Contents (Elt F)),
    binary main_v115 main_v120 main_v121 (subf : (⟨S100000x128, .f32⟩ : BufTy).Contents (Elt F) → (⟨S100000x128, .f32⟩ : BufTy).Contents (Elt F) → (⟨S100000x128, .f32⟩ : BufTy).Contents (Elt F)),
    binary main_v121 main_v121 main_v122 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v122 main_cst_26 main_v123 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_27 (constant S_ .f32 0x47C35000#32),
    unary main_cst_27 main_v124 (broadcastInDim S128 ![] bcast_S_S128 : (⟨S_, .f32⟩ : BufTy).Contents (Elt F) → (⟨S128, .f32⟩ : BufTy).Contents (Elt F)),
    binary main_v123 main_v124 main_v125 (Host.divf : (⟨S128, .f32⟩ : BufTy).Contents (Elt F) → (⟨S128, .f32⟩ : BufTy).Contents (Elt F) → (⟨S128, .f32⟩ : BufTy).Contents (Elt F)),
    unary main_v118 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v115 main_v127 main_v128 (subf : (⟨S100000x128, .f32⟩ : BufTy).Contents (Elt F) → (⟨S100000x128, .f32⟩ : BufTy).Contents (Elt F) → (⟨S100000x128, .f32⟩ : BufTy).Contents (Elt F)),
    unary main_arg9 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v130 main_v128 main_v131 (mulf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x3727C5AC#32),
    unary main_cst_28 main_v132 (broadcastInDim S128 ![] bcast_S_S128 : (⟨S_, .f32⟩ : BufTy).Contents (Elt F) → (⟨S128, .f32⟩ : BufTy).Contents (Elt F)),
    binary main_v125 main_v132 main_v133 (addf : (⟨S128, .f32⟩ : BufTy).Contents (Elt F) → (⟨S128, .f32⟩ : BufTy).Contents (Elt F) → (⟨S128, .f32⟩ : BufTy).Contents (Elt F)),
    unary main_v133 main_v134 (Host.rsqrt : (⟨S128, .f32⟩ : BufTy).Contents (Elt F) → (⟨S128, .f32⟩ : BufTy).Contents (Elt F)),
    unary main_v134 main_v135 (broadcastInDim S1x128 ![1] bcast_S128_S1x128_1 : (⟨S128, .f32⟩ : BufTy).Contents (Elt F) → (⟨S1x128, .f32⟩ : BufTy).Contents (Elt F)),
    unary main_v135 main_v136 (broadcastInDim S100000x128 ![0, 1] bcast_S1x128_S100000x128_0_1 : (⟨S1x128, .f32⟩ : BufTy).Contents (Elt F) → (⟨S100000x128, .f32⟩ : BufTy).Contents (Elt F)),
    binary main_v131 main_v136 main_v137 (mulf : (⟨S100000x128, .f32⟩ : BufTy).Contents (Elt F) → (⟨S100000x128, .f32⟩ : BufTy).Contents (Elt F) → (⟨S100000x128, .f32⟩ : BufTy).Contents (Elt F)),
    unary main_arg10 main_v138 (broadcastInDim S1x128 ![1] bcast_S128_S1x128_1 : (⟨S128, .f32⟩ : BufTy).Contents (Elt F) → (⟨S1x128, .f32⟩ : BufTy).Contents (Elt F)),
    unary main_v138 main_v139 (broadcastInDim S100000x128 ![0, 1] bcast_S1x128_S100000x128_0_1 : (⟨S1x128, .f32⟩ : BufTy).Contents (Elt F) → (⟨S100000x128, .f32⟩ : BufTy).Contents (Elt F)),
    binary main_v137 main_v139 main_v140 (addf : (⟨S100000x128, .f32⟩ : BufTy).Contents (Elt F) → (⟨S100000x128, .f32⟩ : BufTy).Contents (Elt F) → (⟨S100000x128, .f32⟩ : BufTy).Contents (Elt F)),
    nary ![main_arg0, main_v74, main_v140] main_v141 (fun u => concatenate S100000x456 1 [⟨S100000x200, u 0⟩, ⟨S100000x128, u 1⟩, ⟨S100000x128, u 2⟩] concatenates_S100000x200_S100000x128_S100000x128_S100000x456_d1),
    binary main_v141 main_arg11 main_v142 ((fun l r => Host.dotGeneral dot_S100000x456_S456x128_S100000x128_1_0_0_1_n_n none l r) : (⟨S100000x456, .f32⟩ : BufTy).Contents (Elt F) → (⟨S456x128, .f32⟩ : BufTy).Contents (Elt F) → (⟨S100000x128, .f32⟩ : BufTy).Contents (Elt F)),
    unary main_arg12 main_v143 (broadcastInDim S1x128 ![1] bcast_S128_S1x128_1 : (⟨S128, .f32⟩ : BufTy).Contents (Elt F) → (⟨S1x128, .f32⟩ : BufTy).Contents (Elt F)),
    unary main_v143 main_v144 (broadcastInDim S100000x128 ![0, 1] bcast_S1x128_S100000x128_0_1 : (⟨S1x128, .f32⟩ : BufTy).Contents (Elt F) → (⟨S100000x128, .f32⟩ : BufTy).Contents (Elt F)),
    binary main_v142 main_v144 main_v145 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v145) main_call4.v0 main_call4.v1 maximumf,
    binary main_v146 main_arg13 main_v147 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg14 main_v148 (broadcastInDim S1x64 ![1] bcast_S64_S1x64_1 : (⟨S64, .f32⟩ : BufTy).Contents (Elt F) → (⟨S1x64, .f32⟩ : BufTy).Contents (Elt F)) ]

/-- The buffers those operations write, in the same order. -/
abbrev W2 : List (Ref sig .tc) :=
  [ main_v97, main_v98, main_c_21, main_v99, main_v100, main_c_22, main_v101, main_v102, main_v103, main_v104, main_v105, main_v106, main_v107, main_v108, main_cst_23, main_v109, main_v110, main_v111, main_v112, main_v113, main_v114, main_call3_cst, main_call3_v0, main_v115, main_cst_24, main_v116, main_cst_25, main_v117, main_v118, main_v119, main_v120, main_v121, main_v122, main_cst_26, main_v123, main_cst_27, main_v124, main_v125, main_v126, main_v127, main_v128, main_v129, main_v130, main_v131, main_cst_28, main_v132, main_v133, main_v134, main_v135, main_v136, main_v137, main_v138, main_v139, main_v140, main_v141, main_v142, main_v143, main_v144, main_v145, main_call4_cst, main_call4_v0, main_v146, main_v147, main_v148 ]

/-- The operations of window 3 of @main, in order. -/
abbrev ops3 : List (HloOp τ sig (Elt F)) :=
  [ unary main_v148 main_v149 (broadcastInDim S100000x64 ![0, 1] bcast_S1x64_S100000x64_0_1 : (⟨S1x64, .f32⟩ : BufTy).Contents (Elt F) → (⟨S100000x64, .f32⟩ : BufTy).Contents (Elt F)),
    binary main_v147 main_v149 main_v150 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v150) main_call5.v0 main_call5.v1 maximumf ]

/-- The buffers those operations write, in the same order. -/
abbrev W3 : List (Ref sig .tc) :=
  [ main_v149, main_v150, main_call5_cst, main_call5_v0, main_v151 ]

/-- All of @main's operations. -/
abbrev ops : List (HloOp τ sig (Elt F)) := ops0 ++ (ops1 ++ (ops2 ++ ops3))
/-- All the buffers @main writes. -/
abbrev W : List (Ref sig .tc) := W0 ++ (W1 ++ (W2 ++ W3))

set_option maxRecDepth 4096 in
set_option maxHeartbeats 4000000 in
/-- Window 0 is the line of its operations: sequencing reassociated, the called functions' bodies unfolded. -/
theorem part0_eq (c : Dev nD) : main_part0 (F := F) c = seq ops0 := by
  simp only [main_part0, fn_where.body, fn_relu.body, fn_relu_0.body, seq, bind_assoc, pure_bind]
  rfl

set_option maxRecDepth 4096 in
set_option maxHeartbeats 4000000 in
/-- Window 1 is the line of its operations: sequencing reassociated, the called functions' bodies unfolded. -/
theorem part1_eq (c : Dev nD) : main_part1 (F := F) c = seq ops1 := by
  simp only [main_part1, fn_where.body, fn_relu.body, fn_relu_0.body, seq, bind_assoc, pure_bind]
  rfl

set_option maxRecDepth 4096 in
set_option maxHeartbeats 4000000 in
/-- Window 2 is the line of its operations: sequencing reassociated, the called functions' bodies unfolded. -/
theorem part2_eq (c : Dev nD) : main_part2 (F := F) c = seq ops2 := by
  simp only [main_part2, fn_where.body, fn_relu.body, fn_relu_0.body, seq, bind_assoc, pure_bind]
  rfl

set_option maxRecDepth 4096 in
set_option maxHeartbeats 4000000 in
/-- Window 3 is the line of its operations: sequencing reassociated, the called functions' bodies unfolded. -/
theorem part3_eq (c : Dev nD) : main_part3 (F := F) c = seq ops3 := by
  simp only [main_part3, fn_where.body, fn_relu.body, fn_relu_0.body, seq, bind_assoc, pure_bind]

/-- @main is the line of all its operations. -/
theorem main_eq (c : Dev nD) : main (F := F) c = seq ops := by
  rw [seq_append, seq_append, seq_append, ← part0_eq c, ← part1_eq c, ← part2_eq c, ← part3_eq c]
  rfl

set_option maxRecDepth 4096 in
/-- Each operation of window 0 writes exactly the buffer listed for it. -/
theorem hW0 : List.Forall₂ (fun (op : HloOp τ sig (Elt F)) y => op.writes = {Proc.devRef (τ := τ) .tc y}) ops0 W0 := by
  repeat (first | exact List.Forall₂.nil | refine List.Forall₂.cons rfl ?_)

set_option maxRecDepth 4096 in
/-- Each operation of window 1 writes exactly the buffer listed for it. -/
theorem hW1 : List.Forall₂ (fun (op : HloOp τ sig (Elt F)) y => op.writes = {Proc.devRef (τ := τ) .tc y}) ops1 W1 := by
  repeat (first | exact List.Forall₂.nil | refine List.Forall₂.cons rfl ?_)

set_option maxRecDepth 4096 in
/-- Each operation of window 2 writes exactly the buffer listed for it. -/
theorem hW2 : List.Forall₂ (fun (op : HloOp τ sig (Elt F)) y => op.writes = {Proc.devRef (τ := τ) .tc y}) ops2 W2 := by
  repeat (first | exact List.Forall₂.nil | refine List.Forall₂.cons rfl ?_)

set_option maxRecDepth 4096 in
/-- Each operation of window 3 writes exactly the buffer listed for it. -/
theorem hW3 : List.Forall₂ (fun (op : HloOp τ sig (Elt F)) y => op.writes = {Proc.devRef (τ := τ) .tc y}) ops3 W3 := by
  repeat (first | exact List.Forall₂.nil | refine List.Forall₂.cons rfl ?_)

/-- Each operation of @main writes exactly the buffer listed for it. -/
theorem hW : List.Forall₂ (fun (op : HloOp τ sig (Elt F)) y => op.writes = {Proc.devRef (τ := τ) .tc y}) ops W :=
  List.rel_append hW0 (List.rel_append hW1 (List.rel_append hW2 hW3))

theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

set_option maxRecDepth 4096 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 4096 in
theorem ops1_sub : (ops1 : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub ..⟩

set_option maxRecDepth 4096 in
theorem ops2_sub : (ops2 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub ..⟩

set_option maxRecDepth 4096 in
theorem ops3_sub : (ops3 : List (HloOp τ sig (Elt F))).Forall fun op => op.bufs ⊆ tcRefs τ sig :=
  ⟨unary_bufs_sub .., binary_bufs_sub .., nullary_bufs_sub .., unary_bufs_sub .., binary_bufs_sub ..⟩

/-- Every operation touches TensorCore buffers only. -/
theorem ops_sub : (ops : List (HloOp τ sig (Elt F))).Forall fun op => op.bufs ⊆ tcRefs τ sig :=
  forall_append ops0_sub (forall_append ops1_sub (forall_append ops2_sub ops3_sub))

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.Ref.Stages.lean ====
/- One equation per operation of the reference's @main: the final contents of the buffer it writes are the
   operation's function of the final contents of the buffers it reads (every buffer is written at most once, and
   read only after it is written). -/
import proofs.«168427_j26276609917010_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option quotPrecheck false in
/-- The final contents of a buffer: after all of @main's operations, from contents `V`. -/
local notation:max "𝐯 " r:max => after ops V (Proc.devRef .tc r)

theorem st_v0 : (𝐯 main_v0) = (iotaInDim S100000 32 0) := by
  rw [Cert.Lib.stage (hW (F := F)) 0 _ rfl main_v0 (by decide),
    nullary_result]

theorem st_v1 : (𝐯 main_v1) = ((extractStridedSlice S1x1600000 ![0, 0] · slices_S2x1600000_S1x1600000_0_0) : (⟨S2x1600000, .i32⟩ : BufTy).Contents (Elt F) → (⟨S1x1600000, .i32⟩ : BufTy).Contents (Elt F)) (𝐯 main_arg1) := by
  rw [Cert.Lib.stage (hW (F := F)) 1 _ rfl main_v1 (by decide),
    unary_result,
    Cert.Lib.after_eq_take_of_written (hW (F := F)) 1 main_arg1 (by decide)]

theorem st_v2 : (𝐯 main_v2) = shapeCast S1600000 (𝐯 main_v1) shapeCasts_S1x1600000_S1600000 := by
  rw [Cert.Lib.stage (hW (F := F)) 2 _ rfl main_v2 (by decide),
    reshape_result,
    Cert.Lib.after_eq_take_of_written (hW (F := F)) 2 main_v1 (by decide)]
  rfl

theorem st_v3 : (𝐯 main_v3) = ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (𝐯 main_v2) (𝐯 main_v0) := by
  rw [Cert.Lib.stage (hW (F := F)) 3 _ rfl main_v3 (by decide),
    binary_result,
    Cert.Lib.after_eq_take_of_written (hW (F := F)) 3 main_v2 (by decide),
    Cert.Lib.after_eq_take_of_written (hW (F := F)) 3 main_v0 (by decide)]

theorem st_v4 : (𝐯 main_v4) = ((extractStridedSlice S1x1600000 ![1, 0] · slices_S2x1600000_S1x1600000_1_0) : (⟨S2x1600000, .i32⟩ : BufTy).Contents (Elt F) → (⟨S1x1600000, .i32⟩ : BufTy).Contents (Elt F)) (𝐯 main_arg1) := by
  rw [Cert.Lib.stage (hW (F := F)) 4 _ rfl main_v4 (by decide),
    unary_result,
    Cert.Lib.after_eq_take_of_written (hW (F := F)) 4 main_arg1 (by decide)]

theorem st_v5 : (𝐯 main_v5) = shapeCast S1600000 (𝐯 main_v4) shapeCasts_S1x1600000_S1600000 := by
  rw [Cert.Lib.stage (hW (F := F)) 5 _ rfl main_v5 (by decide),
    reshape_result,
    Cert.Lib.after_eq_take_of_written (hW (F := F)) 5 main_v4 (by decide)]
  rfl

theorem st_v6 : (𝐯 main_v6) = ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (𝐯 main_v5) (𝐯 main_v0) := by
  rw [Cert.Lib.stage (hW (F := F)) 6 _ rfl main_v6 (by decide),
    binary_result,
    Cert.Lib.after_eq_take_of_written (hW (F := F)) 6 main_v5 (by decide),
    Cert.Lib.after_eq_take_of_written (hW (F := F)) 6 main_v0 (by decide)]

theorem st_cst : (𝐯 main_cst) = (constant S_ .f32 0x3F800000#32) := by
  rw [Cert.Lib.stage (hW (F := F)) 7 _ rfl main_cst (by decide),
    nullary_result]

theorem st_v7 : (𝐯 main_v7) = (broadcastInDim S100000 ![] bcast_S_S100000 : (⟨S_, .f32⟩ : BufTy).Contents (Elt F) → (⟨S100000, .f32⟩ : BufTy).Contents (Elt F)) (𝐯 main_cst) := by
  rw [Cert.Lib.stage (hW (F := F)) 8 _ rfl main_v7 (by decide),
    unary_result,
    Cert.Lib.after_eq_take_of_written (hW (F := F)) 8 main_cst (by decide)]

theorem st_v8 : (𝐯 main_v8) = ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) (𝐯 main_arg2) (𝐯 main_v7) := by
  rw [Cert.Lib.stage (hW (F := F)) 9 _ rfl main_v8 (by decide),
    binary_result,
    Cert.Lib.after_eq_take_of_written (hW (F := F)) 9 main_arg2 (by decide),
    Cert.Lib.after_eq_take_of_written (hW (F := F)) 9 main_v7 (by decide)]

theorem st_v9 : (𝐯 main_v9) = ((fun l r => Host.dotGeneral dot_S100000x200_S200x128_S100000x128_1_0_0_1_n_n none l r) : (⟨S100000x200, .f32⟩ : BufTy).Contents (Elt F) → (⟨S200x128, .f32⟩ : BufTy).Contents (Elt F) → (⟨S100000x128, .f32⟩ : BufTy).Contents (Elt F)) (𝐯 main_arg0) (𝐯 main_arg3) := by
  rw [Cert.Lib.stage (hW (F := F)) 10 _ rfl main_v9 (by decide),
    binary_result,
    Cert.Lib.after_eq_take_of_written (hW (F := F)) 10 main_arg0 (by decide),
    Cert.Lib.after_eq_take_of_written (hW (F := F)) 10 main_arg3 (by decide)]

theorem st_cst_0 : (𝐯 main_cst_0) = (constant S_ .f32 0x00000000#32) := by
  rw [Cert.Lib.stage (hW (F := F)) 11 _ rfl main_cst_0 (by decide),
    nullary_result]

theorem st_v10 : (𝐯 main_v10) = (broadcastInDim S100000 ![] bcast_S_S100000 : (⟨S_, .f32⟩ : BufTy).Contents (Elt F) → (⟨S100000, .f32⟩ : BufTy).Contents (Elt F)) (𝐯 main_cst_0) := by
  rw [Cert.Lib.stage (hW (F := F)) 12 _ rfl main_v10 (by decide),
    unary_result,
    Cert.Lib.after_eq_take_of_written (hW (F := F)) 12 main_cst_0 (by decide)]

theorem st_v11 : (𝐯 main_v11) = (broadcastInDim S1700000x1 ![0] bcast_S1700000_S1700000x1_0 : (⟨S1700000, .i32⟩ : BufTy).Contents (Elt F) → (⟨S1700000x1, .i32⟩ : BufTy).Contents (Elt F)) (𝐯 main_v6) := by
  rw [Cert.Lib.stage (hW (F := F)) 13 _ rfl main_v11 (by decide),
    unary_result,
    Cert.Lib.after_eq_take_of_written (hW (F := F)) 13 main_v6 (by decide)]

theorem st_v12 : (𝐯 main_v12) = ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) (𝐯 main_v10) (𝐯 main_v11) (𝐯 main_v8) := by
  rw [Cert.Lib.stage (hW (F := F)) 14 _ rfl main_v12 (by decide),
    ternary_result,
    Cert.Lib.after_eq_take_of_written (hW (F := F)) 14 main_v10 (by decide),
    Cert.Lib.after_eq_take_of_written (hW (F := F)) 14 main_v11 (by decide),
    Cert.Lib.after_eq_take_of_written (hW (F := F)) 14 main_v8 (by decide)]

theorem st_cst_1 : (𝐯 main_cst_1) = (constant S_ .f32 0x00000000#32) := by
  rw [Cert.Lib.stage (hW (F := F)) 15 _ rfl main_cst_1 (by decide),
    nullary_result]

theorem st_v13 : (𝐯 main_v13) = (broadcastInDim S100000 ![] bcast_S_S100000 : (⟨S_, .f32⟩ : BufTy).Contents (Elt F) → (⟨S100000, .f32⟩ : BufTy).Contents (Elt F)) (𝐯 main_cst_1) := by
  rw [Cert.Lib.stage (hW (F := F)) 16 _ rfl main_v13 (by decide),
    unary_result,
    Cert.Lib.after_eq_take_of_written (hW (F := F)) 16 main_cst_1 (by decide)]

theorem st_v14 : (𝐯 main_v14) = (cmpf .ogt : (⟨S100000, .f32⟩ : BufTy).Contents (Elt F) → (⟨S100000, .f32⟩ : BufTy).Contents (Elt F) → (⟨S100000, .i1⟩ : BufTy).Contents (Elt F)) (𝐯 main_v12) (𝐯 main_v13) := by
  rw [Cert.Lib.stage (hW (F := F)) 17 _ rfl main_v14 (by decide),
    binary_result,
    Cert.Lib.after_eq_take_of_written (hW (F := F)) 17 main_v12 (by decide),
    Cert.Lib.after_eq_take_of_written (hW (F := F)) 17 main_v13 (by decide)]

theorem st_v15 : (𝐯 main_v15) = (Host.rsqrt : (⟨S100000, .f32⟩ : BufTy).Contents (Elt F) → (⟨S100000, .f32⟩ : BufTy).Contents (Elt F)) (𝐯 main_v12) := by
  rw [Cert.Lib.stage (hW (F := F)) 18 _ rfl main_v15 (by decide),
    unary_result,
    Cert.Lib.after_eq_take_of_written (hW (F := F)) 18 main_v12 (by decide)]

theorem st_cst_2 : (𝐯 main_cst_2) = (constant S_ .f32 0x00000000#32) := by
  rw [Cert.Lib.stage (hW (F := F)) 19 _ rfl main_cst_2 (by decide),
    nullary_result]

theorem st_call0_v0 : (𝐯 main_call0_v0) = (id : (⟨S_, .f32⟩ : BufTy).Contents (Elt F) → (⟨S_, .f32⟩ : BufTy).Contents (Elt F)) (𝐯 main_cst_2) := by
  rw [Cert.Lib.stage (hW (F := F)) 20 _ rfl main_call0_v0 (by decide),
    unary_result,
    Cert.Lib.after_eq_take_of_written (hW (F := F)) 20 main_cst_2 (by decide)]
  generalize after (List.take 20 ops) V = Wf
  rfl

theorem st_call0_v1 : (𝐯 main_call0_v1) = (broadcastInDim S100000 ![] bcast_S_S100000 : (⟨S_, .f32⟩ : BufTy).Contents (Elt F) → (⟨S100000, .f32⟩ : BufTy).Contents (Elt F)) (𝐯 main_call0_v0) := by
  rw [Cert.Lib.stage (hW (F := F)) 21 _ rfl main_call0_v1 (by decide),
    unary_result,
    Cert.Lib.after_eq_take_of_written (hW (F := F)) 21 main_call0_v0 (by decide)]
  generalize after (List.take 21 ops) V = Wf
  rfl

theorem st_v16 : (𝐯 main_v16) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (𝐯 main_v14) (𝐯 main_v15) (𝐯 main_call0_v1) := by
  rw [Cert.Lib.stage (hW (F := F)) 22 _ rfl main_v16 (by decide),
    ternary_result,
    Cert.Lib.after_eq_take_of_written (hW (F := F)) 22 main_v14 (by decide),
    Cert.Lib.after_eq_take_of_written (hW (F := F)) 22 main_v15 (by decide),
    Cert.Lib.after_eq_take_of_written (hW (F := F)) 22 main_call0_v1 (by decide)]
  generalize after (List.take 22 ops) V = Wf
  rfl

theorem st_c : (𝐯 main_c) = (constantI S_ 32 0#32) := by
  rw [Cert.Lib.stage (hW (F := F)) 23 _ rfl main_c (by decide),
    nullary_result]

theorem st_v17 : (𝐯 main_v17) = (broadcastInDim S1700000 ![] bcast_S_S1700000 : (⟨S_, .i32⟩ : BufTy).Contents (Elt F) → (⟨S1700000, .i32⟩ : BufTy).Contents (Elt F)) (𝐯 main_c) := by
  rw [Cert.Lib.stage (hW (F := F)) 24 _ rfl main_v17 (by decide),
    unary_result,
    Cert.Lib.after_eq_take_of_written (hW (F := F)) 24 main_c (by decide)]

theorem st_v18 : (𝐯 main_v18) = (cmpi .slt : (⟨S1700000, .i32⟩ : BufTy).Contents (Elt F) → (⟨S1700000, .i32⟩ : BufTy).Contents (Elt F) → (⟨S1700000, .i1⟩ : BufTy).Contents (Elt F)) (𝐯 main_v3) (𝐯 main_v17) := by
  rw [Cert.Lib.stage (hW (F := F)) 25 _ rfl main_v18 (by decide),
    binary_result,
    Cert.Lib.after_eq_take_of_written (hW (F := F)) 25 main_v3 (by decide),
    Cert.Lib.after_eq_take_of_written (hW (F := F)) 25 main_v17 (by decide)]

theorem st_c_3 : (𝐯 main_c_3) = (constantI S_ 32 100000#32) := by
  rw [Cert.Lib.stage (hW (F := F)) 26 _ rfl main_c_3 (by decide),
    nullary_result]

theorem st_v19 : (𝐯 main_v19) = (broadcastInDim S1700000 ![] bcast_S_S1700000 : (⟨S_, .i32⟩ : BufTy).Contents (Elt F) → (⟨S1700000, .i32⟩ : BufTy).Contents (Elt F)) (𝐯 main_c_3) := by
  rw [Cert.Lib.stage (hW (F := F)) 27 _ rfl main_v19 (by decide),
    unary_result,
    Cert.Lib.after_eq_take_of_written (hW (F := F)) 27 main_c_3 (by decide)]

theorem st_v20 : (𝐯 main_v20) = (addi : (⟨S1700000, .i32⟩ : BufTy).Contents (Elt F) → (⟨S1700000, .i32⟩ : BufTy).Contents (Elt F) → (⟨S1700000, .i32⟩ : BufTy).Contents (Elt F)) (𝐯 main_v3) (𝐯 main_v19) := by
  rw [Cert.Lib.stage (hW (F := F)) 28 _ rfl main_v20 (by decide),
    binary_result,
    Cert.Lib.after_eq_take_of_written (hW (F := F)) 28 main_v3 (by decide),
    Cert.Lib.after_eq_take_of_written (hW (F := F)) 28 main_v19 (by decide)]

theorem st_v21 : (𝐯 main_v21) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (𝐯 main_v18) (𝐯 main_v20) (𝐯 main_v3) := by
  rw [Cert.Lib.stage (hW (F := F)) 29 _ rfl main_v21 (by decide),
    ternary_result,
    Cert.Lib.after_eq_take_of_written (hW (F := F)) 29 main_v18 (by decide),
    Cert.Lib.after_eq_take_of_written (hW (F := F)) 29 main_v20 (by decide),
    Cert.Lib.after_eq_take_of_written (hW (F := F)) 29 main_v3 (by decide)]

theorem st_v22 : (𝐯 main_v22) = (broadcastInDim S1700000x1 ![0] bcast_S1700000_S1700000x1_0 : (⟨S1700000, .i32⟩ : BufTy).Contents (Elt F) → (⟨S1700000x1, .i32⟩ : BufTy).Contents (Elt F)) (𝐯 main_v21) := by
  rw [Cert.Lib.stage (hW (F := F)) 30 _ rfl main_v22 (by decide),
    unary_result,
    Cert.Lib.after_eq_take_of_written (hW (F := F)) 30 main_v21 (by decide)]

theorem st_v23 : (𝐯 main_v23) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (𝐯 main_v16) (𝐯 main_v22) := by
  rw [Cert.Lib.stage (hW (F := F)) 31 _ rfl main_v23 (by decide),
    binary_result,
    Cert.Lib.after_eq_take_of_written (hW (F := F)) 31 main_v16 (by decide),
    Cert.Lib.after_eq_take_of_written (hW (F := F)) 31 main_v22 (by decide)]

theorem st_v24 : (𝐯 main_v24) = (mulf : (⟨S1700000, .f32⟩ : BufTy).Contents (Elt F) → (⟨S1700000, .f32⟩ : BufTy).Contents (Elt F) → (⟨S1700000, .f32⟩ : BufTy).Contents (Elt F)) (𝐯 main_v23) (𝐯 main_v8) := by
  rw [Cert.Lib.stage (hW (F := F)) 32 _ rfl main_v24 (by decide),
    binary_result,
    Cert.Lib.after_eq_take_of_written (hW (F := F)) 32 main_v23 (by decide),
    Cert.Lib.after_eq_take_of_written (hW (F := F)) 32 main_v8 (by decide)]

theorem st_c_4 : (𝐯 main_c_4) = (constantI S_ 32 0#32) := by
  rw [Cert.Lib.stage (hW (F := F)) 33 _ rfl main_c_4 (by decide),
    nullary_result]

theorem st_v25 : (𝐯 main_v25) = (broadcastInDim S1700000 ![] bcast_S_S1700000 : (⟨S_, .i32⟩ : BufTy).Contents (Elt F) → (⟨S1700000, .i32⟩ : BufTy).Contents (Elt F)) (𝐯 main_c_4) := by
  rw [Cert.Lib.stage (hW (F := F)) 34 _ rfl main_v25 (by decide),
    unary_result,
    Cert.Lib.after_eq_take_of_written (hW (F := F)) 34 main_c_4 (by decide)]

theorem st_v26 : (𝐯 main_v26) = (cmpi .slt : (⟨S1700000, .i32⟩ : BufTy).Contents (Elt F) → (⟨S1700000, .i32⟩ : BufTy).Contents (Elt F) → (⟨S1700000, .i1⟩ : BufTy).Contents (Elt F)) (𝐯 main_v6) (𝐯 main_v25) := by
  rw [Cert.Lib.stage (hW (F := F)) 35 _ rfl main_v26 (by decide),
    binary_result,
    Cert.Lib.after_eq_take_of_written (hW (F := F)) 35 main_v6 (by decide),
    Cert.Lib.after_eq_take_of_written (hW (F := F)) 35 main_v25 (by decide)]

theorem st_c_5 : (𝐯 main_c_5) = (constantI S_ 32 100000#32) := by
  rw [Cert.Lib.stage (hW (F := F)) 36 _ rfl main_c_5 (by decide),
    nullary_result]

theorem st_v27 : (𝐯 main_v27) = (broadcastInDim S1700000 ![] bcast_S_S1700000 : (⟨S_, .i32⟩ : BufTy).Contents (Elt F) → (⟨S1700000, .i32⟩ : BufTy).Contents (Elt F)) (𝐯 main_c_5) := by
  rw [Cert.Lib.stage (hW (F := F)) 37 _ rfl main_v27 (by decide),
    unary_result,
    Cert.Lib.after_eq_take_of_written (hW (F := F)) 37 main_c_5 (by decide)]

theorem st_v28 : (𝐯 main_v28) = (addi : (⟨S1700000, .i32⟩ : BufTy).Contents (Elt F) → (⟨S1700000, .i32⟩ : BufTy).Contents (Elt F) → (⟨S1700000, .i32⟩ : BufTy).Contents (Elt F)) (𝐯 main_v6) (𝐯 main_v27) := by
  rw [Cert.Lib.stage (hW (F := F)) 38 _ rfl main_v28 (by decide),
    binary_result,
    Cert.Lib.after_eq_take_of_written (hW (F := F)) 38 main_v6 (by decide),
    Cert.Lib.after_eq_take_of_written (hW (F := F)) 38 main_v27 (by decide)]

theorem st_v29 : (𝐯 main_v29) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (𝐯 main_v26) (𝐯 main_v28) (𝐯 main_v6) := by
  rw [Cert.Lib.stage (hW (F := F)) 39 _ rfl main_v29 (by decide),
    ternary_result,
    Cert.Lib.after_eq_take_of_written (hW (F := F)) 39 main_v26 (by decide),
    Cert.Lib.after_eq_take_of_written (hW (F := F)) 39 main_v28 (by decide),
    Cert.Lib.after_eq_take_of_written (hW (F := F)) 39 main_v6 (by decide)]

theorem st_v30 : (𝐯 main_v30) = (broadcastInDim S1700000x1 ![0] bcast_S1700000_S1700000x1_0 : (⟨S1700000, .i32⟩ : BufTy).Contents (Elt F) → (⟨S1700000x1, .i32⟩ : BufTy).Contents (Elt F)) (𝐯 main_v29) := by
  rw [Cert.Lib.stage (hW (F := F)) 40 _ rfl main_v30 (by decide),
    unary_result,
    Cert.Lib.after_eq_take_of_written (hW (F := F)) 40 main_v29 (by decide)]

theorem st_v31 : (𝐯 main_v31) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (𝐯 main_v16) (𝐯 main_v30) := by
  rw [Cert.Lib.stage (hW (F := F)) 41 _ rfl main_v31 (by decide),
    binary_result,
    Cert.Lib.after_eq_take_of_written (hW (F := F)) 41 main_v16 (by decide),
    Cert.Lib.after_eq_take_of_written (hW (F := F)) 41 main_v30 (by decide)]

theorem st_v32 : (𝐯 main_v32) = (mulf : (⟨S1700000, .f32⟩ : BufTy).Contents (Elt F) → (⟨S1700000, .f32⟩ : BufTy).Contents (Elt F) → (⟨S1700000, .f32⟩ : BufTy).Contents (Elt F)) (𝐯 main_v24) (𝐯 main_v31) := by
  rw [Cert.Lib.stage (hW (F := F)) 42 _ rfl main_v32 (by decide),
    binary_result,
    Cert.Lib.after_eq_take_of_written (hW (F := F)) 42 main_v24 (by decide),
    Cert.Lib.after_eq_take_of_written (hW (F := F)) 42 main_v31 (by decide)]

theorem st_c_6 : (𝐯 main_c_6) = (constantI S_ 32 0#32) := by
  rw [Cert.Lib.stage (hW (F := F)) 43 _ rfl main_c_6 (by decide),
    nullary_result]

theorem st_v33 : (𝐯 main_v33) = (broadcastInDim S1700000 ![] bcast_S_S1700000 : (⟨S_, .i32⟩ : BufTy).Contents (Elt F) → (⟨S1700000, .i32⟩ : BufTy).Contents (Elt F)) (𝐯 main_c_6) := by
  rw [Cert.Lib.stage (hW (F := F)) 44 _ rfl main_v33 (by decide),
    unary_result,
    Cert.Lib.after_eq_take_of_written (hW (F := F)) 44 main_c_6 (by decide)]

theorem st_v34 : (𝐯 main_v34) = (cmpi .slt : (⟨S1700000, .i32⟩ : BufTy).Contents (Elt F) → (⟨S1700000, .i32⟩ : BufTy).Contents (Elt F) → (⟨S1700000, .i1⟩ : BufTy).Contents (Elt F)) (𝐯 main_v3) (𝐯 main_v33) := by
  rw [Cert.Lib.stage (hW (F := F)) 45 _ rfl main_v34 (by decide),
    binary_result,
    Cert.Lib.after_eq_take_of_written (hW (F := F)) 45 main_v3 (by decide),
    Cert.Lib.after_eq_take_of_written (hW (F := F)) 45 main_v33 (by decide)]

theorem st_c_7 : (𝐯 main_c_7) = (constantI S_ 32 100000#32) := by
  rw [Cert.Lib.stage (hW (F := F)) 46 _ rfl main_c_7 (by decide),
    nullary_result]

theorem st_v35 : (𝐯 main_v35) = (broadcastInDim S1700000 ![] bcast_S_S1700000 : (⟨S_, .i32⟩ : BufTy).Contents (Elt F) → (⟨S1700000, .i32⟩ : BufTy).Contents (Elt F)) (𝐯 main_c_7) := by
  rw [Cert.Lib.stage (hW (F := F)) 47 _ rfl main_v35 (by decide),
    unary_result,
    Cert.Lib.after_eq_take_of_written (hW (F := F)) 47 main_c_7 (by decide)]

theorem st_v36 : (𝐯 main_v36) = (addi : (⟨S1700000, .i32⟩ : BufTy).Contents (Elt F) → (⟨S1700000, .i32⟩ : BufTy).Contents (Elt F) → (⟨S1700000, .i32⟩ : BufTy).Contents (Elt F)) (𝐯 main_v3) (𝐯 main_v35) := by
  rw [Cert.Lib.stage (hW (F := F)) 48 _ rfl main_v36 (by decide),
    binary_result,
    Cert.Lib.after_eq_take_of_written (hW (F := F)) 48 main_v3 (by decide),
    Cert.Lib.after_eq_take_of_written (hW (F := F)) 48 main_v35 (by decide)]

theorem st_v37 : (𝐯 main_v37) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (𝐯 main_v34) (𝐯 main_v36) (𝐯 main_v3) := by
  rw [Cert.Lib.stage (hW (F := F)) 49 _ rfl main_v37 (by decide),
    ternary_result,
    Cert.Lib.after_eq_take_of_written (hW (F := F)) 49 main_v34 (by decide),
    Cert.Lib.after_eq_take_of_written (hW (F := F)) 49 main_v36 (by decide),
    Cert.Lib.after_eq_take_of_written (hW (F := F)) 49 main_v3 (by decide)]

theorem st_v38 : (𝐯 main_v38) = (broadcastInDim S1700000x1 ![0] bcast_S1700000_S1700000x1_0 : (⟨S1700000, .i32⟩ : BufTy).Contents (Elt F) → (⟨S1700000x1, .i32⟩ : BufTy).Contents (Elt F)) (𝐯 main_v37) := by
  rw [Cert.Lib.stage (hW (F := F)) 50 _ rfl main_v38 (by decide),
    unary_result,
    Cert.Lib.after_eq_take_of_written (hW (F := F)) 50 main_v37 (by decide)]

theorem st_v39 : (𝐯 main_v39) = ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) (𝐯 main_v9) (𝐯 main_v38) := by
  rw [Cert.Lib.stage (hW (F := F)) 51 _ rfl main_v39 (by decide),
    binary_result,
    Cert.Lib.after_eq_take_of_written (hW (F := F)) 51 main_v9 (by decide),
    Cert.Lib.after_eq_take_of_written (hW (F := F)) 51 main_v38 (by decide)]

theorem st_v40 : (𝐯 main_v40) = (broadcastInDim S1700000x1 ![0] bcast_S1700000_S1700000x1_0 : (⟨S1700000, .f32⟩ : BufTy).Contents (Elt F) → (⟨S1700000x1, .f32⟩ : BufTy).Contents (Elt F)) (𝐯 main_v32) := by
  rw [Cert.Lib.stage (hW (F := F)) 52 _ rfl main_v40 (by decide),
    unary_result,
    Cert.Lib.after_eq_take_of_written (hW (F := F)) 52 main_v32 (by decide)]

theorem st_v41 : (𝐯 main_v41) = (broadcastInDim S1700000x128 ![0, 1] bcast_S1700000x1_S1700000x128_0_1 : (⟨S1700000x1, .f32⟩ : BufTy).Contents (Elt F) → (⟨S1700000x128, .f32⟩ : BufTy).Contents (Elt F)) (𝐯 main_v40) := by
  rw [Cert.Lib.stage (hW (F := F)) 53 _ rfl main_v41 (by decide),
    unary_result,
    Cert.Lib.after_eq_take_of_written (hW (F := F)) 53 main_v40 (by decide)]

theorem st_v42 : (𝐯 main_v42) = (mulf : (⟨S1700000x128, .f32⟩ : BufTy).Contents (Elt F) → (⟨S1700000x128, .f32⟩ : BufTy).Contents (Elt F) → (⟨S1700000x128, .f32⟩ : BufTy).Contents (Elt F)) (𝐯 main_v39) (𝐯 main_v41) := by
  rw [Cert.Lib.stage (hW (F := F)) 54 _ rfl main_v42 (by decide),
    binary_result,
    Cert.Lib.after_eq_take_of_written (hW (F := F)) 54 main_v39 (by decide),
    Cert.Lib.after_eq_take_of_written (hW (F := F)) 54 main_v41 (by decide)]

theorem st_cst_8 : (𝐯 main_cst_8) = (constant S_ .f32 0x00000000#32) := by
  rw [Cert.Lib.stage (hW (F := F)) 55 _ rfl main_cst_8 (by decide),
    nullary_result]

theorem st_v43 : (𝐯 main_v43) = (broadcastInDim S100000x128 ![] bcast_S_S100000x128 : (⟨S_, .f32⟩ : BufTy).Contents (Elt F) → (⟨S100000x128, .f32⟩ : BufTy).Contents (Elt F)) (𝐯 main_cst_8) := by
  rw [Cert.Lib.stage (hW (F := F)) 56 _ rfl main_v43 (by decide),
    unary_result,
    Cert.Lib.after_eq_take_of_written (hW (F := F)) 56 main_cst_8 (by decide)]

theorem st_v44 : (𝐯 main_v44) = (broadcastInDim S1700000x1 ![0] bcast_S1700000_S1700000x1_0 : (⟨S1700000, .i32⟩ : BufTy).Contents (Elt F) → (⟨S1700000x1, .i32⟩ : BufTy).Contents (Elt F)) (𝐯 main_v6) := by
  rw [Cert.Lib.stage (hW (F := F)) 57 _ rfl main_v44 (by decide),
    unary_result,
    Cert.Lib.after_eq_take_of_written (hW (F := F)) 57 main_v6 (by decide)]

theorem st_v45 : (𝐯 main_v45) = ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) (𝐯 main_v43) (𝐯 main_v44) (𝐯 main_v42) := by
  rw [Cert.Lib.stage (hW (F := F)) 58 _ rfl main_v45 (by decide),
    ternary_result,
    Cert.Lib.after_eq_take_of_written (hW (F := F)) 58 main_v43 (by decide),
    Cert.Lib.after_eq_take_of_written (hW (F := F)) 58 main_v44 (by decide),
    Cert.Lib.after_eq_take_of_written (hW (F := F)) 58 main_v42 (by decide)]

theorem st_v46 : (𝐯 main_v46) = (broadcastInDim S1x128 ![1] bcast_S128_S1x128_1 : (⟨S128, .f32⟩ : BufTy).Contents (Elt F) → (⟨S1x128, .f32⟩ : BufTy).Contents (Elt F)) (𝐯 main_arg4) := by
  rw [Cert.Lib.stage (hW (F := F)) 59 _ rfl main_v46 (by decide),
    unary_result,
    Cert.Lib.after_eq_take_of_written (hW (F := F)) 59 main_arg4 (by decide)]

theorem st_v47 : (𝐯 main_v47) = (broadcastInDim S100000x128 ![0, 1] bcast_S1x128_S100000x128_0_1 : (⟨S1x128, .f32⟩ : BufTy).Contents (Elt F) → (⟨S100000x128, .f32⟩ : BufTy).Contents (Elt F)) (𝐯 main_v46) := by
  rw [Cert.Lib.stage (hW (F := F)) 60 _ rfl main_v47 (by decide),
    unary_result,
    Cert.Lib.after_eq_take_of_written (hW (F := F)) 60 main_v46 (by decide)]

theorem st_v48 : (𝐯 main_v48) = (addf : (⟨S100000x128, .f32⟩ : BufTy).Contents (Elt F) → (⟨S100000x128, .f32⟩ : BufTy).Contents (Elt F) → (⟨S100000x128, .f32⟩ : BufTy).Contents (Elt F)) (𝐯 main_v45) (𝐯 main_v47) := by
  rw [Cert.Lib.stage (hW (F := F)) 61 _ rfl main_v48 (by decide),
    binary_result,
    Cert.Lib.after_eq_take_of_written (hW (F := F)) 61 main_v45 (by decide),
    Cert.Lib.after_eq_take_of_written (hW (F := F)) 61 main_v47 (by decide)]

theorem st_call1_cst : (𝐯 main_call1_cst) = (constant S_ .f32 0x00000000#32) := by
  rw [Cert.Lib.stage (hW (F := F)) 62 _ rfl main_call1_cst (by decide),
    nullary_result]
  generalize after (List.take 62 ops) V = Wf
  rfl

theorem st_call1_v0 : (𝐯 main_call1_v0) = (broadcastInDim S100000x128 ![] bcast_S_S100000x128 : (⟨S_, .f32⟩ : BufTy).Contents (Elt F) → (⟨S100000x128, .f32⟩ : BufTy).Contents (Elt F)) (𝐯 main_call1_cst) := by
  rw [Cert.Lib.stage (hW (F := F)) 63 _ rfl main_call1_v0 (by decide),
    unary_result,
    Cert.Lib.after_eq_take_of_written (hW (F := F)) 63 main_call1_cst (by decide)]
  generalize after (List.take 63 ops) V = Wf
  rfl

theorem st_v49 : (𝐯 main_v49) = (maximumf : (⟨S100000x128, .f32⟩ : BufTy).Contents (Elt F) → (⟨S100000x128, .f32⟩ : BufTy).Contents (Elt F) → (⟨S100000x128, .f32⟩ : BufTy).Contents (Elt F)) (𝐯 main_v48) (𝐯 main_call1_v0) := by
  rw [Cert.Lib.stage (hW (F := F)) 64 _ rfl main_v49 (by decide),
    binary_result,
    Cert.Lib.after_eq_take_of_written (hW (F := F)) 64 main_v48 (by decide),
    Cert.Lib.after_eq_take_of_written (hW (F := F)) 64 main_call1_v0 (by decide)]
  generalize after (List.take 64 ops) V = Wf
  rfl

theorem st_cst_9 : (𝐯 main_cst_9) = (constant S_ .f32 0x00000000#32) := by
  rw [Cert.Lib.stage (hW (F := F)) 65 _ rfl main_cst_9 (by decide),
    nullary_result]

theorem st_v50 : (𝐯 main_v50) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (𝐯 main_v49) (𝐯 main_cst_9) := by
  rw [Cert.Lib.stage (hW (F := F)) 66 _ rfl main_v50 (by decide),
    binary_result,
    Cert.Lib.after_eq_take_of_written (hW (F := F)) 66 main_v49 (by decide),
    Cert.Lib.after_eq_take_of_written (hW (F := F)) 66 main_cst_9 (by decide)]

theorem st_cst_10 : (𝐯 main_cst_10) = (constant S_ .f32 0x47C35000#32) := by
  rw [Cert.Lib.stage (hW (F := F)) 67 _ rfl main_cst_10 (by decide),
    nullary_result]

theorem st_v51 : (𝐯 main_v51) = (broadcastInDim S128 ![] bcast_S_S128 : (⟨S_, .f32⟩ : BufTy).Contents (Elt F) → (⟨S128, .f32⟩ : BufTy).Contents (Elt F)) (𝐯 main_cst_10) := by
  rw [Cert.Lib.stage (hW (F := F)) 68 _ rfl main_v51 (by decide),
    unary_result,
    Cert.Lib.after_eq_take_of_written (hW (F := F)) 68 main_cst_10 (by decide)]

theorem st_v52 : (𝐯 main_v52) = (Host.divf : (⟨S128, .f32⟩ : BufTy).Contents (Elt F) → (⟨S128, .f32⟩ : BufTy).Contents (Elt F) → (⟨S128, .f32⟩ : BufTy).Contents (Elt F)) (𝐯 main_v50) (𝐯 main_v51) := by
  rw [Cert.Lib.stage (hW (F := F)) 69 _ rfl main_v52 (by decide),
    binary_result,
    Cert.Lib.after_eq_take_of_written (hW (F := F)) 69 main_v50 (by decide),
    Cert.Lib.after_eq_take_of_written (hW (F := F)) 69 main_v51 (by decide)]

theorem st_v53 : (𝐯 main_v53) = (broadcastInDim S1x128 ![1] bcast_S128_S1x128_1 : (⟨S128, .f32⟩ : BufTy).Contents (Elt F) → (⟨S1x128, .f32⟩ : BufTy).Contents (Elt F)) (𝐯 main_v52) := by
  rw [Cert.Lib.stage (hW (F := F)) 70 _ rfl main_v53 (by decide),
    unary_result,
    Cert.Lib.after_eq_take_of_written (hW (F := F)) 70 main_v52 (by decide)]

theorem st_v54 : (𝐯 main_v54) = (broadcastInDim S100000x128 ![0, 1] bcast_S1x128_S100000x128_0_1 : (⟨S1x128, .f32⟩ : BufTy).Contents (Elt F) → (⟨S100000x128, .f32⟩ : BufTy).Contents (Elt F)) (𝐯 main_v53) := by
  rw [Cert.Lib.stage (hW (F := F)) 71 _ rfl main_v54 (by decide),
    unary_result,
    Cert.Lib.after_eq_take_of_written (hW (F := F)) 71 main_v53 (by decide)]

theorem st_v55 : (𝐯 main_v55) = (subf : (⟨S100000x128, .f32⟩ : BufTy).Contents (Elt F) → (⟨S100000x128, .f32⟩ : BufTy).Contents (Elt F) → (⟨S100000x128, .f32⟩ : BufTy).Contents (Elt F)) (𝐯 main_v49) (𝐯 main_v54) := by
  rw [Cert.Lib.stage (hW (F := F)) 72 _ rfl main_v55 (by decide),
    binary_result,
    Cert.Lib.after_eq_take_of_written (hW (F := F)) 72 main_v49 (by decide),
    Cert.Lib.after_eq_take_of_written (hW (F := F)) 72 main_v54 (by decide)]

theorem st_v56 : (𝐯 main_v56) = (mulf : (⟨S100000x128, .f32⟩ : BufTy).Contents (Elt F) → (⟨S100000x128, .f32⟩ : BufTy).Contents (Elt F) → (⟨S100000x128, .f32⟩ : BufTy).Contents (Elt F)) (𝐯 main_v55) (𝐯 main_v55) := by
  rw [Cert.Lib.stage (hW (F := F)) 73 _ rfl main_v56 (by decide),
    binary_result,
    Cert.Lib.after_eq_take_of_written (hW (F := F)) 73 main_v55 (by decide)]

theorem st_cst_11 : (𝐯 main_cst_11) = (constant S_ .f32 0x00000000#32) := by
  rw [Cert.Lib.stage (hW (F := F)) 74 _ rfl main_cst_11 (by decide),
    nullary_result]

theorem st_v57 : (𝐯 main_v57) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (𝐯 main_v56) (𝐯 main_cst_11) := by
  rw [Cert.Lib.stage (hW (F := F)) 75 _ rfl main_v57 (by decide),
    binary_result,
    Cert.Lib.after_eq_take_of_written (hW (F := F)) 75 main_v56 (by decide),
    Cert.Lib.after_eq_take_of_written (hW (F := F)) 75 main_cst_11 (by decide)]

theorem st_cst_12 : (𝐯 main_cst_12) = (constant S_ .f32 0x47C35000#32) := by
  rw [Cert.Lib.stage (hW (F := F)) 76 _ rfl main_cst_12 (by decide),
    nullary_result]

theorem st_v58 : (𝐯 main_v58) = (broadcastInDim S128 ![] bcast_S_S128 : (⟨S_, .f32⟩ : BufTy).Contents (Elt F) → (⟨S128, .f32⟩ : BufTy).Contents (Elt F)) (𝐯 main_cst_12) := by
  rw [Cert.Lib.stage (hW (F := F)) 77 _ rfl main_v58 (by decide),
    unary_result,
    Cert.Lib.after_eq_take_of_written (hW (F := F)) 77 main_cst_12 (by decide)]

theorem st_v59 : (𝐯 main_v59) = (Host.divf : (⟨S128, .f32⟩ : BufTy).Contents (Elt F) → (⟨S128, .f32⟩ : BufTy).Contents (Elt F) → (⟨S128, .f32⟩ : BufTy).Contents (Elt F)) (𝐯 main_v57) (𝐯 main_v58) := by
  rw [Cert.Lib.stage (hW (F := F)) 78 _ rfl main_v59 (by decide),
    binary_result,
    Cert.Lib.after_eq_take_of_written (hW (F := F)) 78 main_v57 (by decide),
    Cert.Lib.after_eq_take_of_written (hW (F := F)) 78 main_v58 (by decide)]

theorem st_v60 : (𝐯 main_v60) = (broadcastInDim S1x128 ![1] bcast_S128_S1x128_1 : (⟨S128, .f32⟩ : BufTy).Contents (Elt F) → (⟨S1x128, .f32⟩ : BufTy).Contents (Elt F)) (𝐯 main_v52) := by
  rw [Cert.Lib.stage (hW (F := F)) 79 _ rfl main_v60 (by decide),
    unary_result,
    Cert.Lib.after_eq_take_of_written (hW (F := F)) 79 main_v52 (by decide)]

theorem st_v61 : (𝐯 main_v61) = (broadcastInDim S100000x128 ![0, 1] bcast_S1x128_S100000x128_0_1 : (⟨S1x128, .f32⟩ : BufTy).Contents (Elt F) → (⟨S100000x128, .f32⟩ : BufTy).Contents (Elt F)) (𝐯 main_v60) := by
  rw [Cert.Lib.stage (hW (F := F)) 80 _ rfl main_v61 (by decide),
    unary_result,
    Cert.Lib.after_eq_take_of_written (hW (F := F)) 80 main_v60 (by decide)]

theorem st_v62 : (𝐯 main_v62) = (subf : (⟨S100000x128, .f32⟩ : BufTy).Contents (Elt F) → (⟨S100000x128, .f32⟩ : BufTy).Contents (Elt F) → (⟨S100000x128, .f32⟩ : BufTy).Contents (Elt F)) (𝐯 main_v49) (𝐯 main_v61) := by
  rw [Cert.Lib.stage (hW (F := F)) 81 _ rfl main_v62 (by decide),
    binary_result,
    Cert.Lib.after_eq_take_of_written (hW (F := F)) 81 main_v49 (by decide),
    Cert.Lib.after_eq_take_of_written (hW (F := F)) 81 main_v61 (by decide)]

theorem st_v63 : (𝐯 main_v63) = (broadcastInDim S1x128 ![1] bcast_S128_S1x128_1 : (⟨S128, .f32⟩ : BufTy).Contents (Elt F) → (⟨S1x128, .f32⟩ : BufTy).Contents (Elt F)) (𝐯 main_arg7) := by
  rw [Cert.Lib.stage (hW (F := F)) 82 _ rfl main_v63 (by decide),
    unary_result,
    Cert.Lib.after_eq_take_of_written (hW (F := F)) 82 main_arg7 (by decide)]

theorem st_v64 : (𝐯 main_v64) = (broadcastInDim S100000x128 ![0, 1] bcast_S1x128_S100000x128_0_1 : (⟨S1x128, .f32⟩ : BufTy).Contents (Elt F) → (⟨S100000x128, .f32⟩ : BufTy).Contents (Elt F)) (𝐯 main_v63) := by
  rw [Cert.Lib.stage (hW (F := F)) 83 _ rfl main_v64 (by decide),
    unary_result,
    Cert.Lib.after_eq_take_of_written (hW (F := F)) 83 main_v63 (by decide)]

theorem st_v65 : (𝐯 main_v65) = (mulf : (⟨S100000x128, .f32⟩ : BufTy).Contents (Elt F) → (⟨S100000x128, .f32⟩ : BufTy).Contents (Elt F) → (⟨S100000x128, .f32⟩ : BufTy).Contents (Elt F)) (𝐯 main_v64) (𝐯 main_v62) := by
  rw [Cert.Lib.stage (hW (F := F)) 84 _ rfl main_v65 (by decide),
    binary_result,
    Cert.Lib.after_eq_take_of_written (hW (F := F)) 84 main_v64 (by decide),
    Cert.Lib.after_eq_take_of_written (hW (F := F)) 84 main_v62 (by decide)]

theorem st_cst_13 : (𝐯 main_cst_13) = (constant S_ .f32 0x3727C5AC#32) := by
  rw [Cert.Lib.stage (hW (F := F)) 85 _ rfl main_cst_13 (by decide),
    nullary_result]

theorem st_v66 : (𝐯 main_v66) = (broadcastInDim S128 ![] bcast_S_S128 : (⟨S_, .f32⟩ : BufTy).Contents (Elt F) → (⟨S128, .f32⟩ : BufTy).Contents (Elt F)) (𝐯 main_cst_13) := by
  rw [Cert.Lib.stage (hW (F := F)) 86 _ rfl main_v66 (by decide),
    unary_result,
    Cert.Lib.after_eq_take_of_written (hW (F := F)) 86 main_cst_13 (by decide)]

theorem st_v67 : (𝐯 main_v67) = (addf : (⟨S128, .f32⟩ : BufTy).Contents (Elt F) → (⟨S128, .f32⟩ : BufTy).Contents (Elt F) → (⟨S128, .f32⟩ : BufTy).Contents (Elt F)) (𝐯 main_v59) (𝐯 main_v66) := by
  rw [Cert.Lib.stage (hW (F := F)) 87 _ rfl main_v67 (by decide),
    binary_result,
    Cert.Lib.after_eq_take_of_written (hW (F := F)) 87 main_v59 (by decide),
    Cert.Lib.after_eq_take_of_written (hW (F := F)) 87 main_v66 (by decide)]

theorem st_v68 : (𝐯 main_v68) = (Host.rsqrt : (⟨S128, .f32⟩ : BufTy).Contents (Elt F) → (⟨S128, .f32⟩ : BufTy).Contents (Elt F)) (𝐯 main_v67) := by
  rw [Cert.Lib.stage (hW (F := F)) 88 _ rfl main_v68 (by decide),
    unary_result,
    Cert.Lib.after_eq_take_of_written (hW (F := F)) 88 main_v67 (by decide)]

theorem st_v69 : (𝐯 main_v69) = (broadcastInDim S1x128 ![1] bcast_S128_S1x128_1 : (⟨S128, .f32⟩ : BufTy).Contents (Elt F) → (⟨S1x128, .f32⟩ : BufTy).Contents (Elt F)) (𝐯 main_v68) := by
  rw [Cert.Lib.stage (hW (F := F)) 89 _ rfl main_v69 (by decide),
    unary_result,
    Cert.Lib.after_eq_take_of_written (hW (F := F)) 89 main_v68 (by decide)]

theorem st_v70 : (𝐯 main_v70) = (broadcastInDim S100000x128 ![0, 1] bcast_S1x128_S100000x128_0_1 : (⟨S1x128, .f32⟩ : BufTy).Contents (Elt F) → (⟨S100000x128, .f32⟩ : BufTy).Contents (Elt F)) (𝐯 main_v69) := by
  rw [Cert.Lib.stage (hW (F := F)) 90 _ rfl main_v70 (by decide),
    unary_result,
    Cert.Lib.after_eq_take_of_written (hW (F := F)) 90 main_v69 (by decide)]

theorem st_v71 : (𝐯 main_v71) = (mulf : (⟨S100000x128, .f32⟩ : BufTy).Contents (Elt F) → (⟨S100000x128, .f32⟩ : BufTy).Contents (Elt F) → (⟨S100000x128, .f32⟩ : BufTy).Contents (Elt F)) (𝐯 main_v65) (𝐯 main_v70) := by
  rw [Cert.Lib.stage (hW (F := F)) 91 _ rfl main_v71 (by decide),
    binary_result,
    Cert.Lib.after_eq_take_of_written (hW (F := F)) 91 main_v65 (by decide),
    Cert.Lib.after_eq_take_of_written (hW (F := F)) 91 main_v70 (by decide)]

theorem st_v72 : (𝐯 main_v72) = (broadcastInDim S1x128 ![1] bcast_S128_S1x128_1 : (⟨S128, .f32⟩ : BufTy).Contents (Elt F) → (⟨S1x128, .f32⟩ : BufTy).Contents (Elt F)) (𝐯 main_arg8) := by
  rw [Cert.Lib.stage (hW (F := F)) 92 _ rfl main_v72 (by decide),
    unary_result,
    Cert.Lib.after_eq_take_of_written (hW (F := F)) 92 main_arg8 (by decide)]

theorem st_v73 : (𝐯 main_v73) = (broadcastInDim S100000x128 ![0, 1] bcast_S1x128_S100000x128_0_1 : (⟨S1x128, .f32⟩ : BufTy).Contents (Elt F) → (⟨S100000x128, .f32⟩ : BufTy).Contents (Elt F)) (𝐯 main_v72) := by
  rw [Cert.Lib.stage (hW (F := F)) 93 _ rfl main_v73 (by decide),
    unary_result,
    Cert.Lib.after_eq_take_of_written (hW (F := F)) 93 main_v72 (by decide)]

theorem st_v74 : (𝐯 main_v74) = (addf : (⟨S100000x128, .f32⟩ : BufTy).Contents (Elt F) → (⟨S100000x128, .f32⟩ : BufTy).Contents (Elt F) → (⟨S100000x128, .f32⟩ : BufTy).Contents (Elt F)) (𝐯 main_v71) (𝐯 main_v73) := by
  rw [Cert.Lib.stage (hW (F := F)) 94 _ rfl main_v74 (by decide),
    binary_result,
    Cert.Lib.after_eq_take_of_written (hW (F := F)) 94 main_v71 (by decide),
    Cert.Lib.after_eq_take_of_written (hW (F := F)) 94 main_v73 (by decide)]

theorem st_v75 : (𝐯 main_v75) = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (𝐯 main_v74) (𝐯 main_arg5) := by
  rw [Cert.Lib.stage (hW (F := F)) 95 _ rfl main_v75 (by decide),
    binary_result,
    Cert.Lib.after_eq_take_of_written (hW (F := F)) 95 main_v74 (by decide),
    Cert.Lib.after_eq_take_of_written (hW (F := F)) 95 main_arg5 (by decide)]

theorem st_cst_14 : (𝐯 main_cst_14) = (constant S_ .f32 0x00000000#32) := by
  rw [Cert.Lib.stage (hW (F := F)) 96 _ rfl main_cst_14 (by decide),
    nullary_result]

theorem st_v76 : (𝐯 main_v76) = (broadcastInDim S100000 ![] bcast_S_S100000 : (⟨S_, .f32⟩ : BufTy).Contents (Elt F) → (⟨S100000, .f32⟩ : BufTy).Contents (Elt F)) (𝐯 main_cst_14) := by
  rw [Cert.Lib.stage (hW (F := F)) 97 _ rfl main_v76 (by decide),
    unary_result,
    Cert.Lib.after_eq_take_of_written (hW (F := F)) 97 main_cst_14 (by decide)]

theorem st_v77 : (𝐯 main_v77) = (broadcastInDim S1700000x1 ![0] bcast_S1700000_S1700000x1_0 : (⟨S1700000, .i32⟩ : BufTy).Contents (Elt F) → (⟨S1700000x1, .i32⟩ : BufTy).Contents (Elt F)) (𝐯 main_v6) := by
  rw [Cert.Lib.stage (hW (F := F)) 98 _ rfl main_v77 (by decide),
    unary_result,
    Cert.Lib.after_eq_take_of_written (hW (F := F)) 98 main_v6 (by decide)]

theorem st_v78 : (𝐯 main_v78) = ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) (𝐯 main_v76) (𝐯 main_v77) (𝐯 main_v8) := by
  rw [Cert.Lib.stage (hW (F := F)) 99 _ rfl main_v78 (by decide),
    ternary_result,
    Cert.Lib.after_eq_take_of_written (hW (F := F)) 99 main_v76 (by decide),
    Cert.Lib.after_eq_take_of_written (hW (F := F)) 99 main_v77 (by decide),
    Cert.Lib.after_eq_take_of_written (hW (F := F)) 99 main_v8 (by decide)]

theorem st_cst_15 : (𝐯 main_cst_15) = (constant S_ .f32 0x00000000#32) := by
  rw [Cert.Lib.stage (hW (F := F)) 100 _ rfl main_cst_15 (by decide),
    nullary_result]

theorem st_v79 : (𝐯 main_v79) = (broadcastInDim S100000 ![] bcast_S_S100000 : (⟨S_, .f32⟩ : BufTy).Contents (Elt F) → (⟨S100000, .f32⟩ : BufTy).Contents (Elt F)) (𝐯 main_cst_15) := by
  rw [Cert.Lib.stage (hW (F := F)) 101 _ rfl main_v79 (by decide),
    unary_result,
    Cert.Lib.after_eq_take_of_written (hW (F := F)) 101 main_cst_15 (by decide)]

theorem st_v80 : (𝐯 main_v80) = (cmpf .ogt : (⟨S100000, .f32⟩ : BufTy).Contents (Elt F) → (⟨S100000, .f32⟩ : BufTy).Contents (Elt F) → (⟨S100000, .i1⟩ : BufTy).Contents (Elt F)) (𝐯 main_v78) (𝐯 main_v79) := by
  rw [Cert.Lib.stage (hW (F := F)) 102 _ rfl main_v80 (by decide),
    binary_result,
    Cert.Lib.after_eq_take_of_written (hW (F := F)) 102 main_v78 (by decide),
    Cert.Lib.after_eq_take_of_written (hW (F := F)) 102 main_v79 (by decide)]

theorem st_v81 : (𝐯 main_v81) = (Host.rsqrt : (⟨S100000, .f32⟩ : BufTy).Contents (Elt F) → (⟨S100000, .f32⟩ : BufTy).Contents (Elt F)) (𝐯 main_v78) := by
  rw [Cert.Lib.stage (hW (F := F)) 103 _ rfl main_v81 (by decide),
    unary_result,
    Cert.Lib.after_eq_take_of_written (hW (F := F)) 103 main_v78 (by decide)]

theorem st_cst_16 : (𝐯 main_cst_16) = (constant S_ .f32 0x00000000#32) := by
  rw [Cert.Lib.stage (hW (F := F)) 104 _ rfl main_cst_16 (by decide),
    nullary_result]

theorem st_call2_v0 : (𝐯 main_call2_v0) = (id : (⟨S_, .f32⟩ : BufTy).Contents (Elt F) → (⟨S_, .f32⟩ : BufTy).Contents (Elt F)) (𝐯 main_cst_16) := by
  rw [Cert.Lib.stage (hW (F := F)) 105 _ rfl main_call2_v0 (by decide),
    unary_result,
    Cert.Lib.after_eq_take_of_written (hW (F := F)) 105 main_cst_16 (by decide)]
  generalize after (List.take 105 ops) V = Wf
  rfl

theorem st_call2_v1 : (𝐯 main_call2_v1) = (broadcastInDim S100000 ![] bcast_S_S100000 : (⟨S_, .f32⟩ : BufTy).Contents (Elt F) → (⟨S100000, .f32⟩ : BufTy).Contents (Elt F)) (𝐯 main_call2_v0) := by
  rw [Cert.Lib.stage (hW (F := F)) 106 _ rfl main_call2_v1 (by decide),
    unary_result,
    Cert.Lib.after_eq_take_of_written (hW (F := F)) 106 main_call2_v0 (by decide)]
  generalize after (List.take 106 ops) V = Wf
  rfl

theorem st_v82 : (𝐯 main_v82) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (𝐯 main_v80) (𝐯 main_v81) (𝐯 main_call2_v1) := by
  rw [Cert.Lib.stage (hW (F := F)) 107 _ rfl main_v82 (by decide),
    ternary_result,
    Cert.Lib.after_eq_take_of_written (hW (F := F)) 107 main_v80 (by decide),
    Cert.Lib.after_eq_take_of_written (hW (F := F)) 107 main_v81 (by decide),
    Cert.Lib.after_eq_take_of_written (hW (F := F)) 107 main_call2_v1 (by decide)]
  generalize after (List.take 107 ops) V = Wf
  rfl

theorem st_c_17 : (𝐯 main_c_17) = (constantI S_ 32 0#32) := by
  rw [Cert.Lib.stage (hW (F := F)) 108 _ rfl main_c_17 (by decide),
    nullary_result]

theorem st_v83 : (𝐯 main_v83) = (broadcastInDim S1700000 ![] bcast_S_S1700000 : (⟨S_, .i32⟩ : BufTy).Contents (Elt F) → (⟨S1700000, .i32⟩ : BufTy).Contents (Elt F)) (𝐯 main_c_17) := by
  rw [Cert.Lib.stage (hW (F := F)) 109 _ rfl main_v83 (by decide),
    unary_result,
    Cert.Lib.after_eq_take_of_written (hW (F := F)) 109 main_c_17 (by decide)]

theorem st_v84 : (𝐯 main_v84) = (cmpi .slt : (⟨S1700000, .i32⟩ : BufTy).Contents (Elt F) → (⟨S1700000, .i32⟩ : BufTy).Contents (Elt F) → (⟨S1700000, .i1⟩ : BufTy).Contents (Elt F)) (𝐯 main_v3) (𝐯 main_v83) := by
  rw [Cert.Lib.stage (hW (F := F)) 110 _ rfl main_v84 (by decide),
    binary_result,
    Cert.Lib.after_eq_take_of_written (hW (F := F)) 110 main_v3 (by decide),
    Cert.Lib.after_eq_take_of_written (hW (F := F)) 110 main_v83 (by decide)]

theorem st_c_18 : (𝐯 main_c_18) = (constantI S_ 32 100000#32) := by
  rw [Cert.Lib.stage (hW (F := F)) 111 _ rfl main_c_18 (by decide),
    nullary_result]

theorem st_v85 : (𝐯 main_v85) = (broadcastInDim S1700000 ![] bcast_S_S1700000 : (⟨S_, .i32⟩ : BufTy).Contents (Elt F) → (⟨S1700000, .i32⟩ : BufTy).Contents (Elt F)) (𝐯 main_c_18) := by
  rw [Cert.Lib.stage (hW (F := F)) 112 _ rfl main_v85 (by decide),
    unary_result,
    Cert.Lib.after_eq_take_of_written (hW (F := F)) 112 main_c_18 (by decide)]

theorem st_v86 : (𝐯 main_v86) = (addi : (⟨S1700000, .i32⟩ : BufTy).Contents (Elt F) → (⟨S1700000, .i32⟩ : BufTy).Contents (Elt F) → (⟨S1700000, .i32⟩ : BufTy).Contents (Elt F)) (𝐯 main_v3) (𝐯 main_v85) := by
  rw [Cert.Lib.stage (hW (F := F)) 113 _ rfl main_v86 (by decide),
    binary_result,
    Cert.Lib.after_eq_take_of_written (hW (F := F)) 113 main_v3 (by decide),
    Cert.Lib.after_eq_take_of_written (hW (F := F)) 113 main_v85 (by decide)]

theorem st_v87 : (𝐯 main_v87) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (𝐯 main_v84) (𝐯 main_v86) (𝐯 main_v3) := by
  rw [Cert.Lib.stage (hW (F := F)) 114 _ rfl main_v87 (by decide),
    ternary_result,
    Cert.Lib.after_eq_take_of_written (hW (F := F)) 114 main_v84 (by decide),
    Cert.Lib.after_eq_take_of_written (hW (F := F)) 114 main_v86 (by decide),
    Cert.Lib.after_eq_take_of_written (hW (F := F)) 114 main_v3 (by decide)]

theorem st_v88 : (𝐯 main_v88) = (broadcastInDim S1700000x1 ![0] bcast_S1700000_S1700000x1_0 : (⟨S1700000, .i32⟩ : BufTy).Contents (Elt F) → (⟨S1700000x1, .i32⟩ : BufTy).Contents (Elt F)) (𝐯 main_v87) := by
  rw [Cert.Lib.stage (hW (F := F)) 115 _ rfl main_v88 (by decide),
    unary_result,
    Cert.Lib.after_eq_take_of_written (hW (F := F)) 115 main_v87 (by decide)]

theorem st_v89 : (𝐯 main_v89) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (𝐯 main_v82) (𝐯 main_v88) := by
  rw [Cert.Lib.stage (hW (F := F)) 116 _ rfl main_v89 (by decide),
    binary_result,
    Cert.Lib.after_eq_take_of_written (hW (F := F)) 116 main_v82 (by decide),
    Cert.Lib.after_eq_take_of_written (hW (F := F)) 116 main_v88 (by decide)]

theorem st_v90 : (𝐯 main_v90) = (mulf : (⟨S1700000, .f32⟩ : BufTy).Contents (Elt F) → (⟨S1700000, .f32⟩ : BufTy).Contents (Elt F) → (⟨S1700000, .f32⟩ : BufTy).Contents (Elt F)) (𝐯 main_v89) (𝐯 main_v8) := by
  rw [Cert.Lib.stage (hW (F := F)) 117 _ rfl main_v90 (by decide),
    binary_result,
    Cert.Lib.after_eq_take_of_written (hW (F := F)) 117 main_v89 (by decide),
    Cert.Lib.after_eq_take_of_written (hW (F := F)) 117 main_v8 (by decide)]

theorem st_c_19 : (𝐯 main_c_19) = (constantI S_ 32 0#32) := by
  rw [Cert.Lib.stage (hW (F := F)) 118 _ rfl main_c_19 (by decide),
    nullary_result]

theorem st_v91 : (𝐯 main_v91) = (broadcastInDim S1700000 ![] bcast_S_S1700000 : (⟨S_, .i32⟩ : BufTy).Contents (Elt F) → (⟨S1700000, .i32⟩ : BufTy).Contents (Elt F)) (𝐯 main_c_19) := by
  rw [Cert.Lib.stage (hW (F := F)) 119 _ rfl main_v91 (by decide),
    unary_result,
    Cert.Lib.after_eq_take_of_written (hW (F := F)) 119 main_c_19 (by decide)]

theorem st_v92 : (𝐯 main_v92) = (cmpi .slt : (⟨S1700000, .i32⟩ : BufTy).Contents (Elt F) → (⟨S1700000, .i32⟩ : BufTy).Contents (Elt F) → (⟨S1700000, .i1⟩ : BufTy).Contents (Elt F)) (𝐯 main_v6) (𝐯 main_v91) := by
  rw [Cert.Lib.stage (hW (F := F)) 120 _ rfl main_v92 (by decide),
    binary_result,
    Cert.Lib.after_eq_take_of_written (hW (F := F)) 120 main_v6 (by decide),
    Cert.Lib.after_eq_take_of_written (hW (F := F)) 120 main_v91 (by decide)]

theorem st_c_20 : (𝐯 main_c_20) = (constantI S_ 32 100000#32) := by
  rw [Cert.Lib.stage (hW (F := F)) 121 _ rfl main_c_20 (by decide),
    nullary_result]

theorem st_v93 : (𝐯 main_v93) = (broadcastInDim S1700000 ![] bcast_S_S1700000 : (⟨S_, .i32⟩ : BufTy).Contents (Elt F) → (⟨S1700000, .i32⟩ : BufTy).Contents (Elt F)) (𝐯 main_c_20) := by
  rw [Cert.Lib.stage (hW (F := F)) 122 _ rfl main_v93 (by decide),
    unary_result,
    Cert.Lib.after_eq_take_of_written (hW (F := F)) 122 main_c_20 (by decide)]

theorem st_v94 : (𝐯 main_v94) = (addi : (⟨S1700000, .i32⟩ : BufTy).Contents (Elt F) → (⟨S1700000, .i32⟩ : BufTy).Contents (Elt F) → (⟨S1700000, .i32⟩ : BufTy).Contents (Elt F)) (𝐯 main_v6) (𝐯 main_v93) := by
  rw [Cert.Lib.stage (hW (F := F)) 123 _ rfl main_v94 (by decide),
    binary_result,
    Cert.Lib.after_eq_take_of_written (hW (F := F)) 123 main_v6 (by decide),
    Cert.Lib.after_eq_take_of_written (hW (F := F)) 123 main_v93 (by decide)]

theorem st_v95 : (𝐯 main_v95) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (𝐯 main_v92) (𝐯 main_v94) (𝐯 main_v6) := by
  rw [Cert.Lib.stage (hW (F := F)) 124 _ rfl main_v95 (by decide),
    ternary_result,
    Cert.Lib.after_eq_take_of_written (hW (F := F)) 124 main_v92 (by decide),
    Cert.Lib.after_eq_take_of_written (hW (F := F)) 124 main_v94 (by decide),
    Cert.Lib.after_eq_take_of_written (hW (F := F)) 124 main_v6 (by decide)]

theorem st_v96 : (𝐯 main_v96) = (broadcastInDim S1700000x1 ![0] bcast_S1700000_S1700000x1_0 : (⟨S1700000, .i32⟩ : BufTy).Contents (Elt F) → (⟨S1700000x1, .i32⟩ : BufTy).Contents (Elt F)) (𝐯 main_v95) := by
  rw [Cert.Lib.stage (hW (F := F)) 125 _ rfl main_v96 (by decide),
    unary_result,
    Cert.Lib.after_eq_take_of_written (hW (F := F)) 125 main_v95 (by decide)]

theorem st_v97 : (𝐯 main_v97) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (𝐯 main_v82) (𝐯 main_v96) := by
  rw [Cert.Lib.stage (hW (F := F)) 126 _ rfl main_v97 (by decide),
    binary_result,
    Cert.Lib.after_eq_take_of_written (hW (F := F)) 126 main_v82 (by decide),
    Cert.Lib.after_eq_take_of_written (hW (F := F)) 126 main_v96 (by decide)]

theorem st_v98 : (𝐯 main_v98) = (mulf : (⟨S1700000, .f32⟩ : BufTy).Contents (Elt F) → (⟨S1700000, .f32⟩ : BufTy).Contents (Elt F) → (⟨S1700000, .f32⟩ : BufTy).Contents (Elt F)) (𝐯 main_v90) (𝐯 main_v97) := by
  rw [Cert.Lib.stage (hW (F := F)) 127 _ rfl main_v98 (by decide),
    binary_result,
    Cert.Lib.after_eq_take_of_written (hW (F := F)) 127 main_v90 (by decide),
    Cert.Lib.after_eq_take_of_written (hW (F := F)) 127 main_v97 (by decide)]

theorem st_c_21 : (𝐯 main_c_21) = (constantI S_ 32 0#32) := by
  rw [Cert.Lib.stage (hW (F := F)) 128 _ rfl main_c_21 (by decide),
    nullary_result]

theorem st_v99 : (𝐯 main_v99) = (broadcastInDim S1700000 ![] bcast_S_S1700000 : (⟨S_, .i32⟩ : BufTy).Contents (Elt F) → (⟨S1700000, .i32⟩ : BufTy).Contents (Elt F)) (𝐯 main_c_21) := by
  rw [Cert.Lib.stage (hW (F := F)) 129 _ rfl main_v99 (by decide),
    unary_result,
    Cert.Lib.after_eq_take_of_written (hW (F := F)) 129 main_c_21 (by decide)]

theorem st_v100 : (𝐯 main_v100) = (cmpi .slt : (⟨S1700000, .i32⟩ : BufTy).Contents (Elt F) → (⟨S1700000, .i32⟩ : BufTy).Contents (Elt F) → (⟨S1700000, .i1⟩ : BufTy).Contents (Elt F)) (𝐯 main_v3) (𝐯 main_v99) := by
  rw [Cert.Lib.stage (hW (F := F)) 130 _ rfl main_v100 (by decide),
    binary_result,
    Cert.Lib.after_eq_take_of_written (hW (F := F)) 130 main_v3 (by decide),
    Cert.Lib.after_eq_take_of_written (hW (F := F)) 130 main_v99 (by decide)]

theorem st_c_22 : (𝐯 main_c_22) = (constantI S_ 32 100000#32) := by
  rw [Cert.Lib.stage (hW (F := F)) 131 _ rfl main_c_22 (by decide),
    nullary_result]

theorem st_v101 : (𝐯 main_v101) = (broadcastInDim S1700000 ![] bcast_S_S1700000 : (⟨S_, .i32⟩ : BufTy).Contents (Elt F) → (⟨S1700000, .i32⟩ : BufTy).Contents (Elt F)) (𝐯 main_c_22) := by
  rw [Cert.Lib.stage (hW (F := F)) 132 _ rfl main_v101 (by decide),
    unary_result,
    Cert.Lib.after_eq_take_of_written (hW (F := F)) 132 main_c_22 (by decide)]

theorem st_v102 : (𝐯 main_v102) = (addi : (⟨S1700000, .i32⟩ : BufTy).Contents (Elt F) → (⟨S1700000, .i32⟩ : BufTy).Contents (Elt F) → (⟨S1700000, .i32⟩ : BufTy).Contents (Elt F)) (𝐯 main_v3) (𝐯 main_v101) := by
  rw [Cert.Lib.stage (hW (F := F)) 133 _ rfl main_v102 (by decide),
    binary_result,
    Cert.Lib.after_eq_take_of_written (hW (F := F)) 133 main_v3 (by decide),
    Cert.Lib.after_eq_take_of_written (hW (F := F)) 133 main_v101 (by decide)]

theorem st_v103 : (𝐯 main_v103) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (𝐯 main_v100) (𝐯 main_v102) (𝐯 main_v3) := by
  rw [Cert.Lib.stage (hW (F := F)) 134 _ rfl main_v103 (by decide),
    ternary_result,
    Cert.Lib.after_eq_take_of_written (hW (F := F)) 134 main_v100 (by decide),
    Cert.Lib.after_eq_take_of_written (hW (F := F)) 134 main_v102 (by decide),
    Cert.Lib.after_eq_take_of_written (hW (F := F)) 134 main_v3 (by decide)]

theorem st_v104 : (𝐯 main_v104) = (broadcastInDim S1700000x1 ![0] bcast_S1700000_S1700000x1_0 : (⟨S1700000, .i32⟩ : BufTy).Contents (Elt F) → (⟨S1700000x1, .i32⟩ : BufTy).Contents (Elt F)) (𝐯 main_v103) := by
  rw [Cert.Lib.stage (hW (F := F)) 135 _ rfl main_v104 (by decide),
    unary_result,
    Cert.Lib.after_eq_take_of_written (hW (F := F)) 135 main_v103 (by decide)]

theorem st_v105 : (𝐯 main_v105) = ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) (𝐯 main_v75) (𝐯 main_v104) := by
  rw [Cert.Lib.stage (hW (F := F)) 136 _ rfl main_v105 (by decide),
    binary_result,
    Cert.Lib.after_eq_take_of_written (hW (F := F)) 136 main_v75 (by decide),
    Cert.Lib.after_eq_take_of_written (hW (F := F)) 136 main_v104 (by decide)]

theorem st_v106 : (𝐯 main_v106) = (broadcastInDim S1700000x1 ![0] bcast_S1700000_S1700000x1_0 : (⟨S1700000, .f32⟩ : BufTy).Contents (Elt F) → (⟨S1700000x1, .f32⟩ : BufTy).Contents (Elt F)) (𝐯 main_v98) := by
  rw [Cert.Lib.stage (hW (F := F)) 137 _ rfl main_v106 (by decide),
    unary_result,
    Cert.Lib.after_eq_take_of_written (hW (F := F)) 137 main_v98 (by decide)]

theorem st_v107 : (𝐯 main_v107) = (broadcastInDim S1700000x128 ![0, 1] bcast_S1700000x1_S1700000x128_0_1 : (⟨S1700000x1, .f32⟩ : BufTy).Contents (Elt F) → (⟨S1700000x128, .f32⟩ : BufTy).Contents (Elt F)) (𝐯 main_v106) := by
  rw [Cert.Lib.stage (hW (F := F)) 138 _ rfl main_v107 (by decide),
    unary_result,
    Cert.Lib.after_eq_take_of_written (hW (F := F)) 138 main_v106 (by decide)]

theorem st_v108 : (𝐯 main_v108) = (mulf : (⟨S1700000x128, .f32⟩ : BufTy).Contents (Elt F) → (⟨S1700000x128, .f32⟩ : BufTy).Contents (Elt F) → (⟨S1700000x128, .f32⟩ : BufTy).Contents (Elt F)) (𝐯 main_v105) (𝐯 main_v107) := by
  rw [Cert.Lib.stage (hW (F := F)) 139 _ rfl main_v108 (by decide),
    binary_result,
    Cert.Lib.after_eq_take_of_written (hW (F := F)) 139 main_v105 (by decide),
    Cert.Lib.after_eq_take_of_written (hW (F := F)) 139 main_v107 (by decide)]

theorem st_cst_23 : (𝐯 main_cst_23) = (constant S_ .f32 0x00000000#32) := by
  rw [Cert.Lib.stage (hW (F := F)) 140 _ rfl main_cst_23 (by decide),
    nullary_result]

theorem st_v109 : (𝐯 main_v109) = (broadcastInDim S100000x128 ![] bcast_S_S100000x128 : (⟨S_, .f32⟩ : BufTy).Contents (Elt F) → (⟨S100000x128, .f32⟩ : BufTy).Contents (Elt F)) (𝐯 main_cst_23) := by
  rw [Cert.Lib.stage (hW (F := F)) 141 _ rfl main_v109 (by decide),
    unary_result,
    Cert.Lib.after_eq_take_of_written (hW (F := F)) 141 main_cst_23 (by decide)]

theorem st_v110 : (𝐯 main_v110) = (broadcastInDim S1700000x1 ![0] bcast_S1700000_S1700000x1_0 : (⟨S1700000, .i32⟩ : BufTy).Contents (Elt F) → (⟨S1700000x1, .i32⟩ : BufTy).Contents (Elt F)) (𝐯 main_v6) := by
  rw [Cert.Lib.stage (hW (F := F)) 142 _ rfl main_v110 (by decide),
    unary_result,
    Cert.Lib.after_eq_take_of_written (hW (F := F)) 142 main_v6 (by decide)]

theorem st_v111 : (𝐯 main_v111) = ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) (𝐯 main_v109) (𝐯 main_v110) (𝐯 main_v108) := by
  rw [Cert.Lib.stage (hW (F := F)) 143 _ rfl main_v111 (by decide),
    ternary_result,
    Cert.Lib.after_eq_take_of_written (hW (F := F)) 143 main_v109 (by decide),
    Cert.Lib.after_eq_take_of_written (hW (F := F)) 143 main_v110 (by decide),
    Cert.Lib.after_eq_take_of_written (hW (F := F)) 143 main_v108 (by decide)]

theorem st_v112 : (𝐯 main_v112) = (broadcastInDim S1x128 ![1] bcast_S128_S1x128_1 : (⟨S128, .f32⟩ : BufTy).Contents (Elt F) → (⟨S1x128, .f32⟩ : BufTy).Contents (Elt F)) (𝐯 main_arg6) := by
  rw [Cert.Lib.stage (hW (F := F)) 144 _ rfl main_v112 (by decide),
    unary_result,
    Cert.Lib.after_eq_take_of_written (hW (F := F)) 144 main_arg6 (by decide)]

theorem st_v113 : (𝐯 main_v113) = (broadcastInDim S100000x128 ![0, 1] bcast_S1x128_S100000x128_0_1 : (⟨S1x128, .f32⟩ : BufTy).Contents (Elt F) → (⟨S100000x128, .f32⟩ : BufTy).Contents (Elt F)) (𝐯 main_v112) := by
  rw [Cert.Lib.stage (hW (F := F)) 145 _ rfl main_v113 (by decide),
    unary_result,
    Cert.Lib.after_eq_take_of_written (hW (F := F)) 145 main_v112 (by decide)]

theorem st_v114 : (𝐯 main_v114) = (addf : (⟨S100000x128, .f32⟩ : BufTy).Contents (Elt F) → (⟨S100000x128, .f32⟩ : BufTy).Contents (Elt F) → (⟨S100000x128, .f32⟩ : BufTy).Contents (Elt F)) (𝐯 main_v111) (𝐯 main_v113) := by
  rw [Cert.Lib.stage (hW (F := F)) 146 _ rfl main_v114 (by decide),
    binary_result,
    Cert.Lib.after_eq_take_of_written (hW (F := F)) 146 main_v111 (by decide),
    Cert.Lib.after_eq_take_of_written (hW (F := F)) 146 main_v113 (by decide)]

theorem st_call3_cst : (𝐯 main_call3_cst) = (constant S_ .f32 0x00000000#32) := by
  rw [Cert.Lib.stage (hW (F := F)) 147 _ rfl main_call3_cst (by decide),
    nullary_result]
  generalize after (List.take 147 ops) V = Wf
  rfl

theorem st_call3_v0 : (𝐯 main_call3_v0) = (broadcastInDim S100000x128 ![] bcast_S_S100000x128 : (⟨S_, .f32⟩ : BufTy).Contents (Elt F) → (⟨S100000x128, .f32⟩ : BufTy).Contents (Elt F)) (𝐯 main_call3_cst) := by
  rw [Cert.Lib.stage (hW (F := F)) 148 _ rfl main_call3_v0 (by decide),
    unary_result,
    Cert.Lib.after_eq_take_of_written (hW (F := F)) 148 main_call3_cst (by decide)]
  generalize after (List.take 148 ops) V = Wf
  rfl

theorem st_v115 : (𝐯 main_v115) = (maximumf : (⟨S100000x128, .f32⟩ : BufTy).Contents (Elt F) → (⟨S100000x128, .f32⟩ : BufTy).Contents (Elt F) → (⟨S100000x128, .f32⟩ : BufTy).Contents (Elt F)) (𝐯 main_v114) (𝐯 main_call3_v0) := by
  rw [Cert.Lib.stage (hW (F := F)) 149 _ rfl main_v115 (by decide),
    binary_result,
    Cert.Lib.after_eq_take_of_written (hW (F := F)) 149 main_v114 (by decide),
    Cert.Lib.after_eq_take_of_written (hW (F := F)) 149 main_call3_v0 (by decide)]
  generalize after (List.take 149 ops) V = Wf
  rfl

theorem st_cst_24 : (𝐯 main_cst_24) = (constant S_ .f32 0x00000000#32) := by
  rw [Cert.Lib.stage (hW (F := F)) 150 _ rfl main_cst_24 (by decide),
    nullary_result]

theorem st_v116 : (𝐯 main_v116) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (𝐯 main_v115) (𝐯 main_cst_24) := by
  rw [Cert.Lib.stage (hW (F := F)) 151 _ rfl main_v116 (by decide),
    binary_result,
    Cert.Lib.after_eq_take_of_written (hW (F := F)) 151 main_v115 (by decide),
    Cert.Lib.after_eq_take_of_written (hW (F := F)) 151 main_cst_24 (by decide)]

theorem st_cst_25 : (𝐯 main_cst_25) = (constant S_ .f32 0x47C35000#32) := by
  rw [Cert.Lib.stage (hW (F := F)) 152 _ rfl main_cst_25 (by decide),
    nullary_result]

theorem st_v117 : (𝐯 main_v117) = (broadcastInDim S128 ![] bcast_S_S128 : (⟨S_, .f32⟩ : BufTy).Contents (Elt F) → (⟨S128, .f32⟩ : BufTy).Contents (Elt F)) (𝐯 main_cst_25) := by
  rw [Cert.Lib.stage (hW (F := F)) 153 _ rfl main_v117 (by decide),
    unary_result,
    Cert.Lib.after_eq_take_of_written (hW (F := F)) 153 main_cst_25 (by decide)]

theorem st_v118 : (𝐯 main_v118) = (Host.divf : (⟨S128, .f32⟩ : BufTy).Contents (Elt F) → (⟨S128, .f32⟩ : BufTy).Contents (Elt F) → (⟨S128, .f32⟩ : BufTy).Contents (Elt F)) (𝐯 main_v116) (𝐯 main_v117) := by
  rw [Cert.Lib.stage (hW (F := F)) 154 _ rfl main_v118 (by decide),
    binary_result,
    Cert.Lib.after_eq_take_of_written (hW (F := F)) 154 main_v116 (by decide),
    Cert.Lib.after_eq_take_of_written (hW (F := F)) 154 main_v117 (by decide)]

theorem st_v119 : (𝐯 main_v119) = (broadcastInDim S1x128 ![1] bcast_S128_S1x128_1 : (⟨S128, .f32⟩ : BufTy).Contents (Elt F) → (⟨S1x128, .f32⟩ : BufTy).Contents (Elt F)) (𝐯 main_v118) := by
  rw [Cert.Lib.stage (hW (F := F)) 155 _ rfl main_v119 (by decide),
    unary_result,
    Cert.Lib.after_eq_take_of_written (hW (F := F)) 155 main_v118 (by decide)]

theorem st_v120 : (𝐯 main_v120) = (broadcastInDim S100000x128 ![0, 1] bcast_S1x128_S100000x128_0_1 : (⟨S1x128, .f32⟩ : BufTy).Contents (Elt F) → (⟨S100000x128, .f32⟩ : BufTy).Contents (Elt F)) (𝐯 main_v119) := by
  rw [Cert.Lib.stage (hW (F := F)) 156 _ rfl main_v120 (by decide),
    unary_result,
    Cert.Lib.after_eq_take_of_written (hW (F := F)) 156 main_v119 (by decide)]

theorem st_v121 : (𝐯 main_v121) = (subf : (⟨S100000x128, .f32⟩ : BufTy).Contents (Elt F) → (⟨S100000x128, .f32⟩ : BufTy).Contents (Elt F) → (⟨S100000x128, .f32⟩ : BufTy).Contents (Elt F)) (𝐯 main_v115) (𝐯 main_v120) := by
  rw [Cert.Lib.stage (hW (F := F)) 157 _ rfl main_v121 (by decide),
    binary_result,
    Cert.Lib.after_eq_take_of_written (hW (F := F)) 157 main_v115 (by decide),
    Cert.Lib.after_eq_take_of_written (hW (F := F)) 157 main_v120 (by decide)]

theorem st_v122 : (𝐯 main_v122) = (mulf : (⟨S100000x128, .f32⟩ : BufTy).Contents (Elt F) → (⟨S100000x128, .f32⟩ : BufTy).Contents (Elt F) → (⟨S100000x128, .f32⟩ : BufTy).Contents (Elt F)) (𝐯 main_v121) (𝐯 main_v121) := by
  rw [Cert.Lib.stage (hW (F := F)) 158 _ rfl main_v122 (by decide),
    binary_result,
    Cert.Lib.after_eq_take_of_written (hW (F := F)) 158 main_v121 (by decide)]

theorem st_cst_26 : (𝐯 main_cst_26) = (constant S_ .f32 0x00000000#32) := by
  rw [Cert.Lib.stage (hW (F := F)) 159 _ rfl main_cst_26 (by decide),
    nullary_result]

theorem st_v123 : (𝐯 main_v123) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (𝐯 main_v122) (𝐯 main_cst_26) := by
  rw [Cert.Lib.stage (hW (F := F)) 160 _ rfl main_v123 (by decide),
    binary_result,
    Cert.Lib.after_eq_take_of_written (hW (F := F)) 160 main_v122 (by decide),
    Cert.Lib.after_eq_take_of_written (hW (F := F)) 160 main_cst_26 (by decide)]

theorem st_cst_27 : (𝐯 main_cst_27) = (constant S_ .f32 0x47C35000#32) := by
  rw [Cert.Lib.stage (hW (F := F)) 161 _ rfl main_cst_27 (by decide),
    nullary_result]

theorem st_v124 : (𝐯 main_v124) = (broadcastInDim S128 ![] bcast_S_S128 : (⟨S_, .f32⟩ : BufTy).Contents (Elt F) → (⟨S128, .f32⟩ : BufTy).Contents (Elt F)) (𝐯 main_cst_27) := by
  rw [Cert.Lib.stage (hW (F := F)) 162 _ rfl main_v124 (by decide),
    unary_result,
    Cert.Lib.after_eq_take_of_written (hW (F := F)) 162 main_cst_27 (by decide)]

theorem st_v125 : (𝐯 main_v125) = (Host.divf : (⟨S128, .f32⟩ : BufTy).Contents (Elt F) → (⟨S128, .f32⟩ : BufTy).Contents (Elt F) → (⟨S128, .f32⟩ : BufTy).Contents (Elt F)) (𝐯 main_v123) (𝐯 main_v124) := by
  rw [Cert.Lib.stage (hW (F := F)) 163 _ rfl main_v125 (by decide),
    binary_result,
    Cert.Lib.after_eq_take_of_written (hW (F := F)) 163 main_v123 (by decide),
    Cert.Lib.after_eq_take_of_written (hW (F := F)) 163 main_v124 (by decide)]

theorem st_v126 : (𝐯 main_v126) = (broadcastInDim S1x128 ![1] bcast_S128_S1x128_1 : (⟨S128, .f32⟩ : BufTy).Contents (Elt F) → (⟨S1x128, .f32⟩ : BufTy).Contents (Elt F)) (𝐯 main_v118) := by
  rw [Cert.Lib.stage (hW (F := F)) 164 _ rfl main_v126 (by decide),
    unary_result,
    Cert.Lib.after_eq_take_of_written (hW (F := F)) 164 main_v118 (by decide)]

theorem st_v127 : (𝐯 main_v127) = (broadcastInDim S100000x128 ![0, 1] bcast_S1x128_S100000x128_0_1 : (⟨S1x128, .f32⟩ : BufTy).Contents (Elt F) → (⟨S100000x128, .f32⟩ : BufTy).Contents (Elt F)) (𝐯 main_v126) := by
  rw [Cert.Lib.stage (hW (F := F)) 165 _ rfl main_v127 (by decide),
    unary_result,
    Cert.Lib.after_eq_take_of_written (hW (F := F)) 165 main_v126 (by decide)]

theorem st_v128 : (𝐯 main_v128) = (subf : (⟨S100000x128, .f32⟩ : BufTy).Contents (Elt F) → (⟨S100000x128, .f32⟩ : BufTy).Contents (Elt F) → (⟨S100000x128, .f32⟩ : BufTy).Contents (Elt F)) (𝐯 main_v115) (𝐯 main_v127) := by
  rw [Cert.Lib.stage (hW (F := F)) 166 _ rfl main_v128 (by decide),
    binary_result,
    Cert.Lib.after_eq_take_of_written (hW (F := F)) 166 main_v115 (by decide),
    Cert.Lib.after_eq_take_of_written (hW (F := F)) 166 main_v127 (by decide)]

theorem st_v129 : (𝐯 main_v129) = (broadcastInDim S1x128 ![1] bcast_S128_S1x128_1 : (⟨S128, .f32⟩ : BufTy).Contents (Elt F) → (⟨S1x128, .f32⟩ : BufTy).Contents (Elt F)) (𝐯 main_arg9) := by
  rw [Cert.Lib.stage (hW (F := F)) 167 _ rfl main_v129 (by decide),
    unary_result,
    Cert.Lib.after_eq_take_of_written (hW (F := F)) 167 main_arg9 (by decide)]

theorem st_v130 : (𝐯 main_v130) = (broadcastInDim S100000x128 ![0, 1] bcast_S1x128_S100000x128_0_1 : (⟨S1x128, .f32⟩ : BufTy).Contents (Elt F) → (⟨S100000x128, .f32⟩ : BufTy).Contents (Elt F)) (𝐯 main_v129) := by
  rw [Cert.Lib.stage (hW (F := F)) 168 _ rfl main_v130 (by decide),
    unary_result,
    Cert.Lib.after_eq_take_of_written (hW (F := F)) 168 main_v129 (by decide)]

theorem st_v131 : (𝐯 main_v131) = (mulf : (⟨S100000x128, .f32⟩ : BufTy).Contents (Elt F) → (⟨S100000x128, .f32⟩ : BufTy).Contents (Elt F) → (⟨S100000x128, .f32⟩ : BufTy).Contents (Elt F)) (𝐯 main_v130) (𝐯 main_v128) := by
  rw [Cert.Lib.stage (hW (F := F)) 169 _ rfl main_v131 (by decide),
    binary_result,
    Cert.Lib.after_eq_take_of_written (hW (F := F)) 169 main_v130 (by decide),
    Cert.Lib.after_eq_take_of_written (hW (F := F)) 169 main_v128 (by decide)]

theorem st_cst_28 : (𝐯 main_cst_28) = (constant S_ .f32 0x3727C5AC#32) := by
  rw [Cert.Lib.stage (hW (F := F)) 170 _ rfl main_cst_28 (by decide),
    nullary_result]

theorem st_v132 : (𝐯 main_v132) = (broadcastInDim S128 ![] bcast_S_S128 : (⟨S_, .f32⟩ : BufTy).Contents (Elt F) → (⟨S128, .f32⟩ : BufTy).Contents (Elt F)) (𝐯 main_cst_28) := by
  rw [Cert.Lib.stage (hW (F := F)) 171 _ rfl main_v132 (by decide),
    unary_result,
    Cert.Lib.after_eq_take_of_written (hW (F := F)) 171 main_cst_28 (by decide)]

theorem st_v133 : (𝐯 main_v133) = (addf : (⟨S128, .f32⟩ : BufTy).Contents (Elt F) → (⟨S128, .f32⟩ : BufTy).Contents (Elt F) → (⟨S128, .f32⟩ : BufTy).Contents (Elt F)) (𝐯 main_v125) (𝐯 main_v132) := by
  rw [Cert.Lib.stage (hW (F := F)) 172 _ rfl main_v133 (by decide),
    binary_result,
    Cert.Lib.after_eq_take_of_written (hW (F := F)) 172 main_v125 (by decide),
    Cert.Lib.after_eq_take_of_written (hW (F := F)) 172 main_v132 (by decide)]

theorem st_v134 : (𝐯 main_v134) = (Host.rsqrt : (⟨S128, .f32⟩ : BufTy).Contents (Elt F) → (⟨S128, .f32⟩ : BufTy).Contents (Elt F)) (𝐯 main_v133) := by
  rw [Cert.Lib.stage (hW (F := F)) 173 _ rfl main_v134 (by decide),
    unary_result,
    Cert.Lib.after_eq_take_of_written (hW (F := F)) 173 main_v133 (by decide)]

theorem st_v135 : (𝐯 main_v135) = (broadcastInDim S1x128 ![1] bcast_S128_S1x128_1 : (⟨S128, .f32⟩ : BufTy).Contents (Elt F) → (⟨S1x128, .f32⟩ : BufTy).Contents (Elt F)) (𝐯 main_v134) := by
  rw [Cert.Lib.stage (hW (F := F)) 174 _ rfl main_v135 (by decide),
    unary_result,
    Cert.Lib.after_eq_take_of_written (hW (F := F)) 174 main_v134 (by decide)]

theorem st_v136 : (𝐯 main_v136) = (broadcastInDim S100000x128 ![0, 1] bcast_S1x128_S100000x128_0_1 : (⟨S1x128, .f32⟩ : BufTy).Contents (Elt F) → (⟨S100000x128, .f32⟩ : BufTy).Contents (Elt F)) (𝐯 main_v135) := by
  rw [Cert.Lib.stage (hW (F := F)) 175 _ rfl main_v136 (by decide),
    unary_result,
    Cert.Lib.after_eq_take_of_written (hW (F := F)) 175 main_v135 (by decide)]

theorem st_v137 : (𝐯 main_v137) = (mulf : (⟨S100000x128, .f32⟩ : BufTy).Contents (Elt F) → (⟨S100000x128, .f32⟩ : BufTy).Contents (Elt F) → (⟨S100000x128, .f32⟩ : BufTy).Contents (Elt F)) (𝐯 main_v131) (𝐯 main_v136) := by
  rw [Cert.Lib.stage (hW (F := F)) 176 _ rfl main_v137 (by decide),
    binary_result,
    Cert.Lib.after_eq_take_of_written (hW (F := F)) 176 main_v131 (by decide),
    Cert.Lib.after_eq_take_of_written (hW (F := F)) 176 main_v136 (by decide)]

theorem st_v138 : (𝐯 main_v138) = (broadcastInDim S1x128 ![1] bcast_S128_S1x128_1 : (⟨S128, .f32⟩ : BufTy).Contents (Elt F) → (⟨S1x128, .f32⟩ : BufTy).Contents (Elt F)) (𝐯 main_arg10) := by
  rw [Cert.Lib.stage (hW (F := F)) 177 _ rfl main_v138 (by decide),
    unary_result,
    Cert.Lib.after_eq_take_of_written (hW (F := F)) 177 main_arg10 (by decide)]

theorem st_v139 : (𝐯 main_v139) = (broadcastInDim S100000x128 ![0, 1] bcast_S1x128_S100000x128_0_1 : (⟨S1x128, .f32⟩ : BufTy).Contents (Elt F) → (⟨S100000x128, .f32⟩ : BufTy).Contents (Elt F)) (𝐯 main_v138) := by
  rw [Cert.Lib.stage (hW (F := F)) 178 _ rfl main_v139 (by decide),
    unary_result,
    Cert.Lib.after_eq_take_of_written (hW (F := F)) 178 main_v138 (by decide)]

theorem st_v140 : (𝐯 main_v140) = (addf : (⟨S100000x128, .f32⟩ : BufTy).Contents (Elt F) → (⟨S100000x128, .f32⟩ : BufTy).Contents (Elt F) → (⟨S100000x128, .f32⟩ : BufTy).Contents (Elt F)) (𝐯 main_v137) (𝐯 main_v139) := by
  rw [Cert.Lib.stage (hW (F := F)) 179 _ rfl main_v140 (by decide),
    binary_result,
    Cert.Lib.after_eq_take_of_written (hW (F := F)) 179 main_v137 (by decide),
    Cert.Lib.after_eq_take_of_written (hW (F := F)) 179 main_v139 (by decide)]

theorem st_v141 : (𝐯 main_v141) = concatenate S100000x456 1 [⟨S100000x200, (𝐯 main_arg0)⟩, ⟨S100000x128, (𝐯 main_v74)⟩, ⟨S100000x128, (𝐯 main_v140)⟩] concatenates_S100000x200_S100000x128_S100000x128_S100000x456_d1 := by
  rw [Cert.Lib.stage (hW (F := F)) 180 _ rfl main_v141 (by decide),
    Cert.Lib.nary3_result,
    Cert.Lib.after_eq_take_of_written (hW (F := F)) 180 main_arg0 (by decide),
    Cert.Lib.after_eq_take_of_written (hW (F := F)) 180 main_v74 (by decide),
    Cert.Lib.after_eq_take_of_written (hW (F := F)) 180 main_v140 (by decide)]
  rfl

theorem st_v142 : (𝐯 main_v142) = ((fun l r => Host.dotGeneral dot_S100000x456_S456x128_S100000x128_1_0_0_1_n_n none l r) : (⟨S100000x456, .f32⟩ : BufTy).Contents (Elt F) → (⟨S456x128, .f32⟩ : BufTy).Contents (Elt F) → (⟨S100000x128, .f32⟩ : BufTy).Contents (Elt F)) (𝐯 main_v141) (𝐯 main_arg11) := by
  rw [Cert.Lib.stage (hW (F := F)) 181 _ rfl main_v142 (by decide),
    binary_result,
    Cert.Lib.after_eq_take_of_written (hW (F := F)) 181 main_v141 (by decide),
    Cert.Lib.after_eq_take_of_written (hW (F := F)) 181 main_arg11 (by decide)]

theorem st_v143 : (𝐯 main_v143) = (broadcastInDim S1x128 ![1] bcast_S128_S1x128_1 : (⟨S128, .f32⟩ : BufTy).Contents (Elt F) → (⟨S1x128, .f32⟩ : BufTy).Contents (Elt F)) (𝐯 main_arg12) := by
  rw [Cert.Lib.stage (hW (F := F)) 182 _ rfl main_v143 (by decide),
    unary_result,
    Cert.Lib.after_eq_take_of_written (hW (F := F)) 182 main_arg12 (by decide)]

theorem st_v144 : (𝐯 main_v144) = (broadcastInDim S100000x128 ![0, 1] bcast_S1x128_S100000x128_0_1 : (⟨S1x128, .f32⟩ : BufTy).Contents (Elt F) → (⟨S100000x128, .f32⟩ : BufTy).Contents (Elt F)) (𝐯 main_v143) := by
  rw [Cert.Lib.stage (hW (F := F)) 183 _ rfl main_v144 (by decide),
    unary_result,
    Cert.Lib.after_eq_take_of_written (hW (F := F)) 183 main_v143 (by decide)]

theorem st_v145 : (𝐯 main_v145) = (addf : (⟨S100000x128, .f32⟩ : BufTy).Contents (Elt F) → (⟨S100000x128, .f32⟩ : BufTy).Contents (Elt F) → (⟨S100000x128, .f32⟩ : BufTy).Contents (Elt F)) (𝐯 main_v142) (𝐯 main_v144) := by
  rw [Cert.Lib.stage (hW (F := F)) 184 _ rfl main_v145 (by decide),
    binary_result,
    Cert.Lib.after_eq_take_of_written (hW (F := F)) 184 main_v142 (by decide),
    Cert.Lib.after_eq_take_of_written (hW (F := F)) 184 main_v144 (by decide)]

theorem st_call4_cst : (𝐯 main_call4_cst) = (constant S_ .f32 0x00000000#32) := by
  rw [Cert.Lib.stage (hW (F := F)) 185 _ rfl main_call4_cst (by decide),
    nullary_result]
  generalize after (List.take 185 ops) V = Wf
  rfl

theorem st_call4_v0 : (𝐯 main_call4_v0) = (broadcastInDim S100000x128 ![] bcast_S_S100000x128 : (⟨S_, .f32⟩ : BufTy).Contents (Elt F) → (⟨S100000x128, .f32⟩ : BufTy).Contents (Elt F)) (𝐯 main_call4_cst) := by
  rw [Cert.Lib.stage (hW (F := F)) 186 _ rfl main_call4_v0 (by decide),
    unary_result,
    Cert.Lib.after_eq_take_of_written (hW (F := F)) 186 main_call4_cst (by decide)]
  generalize after (List.take 186 ops) V = Wf
  rfl

theorem st_v146 : (𝐯 main_v146) = (maximumf : (⟨S100000x128, .f32⟩ : BufTy).Contents (Elt F) → (⟨S100000x128, .f32⟩ : BufTy).Contents (Elt F) → (⟨S100000x128, .f32⟩ : BufTy).Contents (Elt F)) (𝐯 main_v145) (𝐯 main_call4_v0) := by
  rw [Cert.Lib.stage (hW (F := F)) 187 _ rfl main_v146 (by decide),
    binary_result,
    Cert.Lib.after_eq_take_of_written (hW (F := F)) 187 main_v145 (by decide),
    Cert.Lib.after_eq_take_of_written (hW (F := F)) 187 main_call4_v0 (by decide)]
  generalize after (List.take 187 ops) V = Wf
  rfl

theorem st_v147 : (𝐯 main_v147) = ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) (𝐯 main_v146) (𝐯 main_arg13) := by
  rw [Cert.Lib.stage (hW (F := F)) 188 _ rfl main_v147 (by decide),
    binary_result,
    Cert.Lib.after_eq_take_of_written (hW (F := F)) 188 main_v146 (by decide),
    Cert.Lib.after_eq_take_of_written (hW (F := F)) 188 main_arg13 (by decide)]

theorem st_v148 : (𝐯 main_v148) = (broadcastInDim S1x64 ![1] bcast_S64_S1x64_1 : (⟨S64, .f32⟩ : BufTy).Contents (Elt F) → (⟨S1x64, .f32⟩ : BufTy).Contents (Elt F)) (𝐯 main_arg14) := by
  rw [Cert.Lib.stage (hW (F := F)) 189 _ rfl main_v148 (by decide),
    unary_result,
    Cert.Lib.after_eq_take_of_written (hW (F := F)) 189 main_arg14 (by decide)]

theorem st_v149 : (𝐯 main_v149) = (broadcastInDim S100000x64 ![0, 1] bcast_S1x64_S100000x64_0_1 : (⟨S1x64, .f32⟩ : BufTy).Contents (Elt F) → (⟨S100000x64, .f32⟩ : BufTy).Contents (Elt F)) (𝐯 main_v148) := by
  rw [Cert.Lib.stage (hW (F := F)) 190 _ rfl main_v149 (by decide),
    unary_result,
    Cert.Lib.after_eq_take_of_written (hW (F := F)) 190 main_v148 (by decide)]

theorem st_v150 : (𝐯 main_v150) = (addf : (⟨S100000x64, .f32⟩ : BufTy).Contents (Elt F) → (⟨S100000x64, .f32⟩ : BufTy).Contents (Elt F) → (⟨S100000x64, .f32⟩ : BufTy).Contents (Elt F)) (𝐯 main_v147) (𝐯 main_v149) := by
  rw [Cert.Lib.stage (hW (F := F)) 191 _ rfl main_v150 (by decide),
    binary_result,
    Cert.Lib.after_eq_take_of_written (hW (F := F)) 191 main_v147 (by decide),
    Cert.Lib.after_eq_take_of_written (hW (F := F)) 191 main_v149 (by decide)]

theorem st_call5_cst : (𝐯 main_call5_cst) = (constant S_ .f32 0x00000000#32) := by
  rw [Cert.Lib.stage (hW (F := F)) 192 _ rfl main_call5_cst (by decide),
    nullary_result]
  generalize after (List.take 192 ops) V = Wf
  rfl

theorem st_call5_v0 : (𝐯 main_call5_v0) = (broadcastInDim S100000x64 ![] bcast_S_S100000x64 : (⟨S_, .f32⟩ : BufTy).Contents (Elt F) → (⟨S100000x64, .f32⟩ : BufTy).Contents (Elt F)) (𝐯 main_call5_cst) := by
  rw [Cert.Lib.stage (hW (F := F)) 193 _ rfl main_call5_v0 (by decide),
    unary_result,
    Cert.Lib.after_eq_take_of_written (hW (F := F)) 193 main_call5_cst (by decide)]
  generalize after (List.take 193 ops) V = Wf
  rfl

theorem st_v151 : (𝐯 main_v151) = (maximumf : (⟨S100000x64, .f32⟩ : BufTy).Contents (Elt F) → (⟨S100000x64, .f32⟩ : BufTy).Contents (Elt F) → (⟨S100000x64, .f32⟩ : BufTy).Contents (Elt F)) (𝐯 main_v150) (𝐯 main_call5_v0) := by
  rw [Cert.Lib.stage (hW (F := F)) 194 _ rfl main_v151 (by decide),
    binary_result,
    Cert.Lib.after_eq_take_of_written (hW (F := F)) 194 main_v150 (by decide),
    Cert.Lib.after_eq_take_of_written (hW (F := F)) 194 main_call5_v0 (by decide)]
  generalize after (List.take 194 ops) V = Wf
  rfl

/-! The arguments are written by no operation. -/

theorem st_arg0 : (𝐯 main_arg0) = V (Proc.devRef .tc main_arg0) :=
  Cert.Lib.after_eq_take_of_written (hW (F := F)) 0 main_arg0 (by decide)

theorem st_arg1 : (𝐯 main_arg1) = V (Proc.devRef .tc main_arg1) :=
  Cert.Lib.after_eq_take_of_written (hW (F := F)) 0 main_arg1 (by decide)

theorem st_arg2 : (𝐯 main_arg2) = V (Proc.devRef .tc main_arg2) :=
  Cert.Lib.after_eq_take_of_written (hW (F := F)) 0 main_arg2 (by decide)

theorem st_arg3 : (𝐯 main_arg3) = V (Proc.devRef .tc main_arg3) :=
  Cert.Lib.after_eq_take_of_written (hW (F := F)) 0 main_arg3 (by decide)

theorem st_arg4 : (𝐯 main_arg4) = V (Proc.devRef .tc main_arg4) :=
  Cert.Lib.after_eq_take_of_written (hW (F := F)) 0 main_arg4 (by decide)

theorem st_arg5 : (𝐯 main_arg5) = V (Proc.devRef .tc main_arg5) :=
  Cert.Lib.after_eq_take_of_written (hW (F := F)) 0 main_arg5 (by decide)

theorem st_arg6 : (𝐯 main_arg6) = V (Proc.devRef .tc main_arg6) :=
  Cert.Lib.after_eq_take_of_written (hW (F := F)) 0 main_arg6 (by decide)

theorem st_arg7 : (𝐯 main_arg7) = V (Proc.devRef .tc main_arg7) :=
  Cert.Lib.after_eq_take_of_written (hW (F := F)) 0 main_arg7 (by decide)

theorem st_arg8 : (𝐯 main_arg8) = V (Proc.devRef .tc main_arg8) :=
  Cert.Lib.after_eq_take_of_written (hW (F := F)) 0 main_arg8 (by decide)

theorem st_arg9 : (𝐯 main_arg9) = V (Proc.devRef .tc main_arg9) :=
  Cert.Lib.after_eq_take_of_written (hW (F := F)) 0 main_arg9 (by decide)

theorem st_arg10 : (𝐯 main_arg10) = V (Proc.devRef .tc main_arg10) :=
  Cert.Lib.after_eq_take_of_written (hW (F := F)) 0 main_arg10 (by decide)

theorem st_arg11 : (𝐯 main_arg11) = V (Proc.devRef .tc main_arg11) :=
  Cert.Lib.after_eq_take_of_written (hW (F := F)) 0 main_arg11 (by decide)

theorem st_arg12 : (𝐯 main_arg12) = V (Proc.devRef .tc main_arg12) :=
  Cert.Lib.after_eq_take_of_written (hW (F := F)) 0 main_arg12 (by decide)

theorem st_arg13 : (𝐯 main_arg13) = V (Proc.devRef .tc main_arg13) :=
  Cert.Lib.after_eq_take_of_written (hW (F := F)) 0 main_arg13 (by decide)

theorem st_arg14 : (𝐯 main_arg14) = V (Proc.devRef .tc main_arg14) :=
  Cert.Lib.after_eq_take_of_written (hW (F := F)) 0 main_arg14 (by decide)

end Cert.ReferenceIdeal.RefRun

end
-- ==== Proof.Ref.Out.lean ====
/- The reference's value as a composition of named stages. -/
import proofs.«168427_j26276609917010_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference's value, stage by stage

Each definition is the term of host operations of one source line (or a few) of the reference, over any float values. -/

/-- Row `r` of the edge table (as a vector) followed by the node numbers 0 … 99999: the edges and then one self-loop per node. -/
def endpoints (r : Fin 2) (adj : Vec F S2x1600000 .i32) : Vec F S1700000 .i32 :=
  match r with
  | 0 => concatenate S1700000 0 [⟨S1600000, shapeCast S1600000 (extractStridedSlice S1x1600000 ![0, 0] adj slices_S2x1600000_S1x1600000_0_0) shapeCasts_S1x1600000_S1600000⟩, ⟨S100000, iotaInDim S100000 32 0⟩] concatenates_S1600000_S100000_S1700000_d0
  | 1 => concatenate S1700000 0 [⟨S1600000, shapeCast S1600000 (extractStridedSlice S1x1600000 ![1, 0] adj slices_S2x1600000_S1x1600000_1_0) shapeCasts_S1x1600000_S1600000⟩, ⟨S100000, iotaInDim S100000 32 0⟩] concatenates_S1600000_S100000_S1700000_d0

/-- The edge weights followed by a one per self-loop. -/
def edgeWeights (w : Vec F S1600000 .f32) : Vec F S1700000 .f32 :=
  concatenate S1700000 0 [⟨S1600000, w⟩, ⟨S100000, broadcastInDim S100000 ![] bcast_S_S100000 (constant S_ .f32 0x3F800000#32)⟩] concatenates_S1600000_S100000_S1700000_d0

/-- A node number as an index: a negative one counts from the end. -/
def wrapIdx (i : Vec F S1700000 .i32) : Vec F S1700000 .i32 :=
  select (cmpi .slt i (broadcastInDim S1700000 ![] bcast_S_S1700000 (constantI S_ 32 0#32))) (addi i (broadcastInDim S1700000 ![] bcast_S_S1700000 (constantI S_ 32 100000#32))) i

/-- The weighted in-degree of every node: the weights summed at their targets. -/
def degree (dst : Vec F S1700000 .i32) (ew : Vec F S1700000 .f32) : Vec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dst)) ew

/-- One over the square root of a positive degree, zero elsewhere. -/
def invSqrtDeg (deg : Vec F S100000 .f32) : Vec F S100000 .f32 :=
  select (cmpf .ogt deg (broadcastInDim S100000 ![] bcast_S_S100000 (constant S_ .f32 0x00000000#32))) (Host.rsqrt deg) (broadcastInDim S100000 ![] bcast_S_S100000 (constant S_ .f32 0x00000000#32))

/-- The symmetric normalisation of every edge: dinv at its source, times its weight, times dinv at its target. -/
def edgeNorm (src dst : Vec F S1700000 .i32) (ew : Vec F S1700000 .f32) (dinv : Vec F S100000 .f32) : Vec F S1700000 .f32 :=
  mulf (mulf (Host.gather gather_S100000_S1700000x1_S1700000_n_0_n_n_0_1_1 dinv (broadcastInDim S1700000x1 ![0] bcast_S1700000_S1700000x1_0 (wrapIdx src))) ew) (Host.gather gather_S100000_S1700000x1_S1700000_n_0_n_n_0_1_1 dinv (broadcastInDim S1700000x1 ![0] bcast_S1700000_S1700000x1_0 (wrapIdx dst)))

/-- Message passing: the rows of `h` at the sources, scaled by the edges' normalisation, summed at the targets. -/
def aggregate (h : Vec F S100000x128 .f32) (src dst : Vec F S1700000 .i32) (norm : Vec F S1700000 .f32) : Vec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dst))
    (mulf (Host.gather gather_S100000x128_S1700000x1_S1700000x128_1_0_n_n_0_1_1128 h (broadcastInDim S1700000x1 ![0] bcast_S1700000_S1700000x1_0 (wrapIdx src))) (broadcastInDim S1700000x128 ![0, 1] bcast_S1700000x1_S1700000x128_0_1 (broadcastInDim S1700000x1 ![0] bcast_S1700000_S1700000x1_0 (norm))))

/-- A vector of 128 as every row of a 100000 × 128 array. -/
def rows128 (b : Vec F S128 .f32) : Vec F S100000x128 .f32 :=
  broadcastInDim S100000x128 ![0, 1] bcast_S1x128_S100000x128_0_1 (broadcastInDim S1x128 ![1] bcast_S128_S1x128_1 b)

/-- A vector of 64 as every row of a 100000 × 64 array. -/
def rows64 (b : Vec F S64 .f32) : Vec F S100000x64 .f32 :=
  broadcastInDim S100000x64 ![0, 1] bcast_S1x64_S100000x64_0_1 (broadcastInDim S1x64 ![1] bcast_S64_S1x64_1 b)

/-- max(x, 0), on 100000 × 128. -/
def relu128 (x : Vec F S100000x128 .f32) : Vec F S100000x128 .f32 :=
  maximumf x (broadcastInDim S100000x128 ![] bcast_S_S100000x128 (constant S_ .f32 0x00000000#32))

/-- max(x, 0), on 100000 × 64. -/
def relu64 (x : Vec F S100000x64 .f32) : Vec F S100000x64 .f32 :=
  maximumf x (broadcastInDim S100000x64 ![] bcast_S_S100000x64 (constant S_ .f32 0x00000000#32))

/-- One graph convolution after the dense product `h`: aggregate over the normalised edges, add the bias, max with 0. -/
def convRelu (h : Vec F S100000x128 .f32) (adj : Vec F S2x1600000 .i32) (w : Vec F S1600000 .f32) (b : Vec F S128 .f32) : Vec F S100000x128 .f32 :=
  relu128 (addf (aggregate h (endpoints 0 adj) (endpoints 1 adj)
      (edgeNorm (endpoints 0 adj) (endpoints 1 adj) (edgeWeights w) (invSqrtDeg (degree (endpoints 1 adj) (edgeWeights w)))))
    (rows128 b))

/-- The column means: the column sums over the 100000 rows, divided by 100000. -/
def colMean (r : Vec F S100000x128 .f32) : Vec F S128 .f32 :=
  Host.divf (Host.reduceAdd r (constant S_ .f32 0x00000000#32) reducesTo_S100000x128_S128_d0 h_S_) (broadcastInDim S128 ![] bcast_S_S128 (constant S_ .f32 0x47C35000#32))

/-- The column variances about the means `m`: the mean of the squared differences. -/
def colVar (r : Vec F S100000x128 .f32) (m : Vec F S128 .f32) : Vec F S128 .f32 :=
  Host.divf (Host.reduceAdd (mulf (subf r (rows128 m)) (subf r (rows128 m))) (constant S_ .f32 0x00000000#32) reducesTo_S100000x128_S128_d0 h_S_) (broadcastInDim S128 ![] bcast_S_S128 (constant S_ .f32 0x47C35000#32))

/-- Batch normalisation with means `m` and variances `v`: g · (r − m) · rsqrt(v + ε) + β. -/
def normalize (r : Vec F S100000x128 .f32) (m v g β : Vec F S128 .f32) : Vec F S100000x128 .f32 :=
  addf (mulf (mulf (rows128 g) (subf r (rows128 m))) (rows128 (Host.rsqrt (addf v (broadcastInDim S128 ![] bcast_S_S128 (constant S_ .f32 0x3727C5AC#32)))))) (rows128 β)

/-- Batch normalisation over the rows. -/
def batchNorm (r : Vec F S100000x128 .f32) (g β : Vec F S128 .f32) : Vec F S100000x128 .f32 :=
  normalize r (colMean r) (colVar r (colMean r)) g β

/-- The first layer: x · W₁, convolution, batch normalisation. -/
def layer1 (x : Vec F S100000x200 .f32) (adj : Vec F S2x1600000 .i32) (w : Vec F S1600000 .f32) (W₁ : Vec F S200x128 .f32) (b₁ g₁ β₁ : Vec F S128 .f32) : Vec F S100000x128 .f32 :=
  batchNorm (convRelu (Host.dotGeneral dot_S100000x200_S200x128_S100000x128_1_0_0_1_n_n none x W₁) adj w b₁) g₁ β₁

/-- The second layer: h₁ · W₂, convolution, batch normalisation. -/
def layer2 (h₁ : Vec F S100000x128 .f32) (adj : Vec F S2x1600000 .i32) (w : Vec F S1600000 .f32) (W₂ : Vec F S128x128 .f32) (b₂ g₂ β₂ : Vec F S128 .f32) : Vec F S100000x128 .f32 :=
  batchNorm (convRelu (Host.dotGeneral dot_S100000x128_S128x128_S100000x128_1_0_0_1_n_n none h₁ W₂) adj w b₂) g₂ β₂

/-- The head: [x | h₁ | h₂] · fc1_W + fc1_b, max with 0, · fc2_W + fc2_b, max with 0. -/
def head (x : Vec F S100000x200 .f32) (h₁ h₂ : Vec F S100000x128 .f32) (fc1W : Vec F S456x128 .f32) (fc1b : Vec F S128 .f32) (fc2W : Vec F S128x64 .f32) (fc2b : Vec F S64 .f32) : Vec F S100000x64 .f32 :=
  relu64 (addf (Host.dotGeneral dot_S100000x128_S128x64_S100000x64_1_0_0_1_n_n none
      (relu128 (addf (Host.dotGeneral dot_S100000x456_S456x128_S100000x128_1_0_0_1_n_n none
          (concatenate S100000x456 1 [⟨S100000x200, x⟩, ⟨S100000x128, h₁⟩, ⟨S100000x128, h₂⟩] concatenates_S100000x200_S100000x128_S100000x128_S100000x456_d1) fc1W)
        (rows128 fc1b))) fc2W)
    (rows64 fc2b))

/-- The reference's result as a function of its fifteen arguments. -/
def refOut (x : Vec F S100000x200 .f32) (adj : Vec F S2x1600000 .i32) (w : Vec F S1600000 .f32) (W₁ : Vec F S200x128 .f32) (b₁ : Vec F S128 .f32)
    (W₂ : Vec F S128x128 .f32) (b₂ g₁ β₁ g₂ β₂ : Vec F S128 .f32) (fc1W : Vec F S456x128 .f32) (fc1b : Vec F S128 .f32)
    (fc2W : Vec F S128x64 .f32) (fc2b : Vec F S64 .f32) : Vec F S100000x64 .f32 :=
  head x (layer1 x adj w W₁ b₁ g₁ β₁) (layer2 (layer1 x adj w W₁ b₁ g₁ β₁) adj w W₂ b₂ g₂ β₂) fc1W fc1b fc2W fc2b

end Cert.ReferenceIdeal.RefRun

end
-- ==== Proof.Ref.Value.lean ====
/- The reference's run, read as named stages: the final contents of the buffers that hold the stages' values, as the
   stage functions of the final contents of the buffers they are computed from, and the result as `refOut` of the
   arguments. -/
import proofs.«168427_j26276609917010_1_alg».proof.Proof.Ref.Stages
import proofs.«168427_j26276609917010_1_alg».proof.Proof.Ref.Out

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option quotPrecheck false in
/-- The final contents of one buffer. -/
local notation:max "𝐯 " r:max => after ops V (Proc.devRef .tc r)

theorem v3_eq : (𝐯 main_v3) = endpoints 0 (𝐯 main_arg1) := by
  rw [st_v3, st_v2, st_v1, st_v0]
  simp only [endpoints]

theorem v6_eq : (𝐯 main_v6) = endpoints 1 (𝐯 main_arg1) := by
  rw [st_v6, st_v5, st_v4, st_v0]
  simp only [endpoints]

theorem v8_eq : (𝐯 main_v8) = edgeWeights (𝐯 main_arg2) := by
  rw [st_v8, st_v7, st_cst]
  simp only [edgeWeights]

theorem v9_eq : (𝐯 main_v9) = Host.dotGeneral dot_S100000x200_S200x128_S100000x128_1_0_0_1_n_n none (𝐯 main_arg0) (𝐯 main_arg3) := by
  rw [st_v9]

theorem v12_eq : (𝐯 main_v12) = degree (𝐯 main_v6) (𝐯 main_v8) := by
  rw [st_v12, st_v11, st_v10, st_cst_0]
  simp only [degree]

theorem v16_eq : (𝐯 main_v16) = invSqrtDeg (𝐯 main_v12) := by
  rw [st_v16, st_call0_v1, st_call0_v0, st_cst_2, st_v15, st_v14, st_v13, st_cst_1]
  simp only [invSqrtDeg, id_eq]

theorem v21_eq : (𝐯 main_v21) = wrapIdx (𝐯 main_v3) := by
  rw [st_v21, st_v20, st_v19, st_c_3, st_v18, st_v17, st_c]
  simp only [wrapIdx]

theorem v29_eq : (𝐯 main_v29) = wrapIdx (𝐯 main_v6) := by
  rw [st_v29, st_v28, st_v27, st_c_5, st_v26, st_v25, st_c_4]
  simp only [wrapIdx]

theorem v37_eq : (𝐯 main_v37) = wrapIdx (𝐯 main_v3) := by
  rw [st_v37, st_v36, st_v35, st_c_7, st_v34, st_v33, st_c_6]
  simp only [wrapIdx]

theorem v32_eq : (𝐯 main_v32) = edgeNorm (𝐯 main_v3) (𝐯 main_v6) (𝐯 main_v8) (𝐯 main_v16) := by
  rw [st_v32, st_v31, st_v30, v29_eq, st_v24, st_v23, st_v22, v21_eq]
  simp only [edgeNorm]

theorem v45_eq : (𝐯 main_v45) = aggregate (𝐯 main_v9) (𝐯 main_v3) (𝐯 main_v6) (𝐯 main_v32) := by
  rw [st_v45, st_v44, st_v43, st_cst_8, st_v42, st_v41, st_v40, st_v39, st_v38, v37_eq]
  simp only [aggregate]

theorem v49_eq : (𝐯 main_v49) = relu128 (addf (𝐯 main_v45) (rows128 (𝐯 main_arg4))) := by
  rw [st_v49, st_call1_v0, st_call1_cst, st_v48, st_v47, st_v46]
  simp only [relu128, rows128]

theorem v49_conv : (𝐯 main_v49) = convRelu (𝐯 main_v9) (𝐯 main_arg1) (𝐯 main_arg2) (𝐯 main_arg4) := by
  rw [v49_eq, v45_eq, v32_eq, v16_eq, v12_eq, v8_eq, v6_eq, v3_eq]
  simp only [convRelu]

theorem v52_eq : (𝐯 main_v52) = colMean (𝐯 main_v49) := by
  rw [st_v52, st_v51, st_cst_10, st_v50, st_cst_9]
  simp only [colMean]

theorem v59_eq : (𝐯 main_v59) = colVar (𝐯 main_v49) (𝐯 main_v52) := by
  rw [st_v59, st_v58, st_cst_12, st_v57, st_cst_11, st_v56, st_v55, st_v54, st_v53]
  simp only [colVar, rows128]

theorem v74_eq : (𝐯 main_v74) = normalize (𝐯 main_v49) (𝐯 main_v52) (𝐯 main_v59) (𝐯 main_arg7) (𝐯 main_arg8) := by
  rw [st_v74, st_v73, st_v72, st_v71, st_v70, st_v69, st_v68, st_v67, st_v66, st_cst_13, st_v65, st_v64, st_v63, st_v62, st_v61, st_v60]
  simp only [normalize, rows128]

theorem v74_bn : (𝐯 main_v74) = batchNorm (𝐯 main_v49) (𝐯 main_arg7) (𝐯 main_arg8) := by
  rw [v74_eq, v59_eq, v52_eq]
  simp only [batchNorm]

theorem v74_layer1 : (𝐯 main_v74) = layer1 (𝐯 main_arg0) (𝐯 main_arg1) (𝐯 main_arg2) (𝐯 main_arg3) (𝐯 main_arg4) (𝐯 main_arg7) (𝐯 main_arg8) := by
  rw [v74_bn, v49_conv, v9_eq]
  simp only [layer1]

theorem v75_eq : (𝐯 main_v75) = Host.dotGeneral dot_S100000x128_S128x128_S100000x128_1_0_0_1_n_n none (𝐯 main_v74) (𝐯 main_arg5) := by
  rw [st_v75]

theorem v78_eq : (𝐯 main_v78) = degree (𝐯 main_v6) (𝐯 main_v8) := by
  rw [st_v78, st_v77, st_v76, st_cst_14]
  simp only [degree]

theorem v82_eq : (𝐯 main_v82) = invSqrtDeg (𝐯 main_v78) := by
  rw [st_v82, st_call2_v1, st_call2_v0, st_cst_16, st_v81, st_v80, st_v79, st_cst_15]
  simp only [invSqrtDeg, id_eq]

theorem v87_eq : (𝐯 main_v87) = wrapIdx (𝐯 main_v3) := by
  rw [st_v87, st_v86, st_v85, st_c_18, st_v84, st_v83, st_c_17]
  simp only [wrapIdx]

theorem v95_eq : (𝐯 main_v95) = wrapIdx (𝐯 main_v6) := by
  rw [st_v95, st_v94, st_v93, st_c_20, st_v92, st_v91, st_c_19]
  simp only [wrapIdx]

theorem v103_eq : (𝐯 main_v103) = wrapIdx (𝐯 main_v3) := by
  rw [st_v103, st_v102, st_v101, st_c_22, st_v100, st_v99, st_c_21]
  simp only [wrapIdx]

theorem v98_eq : (𝐯 main_v98) = edgeNorm (𝐯 main_v3) (𝐯 main_v6) (𝐯 main_v8) (𝐯 main_v82) := by
  rw [st_v98, st_v97, st_v96, v95_eq, st_v90, st_v89, st_v88, v87_eq]
  simp only [edgeNorm]

theorem v111_eq : (𝐯 main_v111) = aggregate (𝐯 main_v75) (𝐯 main_v3) (𝐯 main_v6) (𝐯 main_v98) := by
  rw [st_v111, st_v110, st_v109, st_cst_23, st_v108, st_v107, st_v106, st_v105, st_v104, v103_eq]
  simp only [aggregate]

theorem v115_eq : (𝐯 main_v115) = relu128 (addf (𝐯 main_v111) (rows128 (𝐯 main_arg6))) := by
  rw [st_v115, st_call3_v0, st_call3_cst, st_v114, st_v113, st_v112]
  simp only [relu128, rows128]

theorem v115_conv : (𝐯 main_v115) = convRelu (𝐯 main_v75) (𝐯 main_arg1) (𝐯 main_arg2) (𝐯 main_arg6) := by
  rw [v115_eq, v111_eq, v98_eq, v82_eq, v78_eq, v8_eq, v6_eq, v3_eq]
  simp only [convRelu]

theorem v118_eq : (𝐯 main_v118) = colMean (𝐯 main_v115) := by
  rw [st_v118, st_v117, st_cst_25, st_v116, st_cst_24]
  simp only [colMean]

theorem v125_eq : (𝐯 main_v125) = colVar (𝐯 main_v115) (𝐯 main_v118) := by
  rw [st_v125, st_v124, st_cst_27, st_v123, st_cst_26, st_v122, st_v121, st_v120, st_v119]
  simp only [colVar, rows128]

theorem v140_eq : (𝐯 main_v140) = normalize (𝐯 main_v115) (𝐯 main_v118) (𝐯 main_v125) (𝐯 main_arg9) (𝐯 main_arg10) := by
  rw [st_v140, st_v139, st_v138, st_v137, st_v136, st_v135, st_v134, st_v133, st_v132, st_cst_28, st_v131, st_v130, st_v129, st_v128, st_v127, st_v126]
  simp only [normalize, rows128]

theorem v140_bn : (𝐯 main_v140) = batchNorm (𝐯 main_v115) (𝐯 main_arg9) (𝐯 main_arg10) := by
  rw [v140_eq, v125_eq, v118_eq]
  simp only [batchNorm]

theorem v140_layer2 : (𝐯 main_v140) = layer2 (𝐯 main_v74) (𝐯 main_arg1) (𝐯 main_arg2) (𝐯 main_arg5) (𝐯 main_arg6) (𝐯 main_arg9) (𝐯 main_arg10) := by
  rw [v140_bn, v115_conv, v75_eq]
  simp only [layer2]

theorem v151_head : (𝐯 main_v151) = head (𝐯 main_arg0) (𝐯 main_v74) (𝐯 main_v140) (𝐯 main_arg11) (𝐯 main_arg12) (𝐯 main_arg13) (𝐯 main_arg14) := by
  rw [st_v151, st_call5_v0, st_call5_cst, st_v150, st_v149, st_v148, st_v147, st_v146, st_call4_v0, st_call4_cst, st_v145, st_v144, st_v143, st_v142, st_v141]
  simp only [head, relu128, relu64, rows128, rows64]

theorem v151_eq : (𝐯 main_v151) = refOut (𝐯 main_arg0) (𝐯 main_arg1) (𝐯 main_arg2) (𝐯 main_arg3) (𝐯 main_arg4) (𝐯 main_arg5) (𝐯 main_arg6) (𝐯 main_arg7) (𝐯 main_arg8) (𝐯 main_arg9) (𝐯 main_arg10) (𝐯 main_arg11) (𝐯 main_arg12) (𝐯 main_arg13) (𝐯 main_arg14) := by
  rw [v151_head, v140_layer2, v74_layer1]
  simp only [refOut]

/-- The result buffer ends at `refOut` of the arguments' launch contents. -/
theorem out_eq : after ops V (Proc.devRef .tc main_v151)
    = refOut (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10)) (V (Proc.devRef .tc main_arg11))
        (V (Proc.devRef .tc main_arg12)) (V (Proc.devRef .tc main_arg13)) (V (Proc.devRef .tc main_arg14)) := by
  have h := v151_eq V
  rw [st_arg0, st_arg1, st_arg2, st_arg3, st_arg4, st_arg5, st_arg6, st_arg7, st_arg8, st_arg9, st_arg10, st_arg11, st_arg12, st_arg13, st_arg14] at h
  exact h

end Cert.ReferenceIdeal.RefRun

end
-- ==== Proof.Ref.Run.lean ====
/- The reference's run: every weakly fair execution of @main terminates, the result buffer at `refOut` of the
   arguments' launch contents and the arguments unchanged; and the frame claim that follows from it. -/
import proofs.«168427_j26276609917010_1_alg».proof.Proof.Ref.Value
import proofs.«168427_j26276609917010_1_alg».proof.Defs
import proofs.«168427_j26276609917010_1_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
theorem fresh0 : ∀ op ∈ (ops0 : List (HloOp τ sig (Elt F))), op.fresh = ∅ := by
  intro _ h; (repeat (cases h with | head => rfl | tail _ h => ?_)); exact nomatch h

set_option maxRecDepth 4096 in
theorem fresh1 : ∀ op ∈ (ops1 : List (HloOp τ sig (Elt F))), op.fresh = ∅ := by
  intro _ h; (repeat (cases h with | head => rfl | tail _ h => ?_)); exact nomatch h

set_option maxRecDepth 4096 in
theorem fresh2 : ∀ op ∈ (ops2 : List (HloOp τ sig (Elt F))), op.fresh = ∅ := by
  intro _ h; (repeat (cases h with | head => rfl | tail _ h => ?_)); exact nomatch h

set_option maxRecDepth 4096 in
theorem fresh3 : ∀ op ∈ (ops3 : List (HloOp τ sig (Elt F))), op.fresh = ∅ := by
  intro _ h; (repeat (cases h with | head => rfl | tail _ h => ?_)); exact nomatch h

/-- No operation of @main leaves a result undetermined. -/
theorem fresh : ∀ op ∈ (ops : List (HloOp τ sig (Elt F))), op.fresh = ∅ := by
  intro op h
  rcases List.mem_append.mp h with h | h
  · exact fresh0 op h
  rcases List.mem_append.mp h with h | h
  · exact fresh1 op h
  rcases List.mem_append.mp h with h | h
  · exact fresh2 op h
  · exact fresh3 op h

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v151) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v151).trans (out_eq (launchContents m c)),
      (h c main_arg0).trans (st_arg0 (launchContents m c)),
      (h c main_arg1).trans (st_arg1 (launchContents m c)),
      (h c main_arg2).trans (st_arg2 (launchContents m c)),
      (h c main_arg3).trans (st_arg3 (launchContents m c)),
      (h c main_arg4).trans (st_arg4 (launchContents m c)),
      (h c main_arg5).trans (st_arg5 (launchContents m c)),
      (h c main_arg6).trans (st_arg6 (launchContents m c)),
      (h c main_arg7).trans (st_arg7 (launchContents m c)),
      (h c main_arg8).trans (st_arg8 (launchContents m c)),
      (h c main_arg9).trans (st_arg9 (launchContents m c)),
      (h c main_arg10).trans (st_arg10 (launchContents m c)),
      (h c main_arg11).trans (st_arg11 (launchContents m c)),
      (h c main_arg12).trans (st_arg12 (launchContents m c)),
      (h c main_arg13).trans (st_arg13 (launchContents m c)),
      (h c main_arg14).trans (st_arg14 (launchContents m c))⟩)
    (run_seq scopedRefs_eq scopedSems_eq defs main (fun _ => ops) main_eq (fun _ => ops_sub) m ρ (fun _ => fresh))

/-- The reference runs and leaves its arguments unchanged. -/
theorem frame : Cert.frame_ReferenceIdeal (hReferenceIdeal := Cert.ReferenceIdeal.Gen.facts) (hPre_finite_inputs := Cert.Pre_finite_inputs.Gen.facts) := by
  intro m g _
  exact (θ_run _ _ _).mono (fun _ h c => (h c).2) (run m g)

end Cert.ReferenceIdeal.RefRun

end
-- ==== Proof.Alg.Real.lean ====
/-
  Extended reals that are real numbers: the predicate, its closure under the exact operations
  (sum, difference, product, negation, maximum, minimum, finite sums, division by a nonzero real,
  the reciprocal square root of a positive real), and the two float constants the batch
  normalization uses read as reals.
-/
import Idealize.ShloMosaic.PureOps.Ideal
import Idealize.ShloMosaic.PureOps.Ideal.Laws
import Mathlib.Tactic.Ring
import Mathlib.Tactic.Linarith
import Mathlib.Tactic.FieldSimp
import Mathlib.Tactic.NormNum
import Mathlib.Algebra.BigOperators.Fin

noncomputable section

namespace Cert.Alg

open Idealize.ShloMosaic
open scoped BigOperators

/-- An extended real that is a real number (neither infinity). -/
def IsReal (x : EReal) : Prop := ∃ r : ℝ, x = (r : EReal)

theorem isReal_coe (r : ℝ) : IsReal (r : EReal) := ⟨r, rfl⟩

theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.ne_bot {x : EReal} (h : IsReal x) : x ≠ ⊥ := (isReal_iff.mp h).1
theorem IsReal.ne_top {x : EReal} (h : IsReal x) : x ≠ ⊤ := (isReal_iff.mp h).2

/-- The real number a real extended real is. -/
theorem IsReal.coe_toReal {x : EReal} (h : IsReal x) : (x.toReal : EReal) = x :=
  EReal.coe_toReal h.ne_top h.ne_bot

theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- The coercion commutes with the maximum and the minimum. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem coe_min (a b : ℝ) : ((min a b : ℝ) : EReal) = min (a : EReal) (b : EReal) := by
  rcases le_total a b with h | h
  · rw [min_eq_left h, min_eq_left (EReal.coe_le_coe_iff.2 h)]
  · rw [min_eq_right h, min_eq_right (EReal.coe_le_coe_iff.2 h)]

theorem IsReal.max {x y : EReal} (hx : IsReal x) (hy : IsReal y) : IsReal (max x y) := by
  obtain ⟨a, rfl⟩ := hx; obtain ⟨b, rfl⟩ := hy; exact ⟨_, (coe_max a b).symm⟩

theorem IsReal.min {x y : EReal} (hx : IsReal x) (hy : IsReal y) : IsReal (min x y) := by
  obtain ⟨a, rfl⟩ := hx; obtain ⟨b, rfl⟩ := hy; exact ⟨_, (coe_min a b).symm⟩

/-- The rectifier of a real: the maximum with zero, on either side. -/
theorem isReal_max_zero {x : EReal} (hx : IsReal x) : IsReal (max x 0) := hx.max isReal_zero
theorem isReal_zero_max {x : EReal} (hx : IsReal x) : IsReal (max 0 x) := isReal_zero.max hx

/-- The coercion commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of reals is a real. -/
theorem IsReal.sum {ι : Type*} (s : Finset ι) (f : ι → EReal) (h : ∀ i ∈ s, IsReal (f i)) :
    IsReal (∑ i ∈ s, f i) :=
  Finset.sum_induction f IsReal (fun _ _ => IsReal.add) isReal_zero h

/-- A family of real extended reals is the coercion of a family of reals. -/
theorem exists_real_fun {ι : Type*} {H : ι → EReal} (h : ∀ i, IsReal (H i)) :
    ∃ g : ι → ℝ, H = fun i => (g i : EReal) := by
  choose g hg using h
  exact ⟨g, funext hg⟩

/-- Division by a nonzero real keeps a real real. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨_, div_coe_coe a hb⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem IsReal.rsqrt_pos {x : EReal} (hx : IsReal x) (h0 : 0 < x) : IsReal (Ideal.rsqrt x) := by
  obtain ⟨a, rfl⟩ := hx
  exact ⟨_, rsqrt_coe_pos (EReal.coe_pos.mp h0)⟩

/-- The square root of a nonnegative real is real. -/
theorem IsReal.sqrt_nonneg {x : EReal} (hx : IsReal x) (h0 : 0 ≤ x) : IsReal (Ideal.sqrt x) := by
  obtain ⟨a, rfl⟩ := hx
  refine ⟨Real.sqrt a, ?_⟩
  rw [Ideal.sqrt_coe, if_neg (not_lt.mpr (EReal.coe_nonneg.mp h0))]

/-- A real is the extended reals whose absolute value, `max x (-x)`, is below `⊤`. -/
theorem isReal_iff_abs_lt_top {x : EReal} : IsReal x ↔ max x (-x) < ⊤ := by
  induction x using EReal.rec with
  | bot => simp [isReal_iff]
  | top => simp [isReal_iff]
  | coe r =>
    refine iff_of_true (isReal_coe r) ?_
    rw [← EReal.coe_neg, ← coe_max]; exact EReal.coe_lt_top _

/-! ### The two float constants -/

/-- The f32 pattern of `100000`. -/
theorem ofBits_N : Ideal.ofBits .f32 0x47C35000#32 = ((100000 : ℝ) : EReal) := by
  simp [Ideal.ofBits, Ideal.ieee, -EReal.coe_mul]; norm_num

/-- The f32 pattern nearest `1e-5`: the real `10995116 / 2^40`, which is positive. -/
def epsR : ℝ := 10995116 / 2 ^ 40

theorem epsR_pos : 0 < epsR := by unfold epsR; positivity

theorem ofBits_eps : Ideal.ofBits .f32 0x3727C5AC#32 = ((epsR : ℝ) : EReal) := by
  unfold epsR
  simp [Ideal.ofBits, Ideal.ieee, -EReal.coe_mul]; norm_num

end Cert.Alg
-- ==== Proof.Br.Setup.lean ====
/-
  The setting in which the idealized kernel program's value is stated on one core: its launch memory, and the fact
  that every entry of every float argument is a real number.
-/
import proofs.«168427_j26276609917010_1_alg».proof.KernelIdeal
import proofs.«168427_j26276609917010_1_alg».proof.Proof.Alg.Real
import Idealize.ShloMosaic.PureOps.Ideal

noncomputable section

namespace Cert.Br

open Idealize.ShloMosaic Idealize.ShloMosaic.TcCoe Idealize.SL.Sem

/-- A launch memory of the idealized kernel program. -/
abbrev KM := (ℓ : Loc Cert.KernelIdeal.nD Cert.KernelIdeal.τ Cert.KernelIdeal.sig) → Buf (Elt Ideal) ℓ

/-- Every entry of every float argument is a real number. -/
structure RealArgs (m : KM) (c : Dev Cert.KernelIdeal.nD) : Prop where
  r0 : ∀ i, Cert.Alg.IsReal (m ((c : Thread Cert.KernelIdeal.nD Cert.KernelIdeal.τ).loc Cert.KernelIdeal.main_arg0) i)
  r2 : ∀ i, Cert.Alg.IsReal (m ((c : Thread Cert.KernelIdeal.nD Cert.KernelIdeal.τ).loc Cert.KernelIdeal.main_arg2) i)
  r3 : ∀ i, Cert.Alg.IsReal (m ((c : Thread Cert.KernelIdeal.nD Cert.KernelIdeal.τ).loc Cert.KernelIdeal.main_arg3) i)
  r4 : ∀ i, Cert.Alg.IsReal (m ((c : Thread Cert.KernelIdeal.nD Cert.KernelIdeal.τ).loc Cert.KernelIdeal.main_arg4) i)
  r5 : ∀ i, Cert.Alg.IsReal (m ((c : Thread Cert.KernelIdeal.nD Cert.KernelIdeal.τ).loc Cert.KernelIdeal.main_arg5) i)
  r6 : ∀ i, Cert.Alg.IsReal (m ((c : Thread Cert.KernelIdeal.nD Cert.KernelIdeal.τ).loc Cert.KernelIdeal.main_arg6) i)
  r7 : ∀ i, Cert.Alg.IsReal (m ((c : Thread Cert.KernelIdeal.nD Cert.KernelIdeal.τ).loc Cert.KernelIdeal.main_arg7) i)
  r8 : ∀ i, Cert.Alg.IsReal (m ((c : Thread Cert.KernelIdeal.nD Cert.KernelIdeal.τ).loc Cert.KernelIdeal.main_arg8) i)
  r9 : ∀ i, Cert.Alg.IsReal (m ((c : Thread Cert.KernelIdeal.nD Cert.KernelIdeal.τ).loc Cert.KernelIdeal.main_arg9) i)
  r10 : ∀ i, Cert.Alg.IsReal (m ((c : Thread Cert.KernelIdeal.nD Cert.KernelIdeal.τ).loc Cert.KernelIdeal.main_arg10) i)
  r11 : ∀ i, Cert.Alg.IsReal (m ((c : Thread Cert.KernelIdeal.nD Cert.KernelIdeal.τ).loc Cert.KernelIdeal.main_arg11) i)
  r12 : ∀ i, Cert.Alg.IsReal (m ((c : Thread Cert.KernelIdeal.nD Cert.KernelIdeal.τ).loc Cert.KernelIdeal.main_arg12) i)
  r13 : ∀ i, Cert.Alg.IsReal (m ((c : Thread Cert.KernelIdeal.nD Cert.KernelIdeal.τ).loc Cert.KernelIdeal.main_arg13) i)
  r14 : ∀ i, Cert.Alg.IsReal (m ((c : Thread Cert.KernelIdeal.nD Cert.KernelIdeal.τ).loc Cert.KernelIdeal.main_arg14) i)

end Cert.Br

end
-- ==== Proof.Ref.PreReal.lean ====
/- From the precondition to real numbers: when the test "every |x| is below +∞" of the fifteen arguments comes out 1,
   every entry of every float argument is a real number. -/
import proofs.«168427_j26276609917010_1_alg».proof.Proof.Gen.Pre_finite_inputs
import proofs.«168427_j26276609917010_1_alg».proof.Proof.Alg.Real
import Idealize.ShloMosaic.Lib.ReduceAll
import Idealize.ShloMosaic.Lib.ValueIdx

noncomputable section

namespace Cert.PreReal

open Idealize.ShloMosaic Cert.Pre_finite_inputs Cert.Pre_finite_inputs.Gen Cert.Alg

instance : Subsingleton S_.Idx := ⟨fun a b => funext fun d => d.elim0⟩

theorem ofBits_inf : Ideal.ofBits .f32 0x7F800000#32 = (⊤ : EReal) := by
  simp [Ideal.ofBits, Ideal.ieee]

/-- An extended real whose absolute value compares below +∞ is a real number. -/
theorem isReal_of_abs_lt_inf {x : EReal}
    (h : FloatOps.cmpf (F := Ideal) (φ := .f32) .olt (FloatOps.hostAbsf (F := Ideal) (φ := .f32) x) (FloatOps.ofBits (F := Ideal) .f32 0x7F800000#32) = 1#1) : IsReal x := by
  rw [isReal_iff_abs_lt_top]
  simp only [Ideal.hostAbsf_def, Ideal.ofBits_def, ofBits_inf] at h
  change Ideal.cmp .olt (max x (-x)) ⊤ = 1#1 at h
  by_contra hn
  simp [Ideal.cmp, hn] at h

/-- Every entry of an array whose "all |x| < +∞" test is 1 is real. -/
theorem all_real {s : Shape} {axes : List (Fin s.rank)} (a : FVec Ideal s .f32) (hb : S_.BroadcastsInDim s (![] : Fin 0 → Fin s.rank)) (hr : s.ReducesTo axes S_) (h0 : 0 < S_.numel) (j : S_.Idx)
    (h : Host.reduce IntOp.andi (cmpf .olt (Host.absf a) (broadcastInDim s ![] hb (constant S_ .f32 0x7F800000#32))) (constantI S_ 1 1#1) hr h0 j = 1#1) (i : s.Idx) : IsReal (a i) := by
  have e := Host.reduce_andi_all _ _ hr h0 j h i
  exact isReal_of_abs_lt_inf e

/-- When the precondition's test of the fifteen arguments is 1, every entry of every float argument is a real number. -/
theorem real_of_fn (a0 : FVec Ideal S100000x200 .f32) (a1 : IVec S2x1600000 32) (a2 : FVec Ideal S1600000 .f32) (a3 : FVec Ideal S200x128 .f32) (a4 : FVec Ideal S128 .f32) (a5 : FVec Ideal S128x128 .f32) (a6 : FVec Ideal S128 .f32) (a7 : FVec Ideal S128 .f32) (a8 : FVec Ideal S128 .f32) (a9 : FVec Ideal S128 .f32) (a10 : FVec Ideal S128 .f32) (a11 : FVec Ideal S456x128 .f32) (a12 : FVec Ideal S128 .f32) (a13 : FVec Ideal S128x64 .f32) (a14 : FVec Ideal S64 .f32)
    (h : fn (F := Ideal) a0 a1 a2 a3 a4 a5 a6 a7 a8 a9 a10 a11 a12 a13 a14 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) := by
  have h0 := congrFun h ValueIdx.ix0
  dsimp only [fn, fn_part1, fn_part2, fn_part3, fn_part4, andi] at h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real a0 _ _ _ _ e0, all_real a2 _ _ _ _ e2, all_real a3 _ _ _ _ e3, all_real a4 _ _ _ _ e4, all_real a5 _ _ _ _ e5, all_real a6 _ _ _ _ e6, all_real a7 _ _ _ _ e7, all_real a8 _ _ _ _ e8, all_real a9 _ _ _ _ e9, all_real a10 _ _ _ _ e10, all_real a11 _ _ _ _ e11, all_real a12 _ _ _ _ e12, all_real a13 _ _ _ _ e13, all_real a14 _ _ _ _ e14⟩

end Cert.PreReal

end
-- ==== Proof.Ref.PreRealArgs.lean ====
/- The kernel program's precondition gives that every entry of every float argument is a real number. -/
import proofs.«168427_j26276609917010_1_alg».proof.Proof.Br.Setup
import proofs.«168427_j26276609917010_1_alg».proof.Proof.Ref.PreReal
import proofs.«168427_j26276609917010_1_alg».proof.Defs

noncomputable section

namespace Cert.ReferenceIdeal.RefRun

open Idealize.ShloMosaic Idealize.SL.Sem

/-- Under the precondition, on every device, the float arguments' entries are real numbers. -/
theorem pre_real (m : Cert.Br.KM)
    (h : Cert.Pre_KernelIdeal (hPre_finite_inputs := Cert.Pre_finite_inputs.Gen.facts) m) (c : Dev Cert.KernelIdeal.nD) :
    Cert.Br.RealArgs m c := by
  obtain ⟨h0, h2, h3, h4, h5, h6, h7, h8, h9, h10, h11, h12, h13, h14⟩ :=
    Cert.PreReal.real_of_fn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (h c)
  exact ⟨h0, h2, h3, h4, h5, h6, h7, h8, h9, h10, h11, h12, h13, h14⟩

end Cert.ReferenceIdeal.RefRun

end
-- ==== Proof.Alg.Ops.lean ====
/-
  "Every entry is a real" carried through the exact array operations: a matrix product into a
  real accumulator, a sum over a reduced axis from a real initial value, a scatter with addition
  into a real operand, a selection between two real arrays, a concatenation of real arrays, and
  (stated for use by name) the element-selecting operations, whose entries are entries of their
  operand.
-/
import proofs.«168427_j26276609917010_1_alg».proof.Proof.Alg.Real

noncomputable section

namespace Cert.Alg

open Idealize.ShloMosaic
open scoped BigOperators

/-- A matrix product of real operands added to a real accumulator has real entries. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j))
    (j : so.Idx) : IsReal (Ideal.matmul d lhs rhs acc j) :=
  (ha j).add (IsReal.sum _ _ fun _ _ => (hl _).mul (hr _))

/-- The same without an accumulator. -/
theorem isReal_mxuPass {sl sr so : Shape} (d : DotDims sl sr so) (lhs : sl.Idx → EReal) (rhs : sr.Idx → EReal)
    (hl : ∀ i, IsReal (lhs i)) (hr : ∀ i, IsReal (rhs i)) (j : so.Idx) : IsReal (Ideal.mxuPass d lhs rhs j) :=
  IsReal.sum _ _ fun _ _ => (hl _).mul (hr _)

/-- The kernel's matrix product and the host's, in the float operations' own spelling. -/
theorem isReal_floatMatmul {sl sr so : Shape} {φ₁ φ₂ : FTy} (d : DotDims sl sr so) (prec : Option ContractPrecision)
    (lhs : FVec Ideal sl φ₁) (rhs : FVec Ideal sr φ₂) (acc : FVec Ideal so .f32)
    (hl : ∀ i, IsReal (lhs i)) (hr : ∀ i, IsReal (rhs i)) (ha : ∀ j, IsReal (acc j)) (j : so.Idx) :
    IsReal (FloatOps.matmul d prec lhs rhs acc j) :=
  isReal_matmul d lhs rhs acc hl hr ha j

theorem isReal_dotGeneral {sl sr so : Shape} {φ₁ φ₂ : FTy} (d : DotDims sl sr so) (prec : Option ContractPrecision)
    (sched : HostSchedule) (lhs : FVec Ideal sl φ₁) (rhs : FVec Ideal sr φ₂)
    (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

/-- A sum over reduced axes of real entries from a real initial value is real. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) := by
  unfold Ideal.hostReduceAdd
  exact hi.add (IsReal.sum _ _ fun _ _ => hx _)

theorem isReal_reduceAdd {s : Shape} {axes : List (Fin s.rank)} {t : Shape} (h : s.Reduces axes t)
    (x : s.Idx → EReal) (hx : ∀ i, IsReal (x i)) (j : t.Idx) : IsReal (Ideal.reduceAdd h x j) := by
  unfold Ideal.reduceAdd
  exact IsReal.sum _ _ fun _ _ => hx _

/-- A scatter with addition of real updates into a real operand is real. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun _ _ => hu _)

/-- A selection between two reals is real. -/
theorem isReal_select (c : BitVec 1) {a b : EReal} (ha : IsReal a) (hb : IsReal b) : IsReal (Scalar.select c a b) := by
  unfold Scalar.select
  split
  · exact ha
  · exact hb

theorem isReal_ite {c : Prop} [Decidable c] {a b : EReal} (ha : IsReal a) (hb : IsReal b) :
    IsReal (if c then a else b) := by
  split
  · exact ha
  · exact hb

/-- A concatenation of arrays of reals has real entries. -/
theorem isReal_concatenate (t : Shape) (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

/-- A real constant pattern: the f32 zero and one. -/
theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

end Cert.Alg
-- ==== Proof.Alg.BatchNorm.lean ====
/-
  The batch normalization's algebra over the extended reals, for real entries.
  (1) The mean of the squared deviations from the mean is the mean of the squares minus the
      square of the mean.
  (2) Scaling by `g·r` and shifting by `β − m·(g·r)` is `g·(h − m)·r + β`.
  (3) Both together: the normalization computed from the column's sum and sum of squares is the
      normalization computed from the centred column, entry by entry, and is real.
-/
import proofs.«168427_j26276609917010_1_alg».proof.Proof.Alg.Real

noncomputable section

namespace Cert.Alg

open Idealize.ShloMosaic
open scoped BigOperators

/-- Over the reals: with `μ` the mean of `h` over a nonempty finite index type of `N` elements,
    the mean of `(h i − μ)²` is the mean of `(h i)²` minus `μ²`. -/
theorem real_var_identity {ι : Type*} [Fintype ι] (h : ι → ℝ) {N : ℝ} (hN : N = (Fintype.card ι : ℝ))
    (hN0 : N ≠ 0) :
    (∑ i, (h i - (∑ i, h i) / N) * (h i - (∑ i, h i) / N)) / N
      = (∑ i, h i * h i) / N - ((∑ i, h i) / N) * ((∑ i, h i) / N) := by
  set μ : ℝ := (∑ i, h i) / N with hμ
  have hs : ∑ i, h i = N * μ := by rw [hμ]; field_simp
  have hsq : ∑ i, (h i - μ) * (h i - μ) = ∑ i, h i * h i - 2 * μ * ∑ i, h i + N * (μ * μ) := by
    calc ∑ i, (h i - μ) * (h i - μ) = ∑ i, (h i * h i - 2 * μ * h i + μ * μ) :=
          Finset.sum_congr rfl (fun i _ => by ring)
      _ = ∑ i, h i * h i - 2 * μ * ∑ i, h i + N * (μ * μ) := by
          rw [Finset.sum_add_distrib, Finset.sum_sub_distrib, ← Finset.mul_sum, Finset.sum_const,
            Finset.card_univ, nsmul_eq_mul, hN]
  rw [hsq, hs]
  field_simp
  ring

/-- The same on the extended reals, in the float operations' spelling: `Ideal.div` by the real
    `N`, sums of coerced reals. -/
theorem var_identity_coe {ι : Type*} [Fintype ι] (h : ι → ℝ) {N : ℝ} (hN : N = (Fintype.card ι : ℝ))
    (hN0 : N ≠ 0) :
    Ideal.div (∑ i, ((h i : EReal) - Ideal.div (∑ i, (h i : EReal)) (N : EReal))
        * ((h i : EReal) - Ideal.div (∑ i, (h i : EReal)) (N : EReal))) (N : EReal)
      = Ideal.div (∑ i, (h i : EReal) * (h i : EReal)) (N : EReal)
        - Ideal.div (∑ i, (h i : EReal)) (N : EReal) * Ideal.div (∑ i, (h i : EReal)) (N : EReal) := by
  have hm : Ideal.div (∑ i, (h i : EReal)) (N : EReal) = (((∑ i, h i) / N : ℝ) : EReal) := by
    rw [← coe_sum, div_coe_coe _ hN0]
  rw [hm]
  simp only [← EReal.coe_sub, ← EReal.coe_mul, ← coe_sum, div_coe_coe _ hN0]
  exact congrArg _ (real_var_identity h hN hN0)

/-- The same for a family of extended reals each of which is real. -/
theorem var_identity {ι : Type*} [Fintype ι] (H : ι → EReal) (hH : ∀ i, IsReal (H i)) {N : ℝ}
    (hN : N = (Fintype.card ι : ℝ)) (hN0 : N ≠ 0) :
    Ideal.div (∑ i, (H i - Ideal.div (∑ i, H i) (N : EReal)) * (H i - Ideal.div (∑ i, H i) (N : EReal))) (N : EReal)
      = Ideal.div (∑ i, H i * H i) (N : EReal)
        - Ideal.div (∑ i, H i) (N : EReal) * Ideal.div (∑ i, H i) (N : EReal) := by
  obtain ⟨h, rfl⟩ := exists_real_fun hH
  exact var_identity_coe h hN hN0

/-- The mean of real entries is real, and the variance (either spelling) is a nonnegative real. -/
theorem isReal_mean {ι : Type*} [Fintype ι] (H : ι → EReal) (hH : ∀ i, IsReal (H i)) {N : ℝ} (hN0 : N ≠ 0) :
    IsReal (Ideal.div (∑ i, H i) (N : EReal)) := by
  obtain ⟨h, rfl⟩ := exists_real_fun hH
  rw [← coe_sum, div_coe_coe _ hN0]; exact isReal_coe _

theorem var_nonneg {ι : Type*} [Fintype ι] (H : ι → EReal) (hH : ∀ i, IsReal (H i)) (m : EReal) (hm : IsReal m)
    {N : ℝ} (hN0 : 0 < N) :
    IsReal (Ideal.div (∑ i, (H i - m) * (H i - m)) (N : EReal))
      ∧ 0 ≤ Ideal.div (∑ i, (H i - m) * (H i - m)) (N : EReal) := by
  obtain ⟨h, rfl⟩ := exists_real_fun hH
  obtain ⟨μ, rfl⟩ := hm
  simp only [← EReal.coe_sub, ← EReal.coe_mul, ← coe_sum, div_coe_coe _ hN0.ne']
  refine ⟨isReal_coe _, EReal.coe_nonneg.mpr ?_⟩
  exact div_nonneg (Finset.sum_nonneg fun i _ => mul_self_nonneg _) hN0.le

/-- The reciprocal square root of a nonnegative real plus a positive real is real. -/
theorem isReal_rsqrt_add {v e : EReal} (hv : IsReal v) (hv0 : 0 ≤ v) (he : IsReal e) (he0 : 0 < e) :
    IsReal (Ideal.rsqrt (v + e)) := by
  obtain ⟨a, rfl⟩ := hv; obtain ⟨b, rfl⟩ := he
  rw [← EReal.coe_add]
  have ha : 0 ≤ a := EReal.coe_nonneg.mp hv0
  have hb : 0 < b := EReal.coe_pos.mp he0
  exact ⟨_, rsqrt_coe_pos (by linarith)⟩

/-- Scale and shift: `h·(g·r) + (β − m·(g·r)) = g·(h − m)·r + β` for real `h m g β r`. -/
theorem affine_identity {h m g β r : EReal} (hh : IsReal h) (hm : IsReal m) (hg : IsReal g) (hβ : IsReal β)
    (hr : IsReal r) : h * (g * r) + (β - m * (g * r)) = g * (h - m) * r + β := by
  obtain ⟨h, rfl⟩ := hh; obtain ⟨m, rfl⟩ := hm; obtain ⟨g, rfl⟩ := hg; obtain ⟨β, rfl⟩ := hβ
  obtain ⟨r, rfl⟩ := hr
  simp only [← EReal.coe_sub, ← EReal.coe_mul, ← EReal.coe_add]
  exact congrArg _ (by ring)

/-- … and the value is real. -/
theorem isReal_affine {h s t : EReal} (hh : IsReal h) (hs : IsReal s) (ht : IsReal t) : IsReal (h * s + t) :=
  (hh.mul hs).add ht

/-- The whole normalization of one column `H` of real entries, `N` rows, read at row `j`:
    from the column's sum and sum of squares (mean `S/N`, variance `Q/N − mean²`, scale
    `g·rsqrt(var + ε)`, shift `β − mean·scale`, value `H j·scale + shift`) it is the centred form
    `g·(H j − mean)·rsqrt(mean of squared deviations + ε) + β`. -/
theorem batchnorm_eq {ι : Type*} [Fintype ι] (H : ι → EReal) (hH : ∀ i, IsReal (H i)) {N : ℝ}
    (hN : N = (Fintype.card ι : ℝ)) (hN0 : 0 < N) {e g β : EReal} (he : IsReal e) (he0 : 0 < e)
    (hg : IsReal g) (hβ : IsReal β) (j : ι) :
    H j * (g * Ideal.rsqrt (Ideal.div (∑ i, H i * H i) (N : EReal)
          - Ideal.div (∑ i, H i) (N : EReal) * Ideal.div (∑ i, H i) (N : EReal) + e))
      + (β - Ideal.div (∑ i, H i) (N : EReal) * (g * Ideal.rsqrt (Ideal.div (∑ i, H i * H i) (N : EReal)
          - Ideal.div (∑ i, H i) (N : EReal) * Ideal.div (∑ i, H i) (N : EReal) + e)))
    = g * (H j - Ideal.div (∑ i, H i) (N : EReal))
        * Ideal.rsqrt (Ideal.div (∑ i, (H i - Ideal.div (∑ i, H i) (N : EReal))
            * (H i - Ideal.div (∑ i, H i) (N : EReal))) (N : EReal) + e) + β := by
  have hm := isReal_mean H hH hN0.ne'
  have hv := var_nonneg H hH _ hm hN0
  rw [← var_identity H hH hN hN0.ne']
  exact affine_identity (hH j) hm hg hβ (isReal_rsqrt_add hv.1 hv.2 he he0)

/-- The normalized value is real. -/
theorem isReal_batchnorm {ι : Type*} [Fintype ι] (H : ι → EReal) (hH : ∀ i, IsReal (H i)) {N : ℝ}
    (hN0 : 0 < N) {e g β : EReal} (he : IsReal e) (he0 : 0 < e) (hg : IsReal g) (hβ : IsReal β) (j : ι) :
    IsReal (g * (H j - Ideal.div (∑ i, H i) (N : EReal))
        * Ideal.rsqrt (Ideal.div (∑ i, (H i - Ideal.div (∑ i, H i) (N : EReal))
            * (H i - Ideal.div (∑ i, H i) (N : EReal))) (N : EReal) + e) + β) := by
  have hm := isReal_mean H hH hN0.ne'
  have hv := var_nonneg H hH _ hm hN0
  exact ((hg.mul ((hH j).sub hm)).mul (isReal_rsqrt_add hv.1 hv.2 he he0)).add hβ

end Cert.Alg
-- ==== Proof.Alg.Sums.lean ====
/-
  Re-indexing finite sums: a sum over `a + b + c` indices as three consecutive blocks (the
  contraction over 456 = 200 + 128 + 128 rows of a stacked weight), a sum over `m·n` indices as
  `m` tiles of `n` (100000 rows = 50 tiles of 2000), and a running accumulator that starts at
  the first term and adds each later term, read as the sum of the terms so far.
-/
import Mathlib.Algebra.BigOperators.Fin
import Mathlib.Logic.Equiv.Fin.Basic
import Mathlib.Tactic.Ring
import Mathlib.Tactic.Linarith

namespace Cert.Alg

open scoped BigOperators

variable {M : Type*} [AddCommMonoid M]

/-- A sum over `a + b + c` indices: the first `a`, the next `b`, the last `c`. -/
theorem sum_split3 (a b c : ℕ) (f : Fin (a + b + c) → M) :
    ∑ k, f k = ∑ k : Fin a, f (Fin.castAdd c (Fin.castAdd b k))
      + ∑ k : Fin b, f (Fin.castAdd c (Fin.natAdd a k)) + ∑ k : Fin c, f (Fin.natAdd (a + b) k) := by
  rw [Fin.sum_univ_add, Fin.sum_univ_add]

/-- 456 = 200 + 128 + 128, by the indices' values. -/
theorem sum_456 (f : Fin 456 → M) :
    ∑ k, f k = ∑ k : Fin 200, f ⟨k.val, by have := k.isLt; omega⟩
      + ∑ k : Fin 128, f ⟨200 + k.val, by have := k.isLt; omega⟩
      + ∑ k : Fin 128, f ⟨328 + k.val, by have := k.isLt; omega⟩ :=
  sum_split3 200 128 128 f

/-- A sum over `m·n` indices is the sum over `m` tiles of the sums over the `n` indices of each:
    index `n·t + r` is entry `r` of tile `t`. -/
theorem sum_tiles (m n : ℕ) (f : Fin (m * n) → M) :
    ∑ i, f i = ∑ t : Fin m, ∑ r : Fin n, f (finProdFinEquiv (t, r)) := by
  rw [← Equiv.sum_comp finProdFinEquiv f, Fintype.sum_prod_type]

/-- 100000 = 50 · 2000, by the indices' values: row `2000·t + r` is row `r` of tile `t`. -/
theorem sum_100000 (f : Fin 100000 → M) :
    ∑ i, f i = ∑ t : Fin 50, ∑ r : Fin 2000,
      f ⟨t.val * 2000 + r.val, by have := t.isLt; have := r.isLt; omega⟩ := by
  have h := sum_tiles 50 2000 f
  rw [h]
  refine Finset.sum_congr rfl fun t _ => Finset.sum_congr rfl fun r _ => congrArg f (Fin.ext ?_)
  show r.val + 2000 * t.val = t.val * 2000 + r.val
  omega

/-- A running accumulator: it holds the first term after the first step and adds each later term;
    after step `t` it holds the sum of the terms `0 … t`. -/
theorem acc_eq_sum_range (p a : ℕ → M) (h0 : a 0 = p 0) (hs : ∀ t, a (t + 1) = a t + p (t + 1)) (t : ℕ) :
    a t = ∑ s ∈ Finset.range (t + 1), p s := by
  induction t with
  | zero => rw [h0, Finset.sum_range_one]
  | succ t ih => rw [hs, ih, Finset.sum_range_succ _ (t + 1)]

/-- The same accumulator bounded by `n + 1` steps, indexed by `Fin`: after the last step it holds
    the sum of all the terms. -/
theorem acc_last_eq_sum (n : ℕ) (p a : Fin (n + 1) → M) (h0 : a 0 = p 0)
    (hs : ∀ t : Fin n, a t.succ = a t.castSucc + p t.succ) : a (Fin.last n) = ∑ s, p s := by
  have key : ∀ t : ℕ, ∀ ht : t < n + 1, a ⟨t, ht⟩ = ∑ s ∈ Finset.range (t + 1), if h : s < n + 1 then p ⟨s, h⟩ else 0 := by
    intro t
    induction t with
    | zero => intro ht; rw [Finset.sum_range_one, dif_pos ht]; exact h0
    | succ t ih =>
      intro ht
      have ht' : t < n := by omega
      have := hs ⟨t, ht'⟩
      rw [Finset.sum_range_succ _ (t + 1), dif_pos ht, ← ih (by omega)]
      exact this
  have hl := key n (Nat.lt_succ_self n)
  rw [show Fin.last n = ⟨n, Nat.lt_succ_self n⟩ from rfl, hl, ← Fin.sum_univ_eq_sum_range (fun s => if h : s < n + 1 then p ⟨s, h⟩ else 0) (n + 1)]
  exact Finset.sum_congr rfl fun s _ => by rw [dif_pos s.isLt]

end Cert.Alg
-- ==== Proof.Alg.Bn.lean ====
/-
  One column of the batch normalization over 100000 rows, in the two spellings that are compared.
  `bnK`: from the column's sum and sum of squares, each taken tile by tile (50 tiles of 2000
  rows), as scale `g·rsqrt(Q/N − (S/N)² + ε)` and shift `β − (S/N)·scale`.
  `bnR`: from the centred column, the sums taken over all rows at once from an initial `0`.
  For real entries the two are equal, and real.
-/
import proofs.«168427_j26276609917010_1_alg».proof.Proof.Alg.BatchNorm
import proofs.«168427_j26276609917010_1_alg».proof.Proof.Alg.Sums

noncomputable section

namespace Cert.Alg

open Idealize.ShloMosaic
open scoped BigOperators

/-- Row `r` of tile `t`. -/
def row (t : Fin 50) (r : Fin 2000) : Fin 100000 :=
  ⟨t.val * 2000 + r.val, by have := t.isLt; have := r.isLt; omega⟩

@[simp] theorem row_val (t : Fin 50) (r : Fin 2000) : (row t r).val = t.val * 2000 + r.val := rfl

/-- A sum over the 100000 rows, tile by tile. -/
theorem sum_rows {M : Type*} [AddCommMonoid M] (f : Fin 100000 → M) :
    ∑ i, f i = ∑ t : Fin 50, ∑ r : Fin 2000, f (row t r) := sum_100000 f

/-- The float constants: the row count and the stabilizer. -/
abbrev Nf : EReal := Ideal.ofBits .f32 0x47C35000#32
abbrev εf : EReal := Ideal.ofBits .f32 0x3727C5AC#32

/-- The column's mean from the tiled sum. -/
def meanK (H : Fin 100000 → EReal) : EReal := Ideal.div (∑ t : Fin 50, ∑ r : Fin 2000, H (row t r)) Nf

/-- The scale: `g·rsqrt(Q/N − mean² + ε)`, `Q` the tiled sum of squares. -/
def scaleK (H : Fin 100000 → EReal) (g : EReal) : EReal :=
  g * Ideal.rsqrt (Ideal.div (∑ t : Fin 50, ∑ r : Fin 2000, H (row t r) * H (row t r)) Nf - meanK H * meanK H + εf)

/-- The shift: `β − mean·scale`. -/
def shiftK (H : Fin 100000 → EReal) (g β : EReal) : EReal := β - meanK H * scaleK H g

/-- The normalized entry, scale-and-shift spelling. -/
def bnK (H : Fin 100000 → EReal) (g β : EReal) (j : Fin 100000) : EReal := H j * scaleK H g + shiftK H g β

/-- The column's mean, the sum taken at once from `0`. -/
def meanR (H : Fin 100000 → EReal) : EReal := Ideal.div (0 + ∑ i, H i) Nf

/-- The mean of the squared deviations. -/
def varR (H : Fin 100000 → EReal) : EReal := Ideal.div (0 + ∑ i, (H i - meanR H) * (H i - meanR H)) Nf

/-- The normalized entry, centred spelling. -/
def bnR (H : Fin 100000 → EReal) (g β : EReal) (j : Fin 100000) : EReal :=
  g * (H j - meanR H) * Ideal.rsqrt (varR H + εf) + β

theorem Nf_eq : Nf = ((100000 : ℝ) : EReal) := ofBits_N
theorem εf_eq : εf = ((epsR : ℝ) : EReal) := ofBits_eps

theorem meanK_eq_meanR (H : Fin 100000 → EReal) : meanK H = meanR H := by
  unfold meanK meanR
  rw [zero_add, sum_rows]

/-- The two spellings agree on a column of reals. -/
theorem bnK_eq_bnR (H : Fin 100000 → EReal) (hH : ∀ i, IsReal (H i)) {g β : EReal} (hg : IsReal g) (hβ : IsReal β)
    (j : Fin 100000) : bnK H g β j = bnR H g β j := by
  have hN : (100000 : ℝ) = (Fintype.card (Fin 100000) : ℝ) := by rw [Fintype.card_fin]; norm_num
  have h := batchnorm_eq H hH hN (by norm_num) (isReal_coe epsR) (EReal.coe_pos.mpr epsR_pos) hg hβ j
  unfold bnK shiftK scaleK bnR varR
  rw [meanK_eq_meanR]
  unfold meanR
  rw [← sum_rows (fun i => H i * H i), zero_add, zero_add, Nf_eq, εf_eq]
  exact h

/-- The normalized entry of a column of reals is real. -/
theorem isReal_bnR (H : Fin 100000 → EReal) (hH : ∀ i, IsReal (H i)) {g β : EReal} (hg : IsReal g) (hβ : IsReal β)
    (j : Fin 100000) : IsReal (bnR H g β j) := by
  have h := isReal_batchnorm H hH (N := 100000) (by norm_num) (isReal_coe epsR) (EReal.coe_pos.mpr epsR_pos) hg hβ j
  unfold bnR varR meanR
  rw [zero_add, zero_add, Nf_eq, εf_eq]
  exact h

theorem isReal_bnK (H : Fin 100000 → EReal) (hH : ∀ i, IsReal (H i)) {g β : EReal} (hg : IsReal g) (hβ : IsReal β)
    (j : Fin 100000) : IsReal (bnK H g β j) := by
  rw [bnK_eq_bnR H hH hg hβ]; exact isReal_bnR H hH hg hβ j

/-! ### The graph normalization's coefficient -/

/-- The comparison `0 < d` as a bit. -/
theorem cmp_ogt_zero_eq_one {d : EReal} : Ideal.cmp .ogt d 0 = 1#1 ↔ 0 < d := by
  unfold Ideal.cmp
  by_cases h : (0 : EReal) < d <;> simp [h]

/-- `rsqrt d` where `0 < d`, else `z`: real for real `d` and `z`. -/
theorem isReal_select_rsqrt {d z : EReal} (hd : IsReal d) (hz : IsReal z) :
    IsReal (Scalar.select (Ideal.cmp .ogt d 0) (Ideal.rsqrt d) z) := by
  unfold Scalar.select
  split
  · next h => exact hd.rsqrt_pos (cmp_ogt_zero_eq_one.mp h)
  · exact hz

end Cert.Alg
-- ==== Proof.Alg.HostOps.lean ====
/-
  "Every entry is a real" through the array operations, stated on the operations' own names so
  that a use is a syntactic match: elementwise sum, difference, product and maximum; the
  element-selecting operations (broadcast, gather); the constant splats of zero and one; the
  host's scatter with addition, reduction by addition, dense product and division by a nonzero
  real; and the reciprocal square root selected where its argument is positive.
-/
import proofs.«168427_j26276609917010_1_alg».proof.Proof.Alg.Ops
import proofs.«168427_j26276609917010_1_alg».proof.Proof.Alg.Bn

noncomputable section

namespace Cert.Alg

open Idealize.ShloMosaic
open scoped BigOperators

variable {s : Shape} {φ : FTy}

theorem isReal_addf (a b : FVec Ideal s φ) (ha : ∀ i, IsReal (a i)) (hb : ∀ i, IsReal (b i)) (i : s.Idx) :
    IsReal (addf a b i) := (ha i).add (hb i)

theorem isReal_subf (a b : FVec Ideal s φ) (ha : ∀ i, IsReal (a i)) (hb : ∀ i, IsReal (b i)) (i : s.Idx) :
    IsReal (subf a b i) := (ha i).sub (hb i)

theorem isReal_mulf (a b : FVec Ideal s φ) (ha : ∀ i, IsReal (a i)) (hb : ∀ i, IsReal (b i)) (i : s.Idx) :
    IsReal (mulf a b i) := (ha i).mul (hb i)

theorem isReal_maximumf (a b : FVec Ideal s φ) (ha : ∀ i, IsReal (a i)) (hb : ∀ i, IsReal (b i)) (i : s.Idx) :
    IsReal (maximumf a b i) := (ha i).max (hb i)

/-- A broadcast's entries are entries of its operand. -/
theorem isReal_broadcastInDim {s t : Shape} (dims : Fin s.rank → Fin t.rank) (h : s.BroadcastsInDim t dims)
    (x : s.Idx → EReal) (hx : ∀ i, IsReal (x i)) (j : t.Idx) : IsReal (broadcastInDim t dims h x j) := hx _

/-- A gather's entries are entries of its operand. -/
theorem isReal_gather {s si t : Shape} {w : Nat} (d : GatherDims s si t) (x : s.Idx → EReal) (idx : IVec si w)
    (hx : ∀ i, IsReal (x i)) (j : t.Idx) : IsReal (Host.gather d x idx j) := hx _

/-- The splats of the f32 zero, one, 100000 and the stabilizer. -/
theorem isReal_constant_zero (s : Shape) (i : s.Idx) : IsReal (constant (F := Ideal) s .f32 0x00000000#32 i) := by
  show IsReal (Ideal.ofBits .f32 0x00000000#32)
  rw [ofBits_zero]; exact isReal_zero

theorem isReal_constant_one (s : Shape) (i : s.Idx) : IsReal (constant (F := Ideal) s .f32 0x3F800000#32 i) := by
  show IsReal (Ideal.ofBits .f32 0x3F800000#32)
  rw [ofBits_one]; exact isReal_one

theorem isReal_constant_N (s : Shape) (i : s.Idx) : IsReal (constant (F := Ideal) s .f32 0x47C35000#32 i) := by
  show IsReal (Ideal.ofBits .f32 0x47C35000#32)
  rw [ofBits_N]; exact isReal_coe _

theorem isReal_constant_eps (s : Shape) (i : s.Idx) : IsReal (constant (F := Ideal) s .f32 0x3727C5AC#32 i) := by
  show IsReal (Ideal.ofBits .f32 0x3727C5AC#32)
  rw [ofBits_eps]; exact isReal_coe _

/-- The host's scatter with addition. -/
theorem isReal_Host_scatterAdd {s si u : Shape} {w : Nat} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) :=
  isReal_hostScatterAdd d x idx upd hx hu i

/-- The host's reduction by addition from a real initial value. -/
theorem isReal_Host_reduceAdd {s t u : Shape} {axes : List (Fin s.rank)} (x : FVec Ideal s φ) (init : u.Idx → Ideal φ)
    (h : s.ReducesTo axes t) (hu : 0 < u.numel) (hx : ∀ i, IsReal (x i)) (hi : ∀ i, IsReal (init i)) (j : t.Idx) :
    IsReal (Host.reduceAdd x init h hu j) :=
  isReal_hostReduceAdd h x _ hx (hi _) j

/-- The host's dense product. -/
theorem isReal_Host_dotGeneral {sl sr so : Shape} {φ₁ φ₂ : FTy} (d : DotDims sl sr so) (prec : Option ContractPrecision)
    (l : FVec Ideal sl φ₁) (r : FVec Ideal sr φ₂) (hl : ∀ i, IsReal (l i)) (hr : ∀ i, IsReal (r i)) (j : so.Idx) :
    IsReal (Host.dotGeneral d prec l r j) :=
  isReal_dotGeneral d prec _ l r hl hr j

/-- The host's division by an array of nonzero reals. -/
theorem isReal_Host_divf (a b : FVec Ideal s φ) (ha : ∀ i, IsReal (a i)) (hb : ∀ i, IsReal (b i)) (hb0 : ∀ i, b i ≠ 0)
    (i : s.Idx) : IsReal (Host.divf a b i) := (ha i).div (hb i) (hb0 i)

/-- `rsqrt d` where `d > z`, else `z'`, for arrays `z` of zeros and `z'` of reals. -/
theorem isReal_select_rsqrt_vec (d z z' : FVec Ideal s φ) (hd : ∀ i, IsReal (d i)) (hz : ∀ i, z i = 0)
    (hz' : ∀ i, IsReal (z' i)) (i : s.Idx) : IsReal (select (cmpf .ogt d z) (Host.rsqrt d) z' i) := by
  show IsReal (Scalar.select (Ideal.cmp .ogt (d i) (z i)) (Ideal.rsqrt (d i)) (z' i))
  rw [hz i]
  exact isReal_select_rsqrt (hd i) (hz' i)

/-- `rsqrt` of an array of nonnegative reals plus an array of positive reals. -/
theorem isReal_Host_rsqrt_add (v e : FVec Ideal s φ) (hv : ∀ i, IsReal (v i) ∧ 0 ≤ v i) (he : ∀ i, IsReal (e i) ∧ 0 < e i)
    (i : s.Idx) : IsReal (Host.rsqrt (addf v e) i) :=
  isReal_rsqrt_add (hv i).1 (hv i).2 (he i).1 (he i).2

end Cert.Alg
-- ==== Proof.Br.RealConv.lean ====
/-
  Real entries through the reference's stages.  One graph convolution: if the dense product, the
  edge weights and the bias have real entries, so has max(aggregate + bias, 0) — whatever the
  edge table is.  Batch normalization: real entries, scale and offset give real entries.  Every
  stage either selects entries of its operand, multiplies or adds entries, sums finitely many of
  them, divides by the row count, or takes the reciprocal square root of a positive real.
-/
import proofs.«168427_j26276609917010_1_alg».proof.Proof.Ref.Out
import proofs.«168427_j26276609917010_1_alg».proof.Proof.Alg.HostOps

noncomputable section

namespace Cert.Br

open Cert.ReferenceIdeal Cert.ReferenceIdeal.Gen Cert.ReferenceIdeal.RefRun Idealize.ShloMosaic Cert.Alg

/-- The zero splat over any shape has real entries. -/
theorem isReal_zeros (t : Shape) (h : S_.BroadcastsInDim t ![]) (i : t.Idx) :
    IsReal (broadcastInDim t ![] h (constant (F := Ideal) S_ .f32 0x00000000#32) i) :=
  isReal_broadcastInDim _ _ _ (isReal_constant_zero _) i

/-- … and its entries are zero. -/
theorem zeros_eq (t : Shape) (h : S_.BroadcastsInDim t ![]) (i : t.Idx) :
    broadcastInDim t ![] h (constant (F := Ideal) S_ .f32 0x00000000#32) i = 0 := by
  show Ideal.ofBits .f32 0x00000000#32 = 0
  exact ofBits_zero

/-- The edge weights followed by ones are real when the weights are. -/
theorem isReal_edgeWeights (w : Vec Ideal S1600000 .f32) (hw : ∀ i, IsReal (w i)) (i : S1700000.Idx) :
    IsReal (edgeWeights w i) := by
  unfold edgeWeights
  refine isReal_concatenate _ _ _ _ ?_ i
  intro p hp
  simp only [List.mem_cons, List.mem_nil_iff, or_false] at hp
  rcases hp with rfl | rfl
  · exact hw
  · intro j
    show IsReal (Ideal.ofBits .f32 0x3F800000#32)
    rw [ofBits_one]; exact isReal_one

/-- The weighted degrees are real when the weights are. -/
theorem isReal_degree (dst : Vec Ideal S1700000 .i32) (ew : Vec Ideal S1700000 .f32) (hew : ∀ i, IsReal (ew i))
    (i : S100000.Idx) : IsReal (degree dst ew i) := by
  unfold degree
  exact isReal_Host_scatterAdd _ _ _ _ (isReal_zeros _ _) hew i

/-- One over the square root of a positive degree, zero elsewhere: real for real degrees. -/
theorem isReal_invSqrtDeg (deg : Vec Ideal S100000 .f32) (hd : ∀ i, IsReal (deg i)) (i : S100000.Idx) :
    IsReal (invSqrtDeg deg i) := by
  unfold invSqrtDeg
  exact isReal_select_rsqrt_vec _ _ _ hd (zeros_eq _ _) (isReal_zeros _ _) i

/-- The edges' normalisation is real for real weights and real coefficients. -/
theorem isReal_edgeNorm (src dst : Vec Ideal S1700000 .i32) (ew : Vec Ideal S1700000 .f32) (dinv : Vec Ideal S100000 .f32)
    (hew : ∀ i, IsReal (ew i)) (hd : ∀ i, IsReal (dinv i)) (i : S1700000.Idx) : IsReal (edgeNorm src dst ew dinv i) := by
  unfold edgeNorm
  exact isReal_mulf _ _ (isReal_mulf _ _ (isReal_gather _ _ _ hd) hew) (isReal_gather _ _ _ hd) i

/-- Message passing keeps real entries real. -/
theorem isReal_aggregate (h : Vec Ideal S100000x128 .f32) (src dst : Vec Ideal S1700000 .i32) (norm : Vec Ideal S1700000 .f32)
    (hh : ∀ i, IsReal (h i)) (hn : ∀ i, IsReal (norm i)) (i : S100000x128.Idx) : IsReal (aggregate h src dst norm i) := by
  unfold aggregate
  exact isReal_Host_scatterAdd _ _ _ _ (isReal_zeros _ _)
    (isReal_mulf _ _ (isReal_gather _ _ _ hh)
      (isReal_broadcastInDim _ _ _ (isReal_broadcastInDim _ _ _ hn))) i

/-- A vector as every row keeps real entries. -/
theorem isReal_rows128 (b : Vec Ideal S128 .f32) (hb : ∀ i, IsReal (b i)) (i : S100000x128.Idx) : IsReal (rows128 b i) := by
  unfold rows128
  exact isReal_broadcastInDim _ _ _ (isReal_broadcastInDim _ _ _ hb) i

theorem isReal_relu128 (x : Vec Ideal S100000x128 .f32) (hx : ∀ i, IsReal (x i)) (i : S100000x128.Idx) :
    IsReal (relu128 x i) := by
  unfold relu128
  exact isReal_maximumf _ _ hx (isReal_zeros _ _) i

/-- One graph convolution with its bias and rectifier keeps real entries real. -/
theorem isReal_convRelu (h : Vec Ideal S100000x128 .f32) (adj : Vec Ideal S2x1600000 .i32) (w : Vec Ideal S1600000 .f32)
    (b : Vec Ideal S128 .f32) (hh : ∀ i, IsReal (h i)) (hw : ∀ i, IsReal (w i)) (hb : ∀ i, IsReal (b i))
    (i : S100000x128.Idx) : IsReal (convRelu h adj w b i) := by
  unfold convRelu
  have hew := isReal_edgeWeights w hw
  exact isReal_relu128 _ (isReal_addf _ _
    (isReal_aggregate _ _ _ _ hh (isReal_edgeNorm _ _ _ _ hew (isReal_invSqrtDeg _ (isReal_degree _ _ hew))))
    (isReal_rows128 _ hb)) i

/-- The first layer's convolution, from real inputs. -/
theorem isReal_conv1 (x : Vec Ideal S100000x200 .f32) (adj : Vec Ideal S2x1600000 .i32) (w : Vec Ideal S1600000 .f32)
    (W₁ : Vec Ideal S200x128 .f32) (b : Vec Ideal S128 .f32) (hx : ∀ i, IsReal (x i)) (hw : ∀ i, IsReal (w i))
    (hW : ∀ i, IsReal (W₁ i)) (hb : ∀ i, IsReal (b i)) (i : S100000x128.Idx) :
    IsReal (convRelu (Host.dotGeneral (φ₁ := .f32) (φ₂ := .f32) dot_S100000x200_S200x128_S100000x128_1_0_0_1_n_n none x W₁) adj w b i) :=
  isReal_convRelu _ adj w b (isReal_Host_dotGeneral (φ₁ := .f32) (φ₂ := .f32) _ _ _ _ hx hW) hw hb i

/-- The second layer's convolution, from real inputs. -/
theorem isReal_conv2 (h₁ : Vec Ideal S100000x128 .f32) (adj : Vec Ideal S2x1600000 .i32) (w : Vec Ideal S1600000 .f32)
    (W₂ : Vec Ideal S128x128 .f32) (b : Vec Ideal S128 .f32) (hh : ∀ i, IsReal (h₁ i)) (hw : ∀ i, IsReal (w i))
    (hW : ∀ i, IsReal (W₂ i)) (hb : ∀ i, IsReal (b i)) (i : S100000x128.Idx) :
    IsReal (convRelu (Host.dotGeneral (φ₁ := .f32) (φ₂ := .f32) dot_S100000x128_S128x128_S100000x128_1_0_0_1_n_n none h₁ W₂) adj w b i) :=
  isReal_convRelu _ adj w b (isReal_Host_dotGeneral (φ₁ := .f32) (φ₂ := .f32) _ _ _ _ hh hW) hw hb i

/-! ### Batch normalization -/

/-- The row count's splat: real and not zero. -/
theorem isReal_Ns (t : Shape) (h : S_.BroadcastsInDim t ![]) (i : t.Idx) :
    IsReal (broadcastInDim t ![] h (constant (F := Ideal) S_ .f32 0x47C35000#32) i) :=
  isReal_broadcastInDim _ _ _ (isReal_constant_N _) i

theorem Ns_eq (t : Shape) (h : S_.BroadcastsInDim t ![]) (i : t.Idx) :
    broadcastInDim t ![] h (constant (F := Ideal) S_ .f32 0x47C35000#32) i = ((100000 : ℝ) : EReal) := by
  show Ideal.ofBits .f32 0x47C35000#32 = _
  exact ofBits_N

theorem Ns_ne_zero (t : Shape) (h : S_.BroadcastsInDim t ![]) (i : t.Idx) :
    broadcastInDim t ![] h (constant (F := Ideal) S_ .f32 0x47C35000#32) i ≠ 0 := by
  rw [Ns_eq]
  exact fun h0 => by
    have := EReal.coe_eq_coe_iff.mp (h0.trans EReal.coe_zero.symm)
    norm_num at this

/-- The stabilizer's splat: real and positive. -/
theorem eps_pos (t : Shape) (h : S_.BroadcastsInDim t ![]) (i : t.Idx) :
    IsReal (broadcastInDim t ![] h (constant (F := Ideal) S_ .f32 0x3727C5AC#32) i)
      ∧ 0 < broadcastInDim t ![] h (constant (F := Ideal) S_ .f32 0x3727C5AC#32) i := by
  refine ⟨isReal_broadcastInDim _ _ _ (isReal_constant_eps _) i, ?_⟩
  show 0 < Ideal.ofBits .f32 0x3727C5AC#32
  rw [ofBits_eps]; exact EReal.coe_pos.mpr epsR_pos

/-- The column means of real entries are real. -/
theorem isReal_colMean (r : Vec Ideal S100000x128 .f32) (hr : ∀ i, IsReal (r i)) (j : S128.Idx) : IsReal (colMean r j) := by
  unfold colMean
  exact isReal_Host_divf _ _ (isReal_Host_reduceAdd _ _ _ _ hr (isReal_constant_zero _)) (isReal_Ns _ _) (Ns_ne_zero _ _) j

end Cert.Br
-- ==== Proof.Alg.HostNonneg.lean ====
/-
  Nonnegativity through the array operations: an entry times itself, a reduction by addition of
  nonnegative entries from a nonnegative initial value, and a division of a nonnegative real by a
  positive real.
-/
import proofs.«168427_j26276609917010_1_alg».proof.Proof.Alg.HostOps

noncomputable section

namespace Cert.Alg

open Idealize.ShloMosaic
open scoped BigOperators

variable {s : Shape} {φ : FTy}

/-- A real entry times itself is nonnegative. -/
theorem mulf_self_nonneg (a : FVec Ideal s φ) (ha : ∀ i, IsReal (a i)) (i : s.Idx) : 0 ≤ mulf a a i := by
  show 0 ≤ a i * a i
  obtain ⟨x, hx⟩ := ha i
  rw [hx, ← EReal.coe_mul]
  exact EReal.coe_nonneg.mpr (mul_self_nonneg x)

theorem constant_zero_nonneg (s : Shape) (i : s.Idx) : 0 ≤ constant (F := Ideal) s .f32 0x00000000#32 i := by
  show 0 ≤ Ideal.ofBits .f32 0x00000000#32
  rw [ofBits_zero]

/-- A sum of nonnegative entries from a nonnegative initial value is nonnegative. -/
theorem Host_reduceAdd_nonneg {s t u : Shape} {axes : List (Fin s.rank)} (x : FVec Ideal s φ) (init : u.Idx → Ideal φ)
    (h : s.ReducesTo axes t) (hu : 0 < u.numel) (hx : ∀ i, 0 ≤ x i) (hi : ∀ i, 0 ≤ init i) (j : t.Idx) :
    0 ≤ Host.reduceAdd x init h hu j := by
  show 0 ≤ Ideal.hostReduceAdd h x (init _) j
  unfold Ideal.hostReduceAdd
  exact add_nonneg (hi _) (Finset.sum_nonneg fun i _ => hx i)

/-- A nonnegative real divided by a positive real is nonnegative. -/
theorem Host_divf_nonneg (a b : FVec Ideal s φ) (ha : ∀ i, IsReal (a i) ∧ 0 ≤ a i)
    (hb : ∀ i, ∃ y : ℝ, 0 < y ∧ b i = (y : EReal)) (i : s.Idx) : 0 ≤ Host.divf a b i := by
  show 0 ≤ Ideal.div (a i) (b i)
  obtain ⟨y, hy, hby⟩ := hb i
  obtain ⟨x, hx⟩ := (ha i).1
  have hx0 : 0 ≤ x := EReal.coe_nonneg.mp (hx ▸ (ha i).2)
  rw [hby, hx, div_coe_coe x hy.ne']
  exact EReal.coe_nonneg.mpr (div_nonneg hx0 hy.le)

end Cert.Alg
-- ==== Proof.Br.RealBn.lean ====
/-
  The reference's batch normalization keeps real entries real: the column means are real, the
  column variances are nonnegative reals, so the reciprocal square root of a variance plus the
  positive stabilizer is real, and the rest is products, differences and sums of reals.
-/
import proofs.«168427_j26276609917010_1_alg».proof.Proof.Br.RealConv
import proofs.«168427_j26276609917010_1_alg».proof.Proof.Alg.HostNonneg

noncomputable section

namespace Cert.Br

open Cert.ReferenceIdeal Cert.ReferenceIdeal.Gen Cert.ReferenceIdeal.RefRun Idealize.ShloMosaic Cert.Alg

/-- The column variances about real means: nonnegative reals. -/
theorem colVar_real_nonneg (r : Vec Ideal S100000x128 .f32) (m : Vec Ideal S128 .f32) (hr : ∀ i, IsReal (r i))
    (hm : ∀ j, IsReal (m j)) (j : S128.Idx) : IsReal (colVar r m j) ∧ 0 ≤ colVar r m j := by
  unfold colVar
  have hd : ∀ i, IsReal (subf r (rows128 m) i) := isReal_subf _ _ hr (isReal_rows128 _ hm)
  have hsum : ∀ j, IsReal (Host.reduceAdd (mulf (subf r (rows128 m)) (subf r (rows128 m))) (constant S_ .f32 0x00000000#32)
      reducesTo_S100000x128_S128_d0 h_S_ j) :=
    isReal_Host_reduceAdd _ _ _ _ (isReal_mulf _ _ hd hd) (isReal_constant_zero _)
  refine ⟨isReal_Host_divf _ _ hsum (isReal_Ns _ _) (Ns_ne_zero _ _) j, ?_⟩
  exact Host_divf_nonneg _ _
    (fun j => ⟨hsum j, Host_reduceAdd_nonneg _ _ _ _ (mulf_self_nonneg _ hd) (constant_zero_nonneg _) j⟩)
    (fun j => ⟨100000, by norm_num, Ns_eq _ _ j⟩) j

/-- The normalization with real means, nonnegative real variances, real scale and offset. -/
theorem isReal_normalize (r : Vec Ideal S100000x128 .f32) (m v g β : Vec Ideal S128 .f32) (hr : ∀ i, IsReal (r i))
    (hm : ∀ j, IsReal (m j)) (hv : ∀ j, IsReal (v j) ∧ 0 ≤ v j) (hg : ∀ j, IsReal (g j)) (hβ : ∀ j, IsReal (β j))
    (i : S100000x128.Idx) : IsReal (normalize r m v g β i) := by
  unfold RefRun.normalize
  exact isReal_addf _ _
    (isReal_mulf _ _ (isReal_mulf _ _ (isReal_rows128 _ hg) (isReal_subf _ _ hr (isReal_rows128 _ hm)))
      (isReal_rows128 _ (isReal_Host_rsqrt_add _ _ hv (eps_pos _ _))))
    (isReal_rows128 _ hβ) i

/-- Batch normalization of real entries with real scale and offset has real entries. -/
theorem isReal_batchNorm (r : Vec Ideal S100000x128 .f32) (g β : Vec Ideal S128 .f32) (hr : ∀ i, IsReal (r i))
    (hg : ∀ j, IsReal (g j)) (hβ : ∀ j, IsReal (β j)) (i : S100000x128.Idx) : IsReal (batchNorm r g β i) := by
  unfold batchNorm
  exact isReal_normalize _ _ _ _ _ hr (isReal_colMean r hr) (colVar_real_nonneg r _ hr (isReal_colMean r hr)) hg hβ i

/-- The first layer has real entries on real inputs. -/
theorem isReal_layer1 (x : Vec Ideal S100000x200 .f32) (adj : Vec Ideal S2x1600000 .i32) (w : Vec Ideal S1600000 .f32)
    (W₁ : Vec Ideal S200x128 .f32) (b₁ g₁ β₁ : Vec Ideal S128 .f32) (hx : ∀ i, IsReal (x i)) (hw : ∀ i, IsReal (w i))
    (hW : ∀ i, IsReal (W₁ i)) (hb : ∀ i, IsReal (b₁ i)) (hg : ∀ i, IsReal (g₁ i)) (hβ : ∀ i, IsReal (β₁ i))
    (i : S100000x128.Idx) : IsReal (layer1 x adj w W₁ b₁ g₁ β₁ i) := by
  unfold layer1
  exact isReal_batchNorm _ _ _ (isReal_conv1 x adj w W₁ b₁ hx hw hW hb) hg hβ i

/-- The second layer has real entries on real inputs. -/
theorem isReal_layer2 (h₁ : Vec Ideal S100000x128 .f32) (adj : Vec Ideal S2x1600000 .i32) (w : Vec Ideal S1600000 .f32)
    (W₂ : Vec Ideal S128x128 .f32) (b₂ g₂ β₂ : Vec Ideal S128 .f32) (hh : ∀ i, IsReal (h₁ i)) (hw : ∀ i, IsReal (w i))
    (hW : ∀ i, IsReal (W₂ i)) (hb : ∀ i, IsReal (b₂ i)) (hg : ∀ i, IsReal (g₂ i)) (hβ : ∀ i, IsReal (β₂ i))
    (i : S100000x128.Idx) : IsReal (layer2 h₁ adj w W₂ b₂ g₂ β₂ i) := by
  unfold layer2
  exact isReal_batchNorm _ _ _ (isReal_conv2 h₁ adj w W₂ b₂ hh hw hW hb) hg hβ i

end Cert.Br
-- ==== Proof.KI.Move.lean ====
/-
  A buffer that none of the first k items of @main changes holds at the k-th boundary what the launch memory held.
-/
import proofs.«168427_j26276609917010_1_alg».proof.Proof.KI.Keep

noncomputable section

namespace Cert.KernelIdeal.Reg

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

theorem W1_launch (c : Dev nD) (r : Ref sig .tc) (h0 : r ∉ hostOps0_W) :
    W1 m c (Proc.devRef .tc r) = m ((c : Thread nD τ).loc r) :=
  (keep_W1 m c r h0).trans (rfl)
theorem W2_launch (c : Dev nD) (r : Ref sig .tc) (h0 : r ∉ hostOps0_W) (h1 : r ∉ hostOps0_1_W) :
    W2 m c (Proc.devRef .tc r) = m ((c : Thread nD τ).loc r) :=
  (keep_W2 m c r h1).trans (W1_launch m c r h0)
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (keep_W3 m c r h2).trans (W2_launch m c r h0 h1)
theorem W4_launch (c : Dev nD) (r : Ref sig .tc) (h0 : r ∉ hostOps0_W) (h1 : r ∉ hostOps0_1_W) (h2 : r ∉ hostOps0_2_W) (h3 : r ∉ ([main_v34] : List (Ref sig .tc))) :
    W4 m c (Proc.devRef .tc r) = m ((c : Thread nD τ).loc r) :=
  (keep_W4 m c r h3).trans (W3_launch m c r h0 h1 h2)
theorem W5_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) :
    W5 m c (Proc.devRef .tc r) = m ((c : Thread nD τ).loc r) :=
  (keep_W5 m c r h4).trans (W4_launch m c r h0 h1 h2 h3)
theorem W6_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) :
    W6 m c (Proc.devRef .tc r) = m ((c : Thread nD τ).loc r) :=
  (keep_W6 m c r h5).trans (W5_launch m c r h0 h1 h2 h3 h4)
theorem W7_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) :
    W7 m c (Proc.devRef .tc r) = m ((c : Thread nD τ).loc r) :=
  (keep_W7 m c r h6).trans (W6_launch m c r h0 h1 h2 h3 h4 h5)
theorem W8_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) :
    W8 m c (Proc.devRef .tc r) = m ((c : Thread nD τ).loc r) :=
  (keep_W8 m c r h7).trans (W7_launch m c r h0 h1 h2 h3 h4 h5 h6)
theorem W9_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) :
    W9 m c (Proc.devRef .tc r) = m ((c : Thread nD τ).loc r) :=
  (keep_W9 m c r h8).trans (W8_launch m c r h0 h1 h2 h3 h4 h5 h6 h7)
theorem W10_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) (h9 : r ∉ ([main_v67] : List (Ref sig .tc))) :
    W10 m c (Proc.devRef .tc r) = m ((c : Thread nD τ).loc r) :=
  (keep_W10 m c r h9).trans (W9_launch m c r h0 h1 h2 h3 h4 h5 h6 h7 h8)
theorem W11_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) (h9 : r ∉ ([main_v67] : List (Ref sig .tc))) (h10 : r ∉ hostOps4_W) :
    W11 m c (Proc.devRef .tc r) = m ((c : Thread nD τ).loc r) :=
  (keep_W11 m c r h10).trans (W10_launch m c r h0 h1 h2 h3 h4 h5 h6 h7 h8 h9)
theorem W12_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) (h9 : r ∉ ([main_v67] : List (Ref sig .tc))) (h10 : r ∉ hostOps4_W) (h11 : r ∉ ([main_v82_0, main_v82_1, main_v82_2] : List (Ref sig .tc))) :
    W12 m c (Proc.devRef .tc r) = m ((c : Thread nD τ).loc r) :=
  (keep_W12 m c r h11).trans (W11_launch m c r h0 h1 h2 h3 h4 h5 h6 h7 h8 h9 h10)
theorem W13_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) (h9 : r ∉ ([main_v67] : List (Ref sig .tc))) (h10 : r ∉ hostOps4_W) (h11 : r ∉ ([main_v82_0, main_v82_1, main_v82_2] : List (Ref sig .tc))) (h12 : r ∉ hostOps5_W) :
    W13 m c (Proc.devRef .tc r) = m ((c : Thread nD τ).loc r) :=
  (keep_W13 m c r h12).trans (W12_launch m c r h0 h1 h2 h3 h4 h5 h6 h7 h8 h9 h10 h11)
theorem W14_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) (h9 : r ∉ ([main_v67] : List (Ref sig .tc))) (h10 : r ∉ hostOps4_W) (h11 : r ∉ ([main_v82_0, main_v82_1, main_v82_2] : List (Ref sig .tc))) (h12 : r ∉ hostOps5_W) (h13 : r ∉ ([main_v97] : List (Ref sig .tc))) :
    W14 m c (Proc.devRef .tc r) = m ((c : Thread nD τ).loc r) :=
  (keep_W14 m c r h13).trans (W13_launch m c r h0 h1 h2 h3 h4 h5 h6 h7 h8 h9 h10 h11 h12)
theorem W15_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) (h9 : r ∉ ([main_v67] : List (Ref sig .tc))) (h10 : r ∉ hostOps4_W) (h11 : r ∉ ([main_v82_0, main_v82_1, main_v82_2] : List (Ref sig .tc))) (h12 : r ∉ hostOps5_W) (h13 : r ∉ ([main_v97] : List (Ref sig .tc))) (h14 : r ∉ hostOps6_W) :
    W15 m c (Proc.devRef .tc r) = m ((c : Thread nD τ).loc r) :=
  (keep_W15 m c r h14).trans (W14_launch m c r h0 h1 h2 h3 h4 h5 h6 h7 h8 h9 h10 h11 h12 h13)
theorem W16_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) (h9 : r ∉ ([main_v67] : List (Ref sig .tc))) (h10 : r ∉ hostOps4_W) (h11 : r ∉ ([main_v82_0, main_v82_1, main_v82_2] : List (Ref sig .tc))) (h12 : r ∉ hostOps5_W) (h13 : r ∉ ([main_v97] : List (Ref sig .tc))) (h14 : r ∉ hostOps6_W) (h15 : r ∉ ([main_v102] : List (Ref sig .tc))) :
    W16 m c (Proc.devRef .tc r) = m ((c : Thread nD τ).loc r) :=
  (keep_W16 m c r h15).trans (W15_launch m c r h0 h1 h2 h3 h4 h5 h6 h7 h8 h9 h10 h11 h12 h13 h14)
theorem W17_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) (h9 : r ∉ ([main_v67] : List (Ref sig .tc))) (h10 : r ∉ hostOps4_W) (h11 : r ∉ ([main_v82_0, main_v82_1, main_v82_2] : List (Ref sig .tc))) (h12 : r ∉ hostOps5_W) (h13 : r ∉ ([main_v97] : List (Ref sig .tc))) (h14 : r ∉ hostOps6_W) (h15 : r ∉ ([main_v102] : List (Ref sig .tc))) (h16 : r ∉ hostOps7_W) :
    W17 m c (Proc.devRef .tc r) = m ((c : Thread nD τ).loc r) :=
  (keep_W17 m c r h16).trans (W16_launch m c r h0 h1 h2 h3 h4 h5 h6 h7 h8 h9 h10 h11 h12 h13 h14 h15)
theorem W18_launch (c : Dev nD) (r : Ref sig .tc) (h0 : r ∉ hostOps0_W) (h1 : r ∉ hostOps0_1_W) (h2 : r ∉ hostOps0_2_W) (h3 : r ∉ ([main_v34] : List (Ref sig .tc))) (h4 : r ∉ hostOps1_W) (h5 : r ∉ ([main_v49_0, main_v49_1, main_v49_2] : List (Ref sig .tc))) (h6 : r ∉ hostOps2_W) (h7 : r ∉ ([main_v64] : List (Ref sig .tc))) (h8 : r ∉ hostOps3_W) (h9 : r ∉ ([main_v67] : List (Ref sig .tc))) (h10 : r ∉ hostOps4_W) (h11 : r ∉ ([main_v82_0, main_v82_1, main_v82_2] : List (Ref sig .tc))) (h12 : r ∉ hostOps5_W) (h13 : r ∉ ([main_v97] : List (Ref sig .tc))) (h14 : r ∉ hostOps6_W) (h15 : r ∉ ([main_v102] : List (Ref sig .tc))) (h16 : r ∉ hostOps7_W) (h17 : r ∉ ([main_v104] : List (Ref sig .tc))) :
    W18 m c (Proc.devRef .tc r) = m ((c : Thread nD τ).loc r) :=
  (keep_W18 m c r h17).trans (W17_launch m c r h0 h1 h2 h3 h4 h5 h6 h7 h8 h9 h10 h11 h12 h13 h14 h15 h16)

end Cert.KernelIdeal.Reg

end
-- ==== Proof.KI.Val0.lean ====
import proofs.«168427_j26276609917010_1_alg».proof.Proof.KI.Reg0
import Idealize.ShloMosaic.Lib.Pipeline.Value
import Idealize.ShloMosaic.Lib.ValueIdx
import Idealize.ShloMosaic.PureOps.Ideal.Laws

/-! The value of region 0's output array at the ideal numbers: after the region's pipeline has run over all its grid
    points, the output array is one function of the region's input arrays as it found them, index by index. -/

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz0 : (![0, 0] : Fin 2 → Nat) = fun _ => 0 := funext fun a => by fin_cases a <;> rfl

/-- The region's map on whole arrays: entry (r, j) of the result is the sum over the 200 columns `k` of entry (r, k) of the first array times entry (k, j) of the second, plus entry j of the row `a2`. -/
def G0 (a0 : S100000x200.Idx → Elt Ideal .f32) (a1 : S200x128.Idx → Elt Ideal .f32) (a2 : S1x128.Idx → Elt Ideal .f32) : S100000x128.Idx → Elt Ideal .f32 :=
  fun i => (∑ k : Fin 200, a0 (ix2 (i 0) k) * a1 (ix2 k (i 1))) + a2 (ix2 (0 : Fin 1) (i 1))

/-- The matrix product into a zero accumulator at entry (p, q): the sum over the 200 contraction positions `k` of the left
    factor's entry (p, k) times the right factor's entry (k, q). -/
theorem dot200_apply0 (a : FVec Ideal S2000x200 .bf16) (b : FVec Ideal S200x128 .bf16) (p : Fin 2000) (q : Fin 128) :
    matmul dot_S2000x200_S200x128_S2000x128_1_0_0_1_n_n none a b (constant S2000x128 .f32 0x00000000#32) (ix2 p q)
      = ∑ k : Fin 200, a (ix2 p k) * b (ix2 k q) := by
  refine (Ideal.matmul_constant_zero_apply dot_S2000x200_S200x128_S2000x128_1_0_0_1_n_n none a b (ix2 p q)).trans ?_
  rw [← Equiv.sum_comp (contrEquiv1 dot_S2000x200_S200x128_S2000x128_1_0_0_1_n_n 200 rfl rfl).symm]
  refine Finset.sum_congr rfl fun k _ => ?_
  have hk : ((((contrEquiv1 dot_S2000x200_S200x128_S2000x128_1_0_0_1_n_n 200 rfl rfl).symm k) ⟨0, by decide⟩ : Fin _) : ℕ) = k.val :=
    contrEquiv1_symm_val dot_S2000x200_S200x128_S2000x128_1_0_0_1_n_n 200 rfl rfl k
  have ea : dot_S2000x200_S200x128_S2000x128_1_0_0_1_n_n.lhsIdx (ix2 p q) ((contrEquiv1 dot_S2000x200_S200x128_S2000x128_1_0_0_1_n_n 200 rfl rfl).symm k) = ix2 p k := by
    funext ax; apply Fin.ext
    match ax with
    | ⟨0, _⟩ => rfl
    | ⟨1, _⟩ => exact hk
  have eb : dot_S2000x200_S200x128_S2000x128_1_0_0_1_n_n.rhsIdx (ix2 p q) ((contrEquiv1 dot_S2000x200_S200x128_S2000x128_1_0_0_1_n_n 200 rfl rfl).symm k) = ix2 k q := by
    funext ax; apply Fin.ext
    match ax with
    | ⟨0, _⟩ => exact hk
    | ⟨1, _⟩ => rfl
  rw [ea, eb]

/-- The body's stored value at row `p`, column `q` of the tile: the matrix product of the tile by the second block at (p, q) — at the ideal numbers the rounding of the factors to the narrower format is the identity — plus the row's entry `q`. -/
theorem pay0_apply (x0 : Vec Ideal S2000x200 .f32) (x1 : Vec Ideal S200x128 .f32) (x2 : Vec Ideal S1x128 .f32) (p : Fin 2000) (q : Fin 128) :
    k0_pay1 x0 x1 x2 (ix2 p q) = (∑ k : Fin 200, x0 (ix2 p k) * x1 (ix2 k q)) + x2 (ix2 (0 : Fin 1) q) := by
  have eb2 : broadcastTo S2000x128 x2 broadcasts_S1x128_S2000x128 (ix2 p q) = x2 (ix2 (0 : Fin 1) q) :=
    broadcastTo_apply x2 _ (ix2 p q) (ix2 (0 : Fin 1) q) (fun a => by match a with | ⟨0, _⟩ => rfl | ⟨1, _⟩ => rfl)
  unfold k0_pay1
  simp only [shapeCast_self]
  show matmul (F := Ideal) dot_S2000x200_S200x128_S2000x128_1_0_0_1_n_n none (truncf (F := Ideal) .bf16 x0 bitsLt_bf16_f32) (truncf (F := Ideal) .bf16 x1 bitsLt_bf16_f32) (constant (F := Ideal) S2000x128 .f32 0x00000000#32) (ix2 p q) + broadcastTo S2000x128 x2 broadcasts_S1x128_S2000x128 (ix2 p q) = _
  rw [eb2, dot200_apply0]
  rfl

/-- The block index maps over the grid: a row-tiled window is at block row `t`, the other windows stay put. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The stored tile's entry (p, q) written over the windows at grid point `t` — each row-tiled array at row
    `2000 t + p`, the other arrays where the block has them — is `G0` at the output block's entry (p, q). -/
theorem blockval0 (a0 : S100000x200.Idx → Elt Ideal .f32) (a1 : S200x128.Idx → Elt Ideal .f32) (a2 : S1x128.Idx → Elt Ideal .f32) (t : Fin cfg0.N) (p : Fin 2000) (q : Fin 128) :
    (∑ k : Fin 200, a0 (((cfg0.win 0).blk t).view.emb (ix2 p k)) * a1 (((cfg0.win 1).blk t).view.emb (ix2 k q))) + a2 (((cfg0.win 2).blk t).view.emb (ix2 (0 : Fin 1) q))
    = G0 a0 a1 a2 (((cfg0.win 3).blk t).view.emb (ix2 p q)) := by
  obtain ⟨e00, e01, e10, e11, e20, e21, e30, e31⟩ := idx_facts0 t
  have hT0 : ∀ k : Fin 200, (((cfg0.win 0).blk t).view.emb (ix2 p k)) = ix2 ((((cfg0.win 3).blk t).view.emb (ix2 p q)) 0) k := fun k => by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 200 + 1 * k.val = k.val; omega
  have hW1 : ∀ k : Fin 200, (((cfg0.win 1).blk t).view.emb (ix2 k q)) = ix2 k ((((cfg0.win 3).blk t).view.emb (ix2 p q)) 1) := fun k => by
    funext a; apply Fin.ext
    match a with
    | ⟨0, _⟩ => show win0_1.index t (0 : Fin 2) * 200 + 1 * k.val = k.val; omega
    | ⟨1, _⟩ => show win0_1.index t (1 : Fin 2) * 128 + 1 * q.val = win0_3.index t (1 : Fin 2) * 128 + 1 * q.val; omega
  have hB2 : (((cfg0.win 2).blk t).view.emb (ix2 (0 : Fin 1) q)) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  unfold G0
  exact congrArg₂ (· + ·) (Finset.sum_congr rfl fun k _ => congrArg₂ (· * ·) (congrArg a0 (hT0 k)) (congrArg a1 (hW1 k))) (congrArg a2 hB2)

/-- What grid point `t` writes back is block `t` of `G0` of the input arrays as the region finds them. -/
theorem flushed0_eq (c : Dev nD) (t : Fin cfg0.N) :
    (dat0 V c).flushed 3 t = ((cfg0.win 3).blk t).view.read (Elt Ideal) (G0 (V c main_arg0) (V c main_arg3) (V c main_v33)) := by
  show (cfg0.win 3).cut (grid0.coords t) ((dat0 V c).after 3 t) = _
  rw [after0_3]
  unfold out0_3
  rw [View.canon_unit_zero hz0]
  simp only [View.ld_unit_zero (S := S2000x200) hz0, View.ld_unit_zero (S := S200x128) hz0, View.ld_unit_zero (S := S1x128) hz0, View.ld_unit_zero (S := S2000x128) hz0]
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (ix2 p q) = G0 (V c main_arg0) (V c main_arg3) (V c main_v33) (((cfg0.win 3).blk t).view.emb (ix2 p q))
  refine (pay0_apply (iblk0 V c 0 t) (iblk0 V c 1 t) (iblk0 V c 2 t) p q).trans ?_
  exact blockval0 (V c main_arg0) (V c main_arg3) (V c main_v33) t p q

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v34).slice (win0_3.rect t)).set ↔ _
  rw [View.set_slice_whole, Rect.mem_set_unit]
  exact Iff.rfl

/-- Every block row of the output array is some grid point's. -/
theorem idx_onto0 : ∀ q0 : Fin 50, ∃ t : Fin cfg0.N, win0_3.index t = ![q0.val, 0] :=
  (by decide +kernel : ∀ q0 : Fin 50, ∃ t : Fin grid0.N, win0_3.index t = ![q0.val, 0])

/-- Every index of the output array is in the block of the grid point that holds its row: row `r` is in block `r / 2000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the region: `G0` of the input arrays as the region found them. -/
theorem final0 (c : Dev nD) : (dat0 V c).arrAt 3 cfg0.N = G0 (V c main_arg0) (V c main_arg3) (V c main_v33) :=
  (dat0 V c).arrAt_eq_of_cover 3 (G0 (V c main_arg0) (V c main_arg3) (V c main_v33)) (fun t _ => flushed0_eq V c t) cover0

end Cert.KernelIdeal.Reg
-- ==== Proof.KI.Val3.lean ====
import proofs.«168427_j26276609917010_1_alg».proof.Proof.KI.Reg3
import Idealize.ShloMosaic.Lib.Pipeline.Value
import Idealize.ShloMosaic.Lib.ValueIdx
import Idealize.ShloMosaic.PureOps.Ideal.Laws

/-! The value of region 3's output array at the ideal numbers: after the region's pipeline has run over all its grid
    points, the output array is one function of the region's input arrays as it found them, index by index. -/

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz3 : (![0, 0] : Fin 2 → Nat) = fun _ => 0 := funext fun a => by fin_cases a <;> rfl

/-- The region's map on whole arrays: entry (r, j) of the result is the sum over the 128 columns `k` of entry (r, k) of the first array times entry (k, j) of the second, plus entry j of the row `a2`. -/
def G3 (a0 : S100000x128.Idx → Elt Ideal .f32) (a1 : S128x128.Idx → Elt Ideal .f32) (a2 : S1x128.Idx → Elt Ideal .f32) : S100000x128.Idx → Elt Ideal .f32 :=
  fun i => (∑ k : Fin 128, a0 (ix2 (i 0) k) * a1 (ix2 k (i 1))) + a2 (ix2 (0 : Fin 1) (i 1))

/-- The matrix product into a zero accumulator at entry (p, q): the sum over the 128 contraction positions `k` of the left
    factor's entry (p, k) times the right factor's entry (k, q). -/
theorem dot128_apply3 (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (contrEquiv1 dot_S2000x128_S128x128_S2000x128_1_0_0_1_n_n 128 rfl rfl).symm]
  refine Finset.sum_congr rfl fun k _ => ?_
  have hk : ((((contrEquiv1 dot_S2000x128_S128x128_S2000x128_1_0_0_1_n_n 128 rfl rfl).symm k) ⟨0, by decide⟩ : Fin _) : ℕ) = k.val :=
    contrEquiv1_symm_val dot_S2000x128_S128x128_S2000x128_1_0_0_1_n_n 128 rfl rfl k
  have ea : dot_S2000x128_S128x128_S2000x128_1_0_0_1_n_n.lhsIdx (ix2 p q) ((contrEquiv1 dot_S2000x128_S128x128_S2000x128_1_0_0_1_n_n 128 rfl rfl).symm k) = ix2 p k := by
    funext ax; apply Fin.ext
    match ax with
    | ⟨0, _⟩ => rfl
    | ⟨1, _⟩ => exact hk
  have eb : dot_S2000x128_S128x128_S2000x128_1_0_0_1_n_n.rhsIdx (ix2 p q) ((contrEquiv1 dot_S2000x128_S128x128_S2000x128_1_0_0_1_n_n 128 rfl rfl).symm k) = ix2 k q := by
    funext ax; apply Fin.ext
    match ax with
    | ⟨0, _⟩ => exact hk
    | ⟨1, _⟩ => rfl
  rw [ea, eb]

/-- The body's stored value at row `p`, column `q` of the tile: the matrix product of the tile by the second block at (p, q) — at the ideal numbers the rounding of the factors to the narrower format is the identity — plus the row's entry `q`. -/
theorem pay3_apply (x0 : Vec Ideal S2000x128 .f32) (x1 : Vec Ideal S128x128 .f32) (x2 : Vec Ideal S1x128 .f32) (p : Fin 2000) (q : Fin 128) :
    k3_pay1 x0 x1 x2 (ix2 p q) = (∑ k : Fin 128, x0 (ix2 p k) * x1 (ix2 k q)) + x2 (ix2 (0 : Fin 1) q) := by
  have eb2 : broadcastTo S2000x128 x2 broadcasts_S1x128_S2000x128 (ix2 p q) = x2 (ix2 (0 : Fin 1) q) :=
    broadcastTo_apply x2 _ (ix2 p q) (ix2 (0 : Fin 1) q) (fun a => by match a with | ⟨0, _⟩ => rfl | ⟨1, _⟩ => rfl)
  unfold k3_pay1
  simp only [shapeCast_self]
  show matmul (F := Ideal) dot_S2000x128_S128x128_S2000x128_1_0_0_1_n_n none (truncf (F := Ideal) .bf16 x0 bitsLt_bf16_f32) (truncf (F := Ideal) .bf16 x1 bitsLt_bf16_f32) (constant (F := Ideal) S2000x128 .f32 0x00000000#32) (ix2 p q) + broadcastTo S2000x128 x2 broadcasts_S1x128_S2000x128 (ix2 p q) = _
  rw [eb2, dot128_apply3]
  rfl

/-- The block index maps over the grid: a row-tiled window is at block row `t`, the other windows stay put. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The stored tile's entry (p, q) written over the windows at grid point `t` — each row-tiled array at row
    `2000 t + p`, the other arrays where the block has them — is `G3` at the output block's entry (p, q). -/
theorem blockval3 (a0 : S100000x128.Idx → Elt Ideal .f32) (a1 : S128x128.Idx → Elt Ideal .f32) (a2 : S1x128.Idx → Elt Ideal .f32) (t : Fin cfg3.N) (p : Fin 2000) (q : Fin 128) :
    (∑ k : Fin 128, a0 (((cfg3.win 0).blk t).view.emb (ix2 p k)) * a1 (((cfg3.win 1).blk t).view.emb (ix2 k q))) + a2 (((cfg3.win 2).blk t).view.emb (ix2 (0 : Fin 1) q))
    = G3 a0 a1 a2 (((cfg3.win 3).blk t).view.emb (ix2 p q)) := by
  obtain ⟨e00, e01, e10, e11, e20, e21, e30, e31⟩ := idx_facts3 t
  have hT0 : ∀ k : Fin 128, (((cfg3.win 0).blk t).view.emb (ix2 p k)) = ix2 ((((cfg3.win 3).blk t).view.emb (ix2 p q)) 0) k := fun k => by
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * k.val = k.val; omega
  have hW1 : ∀ k : Fin 128, (((cfg3.win 1).blk t).view.emb (ix2 k q)) = ix2 k ((((cfg3.win 3).blk t).view.emb (ix2 p q)) 1) := fun k => by
    funext a; apply Fin.ext
    match a with
    | ⟨0, _⟩ => show win3_1.index t (0 : Fin 2) * 128 + 1 * k.val = k.val; omega
    | ⟨1, _⟩ => show win3_1.index t (1 : Fin 2) * 128 + 1 * q.val = win3_3.index t (1 : Fin 2) * 128 + 1 * q.val; omega
  have hB2 : (((cfg3.win 2).blk t).view.emb (ix2 (0 : Fin 1) q)) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  unfold G3
  exact congrArg₂ (· + ·) (Finset.sum_congr rfl fun k _ => congrArg₂ (· * ·) (congrArg a0 (hT0 k)) (congrArg a1 (hW1 k))) (congrArg a2 hB2)

/-- What grid point `t` writes back is block `t` of `G3` of the input arrays as the region finds them. -/
theorem flushed3_eq (c : Dev nD) (t : Fin cfg3.N) :
    (dat3 V c).flushed 3 t = ((cfg3.win 3).blk t).view.read (Elt Ideal) (G3 (V c main_v64) (V c main_arg5) (V c main_v66)) := by
  show (cfg3.win 3).cut (grid3.coords t) ((dat3 V c).after 3 t) = _
  rw [after3_3]
  unfold out3_3
  rw [View.canon_unit_zero hz3]
  simp only [View.ld_unit_zero (S := S2000x128) hz3, View.ld_unit_zero (S := S128x128) hz3, View.ld_unit_zero (S := S1x128) hz3]
  funext j
  obtain ⟨p, q, rfl⟩ : ∃ (p : Fin 2000) (q : Fin 128), j = ix2 p q := ⟨j 0, j 1, eq_ix2 j⟩
  show k3_pay1 (iblk3 V c 0 t) (iblk3 V c 1 t) (iblk3 V c 2 t) (ix2 p q) = G3 (V c main_v64) (V c main_arg5) (V c main_v66) (((cfg3.win 3).blk t).view.emb (ix2 p q))
  refine (pay3_apply (iblk3 V c 0 t) (iblk3 V c 1 t) (iblk3 V c 2 t) p q).trans ?_
  exact blockval3 (V c main_v64) (V c main_arg5) (V c main_v66) t p q

/-- An index of the output array is in point `t`'s block iff each coordinate is in the block's range on its axis. -/
theorem mem_blk3 (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v67).slice (win3_3.rect t)).set ↔ _
  rw [View.set_slice_whole, Rect.mem_set_unit]
  exact Iff.rfl

/-- Every block row of the output array is some grid point's. -/
theorem idx_onto3 : ∀ q0 : Fin 50, ∃ t : Fin cfg3.N, win3_3.index t = ![q0.val, 0] :=
  (by decide +kernel : ∀ q0 : Fin 50, ∃ t : Fin grid3.N, win3_3.index t = ![q0.val, 0])

/-- Every index of the output array is in the block of the grid point that holds its row: row `r` is in block `r / 2000`. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The output array after the region: `G3` of the input arrays as the region found them. -/
theorem final3 (c : Dev nD) : (dat3 V c).arrAt 3 cfg3.N = G3 (V c main_v64) (V c main_arg5) (V c main_v66) :=
  (dat3 V c).arrAt_eq_of_cover 3 (G3 (V c main_v64) (V c main_arg5) (V c main_v66)) (fun t _ => flushed3_eq V c t) cover3

end Cert.KernelIdeal.Reg
-- ==== Proof.Br.Dense.lean ====
import proofs.«168427_j26276609917010_1_alg».proof.Proof.KI.Val0
import proofs.«168427_j26276609917010_1_alg».proof.Proof.KI.Val3
import proofs.«168427_j26276609917010_1_alg».proof.Proof.Ref.Out
import Idealize.ShloMosaic.Lib.ValueIdx
import Idealize.ShloMosaic.PureOps.Ideal.Laws
import Idealize.ShloMosaic.Lib.IdealHost
import Idealize.ShloMosaic.Lib.Pipeline.Value

/-! The two dense products of the graph layers: what the kernel program's regions 0 and 3 leave in their output arrays is the reference's matrix product of the same two arrays (the regions add a row of zeros). -/

noncomputable section

namespace Cert.Br

open Idealize.ShloMosaic Idealize.ShloMosaic.TcCoe Idealize.SL.Sem
open Idealize.ShloMosaic.ValueIdx
open Cert.KernelIdeal (nD τ sig)

/-- The reference's matrix product at entry (r, j): the sum over the 200 contraction positions `k` of the left factor's
    entry (r, k) times the right factor's entry (k, j). -/
theorem refdot200_apply (a : FVec Ideal Cert.ReferenceIdeal.S100000x200 .f32) (b : FVec Ideal Cert.ReferenceIdeal.S200x128 .f32) (r : Fin 100000) (j : Fin 128) :
    Host.dotGeneral (F := Ideal) (φ₁ := .f32) (φ₂ := .f32) Cert.ReferenceIdeal.dot_S100000x200_S200x128_S100000x128_1_0_0_1_n_n none a b (ix2 r j)
      = ∑ k : Fin 200, a (ix2 r k) * b (ix2 k j) := by
  refine (Ideal.dotGeneral_apply Cert.ReferenceIdeal.dot_S100000x200_S200x128_S100000x128_1_0_0_1_n_n none .single a b (ix2 r j)).trans ?_
  rw [← Equiv.sum_comp (contrEquiv1 Cert.ReferenceIdeal.dot_S100000x200_S200x128_S100000x128_1_0_0_1_n_n 200 rfl rfl).symm]
  refine Finset.sum_congr rfl fun k _ => ?_
  have hk : ((((contrEquiv1 Cert.ReferenceIdeal.dot_S100000x200_S200x128_S100000x128_1_0_0_1_n_n 200 rfl rfl).symm k) ⟨0, by decide⟩ : Fin _) : ℕ) = k.val :=
    contrEquiv1_symm_val Cert.ReferenceIdeal.dot_S100000x200_S200x128_S100000x128_1_0_0_1_n_n 200 rfl rfl k
  have ea : Cert.ReferenceIdeal.dot_S100000x200_S200x128_S100000x128_1_0_0_1_n_n.lhsIdx (ix2 r j) ((contrEquiv1 Cert.ReferenceIdeal.dot_S100000x200_S200x128_S100000x128_1_0_0_1_n_n 200 rfl rfl).symm k) = ix2 r k := by
    funext ax; apply Fin.ext
    match ax with
    | ⟨0, _⟩ => rfl
    | ⟨1, _⟩ => exact hk
  have eb : Cert.ReferenceIdeal.dot_S100000x200_S200x128_S100000x128_1_0_0_1_n_n.rhsIdx (ix2 r j) ((contrEquiv1 Cert.ReferenceIdeal.dot_S100000x200_S200x128_S100000x128_1_0_0_1_n_n 200 rfl rfl).symm k) = ix2 k j := by
    funext ax; apply Fin.ext
    match ax with
    | ⟨0, _⟩ => exact hk
    | ⟨1, _⟩ => rfl
  rw [ea, eb]

/-- The reference's matrix product at entry (r, j): the sum over the 128 contraction positions `k` of the left factor's
    entry (r, k) times the right factor's entry (k, j). -/
theorem refdot128_apply (a : FVec Ideal Cert.ReferenceIdeal.S100000x128 .f32) (b : FVec Ideal Cert.ReferenceIdeal.S128x128 .f32) (r : Fin 100000) (j : Fin 128) :
    Host.dotGeneral (F := Ideal) (φ₁ := .f32) (φ₂ := .f32) Cert.ReferenceIdeal.dot_S100000x128_S128x128_S100000x128_1_0_0_1_n_n none a b (ix2 r j)
      = ∑ k : Fin 128, a (ix2 r k) * b (ix2 k j) := by
  refine (Ideal.dotGeneral_apply Cert.ReferenceIdeal.dot_S100000x128_S128x128_S100000x128_1_0_0_1_n_n none .single a b (ix2 r j)).trans ?_
  rw [← Equiv.sum_comp (contrEquiv1 Cert.ReferenceIdeal.dot_S100000x128_S128x128_S100000x128_1_0_0_1_n_n 128 rfl rfl).symm]
  refine Finset.sum_congr rfl fun k _ => ?_
  have hk : ((((contrEquiv1 Cert.ReferenceIdeal.dot_S100000x128_S128x128_S100000x128_1_0_0_1_n_n 128 rfl rfl).symm k) ⟨0, by decide⟩ : Fin _) : ℕ) = k.val :=
    contrEquiv1_symm_val Cert.ReferenceIdeal.dot_S100000x128_S128x128_S100000x128_1_0_0_1_n_n 128 rfl rfl k
  have ea : Cert.ReferenceIdeal.dot_S100000x128_S128x128_S100000x128_1_0_0_1_n_n.lhsIdx (ix2 r j) ((contrEquiv1 Cert.ReferenceIdeal.dot_S100000x128_S128x128_S100000x128_1_0_0_1_n_n 128 rfl rfl).symm k) = ix2 r k := by
    funext ax; apply Fin.ext
    match ax with
    | ⟨0, _⟩ => rfl
    | ⟨1, _⟩ => exact hk
  have eb : Cert.ReferenceIdeal.dot_S100000x128_S128x128_S100000x128_1_0_0_1_n_n.rhsIdx (ix2 r j) ((contrEquiv1 Cert.ReferenceIdeal.dot_S100000x128_S128x128_S100000x128_1_0_0_1_n_n 128 rfl rfl).symm k) = ix2 k j := by
    funext ax; apply Fin.ext
    match ax with
    | ⟨0, _⟩ => exact hk
    | ⟨1, _⟩ => rfl
  rw [ea, eb]

/-- Region 0's map with a zero row added is the reference's product of the features by the first weight matrix. -/
theorem G0_eq_dot (x : Cert.KernelIdeal.S100000x200.Idx → Elt Ideal .f32) (w : Cert.KernelIdeal.S200x128.Idx → Elt Ideal .f32)
    (z : Cert.KernelIdeal.S1x128.Idx → Elt Ideal .f32) (hz : ∀ i, z i = 0) :
    Cert.KernelIdeal.Reg.G0 x w z
      = Host.dotGeneral (F := Ideal) (φ₁ := .f32) (φ₂ := .f32) Cert.ReferenceIdeal.dot_S100000x200_S200x128_S100000x128_1_0_0_1_n_n none x w := by
  funext i
  obtain ⟨r, j, rfl⟩ : ∃ (r : Fin 100000) (j : Fin 128), i = ix2 r j := ⟨i 0, i 1, eq_ix2 i⟩
  refine Eq.trans ?_ (refdot200_apply x w r j).symm
  show (∑ k : Fin 200, x (ix2 r k) * w (ix2 k j)) + z (ix2 (0 : Fin 1) j) = _
  rw [hz, add_zero]

/-- Region 3's map with a zero row added is the reference's product of the first layer's result by the second weight matrix. -/
theorem G3_eq_dot (x : Cert.KernelIdeal.S100000x128.Idx → Elt Ideal .f32) (w : Cert.KernelIdeal.S128x128.Idx → Elt Ideal .f32)
    (z : Cert.KernelIdeal.S1x128.Idx → Elt Ideal .f32) (hz : ∀ i, z i = 0) :
    Cert.KernelIdeal.Reg.G3 x w z
      = Host.dotGeneral (F := Ideal) (φ₁ := .f32) (φ₂ := .f32) Cert.ReferenceIdeal.dot_S100000x128_S128x128_S100000x128_1_0_0_1_n_n none x w := by
  funext i
  obtain ⟨r, j, rfl⟩ : ∃ (r : Fin 100000) (j : Fin 128), i = ix2 r j := ⟨i 0, i 1, eq_ix2 i⟩
  refine Eq.trans ?_ (refdot128_apply x w r j).symm
  show (∑ k : Fin 128, x (ix2 r k) * w (ix2 k j)) + z (ix2 (0 : Fin 1) j) = _
  rw [hz, add_zero]

variable (V : (c : Dev nD) → (b : Ref sig .tc) → Buf (Elt Ideal) ((c : Thread nD τ).loc b))

/-- Region 0's output array, from any entry contents whose bias row is zero: the reference's product of the two arrays. -/
theorem region0_eq_dot (c : Dev nD) (hz : ∀ i, V c Cert.KernelIdeal.main_v33 i = (0 : Elt Ideal .f32)) :
    (Cert.KernelIdeal.Reg.dat0 V c).arrAt 3 Cert.KernelIdeal.cfg0.N
      = Host.dotGeneral (F := Ideal) (φ₁ := .f32) (φ₂ := .f32) Cert.ReferenceIdeal.dot_S100000x200_S200x128_S100000x128_1_0_0_1_n_n none
          (V c Cert.KernelIdeal.main_arg0) (V c Cert.KernelIdeal.main_arg3) :=
  (Cert.KernelIdeal.Reg.final0 V c).trans (G0_eq_dot _ _ _ hz)

/-- Region 3's output array, from any entry contents whose bias row is zero: the reference's product of the two arrays. -/
theorem region3_eq_dot (c : Dev nD) (hz : ∀ i, V c Cert.KernelIdeal.main_v66 i = (0 : Elt Ideal .f32)) :
    (Cert.KernelIdeal.Reg.dat3 V c).arrAt 3 Cert.KernelIdeal.cfg3.N
      = Host.dotGeneral (F := Ideal) (φ₁ := .f32) (φ₂ := .f32) Cert.ReferenceIdeal.dot_S100000x128_S128x128_S100000x128_1_0_0_1_n_n none
          (V c Cert.KernelIdeal.main_v64) (V c Cert.KernelIdeal.main_arg5) :=
  (Cert.KernelIdeal.Reg.final3 V c).trans (G3_eq_dot _ _ _ hz)

/-- A row of 128 zeros — the zero constant broadcast to 128 entries and recast as a one-row matrix — is zero at every index. -/
theorem zero_row_apply (i : Cert.KernelIdeal.S1x128.Idx) :
    shapeCast Cert.KernelIdeal.S1x128 (broadcastInDim Cert.KernelIdeal.S128 ![] Cert.KernelIdeal.Gen.bcast_S_S128 (constant (F := Ideal) Cert.KernelIdeal.S_ .f32 0x00000000#32))
      Cert.KernelIdeal.Gen.shapeCasts_S128_S1x128 i = (0 : Elt Ideal .f32) := by
  obtain ⟨r, j, rfl⟩ : ∃ (r : Fin 1) (j : Fin 128), i = ix2 r j := ⟨i 0, i 1, eq_ix2 i⟩
  obtain rfl : r = 0 := Subsingleton.elim _ _
  refine (shapeCast_apply _ _ (ix2 (0 : Fin 1) j) (ix1 j) (by
    rw [Shape.rowMajor_val_two, Shape.rowMajor_val_one]; show j.val = 0 * 128 + j.val; omega)).trans ?_
  rw [broadcastInDim_scalar_apply]
  exact Ideal.ofBits_zero_f32

/-- Region 0's output array when its bias row is the row of zeros the program builds. -/
theorem region0_eq_dot' (c : Dev nD)
    (h33 : V c Cert.KernelIdeal.main_v33 = shapeCast Cert.KernelIdeal.S1x128 (broadcastInDim Cert.KernelIdeal.S128 ![] Cert.KernelIdeal.Gen.bcast_S_S128 (constant (F := Ideal) Cert.KernelIdeal.S_ .f32 0x00000000#32)) Cert.KernelIdeal.Gen.shapeCasts_S128_S1x128) :
    (Cert.KernelIdeal.Reg.dat0 V c).arrAt 3 Cert.KernelIdeal.cfg0.N
      = Host.dotGeneral (F := Ideal) (φ₁ := .f32) (φ₂ := .f32) Cert.ReferenceIdeal.dot_S100000x200_S200x128_S100000x128_1_0_0_1_n_n none
          (V c Cert.KernelIdeal.main_arg0) (V c Cert.KernelIdeal.main_arg3) :=
  region0_eq_dot V c (fun i => by rw [h33]; exact zero_row_apply i)

/-- Region 3's output array when its bias row is the row of zeros the program builds. -/
theorem region3_eq_dot' (c : Dev nD)
    (h66 : V c Cert.KernelIdeal.main_v66 = shapeCast Cert.KernelIdeal.S1x128 (broadcastInDim Cert.KernelIdeal.S128 ![] Cert.KernelIdeal.Gen.bcast_S_S128 (constant (F := Ideal) Cert.KernelIdeal.S_ .f32 0x00000000#32)) Cert.KernelIdeal.Gen.shapeCasts_S128_S1x128) :
    (Cert.KernelIdeal.Reg.dat3 V c).arrAt 3 Cert.KernelIdeal.cfg3.N
      = Host.dotGeneral (F := Ideal) (φ₁ := .f32) (φ₂ := .f32) Cert.ReferenceIdeal.dot_S100000x128_S128x128_S100000x128_1_0_0_1_n_n none
          (V c Cert.KernelIdeal.main_v64) (V c Cert.KernelIdeal.main_arg5) :=
  region3_eq_dot V c (fun i => by rw [h66]; exact zero_row_apply i)

end Cert.Br
-- ==== Proof.Br.HostStages.lean ====
/- The host stretches of the kernel program, one equation per operation: the contents of the buffer an operation writes,
   after its stretch, are the operation's function of the contents after the stretch of the buffers it reads; and a buffer
   the stretch does not write keeps its contents. -/
import proofs.«168427_j26276609917010_1_alg».proof.Proof.Gen.KernelIdeal.Launch
import proofs.«168427_j26276609917010_1_alg».proof.Proof.Gen.KernelIdeal.Regions
import proofs.«168427_j26276609917010_1_alg».proof.Proof.LibAfter
import Idealize.ShloMosaic.Lib.StableHlo.Run

noncomputable section

namespace Cert.KernelIdeal.HostSt

open Cert.KernelIdeal Cert.KernelIdeal.Gen Idealize.ShloMosaic Idealize.ShloMosaic.TcCoe Idealize.SL.Sem Idealize.ShloMosaic.StableHlo

variable {F : FTy → Type} [FloatOps F]

/-! ## hostOps0 -/

set_option maxRecDepth 4096 in
/-- Each operation of the stretch writes exactly the buffer listed for it. -/
theorem hW_hostOps0 : List.Forall₂ (fun (op : HloOp τ sig (Elt F)) y => op.writes = {Proc.devRef (τ := τ) .tc y}) hostOps0 hostOps0_W := by
  repeat (first | exact List.Forall₂.nil | refine List.Forall₂.cons rfl ?_)

section
variable (V : Valuation τ sig (Elt F))

theorem k_v0 : (after hostOps0 V (Proc.devRef .tc main_v0)) = (iotaInDim S100000 32 0) := by
  rw [Cert.Lib.stage (hW_hostOps0 (F := F)) 0 _ rfl main_v0 (by decide),
    nullary_result]

theorem k_v1 : (after hostOps0 V (Proc.devRef .tc main_v1)) = ((extractStridedSlice S1x1600000 ![0, 0] · slices_S2x1600000_S1x1600000_0_0) : (⟨S2x1600000, .i32⟩ : BufTy).Contents (Elt F) → (⟨S1x1600000, .i32⟩ : BufTy).Contents (Elt F)) (after hostOps0 V (Proc.devRef .tc main_arg1)) := by
  rw [Cert.Lib.stage (hW_hostOps0 (F := F)) 1 _ rfl main_v1 (by decide),
    unary_result,
    Cert.Lib.after_eq_take_of_written (hW_hostOps0 (F := F)) 1 main_arg1 (by decide)]

theorem k_v2 : (after hostOps0 V (Proc.devRef .tc main_v2)) = shapeCast S1600000 (after hostOps0 V (Proc.devRef .tc main_v1)) shapeCasts_S1x1600000_S1600000 := by
  rw [Cert.Lib.stage (hW_hostOps0 (F := F)) 2 _ rfl main_v2 (by decide),
    reshape_result,
    Cert.Lib.after_eq_take_of_written (hW_hostOps0 (F := F)) 2 main_v1 (by decide)]
  rfl

theorem k_v3 : (after hostOps0 V (Proc.devRef .tc main_v3)) = ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (after hostOps0 V (Proc.devRef .tc main_v2)) (after hostOps0 V (Proc.devRef .tc main_v0)) := by
  rw [Cert.Lib.stage (hW_hostOps0 (F := F)) 3 _ rfl main_v3 (by decide),
    binary_result,
    Cert.Lib.after_eq_take_of_written (hW_hostOps0 (F := F)) 3 main_v2 (by decide),
    Cert.Lib.after_eq_take_of_written (hW_hostOps0 (F := F)) 3 main_v0 (by decide)]

theorem k_v4 : (after hostOps0 V (Proc.devRef .tc main_v4)) = ((extractStridedSlice S1x1600000 ![1, 0] · slices_S2x1600000_S1x1600000_1_0) : (⟨S2x1600000, .i32⟩ : BufTy).Contents (Elt F) → (⟨S1x1600000, .i32⟩ : BufTy).Contents (Elt F)) (after hostOps0 V (Proc.devRef .tc main_arg1)) := by
  rw [Cert.Lib.stage (hW_hostOps0 (F := F)) 4 _ rfl main_v4 (by decide),
    unary_result,
    Cert.Lib.after_eq_take_of_written (hW_hostOps0 (F := F)) 4 main_arg1 (by decide)]

theorem k_v5 : (after hostOps0 V (Proc.devRef .tc main_v5)) = shapeCast S1600000 (after hostOps0 V (Proc.devRef .tc main_v4)) shapeCasts_S1x1600000_S1600000 := by
  rw [Cert.Lib.stage (hW_hostOps0 (F := F)) 5 _ rfl main_v5 (by decide),
    reshape_result,
    Cert.Lib.after_eq_take_of_written (hW_hostOps0 (F := F)) 5 main_v4 (by decide)]
  rfl

theorem k_v6 : (after hostOps0 V (Proc.devRef .tc main_v6)) = ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) (after hostOps0 V (Proc.devRef .tc main_v5)) (after hostOps0 V (Proc.devRef .tc main_v0)) := by
  rw [Cert.Lib.stage (hW_hostOps0 (F := F)) 6 _ rfl main_v6 (by decide),
    binary_result,
    Cert.Lib.after_eq_take_of_written (hW_hostOps0 (F := F)) 6 main_v5 (by decide),
    Cert.Lib.after_eq_take_of_written (hW_hostOps0 (F := F)) 6 main_v0 (by decide)]

theorem k_cst : (after hostOps0 V (Proc.devRef .tc main_cst)) = (constant S_ .f32 0x3F800000#32) := by
  rw [Cert.Lib.stage (hW_hostOps0 (F := F)) 7 _ rfl main_cst (by decide),
    nullary_result]

theorem k_v7 : (after hostOps0 V (Proc.devRef .tc main_v7)) = (broadcastInDim S100000 ![] bcast_S_S100000 : (⟨S_, .f32⟩ : BufTy).Contents (Elt F) → (⟨S100000, .f32⟩ : BufTy).Contents (Elt F)) (after hostOps0 V (Proc.devRef .tc main_cst)) := by
  rw [Cert.Lib.stage (hW_hostOps0 (F := F)) 8 _ rfl main_v7 (by decide),
    unary_result,
    Cert.Lib.after_eq_take_of_written (hW_hostOps0 (F := F)) 8 main_cst (by decide)]

theorem k_v8 : (after hostOps0 V (Proc.devRef .tc main_v8)) = ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) (after hostOps0 V (Proc.devRef .tc main_arg2)) (after hostOps0 V (Proc.devRef .tc main_v7)) := by
  rw [Cert.Lib.stage (hW_hostOps0 (F := F)) 9 _ rfl main_v8 (by decide),
    binary_result,
    Cert.Lib.after_eq_take_of_written (hW_hostOps0 (F := F)) 9 main_arg2 (by decide),
    Cert.Lib.after_eq_take_of_written (hW_hostOps0 (F := F)) 9 main_v7 (by decide)]

theorem k_cst_0 : (after hostOps0 V (Proc.devRef .tc main_cst_0)) = (constant S_ .f32 0x00000000#32) := by
  rw [Cert.Lib.stage (hW_hostOps0 (F := F)) 10 _ rfl main_cst_0 (by decide),
    nullary_result]

theorem k_v9 : (after hostOps0 V (Proc.devRef .tc main_v9)) = (broadcastInDim S100000 ![] bcast_S_S100000 : (⟨S_, .f32⟩ : BufTy).Contents (Elt F) → (⟨S100000, .f32⟩ : BufTy).Contents (Elt F)) (after hostOps0 V (Proc.devRef .tc main_cst_0)) := by
  rw [Cert.Lib.stage (hW_hostOps0 (F := F)) 11 _ rfl main_v9 (by decide),
    unary_result,
    Cert.Lib.after_eq_take_of_written (hW_hostOps0 (F := F)) 11 main_cst_0 (by decide)]

theorem k_v10 : (after hostOps0 V (Proc.devRef .tc main_v10)) = (broadcastInDim S1700000x1 ![0] bcast_S1700000_S1700000x1_0 : (⟨S1700000, .i32⟩ : BufTy).Contents (Elt F) → (⟨S1700000x1, .i32⟩ : BufTy).Contents (Elt F)) (after hostOps0 V (Proc.devRef .tc main_v6)) := by
  rw [Cert.Lib.stage (hW_hostOps0 (F := F)) 12 _ rfl main_v10 (by decide),
    unary_result,
    Cert.Lib.after_eq_take_of_written (hW_hostOps0 (F := F)) 12 main_v6 (by decide)]

theorem k_v11 : (after hostOps0 V (Proc.devRef .tc main_v11)) = ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) (after hostOps0 V (Proc.devRef .tc main_v9)) (after hostOps0 V (Proc.devRef .tc main_v10)) (after hostOps0 V (Proc.devRef .tc main_v8)) := by
  rw [Cert.Lib.stage (hW_hostOps0 (F := F)) 13 _ rfl main_v11 (by decide),
    ternary_result,
    Cert.Lib.after_eq_take_of_written (hW_hostOps0 (F := F)) 13 main_v9 (by decide),
    Cert.Lib.after_eq_take_of_written (hW_hostOps0 (F := F)) 13 main_v10 (by decide),
    Cert.Lib.after_eq_take_of_written (hW_hostOps0 (F := F)) 13 main_v8 (by decide)]

theorem k_cst_1 : (after hostOps0 V (Proc.devRef .tc main_cst_1)) = (constant S_ .f32 0x00000000#32) := by
  rw [Cert.Lib.stage (hW_hostOps0 (F := F)) 14 _ rfl main_cst_1 (by decide),
    nullary_result]

theorem k_v12 : (after hostOps0 V (Proc.devRef .tc main_v12)) = (broadcastInDim S100000 ![] bcast_S_S100000 : (⟨S_, .f32⟩ : BufTy).Contents (Elt F) → (⟨S100000, .f32⟩ : BufTy).Contents (Elt F)) (after hostOps0 V (Proc.devRef .tc main_cst_1)) := by
  rw [Cert.Lib.stage (hW_hostOps0 (F := F)) 15 _ rfl main_v12 (by decide),
    unary_result,
    Cert.Lib.after_eq_take_of_written (hW_hostOps0 (F := F)) 15 main_cst_1 (by decide)]

theorem k_v13 : (after hostOps0 V (Proc.devRef .tc main_v13)) = (cmpf .ogt : (⟨S100000, .f32⟩ : BufTy).Contents (Elt F) → (⟨S100000, .f32⟩ : BufTy).Contents (Elt F) → (⟨S100000, .i1⟩ : BufTy).Contents (Elt F)) (after hostOps0 V (Proc.devRef .tc main_v11)) (after hostOps0 V (Proc.devRef .tc main_v12)) := by
  rw [Cert.Lib.stage (hW_hostOps0 (F := F)) 16 _ rfl main_v13 (by decide),
    binary_result,
    Cert.Lib.after_eq_take_of_written (hW_hostOps0 (F := F)) 16 main_v11 (by decide),
    Cert.Lib.after_eq_take_of_written (hW_hostOps0 (F := F)) 16 main_v12 (by decide)]

theorem k_v14 : (after hostOps0 V (Proc.devRef .tc main_v14)) = (Host.rsqrt : (⟨S100000, .f32⟩ : BufTy).Contents (Elt F) → (⟨S100000, .f32⟩ : BufTy).Contents (Elt F)) (after hostOps0 V (Proc.devRef .tc main_v11)) := by
  rw [Cert.Lib.stage (hW_hostOps0 (F := F)) 17 _ rfl main_v14 (by decide),
    unary_result,
    Cert.Lib.after_eq_take_of_written (hW_hostOps0 (F := F)) 17 main_v11 (by decide)]

theorem k_cst_2 : (after hostOps0 V (Proc.devRef .tc main_cst_2)) = (constant S_ .f32 0x00000000#32) := by
  rw [Cert.Lib.stage (hW_hostOps0 (F := F)) 18 _ rfl main_cst_2 (by decide),
    nullary_result]

theorem kin_0_arg1 : after hostOps0 V (Proc.devRef .tc main_arg1) = V (Proc.devRef .tc main_arg1) :=
  Cert.Lib.after_eq_take_of_written (hW_hostOps0 (F := F)) 0 main_arg1 (by decide)

theorem kin_0_arg2 : after hostOps0 V (Proc.devRef .tc main_arg2) = V (Proc.devRef .tc main_arg2) :=
  Cert.Lib.after_eq_take_of_written (hW_hostOps0 (F := F)) 0 main_arg2 (by decide)

end

/-! ## hostOps0_1 -/

set_option maxRecDepth 4096 in
/-- Each operation of the stretch writes exactly the buffer listed for it. -/
theorem hW_hostOps0_1 : List.Forall₂ (fun (op : HloOp τ sig (Elt F)) y => op.writes = {Proc.devRef (τ := τ) .tc y}) hostOps0_1 hostOps0_1_W := by
  repeat (first | exact List.Forall₂.nil | refine List.Forall₂.cons rfl ?_)

section
variable (V : Valuation τ sig (Elt F))

theorem k_call0_v0 : (after hostOps0_1 V (Proc.devRef .tc main_call0_v0)) = (id : (⟨S_, .f32⟩ : BufTy).Contents (Elt F) → (⟨S_, .f32⟩ : BufTy).Contents (Elt F)) (after hostOps0_1 V (Proc.devRef .tc main_cst_2)) := by
  rw [Cert.Lib.stage (hW_hostOps0_1 (F := F)) 0 _ rfl main_call0_v0 (by decide),
    unary_result,
    Cert.Lib.after_eq_take_of_written (hW_hostOps0_1 (F := F)) 0 main_cst_2 (by decide)]
  generalize after (List.take 0 hostOps0_1) V = Wf
  rfl

theorem k_call0_v1 : (after hostOps0_1 V (Proc.devRef .tc main_call0_v1)) = (broadcastInDim S100000 ![] bcast_S_S100000 : (⟨S_, .f32⟩ : BufTy).Contents (Elt F) → (⟨S100000, .f32⟩ : BufTy).Contents (Elt F)) (after hostOps0_1 V (Proc.devRef .tc main_call0_v0)) := by
  rw [Cert.Lib.stage (hW_hostOps0_1 (F := F)) 1 _ rfl main_call0_v1 (by decide),
    unary_result,
    Cert.Lib.after_eq_take_of_written (hW_hostOps0_1 (F := F)) 1 main_call0_v0 (by decide)]
  generalize after (List.take 1 hostOps0_1) V = Wf
  rfl

theorem k_v15 : (after hostOps0_1 V (Proc.devRef .tc main_v15)) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (after hostOps0_1 V (Proc.devRef .tc main_v13)) (after hostOps0_1 V (Proc.devRef .tc main_v14)) (after hostOps0_1 V (Proc.devRef .tc main_call0_v1)) := by
  rw [Cert.Lib.stage (hW_hostOps0_1 (F := F)) 2 _ rfl main_v15 (by decide),
    ternary_result,
    Cert.Lib.after_eq_take_of_written (hW_hostOps0_1 (F := F)) 2 main_v13 (by decide),
    Cert.Lib.after_eq_take_of_written (hW_hostOps0_1 (F := F)) 2 main_v14 (by decide),
    Cert.Lib.after_eq_take_of_written (hW_hostOps0_1 (F := F)) 2 main_call0_v1 (by decide)]
  generalize after (List.take 2 hostOps0_1) V = Wf
  rfl

theorem kin_0_1_cst_2 : after hostOps0_1 V (Proc.devRef .tc main_cst_2) = V (Proc.devRef .tc main_cst_2) :=
  Cert.Lib.after_eq_take_of_written (hW_hostOps0_1 (F := F)) 0 main_cst_2 (by decide)

theorem kin_0_1_v13 : after hostOps0_1 V (Proc.devRef .tc main_v13) = V (Proc.devRef .tc main_v13) :=
  Cert.Lib.after_eq_take_of_written (hW_hostOps0_1 (F := F)) 0 main_v13 (by decide)

theorem kin_0_1_v14 : after hostOps0_1 V (Proc.devRef .tc main_v14) = V (Proc.devRef .tc main_v14) :=
  Cert.Lib.after_eq_take_of_written (hW_hostOps0_1 (F := F)) 0 main_v14 (by decide)

end

/-! ## hostOps0_2 -/

set_option maxRecDepth 4096 in
/-- Each operation of the stretch writes exactly the buffer listed for it. -/
theorem hW_hostOps0_2 : List.Forall₂ (fun (op : HloOp τ sig (Elt F)) y => op.writes = {Proc.devRef (τ := τ) .tc y}) hostOps0_2 hostOps0_2_W := by
  repeat (first | exact List.Forall₂.nil | refine List.Forall₂.cons rfl ?_)

section
variable (V : Valuation τ sig (Elt F))

theorem k_c : (after hostOps0_2 V (Proc.devRef .tc main_c)) = (constantI S_ 32 0#32) := by
  rw [Cert.Lib.stage (hW_hostOps0_2 (F := F)) 0 _ rfl main_c (by decide),
    nullary_result]

theorem k_v16 : (after hostOps0_2 V (Proc.devRef .tc main_v16)) = (broadcastInDim S1700000 ![] bcast_S_S1700000 : (⟨S_, .i32⟩ : BufTy).Contents (Elt F) → (⟨S1700000, .i32⟩ : BufTy).Contents (Elt F)) (after hostOps0_2 V (Proc.devRef .tc main_c)) := by
  rw [Cert.Lib.stage (hW_hostOps0_2 (F := F)) 1 _ rfl main_v16 (by decide),
    unary_result,
    Cert.Lib.after_eq_take_of_written (hW_hostOps0_2 (F := F)) 1 main_c (by decide)]

theorem k_v17 : (after hostOps0_2 V (Proc.devRef .tc main_v17)) = (cmpi .slt : (⟨S1700000, .i32⟩ : BufTy).Contents (Elt F) → (⟨S1700000, .i32⟩ : BufTy).Contents (Elt F) → (⟨S1700000, .i1⟩ : BufTy).Contents (Elt F)) (after hostOps0_2 V (Proc.devRef .tc main_v3)) (after hostOps0_2 V (Proc.devRef .tc main_v16)) := by
  rw [Cert.Lib.stage (hW_hostOps0_2 (F := F)) 2 _ rfl main_v17 (by decide),
    binary_result,
    Cert.Lib.after_eq_take_of_written (hW_hostOps0_2 (F := F)) 2 main_v3 (by decide),
    Cert.Lib.after_eq_take_of_written (hW_hostOps0_2 (F := F)) 2 main_v16 (by decide)]

theorem k_c_3 : (after hostOps0_2 V (Proc.devRef .tc main_c_3)) = (constantI S_ 32 100000#32) := by
  rw [Cert.Lib.stage (hW_hostOps0_2 (F := F)) 3 _ rfl main_c_3 (by decide),
    nullary_result]

theorem k_v18 : (after hostOps0_2 V (Proc.devRef .tc main_v18)) = (broadcastInDim S1700000 ![] bcast_S_S1700000 : (⟨S_, .i32⟩ : BufTy).Contents (Elt F) → (⟨S1700000, .i32⟩ : BufTy).Contents (Elt F)) (after hostOps0_2 V (Proc.devRef .tc main_c_3)) := by
  rw [Cert.Lib.stage (hW_hostOps0_2 (F := F)) 4 _ rfl main_v18 (by decide),
    unary_result,
    Cert.Lib.after_eq_take_of_written (hW_hostOps0_2 (F := F)) 4 main_c_3 (by decide)]

theorem k_v19 : (after hostOps0_2 V (Proc.devRef .tc main_v19)) = (addi : (⟨S1700000, .i32⟩ : BufTy).Contents (Elt F) → (⟨S1700000, .i32⟩ : BufTy).Contents (Elt F) → (⟨S1700000, .i32⟩ : BufTy).Contents (Elt F)) (after hostOps0_2 V (Proc.devRef .tc main_v3)) (after hostOps0_2 V (Proc.devRef .tc main_v18)) := by
  rw [Cert.Lib.stage (hW_hostOps0_2 (F := F)) 5 _ rfl main_v19 (by decide),
    binary_result,
    Cert.Lib.after_eq_take_of_written (hW_hostOps0_2 (F := F)) 5 main_v3 (by decide),
    Cert.Lib.after_eq_take_of_written (hW_hostOps0_2 (F := F)) 5 main_v18 (by decide)]

theorem k_v20 : (after hostOps0_2 V (Proc.devRef .tc main_v20)) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after hostOps0_2 V (Proc.devRef .tc main_v17)) (after hostOps0_2 V (Proc.devRef .tc main_v19)) (after hostOps0_2 V (Proc.devRef .tc main_v3)) := by
  rw [Cert.Lib.stage (hW_hostOps0_2 (F := F)) 6 _ rfl main_v20 (by decide),
    ternary_result,
    Cert.Lib.after_eq_take_of_written (hW_hostOps0_2 (F := F)) 6 main_v17 (by decide),
    Cert.Lib.after_eq_take_of_written (hW_hostOps0_2 (F := F)) 6 main_v19 (by decide),
    Cert.Lib.after_eq_take_of_written (hW_hostOps0_2 (F := F)) 6 main_v3 (by decide)]

theorem k_v21 : (after hostOps0_2 V (Proc.devRef .tc main_v21)) = (broadcastInDim S1700000x1 ![0] bcast_S1700000_S1700000x1_0 : (⟨S1700000, .i32⟩ : BufTy).Contents (Elt F) → (⟨S1700000x1, .i32⟩ : BufTy).Contents (Elt F)) (after hostOps0_2 V (Proc.devRef .tc main_v20)) := by
  rw [Cert.Lib.stage (hW_hostOps0_2 (F := F)) 7 _ rfl main_v21 (by decide),
    unary_result,
    Cert.Lib.after_eq_take_of_written (hW_hostOps0_2 (F := F)) 7 main_v20 (by decide)]

theorem k_v22 : (after hostOps0_2 V (Proc.devRef .tc main_v22)) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (after hostOps0_2 V (Proc.devRef .tc main_v15)) (after hostOps0_2 V (Proc.devRef .tc main_v21)) := by
  rw [Cert.Lib.stage (hW_hostOps0_2 (F := F)) 8 _ rfl main_v22 (by decide),
    binary_result,
    Cert.Lib.after_eq_take_of_written (hW_hostOps0_2 (F := F)) 8 main_v15 (by decide),
    Cert.Lib.after_eq_take_of_written (hW_hostOps0_2 (F := F)) 8 main_v21 (by decide)]

theorem k_v23 : (after hostOps0_2 V (Proc.devRef .tc main_v23)) = (mulf : (⟨S1700000, .f32⟩ : BufTy).Contents (Elt F) → (⟨S1700000, .f32⟩ : BufTy).Contents (Elt F) → (⟨S1700000, .f32⟩ : BufTy).Contents (Elt F)) (after hostOps0_2 V (Proc.devRef .tc main_v22)) (after hostOps0_2 V (Proc.devRef .tc main_v8)) := by
  rw [Cert.Lib.stage (hW_hostOps0_2 (F := F)) 9 _ rfl main_v23 (by decide),
    binary_result,
    Cert.Lib.after_eq_take_of_written (hW_hostOps0_2 (F := F)) 9 main_v22 (by decide),
    Cert.Lib.after_eq_take_of_written (hW_hostOps0_2 (F := F)) 9 main_v8 (by decide)]

theorem k_c_4 : (after hostOps0_2 V (Proc.devRef .tc main_c_4)) = (constantI S_ 32 0#32) := by
  rw [Cert.Lib.stage (hW_hostOps0_2 (F := F)) 10 _ rfl main_c_4 (by decide),
    nullary_result]

theorem k_v24 : (after hostOps0_2 V (Proc.devRef .tc main_v24)) = (broadcastInDim S1700000 ![] bcast_S_S1700000 : (⟨S_, .i32⟩ : BufTy).Contents (Elt F) → (⟨S1700000, .i32⟩ : BufTy).Contents (Elt F)) (after hostOps0_2 V (Proc.devRef .tc main_c_4)) := by
  rw [Cert.Lib.stage (hW_hostOps0_2 (F := F)) 11 _ rfl main_v24 (by decide),
    unary_result,
    Cert.Lib.after_eq_take_of_written (hW_hostOps0_2 (F := F)) 11 main_c_4 (by decide)]

theorem k_v25 : (after hostOps0_2 V (Proc.devRef .tc main_v25)) = (cmpi .slt : (⟨S1700000, .i32⟩ : BufTy).Contents (Elt F) → (⟨S1700000, .i32⟩ : BufTy).Contents (Elt F) → (⟨S1700000, .i1⟩ : BufTy).Contents (Elt F)) (after hostOps0_2 V (Proc.devRef .tc main_v6)) (after hostOps0_2 V (Proc.devRef .tc main_v24)) := by
  rw [Cert.Lib.stage (hW_hostOps0_2 (F := F)) 12 _ rfl main_v25 (by decide),
    binary_result,
    Cert.Lib.after_eq_take_of_written (hW_hostOps0_2 (F := F)) 12 main_v6 (by decide),
    Cert.Lib.after_eq_take_of_written (hW_hostOps0_2 (F := F)) 12 main_v24 (by decide)]

theorem k_c_5 : (after hostOps0_2 V (Proc.devRef .tc main_c_5)) = (constantI S_ 32 100000#32) := by
  rw [Cert.Lib.stage (hW_hostOps0_2 (F := F)) 13 _ rfl main_c_5 (by decide),
    nullary_result]

theorem k_v26 : (after hostOps0_2 V (Proc.devRef .tc main_v26)) = (broadcastInDim S1700000 ![] bcast_S_S1700000 : (⟨S_, .i32⟩ : BufTy).Contents (Elt F) → (⟨S1700000, .i32⟩ : BufTy).Contents (Elt F)) (after hostOps0_2 V (Proc.devRef .tc main_c_5)) := by
  rw [Cert.Lib.stage (hW_hostOps0_2 (F := F)) 14 _ rfl main_v26 (by decide),
    unary_result,
    Cert.Lib.after_eq_take_of_written (hW_hostOps0_2 (F := F)) 14 main_c_5 (by decide)]

theorem k_v27 : (after hostOps0_2 V (Proc.devRef .tc main_v27)) = (addi : (⟨S1700000, .i32⟩ : BufTy).Contents (Elt F) → (⟨S1700000, .i32⟩ : BufTy).Contents (Elt F) → (⟨S1700000, .i32⟩ : BufTy).Contents (Elt F)) (after hostOps0_2 V (Proc.devRef .tc main_v6)) (after hostOps0_2 V (Proc.devRef .tc main_v26)) := by
  rw [Cert.Lib.stage (hW_hostOps0_2 (F := F)) 15 _ rfl main_v27 (by decide),
    binary_result,
    Cert.Lib.after_eq_take_of_written (hW_hostOps0_2 (F := F)) 15 main_v6 (by decide),
    Cert.Lib.after_eq_take_of_written (hW_hostOps0_2 (F := F)) 15 main_v26 (by decide)]

theorem k_v28 : (after hostOps0_2 V (Proc.devRef .tc main_v28)) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after hostOps0_2 V (Proc.devRef .tc main_v25)) (after hostOps0_2 V (Proc.devRef .tc main_v27)) (after hostOps0_2 V (Proc.devRef .tc main_v6)) := by
  rw [Cert.Lib.stage (hW_hostOps0_2 (F := F)) 16 _ rfl main_v28 (by decide),
    ternary_result,
    Cert.Lib.after_eq_take_of_written (hW_hostOps0_2 (F := F)) 16 main_v25 (by decide),
    Cert.Lib.after_eq_take_of_written (hW_hostOps0_2 (F := F)) 16 main_v27 (by decide),
    Cert.Lib.after_eq_take_of_written (hW_hostOps0_2 (F := F)) 16 main_v6 (by decide)]

theorem k_v29 : (after hostOps0_2 V (Proc.devRef .tc main_v29)) = (broadcastInDim S1700000x1 ![0] bcast_S1700000_S1700000x1_0 : (⟨S1700000, .i32⟩ : BufTy).Contents (Elt F) → (⟨S1700000x1, .i32⟩ : BufTy).Contents (Elt F)) (after hostOps0_2 V (Proc.devRef .tc main_v28)) := by
  rw [Cert.Lib.stage (hW_hostOps0_2 (F := F)) 17 _ rfl main_v29 (by decide),
    unary_result,
    Cert.Lib.after_eq_take_of_written (hW_hostOps0_2 (F := F)) 17 main_v28 (by decide)]

theorem k_v30 : (after hostOps0_2 V (Proc.devRef .tc main_v30)) = ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)) (after hostOps0_2 V (Proc.devRef .tc main_v15)) (after hostOps0_2 V (Proc.devRef .tc main_v29)) := by
  rw [Cert.Lib.stage (hW_hostOps0_2 (F := F)) 18 _ rfl main_v30 (by decide),
    binary_result,
    Cert.Lib.after_eq_take_of_written (hW_hostOps0_2 (F := F)) 18 main_v15 (by decide),
    Cert.Lib.after_eq_take_of_written (hW_hostOps0_2 (F := F)) 18 main_v29 (by decide)]

theorem k_v31 : (after hostOps0_2 V (Proc.devRef .tc main_v31)) = (mulf : (⟨S1700000, .f32⟩ : BufTy).Contents (Elt F) → (⟨S1700000, .f32⟩ : BufTy).Contents (Elt F) → (⟨S1700000, .f32⟩ : BufTy).Contents (Elt F)) (after hostOps0_2 V (Proc.devRef .tc main_v23)) (after hostOps0_2 V (Proc.devRef .tc main_v30)) := by
  rw [Cert.Lib.stage (hW_hostOps0_2 (F := F)) 19 _ rfl main_v31 (by decide),
    binary_result,
    Cert.Lib.after_eq_take_of_written (hW_hostOps0_2 (F := F)) 19 main_v23 (by decide),
    Cert.Lib.after_eq_take_of_written (hW_hostOps0_2 (F := F)) 19 main_v30 (by decide)]

theorem k_cst_6 : (after hostOps0_2 V (Proc.devRef .tc main_cst_6)) = (constant S_ .f32 0x00000000#32) := by
  rw [Cert.Lib.stage (hW_hostOps0_2 (F := F)) 20 _ rfl main_cst_6 (by decide),
    nullary_result]

theorem k_v32 : (after hostOps0_2 V (Proc.devRef .tc main_v32)) = (broadcastInDim S128 ![] bcast_S_S128 : (⟨S_, .f32⟩ : BufTy).Contents (Elt F) → (⟨S128, .f32⟩ : BufTy).Contents (Elt F)) (after hostOps0_2 V (Proc.devRef .tc main_cst_6)) := by
  rw [Cert.Lib.stage (hW_hostOps0_2 (F := F)) 21 _ rfl main_v32 (by decide),
    unary_result,
    Cert.Lib.after_eq_take_of_written (hW_hostOps0_2 (F := F)) 21 main_cst_6 (by decide)]

theorem k_v33 : (after hostOps0_2 V (Proc.devRef .tc main_v33)) = shapeCast S1x128 (after hostOps0_2 V (Proc.devRef .tc main_v32)) shapeCasts_S128_S1x128 := by
  rw [Cert.Lib.stage (hW_hostOps0_2 (F := F)) 22 _ rfl main_v33 (by decide),
    reshape_result,
    Cert.Lib.after_eq_take_of_written (hW_hostOps0_2 (F := F)) 22 main_v32 (by decide)]
  rfl

theorem kin_0_2_v3 : after hostOps0_2 V (Proc.devRef .tc main_v3) = V (Proc.devRef .tc main_v3) :=
  Cert.Lib.after_eq_take_of_written (hW_hostOps0_2 (F := F)) 0 main_v3 (by decide)

theorem kin_0_2_v15 : after hostOps0_2 V (Proc.devRef .tc main_v15) = V (Proc.devRef .tc main_v15) :=
  Cert.Lib.after_eq_take_of_written (hW_hostOps0_2 (F := F)) 0 main_v15 (by decide)

theorem kin_0_2_v8 : after hostOps0_2 V (Proc.devRef .tc main_v8) = V (Proc.devRef .tc main_v8) :=
  Cert.Lib.after_eq_take_of_written (hW_hostOps0_2 (F := F)) 0 main_v8 (by decide)

theorem kin_0_2_v6 : after hostOps0_2 V (Proc.devRef .tc main_v6) = V (Proc.devRef .tc main_v6) :=
  Cert.Lib.after_eq_take_of_written (hW_hostOps0_2 (F := F)) 0 main_v6 (by decide)

end

/-! ## hostOps1 -/

set_option maxRecDepth 4096 in
/-- Each operation of the stretch writes exactly the buffer listed for it. -/
theorem hW_hostOps1 : List.Forall₂ (fun (op : HloOp τ sig (Elt F)) y => op.writes = {Proc.devRef (τ := τ) .tc y}) hostOps1 hostOps1_W := by
  repeat (first | exact List.Forall₂.nil | refine List.Forall₂.cons rfl ?_)

section
variable (V : Valuation τ sig (Elt F))

theorem k_c_7 : (after hostOps1 V (Proc.devRef .tc main_c_7)) = (constantI S_ 32 0#32) := by
  rw [Cert.Lib.stage (hW_hostOps1 (F := F)) 0 _ rfl main_c_7 (by decide),
    nullary_result]

theorem k_v35 : (after hostOps1 V (Proc.devRef .tc main_v35)) = (broadcastInDim S1700000 ![] bcast_S_S1700000 : (⟨S_, .i32⟩ : BufTy).Contents (Elt F) → (⟨S1700000, .i32⟩ : BufTy).Contents (Elt F)) (after hostOps1 V (Proc.devRef .tc main_c_7)) := by
  rw [Cert.Lib.stage (hW_hostOps1 (F := F)) 1 _ rfl main_v35 (by decide),
    unary_result,
    Cert.Lib.after_eq_take_of_written (hW_hostOps1 (F := F)) 1 main_c_7 (by decide)]

theorem k_v36 : (after hostOps1 V (Proc.devRef .tc main_v36)) = (cmpi .slt : (⟨S1700000, .i32⟩ : BufTy).Contents (Elt F) → (⟨S1700000, .i32⟩ : BufTy).Contents (Elt F) → (⟨S1700000, .i1⟩ : BufTy).Contents (Elt F)) (after hostOps1 V (Proc.devRef .tc main_v3)) (after hostOps1 V (Proc.devRef .tc main_v35)) := by
  rw [Cert.Lib.stage (hW_hostOps1 (F := F)) 2 _ rfl main_v36 (by decide),
    binary_result,
    Cert.Lib.after_eq_take_of_written (hW_hostOps1 (F := F)) 2 main_v3 (by decide),
    Cert.Lib.after_eq_take_of_written (hW_hostOps1 (F := F)) 2 main_v35 (by decide)]

theorem k_c_8 : (after hostOps1 V (Proc.devRef .tc main_c_8)) = (constantI S_ 32 100000#32) := by
  rw [Cert.Lib.stage (hW_hostOps1 (F := F)) 3 _ rfl main_c_8 (by decide),
    nullary_result]

theorem k_v37 : (after hostOps1 V (Proc.devRef .tc main_v37)) = (broadcastInDim S1700000 ![] bcast_S_S1700000 : (⟨S_, .i32⟩ : BufTy).Contents (Elt F) → (⟨S1700000, .i32⟩ : BufTy).Contents (Elt F)) (after hostOps1 V (Proc.devRef .tc main_c_8)) := by
  rw [Cert.Lib.stage (hW_hostOps1 (F := F)) 4 _ rfl main_v37 (by decide),
    unary_result,
    Cert.Lib.after_eq_take_of_written (hW_hostOps1 (F := F)) 4 main_c_8 (by decide)]

theorem k_v38 : (after hostOps1 V (Proc.devRef .tc main_v38)) = (addi : (⟨S1700000, .i32⟩ : BufTy).Contents (Elt F) → (⟨S1700000, .i32⟩ : BufTy).Contents (Elt F) → (⟨S1700000, .i32⟩ : BufTy).Contents (Elt F)) (after hostOps1 V (Proc.devRef .tc main_v3)) (after hostOps1 V (Proc.devRef .tc main_v37)) := by
  rw [Cert.Lib.stage (hW_hostOps1 (F := F)) 5 _ rfl main_v38 (by decide),
    binary_result,
    Cert.Lib.after_eq_take_of_written (hW_hostOps1 (F := F)) 5 main_v3 (by decide),
    Cert.Lib.after_eq_take_of_written (hW_hostOps1 (F := F)) 5 main_v37 (by decide)]

theorem k_v39 : (after hostOps1 V (Proc.devRef .tc main_v39)) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after hostOps1 V (Proc.devRef .tc main_v36)) (after hostOps1 V (Proc.devRef .tc main_v38)) (after hostOps1 V (Proc.devRef .tc main_v3)) := by
  rw [Cert.Lib.stage (hW_hostOps1 (F := F)) 6 _ rfl main_v39 (by decide),
    ternary_result,
    Cert.Lib.after_eq_take_of_written (hW_hostOps1 (F := F)) 6 main_v36 (by decide),
    Cert.Lib.after_eq_take_of_written (hW_hostOps1 (F := F)) 6 main_v38 (by decide),
    Cert.Lib.after_eq_take_of_written (hW_hostOps1 (F := F)) 6 main_v3 (by decide)]

theorem k_v40 : (after hostOps1 V (Proc.devRef .tc main_v40)) = (broadcastInDim S1700000x1 ![0] bcast_S1700000_S1700000x1_0 : (⟨S1700000, .i32⟩ : BufTy).Contents (Elt F) → (⟨S1700000x1, .i32⟩ : BufTy).Contents (Elt F)) (after hostOps1 V (Proc.devRef .tc main_v39)) := by
  rw [Cert.Lib.stage (hW_hostOps1 (F := F)) 7 _ rfl main_v40 (by decide),
    unary_result,
    Cert.Lib.after_eq_take_of_written (hW_hostOps1 (F := F)) 7 main_v39 (by decide)]

theorem k_v41 : (after hostOps1 V (Proc.devRef .tc main_v41)) = ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) (after hostOps1 V (Proc.devRef .tc main_v34)) (after hostOps1 V (Proc.devRef .tc main_v40)) := by
  rw [Cert.Lib.stage (hW_hostOps1 (F := F)) 8 _ rfl main_v41 (by decide),
    binary_result,
    Cert.Lib.after_eq_take_of_written (hW_hostOps1 (F := F)) 8 main_v34 (by decide),
    Cert.Lib.after_eq_take_of_written (hW_hostOps1 (F := F)) 8 main_v40 (by decide)]

theorem k_v42 : (after hostOps1 V (Proc.devRef .tc main_v42)) = (broadcastInDim S1700000x1 ![0] bcast_S1700000_S1700000x1_0 : (⟨S1700000, .f32⟩ : BufTy).Contents (Elt F) → (⟨S1700000x1, .f32⟩ : BufTy).Contents (Elt F)) (after hostOps1 V (Proc.devRef .tc main_v31)) := by
  rw [Cert.Lib.stage (hW_hostOps1 (F := F)) 9 _ rfl main_v42 (by decide),
    unary_result,
    Cert.Lib.after_eq_take_of_written (hW_hostOps1 (F := F)) 9 main_v31 (by decide)]

theorem k_v43 : (after hostOps1 V (Proc.devRef .tc main_v43)) = (broadcastInDim S1700000x128 ![0, 1] bcast_S1700000x1_S1700000x128_0_1 : (⟨S1700000x1, .f32⟩ : BufTy).Contents (Elt F) → (⟨S1700000x128, .f32⟩ : BufTy).Contents (Elt F)) (after hostOps1 V (Proc.devRef .tc main_v42)) := by
  rw [Cert.Lib.stage (hW_hostOps1 (F := F)) 10 _ rfl main_v43 (by decide),
    unary_result,
    Cert.Lib.after_eq_take_of_written (hW_hostOps1 (F := F)) 10 main_v42 (by decide)]

theorem k_v44 : (after hostOps1 V (Proc.devRef .tc main_v44)) = (mulf : (⟨S1700000x128, .f32⟩ : BufTy).Contents (Elt F) → (⟨S1700000x128, .f32⟩ : BufTy).Contents (Elt F) → (⟨S1700000x128, .f32⟩ : BufTy).Contents (Elt F)) (after hostOps1 V (Proc.devRef .tc main_v41)) (after hostOps1 V (Proc.devRef .tc main_v43)) := by
  rw [Cert.Lib.stage (hW_hostOps1 (F := F)) 11 _ rfl main_v44 (by decide),
    binary_result,
    Cert.Lib.after_eq_take_of_written (hW_hostOps1 (F := F)) 11 main_v41 (by decide),
    Cert.Lib.after_eq_take_of_written (hW_hostOps1 (F := F)) 11 main_v43 (by decide)]

theorem k_cst_9 : (after hostOps1 V (Proc.devRef .tc main_cst_9)) = (constant S_ .f32 0x00000000#32) := by
  rw [Cert.Lib.stage (hW_hostOps1 (F := F)) 12 _ rfl main_cst_9 (by decide),
    nullary_result]

theorem k_v45 : (after hostOps1 V (Proc.devRef .tc main_v45)) = (broadcastInDim S100000x128 ![] bcast_S_S100000x128 : (⟨S_, .f32⟩ : BufTy).Contents (Elt F) → (⟨S100000x128, .f32⟩ : BufTy).Contents (Elt F)) (after hostOps1 V (Proc.devRef .tc main_cst_9)) := by
  rw [Cert.Lib.stage (hW_hostOps1 (F := F)) 13 _ rfl main_v45 (by decide),
    unary_result,
    Cert.Lib.after_eq_take_of_written (hW_hostOps1 (F := F)) 13 main_cst_9 (by decide)]

theorem k_v46 : (after hostOps1 V (Proc.devRef .tc main_v46)) = (broadcastInDim S1700000x1 ![0] bcast_S1700000_S1700000x1_0 : (⟨S1700000, .i32⟩ : BufTy).Contents (Elt F) → (⟨S1700000x1, .i32⟩ : BufTy).Contents (Elt F)) (after hostOps1 V (Proc.devRef .tc main_v6)) := by
  rw [Cert.Lib.stage (hW_hostOps1 (F := F)) 14 _ rfl main_v46 (by decide),
    unary_result,
    Cert.Lib.after_eq_take_of_written (hW_hostOps1 (F := F)) 14 main_v6 (by decide)]

theorem k_v47 : (after hostOps1 V (Proc.devRef .tc main_v47)) = ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) (after hostOps1 V (Proc.devRef .tc main_v45)) (after hostOps1 V (Proc.devRef .tc main_v46)) (after hostOps1 V (Proc.devRef .tc main_v44)) := by
  rw [Cert.Lib.stage (hW_hostOps1 (F := F)) 15 _ rfl main_v47 (by decide),
    ternary_result,
    Cert.Lib.after_eq_take_of_written (hW_hostOps1 (F := F)) 15 main_v45 (by decide),
    Cert.Lib.after_eq_take_of_written (hW_hostOps1 (F := F)) 15 main_v46 (by decide),
    Cert.Lib.after_eq_take_of_written (hW_hostOps1 (F := F)) 15 main_v44 (by decide)]

theorem k_v48 : (after hostOps1 V (Proc.devRef .tc main_v48)) = shapeCast S1x128 (after hostOps1 V (Proc.devRef .tc main_arg4)) shapeCasts_S128_S1x128 := by
  rw [Cert.Lib.stage (hW_hostOps1 (F := F)) 16 _ rfl main_v48 (by decide),
    reshape_result,
    Cert.Lib.after_eq_take_of_written (hW_hostOps1 (F := F)) 16 main_arg4 (by decide)]
  rfl

theorem kin_1_v3 : after hostOps1 V (Proc.devRef .tc main_v3) = V (Proc.devRef .tc main_v3) :=
  Cert.Lib.after_eq_take_of_written (hW_hostOps1 (F := F)) 0 main_v3 (by decide)

theorem kin_1_v34 : after hostOps1 V (Proc.devRef .tc main_v34) = V (Proc.devRef .tc main_v34) :=
  Cert.Lib.after_eq_take_of_written (hW_hostOps1 (F := F)) 0 main_v34 (by decide)

theorem kin_1_v31 : after hostOps1 V (Proc.devRef .tc main_v31) = V (Proc.devRef .tc main_v31) :=
  Cert.Lib.after_eq_take_of_written (hW_hostOps1 (F := F)) 0 main_v31 (by decide)

theorem kin_1_v6 : after hostOps1 V (Proc.devRef .tc main_v6) = V (Proc.devRef .tc main_v6) :=
  Cert.Lib.after_eq_take_of_written (hW_hostOps1 (F := F)) 0 main_v6 (by decide)

theorem kin_1_arg4 : after hostOps1 V (Proc.devRef .tc main_arg4) = V (Proc.devRef .tc main_arg4) :=
  Cert.Lib.after_eq_take_of_written (hW_hostOps1 (F := F)) 0 main_arg4 (by decide)

end

/-! ## hostOps2 -/

set_option maxRecDepth 4096 in
/-- Each operation of the stretch writes exactly the buffer listed for it. -/
theorem hW_hostOps2 : List.Forall₂ (fun (op : HloOp τ sig (Elt F)) y => op.writes = {Proc.devRef (τ := τ) .tc y}) hostOps2 hostOps2_W := by
  repeat (first | exact List.Forall₂.nil | refine List.Forall₂.cons rfl ?_)

section
variable (V : Valuation τ sig (Elt F))

theorem k_cst_10 : (after hostOps2 V (Proc.devRef .tc main_cst_10)) = (constant S_ .f32 0x47C35000#32) := by
  rw [Cert.Lib.stage (hW_hostOps2 (F := F)) 0 _ rfl main_cst_10 (by decide),
    nullary_result]

theorem k_v50 : (after hostOps2 V (Proc.devRef .tc main_v50)) = (broadcastInDim S1x128 ![] bcast_S_S1x128 : (⟨S_, .f32⟩ : BufTy).Contents (Elt F) → (⟨S1x128, .f32⟩ : BufTy).Contents (Elt F)) (after hostOps2 V (Proc.devRef .tc main_cst_10)) := by
  rw [Cert.Lib.stage (hW_hostOps2 (F := F)) 1 _ rfl main_v50 (by decide),
    unary_result,
    Cert.Lib.after_eq_take_of_written (hW_hostOps2 (F := F)) 1 main_cst_10 (by decide)]

theorem k_v51 : (after hostOps2 V (Proc.devRef .tc main_v51)) = (Host.divf : (⟨S1x128, .f32⟩ : BufTy).Contents (Elt F) → (⟨S1x128, .f32⟩ : BufTy).Contents (Elt F) → (⟨S1x128, .f32⟩ : BufTy).Contents (Elt F)) (after hostOps2 V (Proc.devRef .tc main_v49_1)) (after hostOps2 V (Proc.devRef .tc main_v50)) := by
  rw [Cert.Lib.stage (hW_hostOps2 (F := F)) 2 _ rfl main_v51 (by decide),
    binary_result,
    Cert.Lib.after_eq_take_of_written (hW_hostOps2 (F := F)) 2 main_v49_1 (by decide),
    Cert.Lib.after_eq_take_of_written (hW_hostOps2 (F := F)) 2 main_v50 (by decide)]

theorem k_cst_11 : (after hostOps2 V (Proc.devRef .tc main_cst_11)) = (constant S_ .f32 0x47C35000#32) := by
  rw [Cert.Lib.stage (hW_hostOps2 (F := F)) 3 _ rfl main_cst_11 (by decide),
    nullary_result]

theorem k_v52 : (after hostOps2 V (Proc.devRef .tc main_v52)) = (broadcastInDim S1x128 ![] bcast_S_S1x128 : (⟨S_, .f32⟩ : BufTy).Contents (Elt F) → (⟨S1x128, .f32⟩ : BufTy).Contents (Elt F)) (after hostOps2 V (Proc.devRef .tc main_cst_11)) := by
  rw [Cert.Lib.stage (hW_hostOps2 (F := F)) 4 _ rfl main_v52 (by decide),
    unary_result,
    Cert.Lib.after_eq_take_of_written (hW_hostOps2 (F := F)) 4 main_cst_11 (by decide)]

theorem k_v53 : (after hostOps2 V (Proc.devRef .tc main_v53)) = (Host.divf : (⟨S1x128, .f32⟩ : BufTy).Contents (Elt F) → (⟨S1x128, .f32⟩ : BufTy).Contents (Elt F) → (⟨S1x128, .f32⟩ : BufTy).Contents (Elt F)) (after hostOps2 V (Proc.devRef .tc main_v49_2)) (after hostOps2 V (Proc.devRef .tc main_v52)) := by
  rw [Cert.Lib.stage (hW_hostOps2 (F := F)) 5 _ rfl main_v53 (by decide),
    binary_result,
    Cert.Lib.after_eq_take_of_written (hW_hostOps2 (F := F)) 5 main_v49_2 (by decide),
    Cert.Lib.after_eq_take_of_written (hW_hostOps2 (F := F)) 5 main_v52 (by decide)]

theorem k_v54 : (after hostOps2 V (Proc.devRef .tc main_v54)) = (mulf : (⟨S1x128, .f32⟩ : BufTy).Contents (Elt F) → (⟨S1x128, .f32⟩ : BufTy).Contents (Elt F) → (⟨S1x128, .f32⟩ : BufTy).Contents (Elt F)) (after hostOps2 V (Proc.devRef .tc main_v51)) (after hostOps2 V (Proc.devRef .tc main_v51)) := by
  rw [Cert.Lib.stage (hW_hostOps2 (F := F)) 6 _ rfl main_v54 (by decide),
    binary_result,
    Cert.Lib.after_eq_take_of_written (hW_hostOps2 (F := F)) 6 main_v51 (by decide)]

theorem k_v55 : (after hostOps2 V (Proc.devRef .tc main_v55)) = (subf : (⟨S1x128, .f32⟩ : BufTy).Contents (Elt F) → (⟨S1x128, .f32⟩ : BufTy).Contents (Elt F) → (⟨S1x128, .f32⟩ : BufTy).Contents (Elt F)) (after hostOps2 V (Proc.devRef .tc main_v53)) (after hostOps2 V (Proc.devRef .tc main_v54)) := by
  rw [Cert.Lib.stage (hW_hostOps2 (F := F)) 7 _ rfl main_v55 (by decide),
    binary_result,
    Cert.Lib.after_eq_take_of_written (hW_hostOps2 (F := F)) 7 main_v53 (by decide),
    Cert.Lib.after_eq_take_of_written (hW_hostOps2 (F := F)) 7 main_v54 (by decide)]

theorem k_cst_12 : (after hostOps2 V (Proc.devRef .tc main_cst_12)) = (constant S_ .f32 0x3727C5AC#32) := by
  rw [Cert.Lib.stage (hW_hostOps2 (F := F)) 8 _ rfl main_cst_12 (by decide),
    nullary_result]

theorem k_v56 : (after hostOps2 V (Proc.devRef .tc main_v56)) = (broadcastInDim S1x128 ![] bcast_S_S1x128 : (⟨S_, .f32⟩ : BufTy).Contents (Elt F) → (⟨S1x128, .f32⟩ : BufTy).Contents (Elt F)) (after hostOps2 V (Proc.devRef .tc main_cst_12)) := by
  rw [Cert.Lib.stage (hW_hostOps2 (F := F)) 9 _ rfl main_v56 (by decide),
    unary_result,
    Cert.Lib.after_eq_take_of_written (hW_hostOps2 (F := F)) 9 main_cst_12 (by decide)]

theorem k_v57 : (after hostOps2 V (Proc.devRef .tc main_v57)) = (addf : (⟨S1x128, .f32⟩ : BufTy).Contents (Elt F) → (⟨S1x128, .f32⟩ : BufTy).Contents (Elt F) → (⟨S1x128, .f32⟩ : BufTy).Contents (Elt F)) (after hostOps2 V (Proc.devRef .tc main_v55)) (after hostOps2 V (Proc.devRef .tc main_v56)) := by
  rw [Cert.Lib.stage (hW_hostOps2 (F := F)) 10 _ rfl main_v57 (by decide),
    binary_result,
    Cert.Lib.after_eq_take_of_written (hW_hostOps2 (F := F)) 10 main_v55 (by decide),
    Cert.Lib.after_eq_take_of_written (hW_hostOps2 (F := F)) 10 main_v56 (by decide)]

theorem k_v58 : (after hostOps2 V (Proc.devRef .tc main_v58)) = (Host.rsqrt : (⟨S1x128, .f32⟩ : BufTy).Contents (Elt F) → (⟨S1x128, .f32⟩ : BufTy).Contents (Elt F)) (after hostOps2 V (Proc.devRef .tc main_v57)) := by
  rw [Cert.Lib.stage (hW_hostOps2 (F := F)) 11 _ rfl main_v58 (by decide),
    unary_result,
    Cert.Lib.after_eq_take_of_written (hW_hostOps2 (F := F)) 11 main_v57 (by decide)]

theorem k_v59 : (after hostOps2 V (Proc.devRef .tc main_v59)) = (broadcastInDim S1x128 ![1] bcast_S128_S1x128_1 : (⟨S128, .f32⟩ : BufTy).Contents (Elt F) → (⟨S1x128, .f32⟩ : BufTy).Contents (Elt F)) (after hostOps2 V (Proc.devRef .tc main_arg7)) := by
  rw [Cert.Lib.stage (hW_hostOps2 (F := F)) 12 _ rfl main_v59 (by decide),
    unary_result,
    Cert.Lib.after_eq_take_of_written (hW_hostOps2 (F := F)) 12 main_arg7 (by decide)]

theorem k_v60 : (after hostOps2 V (Proc.devRef .tc main_v60)) = (mulf : (⟨S1x128, .f32⟩ : BufTy).Contents (Elt F) → (⟨S1x128, .f32⟩ : BufTy).Contents (Elt F) → (⟨S1x128, .f32⟩ : BufTy).Contents (Elt F)) (after hostOps2 V (Proc.devRef .tc main_v59)) (after hostOps2 V (Proc.devRef .tc main_v58)) := by
  rw [Cert.Lib.stage (hW_hostOps2 (F := F)) 13 _ rfl main_v60 (by decide),
    binary_result,
    Cert.Lib.after_eq_take_of_written (hW_hostOps2 (F := F)) 13 main_v59 (by decide),
    Cert.Lib.after_eq_take_of_written (hW_hostOps2 (F := F)) 13 main_v58 (by decide)]

theorem k_v61 : (after hostOps2 V (Proc.devRef .tc main_v61)) = (mulf : (⟨S1x128, .f32⟩ : BufTy).Contents (Elt F) → (⟨S1x128, .f32⟩ : BufTy).Contents (Elt F) → (⟨S1x128, .f32⟩ : BufTy).Contents (Elt F)) (after hostOps2 V (Proc.devRef .tc main_v51)) (after hostOps2 V (Proc.devRef .tc main_v60)) := by
  rw [Cert.Lib.stage (hW_hostOps2 (F := F)) 14 _ rfl main_v61 (by decide),
    binary_result,
    Cert.Lib.after_eq_take_of_written (hW_hostOps2 (F := F)) 14 main_v51 (by decide),
    Cert.Lib.after_eq_take_of_written (hW_hostOps2 (F := F)) 14 main_v60 (by decide)]

theorem k_v62 : (after hostOps2 V (Proc.devRef .tc main_v62)) = (broadcastInDim S1x128 ![1] bcast_S128_S1x128_1 : (⟨S128, .f32⟩ : BufTy).Contents (Elt F) → (⟨S1x128, .f32⟩ : BufTy).Contents (Elt F)) (after hostOps2 V (Proc.devRef .tc main_arg8)) := by
  rw [Cert.Lib.stage (hW_hostOps2 (F := F)) 15 _ rfl main_v62 (by decide),
    unary_result,
    Cert.Lib.after_eq_take_of_written (hW_hostOps2 (F := F)) 15 main_arg8 (by decide)]

theorem k_v63 : (after hostOps2 V (Proc.devRef .tc main_v63)) = (subf : (⟨S1x128, .f32⟩ : BufTy).Contents (Elt F) → (⟨S1x128, .f32⟩ : BufTy).Contents (Elt F) → (⟨S1x128, .f32⟩ : BufTy).Contents (Elt F)) (after hostOps2 V (Proc.devRef .tc main_v62)) (after hostOps2 V (Proc.devRef .tc main_v61)) := by
  rw [Cert.Lib.stage (hW_hostOps2 (F := F)) 16 _ rfl main_v63 (by decide),
    binary_result,
    Cert.Lib.after_eq_take_of_written (hW_hostOps2 (F := F)) 16 main_v62 (by decide),
    Cert.Lib.after_eq_take_of_written (hW_hostOps2 (F := F)) 16 main_v61 (by decide)]

theorem kin_2_v49_1 : after hostOps2 V (Proc.devRef .tc main_v49_1) = V (Proc.devRef .tc main_v49_1) :=
  Cert.Lib.after_eq_take_of_written (hW_hostOps2 (F := F)) 0 main_v49_1 (by decide)

theorem kin_2_v49_2 : after hostOps2 V (Proc.devRef .tc main_v49_2) = V (Proc.devRef .tc main_v49_2) :=
  Cert.Lib.after_eq_take_of_written (hW_hostOps2 (F := F)) 0 main_v49_2 (by decide)

theorem kin_2_arg7 : after hostOps2 V (Proc.devRef .tc main_arg7) = V (Proc.devRef .tc main_arg7) :=
  Cert.Lib.after_eq_take_of_written (hW_hostOps2 (F := F)) 0 main_arg7 (by decide)

theorem kin_2_arg8 : after hostOps2 V (Proc.devRef .tc main_arg8) = V (Proc.devRef .tc main_arg8) :=
  Cert.Lib.after_eq_take_of_written (hW_hostOps2 (F := F)) 0 main_arg8 (by decide)

end

/-! ## hostOps3 -/

set_option maxRecDepth 4096 in
/-- Each operation of the stretch writes exactly the buffer listed for it. -/
theorem hW_hostOps3 : List.Forall₂ (fun (op : HloOp τ sig (Elt F)) y => op.writes = {Proc.devRef (τ := τ) .tc y}) hostOps3 hostOps3_W := by
  repeat (first | exact List.Forall₂.nil | refine List.Forall₂.cons rfl ?_)

section
variable (V : Valuation τ sig (Elt F))

theorem k_cst_13 : (after hostOps3 V (Proc.devRef .tc main_cst_13)) = (constant S_ .f32 0x00000000#32) := by
  rw [Cert.Lib.stage (hW_hostOps3 (F := F)) 0 _ rfl main_cst_13 (by decide),
    nullary_result]

theorem k_v65 : (after hostOps3 V (Proc.devRef .tc main_v65)) = (broadcastInDim S128 ![] bcast_S_S128 : (⟨S_, .f32⟩ : BufTy).Contents (Elt F) → (⟨S128, .f32⟩ : BufTy).Contents (Elt F)) (after hostOps3 V (Proc.devRef .tc main_cst_13)) := by
  rw [Cert.Lib.stage (hW_hostOps3 (F := F)) 1 _ rfl main_v65 (by decide),
    unary_result,
    Cert.Lib.after_eq_take_of_written (hW_hostOps3 (F := F)) 1 main_cst_13 (by decide)]

theorem k_v66 : (after hostOps3 V (Proc.devRef .tc main_v66)) = shapeCast S1x128 (after hostOps3 V (Proc.devRef .tc main_v65)) shapeCasts_S128_S1x128 := by
  rw [Cert.Lib.stage (hW_hostOps3 (F := F)) 2 _ rfl main_v66 (by decide),
    reshape_result,
    Cert.Lib.after_eq_take_of_written (hW_hostOps3 (F := F)) 2 main_v65 (by decide)]
  rfl

end

/-! ## hostOps4 -/

set_option maxRecDepth 4096 in
/-- Each operation of the stretch writes exactly the buffer listed for it. -/
theorem hW_hostOps4 : List.Forall₂ (fun (op : HloOp τ sig (Elt F)) y => op.writes = {Proc.devRef (τ := τ) .tc y}) hostOps4 hostOps4_W := by
  repeat (first | exact List.Forall₂.nil | refine List.Forall₂.cons rfl ?_)

section
variable (V : Valuation τ sig (Elt F))

theorem k_c_14 : (after hostOps4 V (Proc.devRef .tc main_c_14)) = (constantI S_ 32 0#32) := by
  rw [Cert.Lib.stage (hW_hostOps4 (F := F)) 0 _ rfl main_c_14 (by decide),
    nullary_result]

theorem k_v68 : (after hostOps4 V (Proc.devRef .tc main_v68)) = (broadcastInDim S1700000 ![] bcast_S_S1700000 : (⟨S_, .i32⟩ : BufTy).Contents (Elt F) → (⟨S1700000, .i32⟩ : BufTy).Contents (Elt F)) (after hostOps4 V (Proc.devRef .tc main_c_14)) := by
  rw [Cert.Lib.stage (hW_hostOps4 (F := F)) 1 _ rfl main_v68 (by decide),
    unary_result,
    Cert.Lib.after_eq_take_of_written (hW_hostOps4 (F := F)) 1 main_c_14 (by decide)]

theorem k_v69 : (after hostOps4 V (Proc.devRef .tc main_v69)) = (cmpi .slt : (⟨S1700000, .i32⟩ : BufTy).Contents (Elt F) → (⟨S1700000, .i32⟩ : BufTy).Contents (Elt F) → (⟨S1700000, .i1⟩ : BufTy).Contents (Elt F)) (after hostOps4 V (Proc.devRef .tc main_v3)) (after hostOps4 V (Proc.devRef .tc main_v68)) := by
  rw [Cert.Lib.stage (hW_hostOps4 (F := F)) 2 _ rfl main_v69 (by decide),
    binary_result,
    Cert.Lib.after_eq_take_of_written (hW_hostOps4 (F := F)) 2 main_v3 (by decide),
    Cert.Lib.after_eq_take_of_written (hW_hostOps4 (F := F)) 2 main_v68 (by decide)]

theorem k_c_15 : (after hostOps4 V (Proc.devRef .tc main_c_15)) = (constantI S_ 32 100000#32) := by
  rw [Cert.Lib.stage (hW_hostOps4 (F := F)) 3 _ rfl main_c_15 (by decide),
    nullary_result]

theorem k_v70 : (after hostOps4 V (Proc.devRef .tc main_v70)) = (broadcastInDim S1700000 ![] bcast_S_S1700000 : (⟨S_, .i32⟩ : BufTy).Contents (Elt F) → (⟨S1700000, .i32⟩ : BufTy).Contents (Elt F)) (after hostOps4 V (Proc.devRef .tc main_c_15)) := by
  rw [Cert.Lib.stage (hW_hostOps4 (F := F)) 4 _ rfl main_v70 (by decide),
    unary_result,
    Cert.Lib.after_eq_take_of_written (hW_hostOps4 (F := F)) 4 main_c_15 (by decide)]

theorem k_v71 : (after hostOps4 V (Proc.devRef .tc main_v71)) = (addi : (⟨S1700000, .i32⟩ : BufTy).Contents (Elt F) → (⟨S1700000, .i32⟩ : BufTy).Contents (Elt F) → (⟨S1700000, .i32⟩ : BufTy).Contents (Elt F)) (after hostOps4 V (Proc.devRef .tc main_v3)) (after hostOps4 V (Proc.devRef .tc main_v70)) := by
  rw [Cert.Lib.stage (hW_hostOps4 (F := F)) 5 _ rfl main_v71 (by decide),
    binary_result,
    Cert.Lib.after_eq_take_of_written (hW_hostOps4 (F := F)) 5 main_v3 (by decide),
    Cert.Lib.after_eq_take_of_written (hW_hostOps4 (F := F)) 5 main_v70 (by decide)]

theorem k_v72 : (after hostOps4 V (Proc.devRef .tc main_v72)) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after hostOps4 V (Proc.devRef .tc main_v69)) (after hostOps4 V (Proc.devRef .tc main_v71)) (after hostOps4 V (Proc.devRef .tc main_v3)) := by
  rw [Cert.Lib.stage (hW_hostOps4 (F := F)) 6 _ rfl main_v72 (by decide),
    ternary_result,
    Cert.Lib.after_eq_take_of_written (hW_hostOps4 (F := F)) 6 main_v69 (by decide),
    Cert.Lib.after_eq_take_of_written (hW_hostOps4 (F := F)) 6 main_v71 (by decide),
    Cert.Lib.after_eq_take_of_written (hW_hostOps4 (F := F)) 6 main_v3 (by decide)]

theorem k_v73 : (after hostOps4 V (Proc.devRef .tc main_v73)) = (broadcastInDim S1700000x1 ![0] bcast_S1700000_S1700000x1_0 : (⟨S1700000, .i32⟩ : BufTy).Contents (Elt F) → (⟨S1700000x1, .i32⟩ : BufTy).Contents (Elt F)) (after hostOps4 V (Proc.devRef .tc main_v72)) := by
  rw [Cert.Lib.stage (hW_hostOps4 (F := F)) 7 _ rfl main_v73 (by decide),
    unary_result,
    Cert.Lib.after_eq_take_of_written (hW_hostOps4 (F := F)) 7 main_v72 (by decide)]

theorem k_v74 : (after hostOps4 V (Proc.devRef .tc main_v74)) = ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)) (after hostOps4 V (Proc.devRef .tc main_v67)) (after hostOps4 V (Proc.devRef .tc main_v73)) := by
  rw [Cert.Lib.stage (hW_hostOps4 (F := F)) 8 _ rfl main_v74 (by decide),
    binary_result,
    Cert.Lib.after_eq_take_of_written (hW_hostOps4 (F := F)) 8 main_v67 (by decide),
    Cert.Lib.after_eq_take_of_written (hW_hostOps4 (F := F)) 8 main_v73 (by decide)]

theorem k_v75 : (after hostOps4 V (Proc.devRef .tc main_v75)) = (broadcastInDim S1700000x1 ![0] bcast_S1700000_S1700000x1_0 : (⟨S1700000, .f32⟩ : BufTy).Contents (Elt F) → (⟨S1700000x1, .f32⟩ : BufTy).Contents (Elt F)) (after hostOps4 V (Proc.devRef .tc main_v31)) := by
  rw [Cert.Lib.stage (hW_hostOps4 (F := F)) 9 _ rfl main_v75 (by decide),
    unary_result,
    Cert.Lib.after_eq_take_of_written (hW_hostOps4 (F := F)) 9 main_v31 (by decide)]

theorem k_v76 : (after hostOps4 V (Proc.devRef .tc main_v76)) = (broadcastInDim S1700000x128 ![0, 1] bcast_S1700000x1_S1700000x128_0_1 : (⟨S1700000x1, .f32⟩ : BufTy).Contents (Elt F) → (⟨S1700000x128, .f32⟩ : BufTy).Contents (Elt F)) (after hostOps4 V (Proc.devRef .tc main_v75)) := by
  rw [Cert.Lib.stage (hW_hostOps4 (F := F)) 10 _ rfl main_v76 (by decide),
    unary_result,
    Cert.Lib.after_eq_take_of_written (hW_hostOps4 (F := F)) 10 main_v75 (by decide)]

theorem k_v77 : (after hostOps4 V (Proc.devRef .tc main_v77)) = (mulf : (⟨S1700000x128, .f32⟩ : BufTy).Contents (Elt F) → (⟨S1700000x128, .f32⟩ : BufTy).Contents (Elt F) → (⟨S1700000x128, .f32⟩ : BufTy).Contents (Elt F)) (after hostOps4 V (Proc.devRef .tc main_v74)) (after hostOps4 V (Proc.devRef .tc main_v76)) := by
  rw [Cert.Lib.stage (hW_hostOps4 (F := F)) 11 _ rfl main_v77 (by decide),
    binary_result,
    Cert.Lib.after_eq_take_of_written (hW_hostOps4 (F := F)) 11 main_v74 (by decide),
    Cert.Lib.after_eq_take_of_written (hW_hostOps4 (F := F)) 11 main_v76 (by decide)]

theorem k_cst_16 : (after hostOps4 V (Proc.devRef .tc main_cst_16)) = (constant S_ .f32 0x00000000#32) := by
  rw [Cert.Lib.stage (hW_hostOps4 (F := F)) 12 _ rfl main_cst_16 (by decide),
    nullary_result]

theorem k_v78 : (after hostOps4 V (Proc.devRef .tc main_v78)) = (broadcastInDim S100000x128 ![] bcast_S_S100000x128 : (⟨S_, .f32⟩ : BufTy).Contents (Elt F) → (⟨S100000x128, .f32⟩ : BufTy).Contents (Elt F)) (after hostOps4 V (Proc.devRef .tc main_cst_16)) := by
  rw [Cert.Lib.stage (hW_hostOps4 (F := F)) 13 _ rfl main_v78 (by decide),
    unary_result,
    Cert.Lib.after_eq_take_of_written (hW_hostOps4 (F := F)) 13 main_cst_16 (by decide)]

theorem k_v79 : (after hostOps4 V (Proc.devRef .tc main_v79)) = (broadcastInDim S1700000x1 ![0] bcast_S1700000_S1700000x1_0 : (⟨S1700000, .i32⟩ : BufTy).Contents (Elt F) → (⟨S1700000x1, .i32⟩ : BufTy).Contents (Elt F)) (after hostOps4 V (Proc.devRef .tc main_v6)) := by
  rw [Cert.Lib.stage (hW_hostOps4 (F := F)) 14 _ rfl main_v79 (by decide),
    unary_result,
    Cert.Lib.after_eq_take_of_written (hW_hostOps4 (F := F)) 14 main_v6 (by decide)]

theorem k_v80 : (after hostOps4 V (Proc.devRef .tc main_v80)) = ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) (after hostOps4 V (Proc.devRef .tc main_v78)) (after hostOps4 V (Proc.devRef .tc main_v79)) (after hostOps4 V (Proc.devRef .tc main_v77)) := by
  rw [Cert.Lib.stage (hW_hostOps4 (F := F)) 15 _ rfl main_v80 (by decide),
    ternary_result,
    Cert.Lib.after_eq_take_of_written (hW_hostOps4 (F := F)) 15 main_v78 (by decide),
    Cert.Lib.after_eq_take_of_written (hW_hostOps4 (F := F)) 15 main_v79 (by decide),
    Cert.Lib.after_eq_take_of_written (hW_hostOps4 (F := F)) 15 main_v77 (by decide)]

theorem k_v81 : (after hostOps4 V (Proc.devRef .tc main_v81)) = shapeCast S1x128 (after hostOps4 V (Proc.devRef .tc main_arg6)) shapeCasts_S128_S1x128 := by
  rw [Cert.Lib.stage (hW_hostOps4 (F := F)) 16 _ rfl main_v81 (by decide),
    reshape_result,
    Cert.Lib.after_eq_take_of_written (hW_hostOps4 (F := F)) 16 main_arg6 (by decide)]
  rfl

theorem kin_4_v3 : after hostOps4 V (Proc.devRef .tc main_v3) = V (Proc.devRef .tc main_v3) :=
  Cert.Lib.after_eq_take_of_written (hW_hostOps4 (F := F)) 0 main_v3 (by decide)

theorem kin_4_v67 : after hostOps4 V (Proc.devRef .tc main_v67) = V (Proc.devRef .tc main_v67) :=
  Cert.Lib.after_eq_take_of_written (hW_hostOps4 (F := F)) 0 main_v67 (by decide)

theorem kin_4_v31 : after hostOps4 V (Proc.devRef .tc main_v31) = V (Proc.devRef .tc main_v31) :=
  Cert.Lib.after_eq_take_of_written (hW_hostOps4 (F := F)) 0 main_v31 (by decide)

theorem kin_4_v6 : after hostOps4 V (Proc.devRef .tc main_v6) = V (Proc.devRef .tc main_v6) :=
  Cert.Lib.after_eq_take_of_written (hW_hostOps4 (F := F)) 0 main_v6 (by decide)

theorem kin_4_arg6 : after hostOps4 V (Proc.devRef .tc main_arg6) = V (Proc.devRef .tc main_arg6) :=
  Cert.Lib.after_eq_take_of_written (hW_hostOps4 (F := F)) 0 main_arg6 (by decide)

end

/-! ## hostOps5 -/

set_option maxRecDepth 4096 in
/-- Each operation of the stretch writes exactly the buffer listed for it. -/
theorem hW_hostOps5 : List.Forall₂ (fun (op : HloOp τ sig (Elt F)) y => op.writes = {Proc.devRef (τ := τ) .tc y}) hostOps5 hostOps5_W := by
  repeat (first | exact List.Forall₂.nil | refine List.Forall₂.cons rfl ?_)

section
variable (V : Valuation τ sig (Elt F))

theorem k_cst_17 : (after hostOps5 V (Proc.devRef .tc main_cst_17)) = (constant S_ .f32 0x47C35000#32) := by
  rw [Cert.Lib.stage (hW_hostOps5 (F := F)) 0 _ rfl main_cst_17 (by decide),
    nullary_result]

theorem k_v83 : (after hostOps5 V (Proc.devRef .tc main_v83)) = (broadcastInDim S1x128 ![] bcast_S_S1x128 : (⟨S_, .f32⟩ : BufTy).Contents (Elt F) → (⟨S1x128, .f32⟩ : BufTy).Contents (Elt F)) (after hostOps5 V (Proc.devRef .tc main_cst_17)) := by
  rw [Cert.Lib.stage (hW_hostOps5 (F := F)) 1 _ rfl main_v83 (by decide),
    unary_result,
    Cert.Lib.after_eq_take_of_written (hW_hostOps5 (F := F)) 1 main_cst_17 (by decide)]

theorem k_v84 : (after hostOps5 V (Proc.devRef .tc main_v84)) = (Host.divf : (⟨S1x128, .f32⟩ : BufTy).Contents (Elt F) → (⟨S1x128, .f32⟩ : BufTy).Contents (Elt F) → (⟨S1x128, .f32⟩ : BufTy).Contents (Elt F)) (after hostOps5 V (Proc.devRef .tc main_v82_1)) (after hostOps5 V (Proc.devRef .tc main_v83)) := by
  rw [Cert.Lib.stage (hW_hostOps5 (F := F)) 2 _ rfl main_v84 (by decide),
    binary_result,
    Cert.Lib.after_eq_take_of_written (hW_hostOps5 (F := F)) 2 main_v82_1 (by decide),
    Cert.Lib.after_eq_take_of_written (hW_hostOps5 (F := F)) 2 main_v83 (by decide)]

theorem k_cst_18 : (after hostOps5 V (Proc.devRef .tc main_cst_18)) = (constant S_ .f32 0x47C35000#32) := by
  rw [Cert.Lib.stage (hW_hostOps5 (F := F)) 3 _ rfl main_cst_18 (by decide),
    nullary_result]

theorem k_v85 : (after hostOps5 V (Proc.devRef .tc main_v85)) = (broadcastInDim S1x128 ![] bcast_S_S1x128 : (⟨S_, .f32⟩ : BufTy).Contents (Elt F) → (⟨S1x128, .f32⟩ : BufTy).Contents (Elt F)) (after hostOps5 V (Proc.devRef .tc main_cst_18)) := by
  rw [Cert.Lib.stage (hW_hostOps5 (F := F)) 4 _ rfl main_v85 (by decide),
    unary_result,
    Cert.Lib.after_eq_take_of_written (hW_hostOps5 (F := F)) 4 main_cst_18 (by decide)]

theorem k_v86 : (after hostOps5 V (Proc.devRef .tc main_v86)) = (Host.divf : (⟨S1x128, .f32⟩ : BufTy).Contents (Elt F) → (⟨S1x128, .f32⟩ : BufTy).Contents (Elt F) → (⟨S1x128, .f32⟩ : BufTy).Contents (Elt F)) (after hostOps5 V (Proc.devRef .tc main_v82_2)) (after hostOps5 V (Proc.devRef .tc main_v85)) := by
  rw [Cert.Lib.stage (hW_hostOps5 (F := F)) 5 _ rfl main_v86 (by decide),
    binary_result,
    Cert.Lib.after_eq_take_of_written (hW_hostOps5 (F := F)) 5 main_v82_2 (by decide),
    Cert.Lib.after_eq_take_of_written (hW_hostOps5 (F := F)) 5 main_v85 (by decide)]

theorem k_v87 : (after hostOps5 V (Proc.devRef .tc main_v87)) = (mulf : (⟨S1x128, .f32⟩ : BufTy).Contents (Elt F) → (⟨S1x128, .f32⟩ : BufTy).Contents (Elt F) → (⟨S1x128, .f32⟩ : BufTy).Contents (Elt F)) (after hostOps5 V (Proc.devRef .tc main_v84)) (after hostOps5 V (Proc.devRef .tc main_v84)) := by
  rw [Cert.Lib.stage (hW_hostOps5 (F := F)) 6 _ rfl main_v87 (by decide),
    binary_result,
    Cert.Lib.after_eq_take_of_written (hW_hostOps5 (F := F)) 6 main_v84 (by decide)]

theorem k_v88 : (after hostOps5 V (Proc.devRef .tc main_v88)) = (subf : (⟨S1x128, .f32⟩ : BufTy).Contents (Elt F) → (⟨S1x128, .f32⟩ : BufTy).Contents (Elt F) → (⟨S1x128, .f32⟩ : BufTy).Contents (Elt F)) (after hostOps5 V (Proc.devRef .tc main_v86)) (after hostOps5 V (Proc.devRef .tc main_v87)) := by
  rw [Cert.Lib.stage (hW_hostOps5 (F := F)) 7 _ rfl main_v88 (by decide),
    binary_result,
    Cert.Lib.after_eq_take_of_written (hW_hostOps5 (F := F)) 7 main_v86 (by decide),
    Cert.Lib.after_eq_take_of_written (hW_hostOps5 (F := F)) 7 main_v87 (by decide)]

theorem k_cst_19 : (after hostOps5 V (Proc.devRef .tc main_cst_19)) = (constant S_ .f32 0x3727C5AC#32) := by
  rw [Cert.Lib.stage (hW_hostOps5 (F := F)) 8 _ rfl main_cst_19 (by decide),
    nullary_result]

theorem k_v89 : (after hostOps5 V (Proc.devRef .tc main_v89)) = (broadcastInDim S1x128 ![] bcast_S_S1x128 : (⟨S_, .f32⟩ : BufTy).Contents (Elt F) → (⟨S1x128, .f32⟩ : BufTy).Contents (Elt F)) (after hostOps5 V (Proc.devRef .tc main_cst_19)) := by
  rw [Cert.Lib.stage (hW_hostOps5 (F := F)) 9 _ rfl main_v89 (by decide),
    unary_result,
    Cert.Lib.after_eq_take_of_written (hW_hostOps5 (F := F)) 9 main_cst_19 (by decide)]

theorem k_v90 : (after hostOps5 V (Proc.devRef .tc main_v90)) = (addf : (⟨S1x128, .f32⟩ : BufTy).Contents (Elt F) → (⟨S1x128, .f32⟩ : BufTy).Contents (Elt F) → (⟨S1x128, .f32⟩ : BufTy).Contents (Elt F)) (after hostOps5 V (Proc.devRef .tc main_v88)) (after hostOps5 V (Proc.devRef .tc main_v89)) := by
  rw [Cert.Lib.stage (hW_hostOps5 (F := F)) 10 _ rfl main_v90 (by decide),
    binary_result,
    Cert.Lib.after_eq_take_of_written (hW_hostOps5 (F := F)) 10 main_v88 (by decide),
    Cert.Lib.after_eq_take_of_written (hW_hostOps5 (F := F)) 10 main_v89 (by decide)]

theorem k_v91 : (after hostOps5 V (Proc.devRef .tc main_v91)) = (Host.rsqrt : (⟨S1x128, .f32⟩ : BufTy).Contents (Elt F) → (⟨S1x128, .f32⟩ : BufTy).Contents (Elt F)) (after hostOps5 V (Proc.devRef .tc main_v90)) := by
  rw [Cert.Lib.stage (hW_hostOps5 (F := F)) 11 _ rfl main_v91 (by decide),
    unary_result,
    Cert.Lib.after_eq_take_of_written (hW_hostOps5 (F := F)) 11 main_v90 (by decide)]

theorem k_v92 : (after hostOps5 V (Proc.devRef .tc main_v92)) = (broadcastInDim S1x128 ![1] bcast_S128_S1x128_1 : (⟨S128, .f32⟩ : BufTy).Contents (Elt F) → (⟨S1x128, .f32⟩ : BufTy).Contents (Elt F)) (after hostOps5 V (Proc.devRef .tc main_arg9)) := by
  rw [Cert.Lib.stage (hW_hostOps5 (F := F)) 12 _ rfl main_v92 (by decide),
    unary_result,
    Cert.Lib.after_eq_take_of_written (hW_hostOps5 (F := F)) 12 main_arg9 (by decide)]

theorem k_v93 : (after hostOps5 V (Proc.devRef .tc main_v93)) = (mulf : (⟨S1x128, .f32⟩ : BufTy).Contents (Elt F) → (⟨S1x128, .f32⟩ : BufTy).Contents (Elt F) → (⟨S1x128, .f32⟩ : BufTy).Contents (Elt F)) (after hostOps5 V (Proc.devRef .tc main_v92)) (after hostOps5 V (Proc.devRef .tc main_v91)) := by
  rw [Cert.Lib.stage (hW_hostOps5 (F := F)) 13 _ rfl main_v93 (by decide),
    binary_result,
    Cert.Lib.after_eq_take_of_written (hW_hostOps5 (F := F)) 13 main_v92 (by decide),
    Cert.Lib.after_eq_take_of_written (hW_hostOps5 (F := F)) 13 main_v91 (by decide)]

theorem k_v94 : (after hostOps5 V (Proc.devRef .tc main_v94)) = (mulf : (⟨S1x128, .f32⟩ : BufTy).Contents (Elt F) → (⟨S1x128, .f32⟩ : BufTy).Contents (Elt F) → (⟨S1x128, .f32⟩ : BufTy).Contents (Elt F)) (after hostOps5 V (Proc.devRef .tc main_v84)) (after hostOps5 V (Proc.devRef .tc main_v93)) := by
  rw [Cert.Lib.stage (hW_hostOps5 (F := F)) 14 _ rfl main_v94 (by decide),
    binary_result,
    Cert.Lib.after_eq_take_of_written (hW_hostOps5 (F := F)) 14 main_v84 (by decide),
    Cert.Lib.after_eq_take_of_written (hW_hostOps5 (F := F)) 14 main_v93 (by decide)]

theorem k_v95 : (after hostOps5 V (Proc.devRef .tc main_v95)) = (broadcastInDim S1x128 ![1] bcast_S128_S1x128_1 : (⟨S128, .f32⟩ : BufTy).Contents (Elt F) → (⟨S1x128, .f32⟩ : BufTy).Contents (Elt F)) (after hostOps5 V (Proc.devRef .tc main_arg10)) := by
  rw [Cert.Lib.stage (hW_hostOps5 (F := F)) 15 _ rfl main_v95 (by decide),
    unary_result,
    Cert.Lib.after_eq_take_of_written (hW_hostOps5 (F := F)) 15 main_arg10 (by decide)]

theorem k_v96 : (after hostOps5 V (Proc.devRef .tc main_v96)) = (subf : (⟨S1x128, .f32⟩ : BufTy).Contents (Elt F) → (⟨S1x128, .f32⟩ : BufTy).Contents (Elt F) → (⟨S1x128, .f32⟩ : BufTy).Contents (Elt F)) (after hostOps5 V (Proc.devRef .tc main_v95)) (after hostOps5 V (Proc.devRef .tc main_v94)) := by
  rw [Cert.Lib.stage (hW_hostOps5 (F := F)) 16 _ rfl main_v96 (by decide),
    binary_result,
    Cert.Lib.after_eq_take_of_written (hW_hostOps5 (F := F)) 16 main_v95 (by decide),
    Cert.Lib.after_eq_take_of_written (hW_hostOps5 (F := F)) 16 main_v94 (by decide)]

theorem kin_5_v82_1 : after hostOps5 V (Proc.devRef .tc main_v82_1) = V (Proc.devRef .tc main_v82_1) :=
  Cert.Lib.after_eq_take_of_written (hW_hostOps5 (F := F)) 0 main_v82_1 (by decide)

theorem kin_5_v82_2 : after hostOps5 V (Proc.devRef .tc main_v82_2) = V (Proc.devRef .tc main_v82_2) :=
  Cert.Lib.after_eq_take_of_written (hW_hostOps5 (F := F)) 0 main_v82_2 (by decide)

theorem kin_5_arg9 : after hostOps5 V (Proc.devRef .tc main_arg9) = V (Proc.devRef .tc main_arg9) :=
  Cert.Lib.after_eq_take_of_written (hW_hostOps5 (F := F)) 0 main_arg9 (by decide)

theorem kin_5_arg10 : after hostOps5 V (Proc.devRef .tc main_arg10) = V (Proc.devRef .tc main_arg10) :=
  Cert.Lib.after_eq_take_of_written (hW_hostOps5 (F := F)) 0 main_arg10 (by decide)

end

/-! ## hostOps6 -/

set_option maxRecDepth 4096 in
/-- Each operation of the stretch writes exactly the buffer listed for it. -/
theorem hW_hostOps6 : List.Forall₂ (fun (op : HloOp τ sig (Elt F)) y => op.writes = {Proc.devRef (τ := τ) .tc y}) hostOps6 hostOps6_W := by
  repeat (first | exact List.Forall₂.nil | refine List.Forall₂.cons rfl ?_)

section
variable (V : Valuation τ sig (Elt F))

theorem k_v98 : (after hostOps6 V (Proc.devRef .tc main_v98)) = ((extractStridedSlice S200x128 ![0, 0] · slices_S456x128_S200x128_0_0) : (⟨S456x128, .f32⟩ : BufTy).Contents (Elt F) → (⟨S200x128, .f32⟩ : BufTy).Contents (Elt F)) (after hostOps6 V (Proc.devRef .tc main_arg11)) := by
  rw [Cert.Lib.stage (hW_hostOps6 (F := F)) 0 _ rfl main_v98 (by decide),
    unary_result,
    Cert.Lib.after_eq_take_of_written (hW_hostOps6 (F := F)) 0 main_arg11 (by decide)]

theorem k_v99 : (after hostOps6 V (Proc.devRef .tc main_v99)) = ((extractStridedSlice S128x128 ![200, 0] · slices_S456x128_S128x128_200_0) : (⟨S456x128, .f32⟩ : BufTy).Contents (Elt F) → (⟨S128x128, .f32⟩ : BufTy).Contents (Elt F)) (after hostOps6 V (Proc.devRef .tc main_arg11)) := by
  rw [Cert.Lib.stage (hW_hostOps6 (F := F)) 1 _ rfl main_v99 (by decide),
    unary_result,
    Cert.Lib.after_eq_take_of_written (hW_hostOps6 (F := F)) 1 main_arg11 (by decide)]

theorem k_v100 : (after hostOps6 V (Proc.devRef .tc main_v100)) = ((extractStridedSlice S128x128 ![328, 0] · slices_S456x128_S128x128_328_0) : (⟨S456x128, .f32⟩ : BufTy).Contents (Elt F) → (⟨S128x128, .f32⟩ : BufTy).Contents (Elt F)) (after hostOps6 V (Proc.devRef .tc main_arg11)) := by
  rw [Cert.Lib.stage (hW_hostOps6 (F := F)) 2 _ rfl main_v100 (by decide),
    unary_result,
    Cert.Lib.after_eq_take_of_written (hW_hostOps6 (F := F)) 2 main_arg11 (by decide)]

theorem k_v101 : (after hostOps6 V (Proc.devRef .tc main_v101)) = shapeCast S1x128 (after hostOps6 V (Proc.devRef .tc main_arg12)) shapeCasts_S128_S1x128 := by
  rw [Cert.Lib.stage (hW_hostOps6 (F := F)) 3 _ rfl main_v101 (by decide),
    reshape_result,
    Cert.Lib.after_eq_take_of_written (hW_hostOps6 (F := F)) 3 main_arg12 (by decide)]
  rfl

theorem kin_6_arg11 : after hostOps6 V (Proc.devRef .tc main_arg11) = V (Proc.devRef .tc main_arg11) :=
  Cert.Lib.after_eq_take_of_written (hW_hostOps6 (F := F)) 0 main_arg11 (by decide)

theorem kin_6_arg12 : after hostOps6 V (Proc.devRef .tc main_arg12) = V (Proc.devRef .tc main_arg12) :=
  Cert.Lib.after_eq_take_of_written (hW_hostOps6 (F := F)) 0 main_arg12 (by decide)

end

/-! ## hostOps7 -/

set_option maxRecDepth 4096 in
/-- Each operation of the stretch writes exactly the buffer listed for it. -/
theorem hW_hostOps7 : List.Forall₂ (fun (op : HloOp τ sig (Elt F)) y => op.writes = {Proc.devRef (τ := τ) .tc y}) hostOps7 hostOps7_W := by
  repeat (first | exact List.Forall₂.nil | refine List.Forall₂.cons rfl ?_)

section
variable (V : Valuation τ sig (Elt F))

theorem k_v103 : (after hostOps7 V (Proc.devRef .tc main_v103)) = shapeCast S1x64 (after hostOps7 V (Proc.devRef .tc main_arg14)) shapeCasts_S64_S1x64 := by
  rw [Cert.Lib.stage (hW_hostOps7 (F := F)) 0 _ rfl main_v103 (by decide),
    reshape_result,
    Cert.Lib.after_eq_take_of_written (hW_hostOps7 (F := F)) 0 main_arg14 (by decide)]
  rfl

theorem kin_7_arg14 : after hostOps7 V (Proc.devRef .tc main_arg14) = V (Proc.devRef .tc main_arg14) :=
  Cert.Lib.after_eq_take_of_written (hW_hostOps7 (F := F)) 0 main_arg14 (by decide)

end

/-! ## A buffer a stretch does not write keeps its contents -/

section
variable (V : Valuation τ sig (Elt F))

theorem keep_0 (r : Ref sig .tc) (h : r ∉ hostOps0_W) : after hostOps0 V (Proc.devRef .tc r) = V (Proc.devRef .tc r) :=
  Cert.Lib.after_eq_take_of_written (hW_hostOps0 (F := F)) 0 r h

theorem keep_0_1 (r : Ref sig .tc) (h : r ∉ hostOps0_1_W) : after hostOps0_1 V (Proc.devRef .tc r) = V (Proc.devRef .tc r) :=
  Cert.Lib.after_eq_take_of_written (hW_hostOps0_1 (F := F)) 0 r h

theorem keep_0_2 (r : Ref sig .tc) (h : r ∉ hostOps0_2_W) : after hostOps0_2 V (Proc.devRef .tc r) = V (Proc.devRef .tc r) :=
  Cert.Lib.after_eq_take_of_written (hW_hostOps0_2 (F := F)) 0 r h

theorem keep_1 (r : Ref sig .tc) (h : r ∉ hostOps1_W) : after hostOps1 V (Proc.devRef .tc r) = V (Proc.devRef .tc r) :=
  Cert.Lib.after_eq_take_of_written (hW_hostOps1 (F := F)) 0 r h

theorem keep_2 (r : Ref sig .tc) (h : r ∉ hostOps2_W) : after hostOps2 V (Proc.devRef .tc r) = V (Proc.devRef .tc r) :=
  Cert.Lib.after_eq_take_of_written (hW_hostOps2 (F := F)) 0 r h

theorem keep_3 (r : Ref sig .tc) (h : r ∉ hostOps3_W) : after hostOps3 V (Proc.devRef .tc r) = V (Proc.devRef .tc r) :=
  Cert.Lib.after_eq_take_of_written (hW_hostOps3 (F := F)) 0 r h

theorem keep_4 (r : Ref sig .tc) (h : r ∉ hostOps4_W) : after hostOps4 V (Proc.devRef .tc r) = V (Proc.devRef .tc r) :=
  Cert.Lib.after_eq_take_of_written (hW_hostOps4 (F := F)) 0 r h

theorem keep_5 (r : Ref sig .tc) (h : r ∉ hostOps5_W) : after hostOps5 V (Proc.devRef .tc r) = V (Proc.devRef .tc r) :=
  Cert.Lib.after_eq_take_of_written (hW_hostOps5 (F := F)) 0 r h

theorem keep_6 (r : Ref sig .tc) (h : r ∉ hostOps6_W) : after hostOps6 V (Proc.devRef .tc r) = V (Proc.devRef .tc r) :=
  Cert.Lib.after_eq_take_of_written (hW_hostOps6 (F := F)) 0 r h

theorem keep_7 (r : Ref sig .tc) (h : r ∉ hostOps7_W) : after hostOps7 V (Proc.devRef .tc r) = V (Proc.devRef .tc r) :=
  Cert.Lib.after_eq_take_of_written (hW_hostOps7 (F := F)) 0 r h

end

end Cert.KernelIdeal.HostSt

end
-- ==== Proof.Br.HostFns.lean ====
/- The host stretches of the kernel program read as the reference's named functions: the endpoints and weights of the
   edges with the self-loops, the degree, the normalisation, the aggregation along the edges, the bias rows. Stated for
   any contents the stretch starts from, over any float values. -/
import proofs.«168427_j26276609917010_1_alg».proof.Proof.Br.HostStages
import proofs.«168427_j26276609917010_1_alg».proof.Proof.Ref.Out

noncomputable section

namespace Cert.Br

open Idealize.ShloMosaic Idealize.ShloMosaic.TcCoe Idealize.SL.Sem Idealize.ShloMosaic.StableHlo
open Cert.ReferenceIdeal.RefRun Cert.KernelIdeal.HostSt

/-! The two programs' records of the gathers' and scatters' dimensions are the same records. -/

theorem scatter1_eq : Cert.KernelIdeal.scatter_S100000_S1700000x1_S1700000_n_0_0_1 = Cert.ReferenceIdeal.scatter_S100000_S1700000x1_S1700000_n_0_0_1 := rfl
theorem scatter2_eq : Cert.KernelIdeal.scatter_S100000x128_S1700000x1_S1700000x128_1_0_0_1 = Cert.ReferenceIdeal.scatter_S100000x128_S1700000x1_S1700000x128_1_0_0_1 := rfl
theorem gather1_eq : Cert.KernelIdeal.gather_S100000_S1700000x1_S1700000_n_0_n_n_0_1_1 = Cert.ReferenceIdeal.gather_S100000_S1700000x1_S1700000_n_0_n_n_0_1_1 := rfl
theorem gather2_eq : Cert.KernelIdeal.gather_S100000x128_S1700000x1_S1700000x128_1_0_n_n_0_1_1128 = Cert.ReferenceIdeal.gather_S100000x128_S1700000x1_S1700000x128_1_0_n_n_0_1_1128 := rfl

variable {F : FTy → Type} [FloatOps F] (V : Valuation Cert.KernelIdeal.τ Cert.KernelIdeal.sig (Elt F))

theorem g0_v3 : (after Cert.KernelIdeal.Gen.hostOps0 V (Proc.devRef .tc Cert.KernelIdeal.main_v3)) = endpoints 0 (V (Proc.devRef .tc Cert.KernelIdeal.main_arg1)) := by
  rw [k_v3, k_v2, k_v1, k_v0, kin_0_arg1]
  simp only [endpoints]

theorem g0_v6 : (after Cert.KernelIdeal.Gen.hostOps0 V (Proc.devRef .tc Cert.KernelIdeal.main_v6)) = endpoints 1 (V (Proc.devRef .tc Cert.KernelIdeal.main_arg1)) := by
  rw [k_v6, k_v5, k_v4, k_v0, kin_0_arg1]
  simp only [endpoints]

theorem g0_v8 : (after Cert.KernelIdeal.Gen.hostOps0 V (Proc.devRef .tc Cert.KernelIdeal.main_v8)) = edgeWeights (V (Proc.devRef .tc Cert.KernelIdeal.main_arg2)) := by
  rw [k_v8, k_v7, k_cst, kin_0_arg2]
  simp only [edgeWeights]

theorem g0_v11 : (after Cert.KernelIdeal.Gen.hostOps0 V (Proc.devRef .tc Cert.KernelIdeal.main_v11)) = degree (after Cert.KernelIdeal.Gen.hostOps0 V (Proc.devRef .tc Cert.KernelIdeal.main_v6)) (after Cert.KernelIdeal.Gen.hostOps0 V (Proc.devRef .tc Cert.KernelIdeal.main_v8)) := by
  rw [k_v11, k_v10, k_v9, k_cst_0]
  simp only [degree, scatter1_eq]

theorem g01_v15 : (after Cert.KernelIdeal.Gen.hostOps0_1 V (Proc.devRef .tc Cert.KernelIdeal.main_v15)) = select (V (Proc.devRef .tc Cert.KernelIdeal.main_v13)) (V (Proc.devRef .tc Cert.KernelIdeal.main_v14)) (broadcastInDim Cert.KernelIdeal.S100000 ![] Cert.KernelIdeal.Facts₀.bcast_S_S100000 (V (Proc.devRef .tc Cert.KernelIdeal.main_cst_2))) := by
  rw [k_v15, k_call0_v1, k_call0_v0, kin_0_1_v13, kin_0_1_v14, kin_0_1_cst_2]
  simp only [id_eq]

theorem g02_v31 : (after Cert.KernelIdeal.Gen.hostOps0_2 V (Proc.devRef .tc Cert.KernelIdeal.main_v31)) = edgeNorm (V (Proc.devRef .tc Cert.KernelIdeal.main_v3)) (V (Proc.devRef .tc Cert.KernelIdeal.main_v6)) (V (Proc.devRef .tc Cert.KernelIdeal.main_v8)) (V (Proc.devRef .tc Cert.KernelIdeal.main_v15)) := by
  rw [k_v31, k_v30, k_v29, k_v28, k_v27, k_v26, k_c_5, k_v25, k_v24, k_c_4, k_v23, k_v22, k_v21, k_v20, k_v19, k_v18, k_c_3, k_v17, k_v16, k_c, kin_0_2_v15, kin_0_2_v3, kin_0_2_v8, kin_0_2_v6]
  simp only [edgeNorm, wrapIdx, gather1_eq]

theorem g02_v33 : (after Cert.KernelIdeal.Gen.hostOps0_2 V (Proc.devRef .tc Cert.KernelIdeal.main_v33)) = shapeCast Cert.KernelIdeal.S1x128 (broadcastInDim Cert.KernelIdeal.S128 ![] Cert.KernelIdeal.Facts₀.bcast_S_S128 (constant Cert.KernelIdeal.S_ .f32 0x00000000#32)) Cert.KernelIdeal.Facts₀.shapeCasts_S128_S1x128 := by
  rw [k_v33, k_v32, k_cst_6]

theorem g1_v47 : (after Cert.KernelIdeal.Gen.hostOps1 V (Proc.devRef .tc Cert.KernelIdeal.main_v47)) = aggregate (V (Proc.devRef .tc Cert.KernelIdeal.main_v34)) (V (Proc.devRef .tc Cert.KernelIdeal.main_v3)) (V (Proc.devRef .tc Cert.KernelIdeal.main_v6)) (V (Proc.devRef .tc Cert.KernelIdeal.main_v31)) := by
  rw [k_v47, k_v46, k_v45, k_cst_9, k_v44, k_v43, k_v42, k_v41, k_v40, k_v39, k_v38, k_v37, k_c_8, k_v36, k_v35, k_c_7, kin_1_v6, kin_1_v34, kin_1_v3, kin_1_v31]
  simp only [aggregate, wrapIdx, gather2_eq, scatter2_eq]

theorem g1_v48 : (after Cert.KernelIdeal.Gen.hostOps1 V (Proc.devRef .tc Cert.KernelIdeal.main_v48)) = shapeCast Cert.KernelIdeal.S1x128 (V (Proc.devRef .tc Cert.KernelIdeal.main_arg4)) Cert.KernelIdeal.Facts₀.shapeCasts_S128_S1x128 := by
  rw [k_v48, kin_1_arg4]

theorem g3_v66 : (after Cert.KernelIdeal.Gen.hostOps3 V (Proc.devRef .tc Cert.KernelIdeal.main_v66)) = shapeCast Cert.KernelIdeal.S1x128 (broadcastInDim Cert.KernelIdeal.S128 ![] Cert.KernelIdeal.Facts₀.bcast_S_S128 (constant Cert.KernelIdeal.S_ .f32 0x00000000#32)) Cert.KernelIdeal.Facts₀.shapeCasts_S128_S1x128 := by
  rw [k_v66, k_v65, k_cst_13]

theorem g4_v80 : (after Cert.KernelIdeal.Gen.hostOps4 V (Proc.devRef .tc Cert.KernelIdeal.main_v80)) = aggregate (V (Proc.devRef .tc Cert.KernelIdeal.main_v67)) (V (Proc.devRef .tc Cert.KernelIdeal.main_v3)) (V (Proc.devRef .tc Cert.KernelIdeal.main_v6)) (V (Proc.devRef .tc Cert.KernelIdeal.main_v31)) := by
  rw [k_v80, k_v79, k_v78, k_cst_16, k_v77, k_v76, k_v75, k_v74, k_v73, k_v72, k_v71, k_v70, k_c_15, k_v69, k_v68, k_c_14, kin_4_v6, kin_4_v67, kin_4_v3, kin_4_v31]
  simp only [aggregate, wrapIdx, gather2_eq, scatter2_eq]

theorem g4_v81 : (after Cert.KernelIdeal.Gen.hostOps4 V (Proc.devRef .tc Cert.KernelIdeal.main_v81)) = shapeCast Cert.KernelIdeal.S1x128 (V (Proc.devRef .tc Cert.KernelIdeal.main_arg6)) Cert.KernelIdeal.Facts₀.shapeCasts_S128_S1x128 := by
  rw [k_v81, kin_4_arg6]

theorem g6_v98 : (after Cert.KernelIdeal.Gen.hostOps6 V (Proc.devRef .tc Cert.KernelIdeal.main_v98)) = extractStridedSlice Cert.KernelIdeal.S200x128 ![0, 0] (V (Proc.devRef .tc Cert.KernelIdeal.main_arg11)) Cert.KernelIdeal.Facts₀.slices_S456x128_S200x128_0_0 := by
  rw [k_v98, kin_6_arg11]

theorem g6_v99 : (after Cert.KernelIdeal.Gen.hostOps6 V (Proc.devRef .tc Cert.KernelIdeal.main_v99)) = extractStridedSlice Cert.KernelIdeal.S128x128 ![200, 0] (V (Proc.devRef .tc Cert.KernelIdeal.main_arg11)) Cert.KernelIdeal.Facts₀.slices_S456x128_S128x128_200_0 := by
  rw [k_v99, kin_6_arg11]

theorem g6_v100 : (after Cert.KernelIdeal.Gen.hostOps6 V (Proc.devRef .tc Cert.KernelIdeal.main_v100)) = extractStridedSlice Cert.KernelIdeal.S128x128 ![328, 0] (V (Proc.devRef .tc Cert.KernelIdeal.main_arg11)) Cert.KernelIdeal.Facts₀.slices_S456x128_S128x128_328_0 := by
  rw [k_v100, kin_6_arg11]

theorem g6_v101 : (after Cert.KernelIdeal.Gen.hostOps6 V (Proc.devRef .tc Cert.KernelIdeal.main_v101)) = shapeCast Cert.KernelIdeal.S1x128 (V (Proc.devRef .tc Cert.KernelIdeal.main_arg12)) Cert.KernelIdeal.Facts₀.shapeCasts_S128_S1x128 := by
  rw [k_v101, kin_6_arg12]

theorem g7_v103 : (after Cert.KernelIdeal.Gen.hostOps7 V (Proc.devRef .tc Cert.KernelIdeal.main_v103)) = shapeCast Cert.KernelIdeal.S1x64 (V (Proc.devRef .tc Cert.KernelIdeal.main_arg14)) Cert.KernelIdeal.Facts₀.shapeCasts_S64_S1x64 := by
  rw [k_v103, kin_7_arg14]

/-- The inverse square root of the degree, over the first two stretches. -/
theorem dinv_gen : (after Cert.KernelIdeal.Gen.hostOps0_1 (after Cert.KernelIdeal.Gen.hostOps0 V) (Proc.devRef .tc Cert.KernelIdeal.main_v15)) = invSqrtDeg (after Cert.KernelIdeal.Gen.hostOps0 V (Proc.devRef .tc Cert.KernelIdeal.main_v11)) := by
  rw [g01_v15, k_v13, k_v12, k_cst_1, k_v14, k_cst_2]
  simp only [invSqrtDeg]

/-- The edges' normalisation, over the first three stretches, as the reference's function of the two arguments. -/
theorem norm_gen : (after Cert.KernelIdeal.Gen.hostOps0_2 (after Cert.KernelIdeal.Gen.hostOps0_1 (after Cert.KernelIdeal.Gen.hostOps0 V)) (Proc.devRef .tc Cert.KernelIdeal.main_v31))
    = edgeNorm (endpoints 0 (V (Proc.devRef .tc Cert.KernelIdeal.main_arg1))) (endpoints 1 (V (Proc.devRef .tc Cert.KernelIdeal.main_arg1))) (edgeWeights (V (Proc.devRef .tc Cert.KernelIdeal.main_arg2)))
        (invSqrtDeg (degree (endpoints 1 (V (Proc.devRef .tc Cert.KernelIdeal.main_arg1))) (edgeWeights (V (Proc.devRef .tc Cert.KernelIdeal.main_arg2))))) := by
  rw [g02_v31, keep_0_1 _ Cert.KernelIdeal.main_v3 (by decide), keep_0_1 _ Cert.KernelIdeal.main_v6 (by decide), keep_0_1 _ Cert.KernelIdeal.main_v8 (by decide),
    dinv_gen, g0_v11, g0_v3, g0_v6, g0_v8]

end Cert.Br

end
-- ==== Proof.Br.Shared.lean ====
/-
  The part of the kernel program that is the reference's own host computation: the edge lists with the self-loops
  appended, the edge weights, the symmetric normalisation coefficients (the degree by a segment sum, its inverse
  square root where positive), and the aggregation of a node-feature array along the edges; and the small stretches
  that reshape a bias or cut a weight matrix into row blocks. The kernel program's buffers at the boundaries of its
  stretches are read back to its argument arrays and found to be the reference's functions of them.
-/
import proofs.«168427_j26276609917010_1_alg».proof.Proof.KI.Keep
import proofs.«168427_j26276609917010_1_alg».proof.Proof.Br.Setup
import proofs.«168427_j26276609917010_1_alg».proof.Proof.Br.HostFns
import Idealize.ShloMosaic.PureOps.Ideal

noncomputable section

namespace Cert.Br

open Idealize.ShloMosaic Idealize.ShloMosaic.TcCoe Idealize.SL.Sem Idealize.ShloMosaic.StableHlo
open Cert.KernelIdeal.Reg Cert.ReferenceIdeal.RefRun Cert.KernelIdeal.HostSt

variable (m : KM) (c : Dev Cert.KernelIdeal.nD)

/-- The edge list argument and the edge weight argument, as the kernel program was launched with them. -/
abbrev adjK := W0 m c (Proc.devRef .tc Cert.KernelIdeal.main_arg1)
abbrev wK := W0 m c (Proc.devRef .tc Cert.KernelIdeal.main_arg2)
/-- The reference's normalisation coefficients of the kernel program's arguments. -/
abbrev normK := edgeNorm (F := Ideal) (endpoints 0 (adjK m c)) (endpoints 1 (adjK m c)) (edgeWeights (wK m c))
  (invSqrtDeg (degree (endpoints 1 (adjK m c)) (edgeWeights (wK m c))))

/-! The first three stretches: endpoints, weights, normalisation, and the zero bias of the first dense product. -/

theorem src3 : W3 m c (Proc.devRef .tc Cert.KernelIdeal.main_v3) = endpoints (F := Ideal) 0 (adjK m c) := by
  show after Cert.KernelIdeal.Gen.hostOps0_2 (after Cert.KernelIdeal.Gen.hostOps0_1 (after Cert.KernelIdeal.Gen.hostOps0 (W0 m c))) _ = _
  rw [keep_0_2 _ Cert.KernelIdeal.main_v3 (by decide), keep_0_1 _ Cert.KernelIdeal.main_v3 (by decide), g0_v3]

theorem dst3 : W3 m c (Proc.devRef .tc Cert.KernelIdeal.main_v6) = endpoints (F := Ideal) 1 (adjK m c) := by
  show after Cert.KernelIdeal.Gen.hostOps0_2 (after Cert.KernelIdeal.Gen.hostOps0_1 (after Cert.KernelIdeal.Gen.hostOps0 (W0 m c))) _ = _
  rw [keep_0_2 _ Cert.KernelIdeal.main_v6 (by decide), keep_0_1 _ Cert.KernelIdeal.main_v6 (by decide), g0_v6]

theorem ew3 : W3 m c (Proc.devRef .tc Cert.KernelIdeal.main_v8) = edgeWeights (F := Ideal) (wK m c) := by
  show after Cert.KernelIdeal.Gen.hostOps0_2 (after Cert.KernelIdeal.Gen.hostOps0_1 (after Cert.KernelIdeal.Gen.hostOps0 (W0 m c))) _ = _
  rw [keep_0_2 _ Cert.KernelIdeal.main_v8 (by decide), keep_0_1 _ Cert.KernelIdeal.main_v8 (by decide), g0_v8]

/-! The same three, right after the first stretch. -/

theorem src1 : W1 m c (Proc.devRef .tc Cert.KernelIdeal.main_v3) = endpoints (F := Ideal) 0 (adjK m c) := g0_v3 (W0 m c)
theorem dst1 : W1 m c (Proc.devRef .tc Cert.KernelIdeal.main_v6) = endpoints (F := Ideal) 1 (adjK m c) := g0_v6 (W0 m c)
theorem ew1 : W1 m c (Proc.devRef .tc Cert.KernelIdeal.main_v8) = edgeWeights (F := Ideal) (wK m c) := g0_v8 (W0 m c)

theorem norm_eq : W3 m c (Proc.devRef .tc Cert.KernelIdeal.main_v31) = normK m c :=
  norm_gen (W0 m c)

theorem bias3 : W3 m c (Proc.devRef .tc Cert.KernelIdeal.main_v33) = shapeCast Cert.KernelIdeal.S1x128 (broadcastInDim Cert.KernelIdeal.S128 ![] Cert.KernelIdeal.Facts₀.bcast_S_S128 (constant (F := Ideal) Cert.KernelIdeal.S_ .f32 0x00000000#32)) Cert.KernelIdeal.Facts₀.shapeCasts_S128_S1x128 :=
  g02_v33 (W2 m c)

/-! The aggregation of the first layer, and its bias as one row. -/

theorem agg1 : W5 m c (Proc.devRef .tc Cert.KernelIdeal.main_v47) = aggregate (F := Ideal) (W4 m c (Proc.devRef .tc Cert.KernelIdeal.main_v34)) (endpoints (F := Ideal) 0 (adjK m c)) (endpoints (F := Ideal) 1 (adjK m c)) (normK m c) := by
  show after Cert.KernelIdeal.Gen.hostOps1 (W4 m c) _ = _
  rw [g1_v47, keep_W4 m c Cert.KernelIdeal.main_v3 (by decide), keep_W4 m c Cert.KernelIdeal.main_v6 (by decide), keep_W4 m c Cert.KernelIdeal.main_v31 (by decide), src3, dst3, norm_eq]

theorem bias1 : W5 m c (Proc.devRef .tc Cert.KernelIdeal.main_v48) = shapeCast Cert.KernelIdeal.S1x128 (W0 m c (Proc.devRef .tc Cert.KernelIdeal.main_arg4)) Cert.KernelIdeal.Facts₀.shapeCasts_S128_S1x128 := by
  show after Cert.KernelIdeal.Gen.hostOps1 (W4 m c) _ = _
  rw [g1_v48, keep_W4 m c Cert.KernelIdeal.main_arg4 (by decide), keep_W3 m c Cert.KernelIdeal.main_arg4 (by decide), keep_W2 m c Cert.KernelIdeal.main_arg4 (by decide), keep_W1 m c Cert.KernelIdeal.main_arg4 (by decide)]

/-! The zero bias of the second dense product. -/

theorem bias9 : W9 m c (Proc.devRef .tc Cert.KernelIdeal.main_v66) = shapeCast Cert.KernelIdeal.S1x128 (broadcastInDim Cert.KernelIdeal.S128 ![] Cert.KernelIdeal.Facts₀.bcast_S_S128 (constant (F := Ideal) Cert.KernelIdeal.S_ .f32 0x00000000#32)) Cert.KernelIdeal.Facts₀.shapeCasts_S128_S1x128 :=
  g3_v66 (W8 m c)

/-! The aggregation of the second layer, and its bias as one row. -/

theorem agg2 : W11 m c (Proc.devRef .tc Cert.KernelIdeal.main_v80) = aggregate (F := Ideal) (W10 m c (Proc.devRef .tc Cert.KernelIdeal.main_v67)) (endpoints (F := Ideal) 0 (adjK m c)) (endpoints (F := Ideal) 1 (adjK m c)) (normK m c) := by
  show after Cert.KernelIdeal.Gen.hostOps4 (W10 m c) _ = _
  rw [g4_v80, keep_W10 m c Cert.KernelIdeal.main_v3 (by decide),
    keep_W9 m c Cert.KernelIdeal.main_v3 (by decide),
    keep_W8 m c Cert.KernelIdeal.main_v3 (by decide),
    keep_W7 m c Cert.KernelIdeal.main_v3 (by decide),
    keep_W6 m c Cert.KernelIdeal.main_v3 (by decide),
    keep_W5 m c Cert.KernelIdeal.main_v3 (by decide),
    keep_W4 m c Cert.KernelIdeal.main_v3 (by decide),
    keep_W10 m c Cert.KernelIdeal.main_v6 (by decide),
    keep_W9 m c Cert.KernelIdeal.main_v6 (by decide),
    keep_W8 m c Cert.KernelIdeal.main_v6 (by decide),
    keep_W7 m c Cert.KernelIdeal.main_v6 (by decide),
    keep_W6 m c Cert.KernelIdeal.main_v6 (by decide),
    keep_W5 m c Cert.KernelIdeal.main_v6 (by decide),
    keep_W4 m c Cert.KernelIdeal.main_v6 (by decide),
    keep_W10 m c Cert.KernelIdeal.main_v31 (by decide),
    keep_W9 m c Cert.KernelIdeal.main_v31 (by decide),
    keep_W8 m c Cert.KernelIdeal.main_v31 (by decide),
    keep_W7 m c Cert.KernelIdeal.main_v31 (by decide),
    keep_W6 m c Cert.KernelIdeal.main_v31 (by decide),
    keep_W5 m c Cert.KernelIdeal.main_v31 (by decide),
    keep_W4 m c Cert.KernelIdeal.main_v31 (by decide), src3, dst3, norm_eq]

theorem bias2 : W11 m c (Proc.devRef .tc Cert.KernelIdeal.main_v81) = shapeCast Cert.KernelIdeal.S1x128 (W0 m c (Proc.devRef .tc Cert.KernelIdeal.main_arg6)) Cert.KernelIdeal.Facts₀.shapeCasts_S128_S1x128 := by
  show after Cert.KernelIdeal.Gen.hostOps4 (W10 m c) _ = _
  rw [g4_v81, keep_W10 m c Cert.KernelIdeal.main_arg6 (by decide), keep_W9 m c Cert.KernelIdeal.main_arg6 (by decide), keep_W8 m c Cert.KernelIdeal.main_arg6 (by decide), keep_W7 m c Cert.KernelIdeal.main_arg6 (by decide), keep_W6 m c Cert.KernelIdeal.main_arg6 (by decide), keep_W5 m c Cert.KernelIdeal.main_arg6 (by decide), keep_W4 m c Cert.KernelIdeal.main_arg6 (by decide), keep_W3 m c Cert.KernelIdeal.main_arg6 (by decide), keep_W2 m c Cert.KernelIdeal.main_arg6 (by decide), keep_W1 m c Cert.KernelIdeal.main_arg6 (by decide)]

/-! The head's weight matrix in three row blocks, and the head's biases as rows. -/

theorem fc1W_x : W15 m c (Proc.devRef .tc Cert.KernelIdeal.main_v98) = extractStridedSlice Cert.KernelIdeal.S200x128 ![0, 0] (W0 m c (Proc.devRef .tc Cert.KernelIdeal.main_arg11)) Cert.KernelIdeal.Facts₀.slices_S456x128_S200x128_0_0 := by
  show after Cert.KernelIdeal.Gen.hostOps6 (W14 m c) _ = _
  rw [g6_v98, keep_W14 m c Cert.KernelIdeal.main_arg11 (by decide), keep_W13 m c Cert.KernelIdeal.main_arg11 (by decide), keep_W12 m c Cert.KernelIdeal.main_arg11 (by decide), keep_W11 m c Cert.KernelIdeal.main_arg11 (by decide), keep_W10 m c Cert.KernelIdeal.main_arg11 (by decide), keep_W9 m c Cert.KernelIdeal.main_arg11 (by decide), keep_W8 m c Cert.KernelIdeal.main_arg11 (by decide), keep_W7 m c Cert.KernelIdeal.main_arg11 (by decide), keep_W6 m c Cert.KernelIdeal.main_arg11 (by decide), keep_W5 m c Cert.KernelIdeal.main_arg11 (by decide), keep_W4 m c Cert.KernelIdeal.main_arg11 (by decide), keep_W3 m c Cert.KernelIdeal.main_arg11 (by decide), keep_W2 m c Cert.KernelIdeal.main_arg11 (by decide), keep_W1 m c Cert.KernelIdeal.main_arg11 (by decide)]

theorem fc1W_h1 : W15 m c (Proc.devRef .tc Cert.KernelIdeal.main_v99) = extractStridedSlice Cert.KernelIdeal.S128x128 ![200, 0] (W0 m c (Proc.devRef .tc Cert.KernelIdeal.main_arg11)) Cert.KernelIdeal.Facts₀.slices_S456x128_S128x128_200_0 := by
  show after Cert.KernelIdeal.Gen.hostOps6 (W14 m c) _ = _
  rw [g6_v99, keep_W14 m c Cert.KernelIdeal.main_arg11 (by decide), keep_W13 m c Cert.KernelIdeal.main_arg11 (by decide), keep_W12 m c Cert.KernelIdeal.main_arg11 (by decide), keep_W11 m c Cert.KernelIdeal.main_arg11 (by decide), keep_W10 m c Cert.KernelIdeal.main_arg11 (by decide), keep_W9 m c Cert.KernelIdeal.main_arg11 (by decide), keep_W8 m c Cert.KernelIdeal.main_arg11 (by decide), keep_W7 m c Cert.KernelIdeal.main_arg11 (by decide), keep_W6 m c Cert.KernelIdeal.main_arg11 (by decide), keep_W5 m c Cert.KernelIdeal.main_arg11 (by decide), keep_W4 m c Cert.KernelIdeal.main_arg11 (by decide), keep_W3 m c Cert.KernelIdeal.main_arg11 (by decide), keep_W2 m c Cert.KernelIdeal.main_arg11 (by decide), keep_W1 m c Cert.KernelIdeal.main_arg11 (by decide)]

theorem fc1W_h2 : W15 m c (Proc.devRef .tc Cert.KernelIdeal.main_v100) = extractStridedSlice Cert.KernelIdeal.S128x128 ![328, 0] (W0 m c (Proc.devRef .tc Cert.KernelIdeal.main_arg11)) Cert.KernelIdeal.Facts₀.slices_S456x128_S128x128_328_0 := by
  show after Cert.KernelIdeal.Gen.hostOps6 (W14 m c) _ = _
  rw [g6_v100, keep_W14 m c Cert.KernelIdeal.main_arg11 (by decide), keep_W13 m c Cert.KernelIdeal.main_arg11 (by decide), keep_W12 m c Cert.KernelIdeal.main_arg11 (by decide), keep_W11 m c Cert.KernelIdeal.main_arg11 (by decide), keep_W10 m c Cert.KernelIdeal.main_arg11 (by decide), keep_W9 m c Cert.KernelIdeal.main_arg11 (by decide), keep_W8 m c Cert.KernelIdeal.main_arg11 (by decide), keep_W7 m c Cert.KernelIdeal.main_arg11 (by decide), keep_W6 m c Cert.KernelIdeal.main_arg11 (by decide), keep_W5 m c Cert.KernelIdeal.main_arg11 (by decide), keep_W4 m c Cert.KernelIdeal.main_arg11 (by decide), keep_W3 m c Cert.KernelIdeal.main_arg11 (by decide), keep_W2 m c Cert.KernelIdeal.main_arg11 (by decide), keep_W1 m c Cert.KernelIdeal.main_arg11 (by decide)]

theorem fc1b_row : W15 m c (Proc.devRef .tc Cert.KernelIdeal.main_v101) = shapeCast Cert.KernelIdeal.S1x128 (W0 m c (Proc.devRef .tc Cert.KernelIdeal.main_arg12)) Cert.KernelIdeal.Facts₀.shapeCasts_S128_S1x128 := by
  show after Cert.KernelIdeal.Gen.hostOps6 (W14 m c) _ = _
  rw [g6_v101, keep_W14 m c Cert.KernelIdeal.main_arg12 (by decide), keep_W13 m c Cert.KernelIdeal.main_arg12 (by decide), keep_W12 m c Cert.KernelIdeal.main_arg12 (by decide), keep_W11 m c Cert.KernelIdeal.main_arg12 (by decide), keep_W10 m c Cert.KernelIdeal.main_arg12 (by decide), keep_W9 m c Cert.KernelIdeal.main_arg12 (by decide), keep_W8 m c Cert.KernelIdeal.main_arg12 (by decide), keep_W7 m c Cert.KernelIdeal.main_arg12 (by decide), keep_W6 m c Cert.KernelIdeal.main_arg12 (by decide), keep_W5 m c Cert.KernelIdeal.main_arg12 (by decide), keep_W4 m c Cert.KernelIdeal.main_arg12 (by decide), keep_W3 m c Cert.KernelIdeal.main_arg12 (by decide), keep_W2 m c Cert.KernelIdeal.main_arg12 (by decide), keep_W1 m c Cert.KernelIdeal.main_arg12 (by decide)]

theorem fc2b_row : W17 m c (Proc.devRef .tc Cert.KernelIdeal.main_v103) = shapeCast Cert.KernelIdeal.S1x64 (W0 m c (Proc.devRef .tc Cert.KernelIdeal.main_arg14)) Cert.KernelIdeal.Facts₀.shapeCasts_S64_S1x64 := by
  show after Cert.KernelIdeal.Gen.hostOps7 (W16 m c) _ = _
  rw [g7_v103, keep_W16 m c Cert.KernelIdeal.main_arg14 (by decide), keep_W15 m c Cert.KernelIdeal.main_arg14 (by decide), keep_W14 m c Cert.KernelIdeal.main_arg14 (by decide), keep_W13 m c Cert.KernelIdeal.main_arg14 (by decide), keep_W12 m c Cert.KernelIdeal.main_arg14 (by decide), keep_W11 m c Cert.KernelIdeal.main_arg14 (by decide), keep_W10 m c Cert.KernelIdeal.main_arg14 (by decide), keep_W9 m c Cert.KernelIdeal.main_arg14 (by decide), keep_W8 m c Cert.KernelIdeal.main_arg14 (by decide), keep_W7 m c Cert.KernelIdeal.main_arg14 (by decide), keep_W6 m c Cert.KernelIdeal.main_arg14 (by decide), keep_W5 m c Cert.KernelIdeal.main_arg14 (by decide), keep_W4 m c Cert.KernelIdeal.main_arg14 (by decide), keep_W3 m c Cert.KernelIdeal.main_arg14 (by decide), keep_W2 m c Cert.KernelIdeal.main_arg14 (by decide), keep_W1 m c Cert.KernelIdeal.main_arg14 (by decide)]

end Cert.Br

end
-- ==== Proof.KI.Val2.lean ====
import proofs.«168427_j26276609917010_1_alg».proof.Proof.KI.Reg2
import Idealize.ShloMosaic.Lib.Pipeline.Value
import Idealize.ShloMosaic.Lib.ValueIdx
import Idealize.ShloMosaic.PureOps.Ideal.Laws

/-! The value of region 2's output array at the ideal numbers: after the region's pipeline has run over all its grid
    points, the output array is one function of the region's input arrays as it found them, index by index. -/

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The affine map of the region, on whole arrays: entry (r, j) of the result is entry (r, j) of the first array
    times entry j of the row `s` plus entry j of the row `b`. -/
def G2 (h : S100000x128.Idx → Elt Ideal .f32) (s b : S1x128.Idx → Elt Ideal .f32) : S100000x128.Idx → Elt Ideal .f32 :=
  fun i => h i * s (ix2 (0 : Fin 1) (i 1)) + b (ix2 (0 : Fin 1) (i 1))

/-- The body's stored value at row `p`, column `q` of the tile: the tile's entry times the scale row's entry `q`
    plus the shift row's entry `q` (the two rows are repeated down the tile's rows). -/
theorem pay2_apply (x0 : Vec Ideal S2000x128 .f32) (x1 x2 : Vec Ideal S1x128 .f32) (p : Fin 2000) (q : Fin 128) :
    k2_pay1 x0 x1 x2 (ix2 p q) = x0 (ix2 p q) * x1 (ix2 (0 : Fin 1) q) + x2 (ix2 (0 : Fin 1) q) := by
  have e0 : shapeCast S2000x128 x0 shapeCasts_S2000x128_S2000x128 = x0 := shapeCast_self _ _
  have e1 : broadcastTo S2000x128 (shapeCast S1x128 x1 shapeCasts_S1x128_S1x128) broadcasts_S1x128_S2000x128 (ix2 p q) = x1 (ix2 (0 : Fin 1) q) := by
    rw [shapeCast_self]
    exact broadcastTo_apply x1 _ (ix2 p q) (ix2 (0 : Fin 1) q) (fun a => by match a with | ⟨0, _⟩ => rfl | ⟨1, _⟩ => rfl)
  have e2 : broadcastTo S2000x128 (shapeCast S1x128 x2 shapeCasts_S1x128_S1x128) broadcasts_S1x128_S2000x128 (ix2 p q) = x2 (ix2 (0 : Fin 1) q) := by
    rw [shapeCast_self]
    exact broadcastTo_apply x2 _ (ix2 p q) (ix2 (0 : Fin 1) q) (fun a => by match a with | ⟨0, _⟩ => rfl | ⟨1, _⟩ => rfl)
  unfold k2_pay1
  show shapeCast S2000x128 x0 shapeCasts_S2000x128_S2000x128 (ix2 p q)
      * broadcastTo S2000x128 (shapeCast S1x128 x1 shapeCasts_S1x128_S1x128) broadcasts_S1x128_S2000x128 (ix2 p q)
      + broadcastTo S2000x128 (shapeCast S1x128 x2 shapeCasts_S1x128_S1x128) broadcasts_S1x128_S2000x128 (ix2 p q) = _
  rw [e0, e1, e2]

/-- The block index maps over the grid: the tile windows are at block row `t`, the two rows' windows stay put. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The tile's entry (p, q) read through the windows at grid point `t`: the first array at row `2000 t + p`, the two
    rows at column `q`; that is `G2` at the output block's entry (p, q). -/
theorem blockval2 (h : S100000x128.Idx → Elt Ideal .f32) (s b : S1x128.Idx → Elt Ideal .f32) (t : Fin cfg2.N) (p : Fin 2000) (q : Fin 128) :
    h (((cfg2.win 0).blk t).view.emb (ix2 p q)) * s (((cfg2.win 1).blk t).view.emb (ix2 (0 : Fin 1) q))
      + b (((cfg2.win 2).blk t).view.emb (ix2 (0 : Fin 1) q))
    = G2 h s b (((cfg2.win 3).blk t).view.emb (ix2 p q)) := by
  obtain ⟨e00, e01, e10, e11, e20, e21, e30, e31⟩ := idx_facts2 t
  have h0 : ((cfg2.win 0).blk t).view.emb (ix2 p q) = ((cfg2.win 3).blk t).view.emb (ix2 p q) := by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * q.val = win2_3.index t (1 : Fin 2) * 128 + 1 * q.val; omega
  have h1 : ((cfg2.win 1).blk t).view.emb (ix2 (0 : Fin 1) q) = ix2 (0 : Fin 1) ((((cfg2.win 3).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have h2 : ((cfg2.win 2).blk t).view.emb (ix2 (0 : Fin 1) q) = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  unfold G2
  rw [h0, h1, h2]
  rfl

/-- What grid point `t` writes back is block `t` of `G2` of the input arrays as the region finds them. -/
theorem flushed2_eq (c : Dev nD) (t : Fin cfg2.N) :
    (dat2 V c).flushed 3 t = ((cfg2.win 3).blk t).view.read (Elt Ideal) (G2 (V c main_v49_0) (V c main_v60) (V c main_v63)) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S1x128) hz2]
  obtain ⟨e00, e01, e10, e11, e20, e21, e30, e31⟩ := idx_facts2 t
  funext j
  obtain ⟨p, q, rfl⟩ : ∃ (p : Fin 2000) (q : Fin 128), j = ix2 p q := ⟨j 0, j 1, eq_ix2 j⟩
  show k2_pay1 (iblk2 V c 0 t) (iblk2 V c 1 t) (iblk2 V c 2 t) (ix2 p q)
    = G2 (V c main_v49_0) (V c main_v60) (V c main_v63) (((cfg2.win 3).blk t).view.emb (ix2 p q))
  refine (pay2_apply (iblk2 V c 0 t) (iblk2 V c 1 t) (iblk2 V c 2 t) p q).trans ?_
  exact blockval2 (V c main_v49_0) (V c main_v60) (V c main_v63) t p q

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v64).slice (win2_3.rect t)).set ↔ _
  rw [View.set_slice_whole, Rect.mem_set_unit]
  exact Iff.rfl

/-- Every block row of the output array is some grid point's. -/
theorem idx_onto2 : ∀ q0 : Fin 50, ∃ t : Fin cfg2.N, win2_3.index t = ![q0.val, 0] :=
  (by decide +kernel : ∀ q0 : Fin 50, ∃ t : Fin grid2.N, win2_3.index t = ![q0.val, 0])

/-- Every index of the output array is in the block of the grid point that holds its row: row `r` is in block `r / 2000`. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The output array after the region: `G2` of the input arrays as the region found them. -/
theorem final2 (c : Dev nD) : (dat2 V c).arrAt 3 cfg2.N = G2 (V c main_v49_0) (V c main_v60) (V c main_v63) :=
  (dat2 V c).arrAt_eq_of_cover 3 (G2 (V c main_v49_0) (V c main_v60) (V c main_v63)) (fun t _ => flushed2_eq V c t) cover2

end Cert.KernelIdeal.Reg
-- ==== Proof.KI.Val1Pay.lean ====
import proofs.«168427_j26276609917010_1_alg».proof.Proof.KI.Reg1Run
import Idealize.ShloMosaic.Lib.Pipeline.Value
import Idealize.ShloMosaic.Lib.ValueIdx
import Idealize.ShloMosaic.PureOps.Ideal.Laws

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! # Region 1's body at the ideal numbers, entry by entry

The tile output's entry (p, q) is max (tile (p, q) + bias q, 0); the sums a grid point contributes to the two
accumulators at column q are the sums over the tile's 2000 rows of that entry and of its square. -/

theorem hz1 : (![0, 0] : Fin 2 → Nat) = fun _ => 0 := funext fun a => by fin_cases a <;> rfl

/-- The tile output at row `p`, column `q`. -/
theorem val1_pay1 (x0 : Vec Ideal S2000x128 .f32) (x1 : Vec Ideal S1x128 .f32) (p : Fin 2000) (q : Fin 128) :
    k1_pay1 x0 x1 (ix2 p q) = max (x0 (ix2 p q) + x1 (ix2 (0 : Fin 1) q)) 0 := by
  have e0 : shapeCast S2000x128 x0 shapeCasts_S2000x128_S2000x128 = x0 := shapeCast_self _ _
  have e1 : broadcastTo S2000x128 (shapeCast S1x128 x1 shapeCasts_S1x128_S1x128) broadcasts_S1x128_S2000x128 (ix2 p q) = x1 (ix2 (0 : Fin 1) q) := by
    rw [shapeCast_self]
    exact broadcastTo_apply x1 _ (ix2 p q) (ix2 (0 : Fin 1) q) (fun a => by match a with | ⟨0, _⟩ => rfl | ⟨1, _⟩ => rfl)
  unfold k1_pay1
  show max (shapeCast S2000x128 x0 shapeCasts_S2000x128_S2000x128 (ix2 p q)
      + broadcastTo S2000x128 (shapeCast S1x128 x1 shapeCasts_S1x128_S1x128) broadcasts_S1x128_S2000x128 (ix2 p q))
      (Ideal.ofBits .f32 0x00000000#32) = _
  rw [e0, e1, Ideal.ofBits_zero_f32]

/-- A one-row result of a sum over the tile's rows, read at column `q`. -/
theorem val1_colsum (v : FVec Ideal S2000x128 .f32) (q : Fin 128) :
    shapeCast S1x128 (multiReduction .add [0] S128 v 0x00000000#32 reduces_S2000x128_S128 (.inl rfl) rfl) shapeCasts_S128_S1x128 (ix2 (0 : Fin 1) q)
      = ∑ r : Fin 2000, v (ix2 r q) := by
  refine (shapeCast_apply _ shapeCasts_S128_S1x128 (ix2 (0 : Fin 1) q) (ix1 q) ?_).trans ?_
  · rw [Shape.rowMajor_val_one, Shape.rowMajor_val_two]; show q.val = 0 * 128 + q.val; omega
  · refine (Ideal.multiReduction_add_single v 0x00000000#32 reduces_S2000x128_S128 (.inl rfl) rfl (ix1 q)).trans ?_
    refine Finset.sum_congr rfl fun r _ => congrArg v ?_
    funext a; match a with | ⟨0, _⟩ => rfl | ⟨1, _⟩ => rfl

/-- The tile's column sum at column `q`. -/
theorem val1_pay2 (x0 : Vec Ideal S2000x128 .f32) (x1 : Vec Ideal S1x128 .f32) (q : Fin 128) :
    k1_pay2 x0 x1 (ix2 (0 : Fin 1) q) = ∑ r : Fin 2000, k1_pay1 x0 x1 (ix2 r q) := by
  unfold k1_pay2
  exact val1_colsum (k1_pay1 x0 x1) q

/-- The tile's column sum of squares at column `q`. -/
theorem val1_pay3 (x0 : Vec Ideal S2000x128 .f32) (x1 : Vec Ideal S1x128 .f32) (q : Fin 128) :
    k1_pay3 x0 x1 (ix2 (0 : Fin 1) q) = ∑ r : Fin 2000, k1_pay1 x0 x1 (ix2 r q) * k1_pay1 x0 x1 (ix2 r q) := by
  unfold k1_pay3
  exact val1_colsum (mulf (k1_pay1 x0 x1) (k1_pay1 x0 x1)) q

theorem val1_pay4 (x0 : Vec Ideal S2000x128 .f32) (x1 : Vec Ideal S1x128 .f32) : k1_pay4 x0 x1 = k1_pay2 x0 x1 := by
  unfold k1_pay4; exact shapeCast_self _ _
theorem val1_pay5 (x0 : Vec Ideal S2000x128 .f32) (x1 : Vec Ideal S1x128 .f32) : k1_pay5 x0 x1 = k1_pay3 x0 x1 := by
  unfold k1_pay5; exact shapeCast_self _ _
theorem val1_pay6 (x0 : Vec Ideal S2000x128 .f32) (x1 s : Vec Ideal S1x128 .f32) (j : S1x128.Idx) :
    k1_pay6 x0 x1 s j = s j + k1_pay2 x0 x1 j := by
  unfold k1_pay6
  show shapeCast S1x128 (addf s (k1_pay2 x0 x1)) shapeCasts_S1x128_S1x128 j = _
  rw [shapeCast_self]; rfl
theorem val1_pay7 (x0 : Vec Ideal S2000x128 .f32) (x1 s : Vec Ideal S1x128 .f32) (j : S1x128.Idx) :
    k1_pay7 x0 x1 s j = s j + k1_pay3 x0 x1 j := by
  unfold k1_pay7
  show shapeCast S1x128 (addf s (k1_pay3 x0 x1)) shapeCasts_S1x128_S1x128 j = _
  rw [shapeCast_self]; rfl

/-! ## What the body's named results are, as functions -/

theorem val1_out2 (x0 : Vec Ideal S2000x128 .f32) (x1 : Vec Ideal S1x128 .f32) : out1_2 x0 x1 = k1_pay1 x0 x1 := by
  unfold out1_2
  rw [View.canon_unit_zero hz1]
  simp only [View.ld_unit_zero (S := S2000x128) hz1, View.ld_unit_zero (S := S1x128) hz1]
theorem val1_scA0 (x0 : Vec Ideal S2000x128 .f32) (x1 : Vec Ideal S1x128 .f32) : scA1_0 x0 x1 = k1_pay2 x0 x1 := by
  unfold scA1_0
  rw [View.canon_unit_zero hz1]
  simp only [View.ld_unit_zero (S := S2000x128) hz1, View.ld_unit_zero (S := S1x128) hz1, val1_pay4]
theorem val1_scA1 (x0 : Vec Ideal S2000x128 .f32) (x1 : Vec Ideal S1x128 .f32) : scA1_1 x0 x1 = k1_pay3 x0 x1 := by
  unfold scA1_1
  rw [View.canon_unit_zero hz1]
  simp only [View.ld_unit_zero (S := S2000x128) hz1, View.ld_unit_zero (S := S1x128) hz1, val1_pay5]
theorem val1_scB0 (x0 : Vec Ideal S2000x128 .f32) (x1 s : Vec Ideal S1x128 .f32) (j : S1x128.Idx) :
    scB1_0 x0 x1 s j = s j + k1_pay2 x0 x1 j := by
  unfold scB1_0
  rw [View.canon_unit_zero hz1]
  simp only [View.ld_unit_zero (S := S2000x128) hz1, View.ld_unit_zero (S := S1x128) hz1]
  exact val1_pay6 x0 x1 s j
theorem val1_scB1 (x0 : Vec Ideal S2000x128 .f32) (x1 s : Vec Ideal S1x128 .f32) (j : S1x128.Idx) :
    scB1_1 x0 x1 s j = s j + k1_pay3 x0 x1 j := by
  unfold scB1_1
  rw [View.canon_unit_zero hz1]
  simp only [View.ld_unit_zero (S := S2000x128) hz1, View.ld_unit_zero (S := S1x128) hz1]
  exact val1_pay7 x0 x1 s j
theorem val1_out3 (s : Vec Ideal S1x128 .f32) : out1_3 s = s := by
  unfold out1_3
  rw [View.canon_unit_zero hz1]
  exact View.ld_unit_zero (S := S1x128) hz1 _ s
theorem val1_out4 (s : Vec Ideal S1x128 .f32) : out1_4 s = s := by
  unfold out1_4
  rw [View.canon_unit_zero hz1]
  exact View.ld_unit_zero (S := S1x128) hz1 _ s

end Cert.KernelIdeal.Reg

end
-- ==== Proof.KI.ValCommon.lean ====
import Idealize.ShloMosaic.Lib.ValueIdx
import Idealize.ShloMosaic.PureOps.Ideal.Laws

/-! Whole-array functions over the extended reals that two regions of the program share: the bias-and-clamp of a
    100000 x 128 array against a one-row bias, and the column sums of such an array taken tile by tile (50 tiles of
    2000 rows), of the entries and of their squares. -/

noncomputable section

namespace Cert.KernelIdeal.Reg

open Idealize.ShloMosaic Idealize.ShloMosaic.ValueIdx
open scoped BigOperators

/-- Row `r` of tile `t`. -/
def trow (t : Fin 50) (r : Fin 2000) : Fin 100000 :=
  ⟨t.val * 2000 + r.val, by have := t.isLt; have := r.isLt; omega⟩

@[simp] theorem trow_val (t : Fin 50) (r : Fin 2000) : (trow t r).val = t.val * 2000 + r.val := rfl

/-- Entry (i, j) of the result: max (a (i, j) + b (0, j), 0). -/
def reluRows (a : (⟨2, ![100000, 128]⟩ : Shape).Idx → EReal) (b : (⟨2, ![1, 128]⟩ : Shape).Idx → EReal) :
    (⟨2, ![100000, 128]⟩ : Shape).Idx → EReal :=
  fun i => max (a i + b (ix2 (0 : Fin 1) (i 1))) 0

/-- The column sums, tile by tile, as a one-row array. -/
def colSum (H : (⟨2, ![100000, 128]⟩ : Shape).Idx → EReal) : (⟨2, ![1, 128]⟩ : Shape).Idx → EReal :=
  fun j => ∑ t : Fin 50, ∑ r : Fin 2000, H (ix2 (trow t r) (j 1))

/-- The column sums of squares, tile by tile, as a one-row array. -/
def colSq (H : (⟨2, ![100000, 128]⟩ : Shape).Idx → EReal) : (⟨2, ![1, 128]⟩ : Shape).Idx → EReal :=
  fun j => ∑ t : Fin 50, ∑ r : Fin 2000, H (ix2 (trow t r) (j 1)) * H (ix2 (trow t r) (j 1))

end Cert.KernelIdeal.Reg

end
-- ==== Proof.KI.Val1.lean ====
import proofs.«168427_j26276609917010_1_alg».proof.Proof.KI.Reg1
import proofs.«168427_j26276609917010_1_alg».proof.Proof.KI.Val1Pay
import proofs.«168427_j26276609917010_1_alg».proof.Proof.KI.ValCommon
import Idealize.ShloMosaic.Lib.Pipeline.Value
import Idealize.ShloMosaic.Lib.ValueIdx
import Idealize.ShloMosaic.PureOps.Ideal.Laws

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! # Region 1's three output arrays at the ideal numbers

After the region has run over its 50 grid points: the tile output array is max (input + bias row, 0) entry by entry,
and the two one-row outputs are the column sums of that array and of its squares, added tile by tile in the grid's order. -/

variable (V : (c : Dev nD) → (b : Ref sig .tc) → Buf (Elt Ideal) ((c : Thread nD τ).loc b))

/-- The block index maps over the grid: the tile windows are at block row `t`, the one-row windows stay put. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry (p, q) of the tile at grid point `t`, read through the windows, is the whole-array function at the
    output block's entry (p, q). -/
theorem blockval1 (a : S100000x128.Idx → Elt Ideal .f32) (b : S1x128.Idx → Elt Ideal .f32) (t : Fin cfg1.N) (p : Fin 2000) (q : Fin 128) :
    max (a (((cfg1.win 0).blk t).view.emb (ix2 p q)) + b (((cfg1.win 1).blk t).view.emb (ix2 (0 : Fin 1) q))) 0
    = reluRows a b (((cfg1.win 2).blk t).view.emb (ix2 p q)) := by
  obtain ⟨e00, e01, e10, e11, e20, e21, -⟩ := idx1_facts t
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  unfold reluRows
  rw [h0, h1]
  rfl

/-- The output block's entry (p, q) at grid point `t` is row `2000 t + p`, column `q` of the array. -/
theorem blockrow1 (t : Fin cfg1.N) (t' : Fin 50) (ht : t'.val = t.val) (p : Fin 2000) (q : Fin 128) :
    ((cfg1.win 2).blk t).view.emb (ix2 p q) = ix2 (trow t' p) q := by
  obtain ⟨-, -, -, -, e20, e21, -⟩ := idx1_facts t
  funext a; apply Fin.ext
  match a with
  | ⟨0, _⟩ => show win1_2.index t (0 : Fin 2) * 2000 + 1 * p.val = t'.val * 2000 + p.val; omega
  | ⟨1, _⟩ => show win1_2.index t (1 : Fin 2) * 128 + 1 * q.val = q.val; omega

/-! ## The tile output array -/

/-- What grid point `t` writes back to the tile output array is block `t` of the whole-array function. -/
theorem flushed1_2_eq (c : Dev nD) (t : Fin cfg1.N) :
    (dat1 V c).flushed 2 t = ((cfg1.win 2).blk t).view.read (Elt Ideal) (reluRows (V c main_v47) (V c main_v48)) := by
  show (cfg1.win 2).cut (grid1.coords t) ((dat1 V c).after 2 t) = _
  rw [after1_2, val1_out2]
  funext j
  obtain ⟨p, q, rfl⟩ : ∃ (p : Fin 2000) (q : Fin 128), j = ix2 p q := ⟨j 0, j 1, eq_ix2 j⟩
  show k1_pay1 (iblk1 V c 0 t) (iblk1 V c 1 t) (ix2 p q)
    = reluRows (V c main_v47) (V c main_v48) (((cfg1.win 2).blk t).view.emb (ix2 p q))
  refine (val1_pay1 (iblk1 V c 0 t) (iblk1 V c 1 t) p q).trans ?_
  exact blockval1 (V c main_v47) (V c main_v48) t p q

theorem mem1_blk2 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v49_0).slice (win1_2.rect t)).set ↔ _
  rw [View.set_slice_whole, Rect.mem_set_unit]
  exact Iff.rfl

theorem idx1_onto : ∀ q0 : Fin 50, ∃ t : Fin cfg1.N, win1_2.index t = ![q0.val, 0] :=
  (by decide +kernel : ∀ q0 : Fin 50, ∃ t : Fin grid1.N, win1_2.index t = ![q0.val, 0])

/-- Every index of the tile output array is in the block of the grid point that holds its row. -/
theorem cover1_2 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx1_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem1_blk2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The tile output array after the region: max (input + bias row, 0), entry by entry. -/
theorem final1_2 (c : Dev nD) : (dat1 V c).arrAt 2 cfg1.N = reluRows (V c main_v47) (V c main_v48) :=
  (dat1 V c).arrAt_eq_of_cover 2 (reluRows (V c main_v47) (V c main_v48)) (fun t _ => flushed1_2_eq V c t) cover1_2

/-! ## The accumulators -/

/-- What grid point `t` adds to the first accumulator at column `q`: the sum of the tile output's column, -/
def tsum1 (c : Dev nD) (t : Fin cfg1.N) (q : Fin 128) : EReal :=
  ∑ r : Fin 2000, k1_pay1 (iblk1 V c 0 t) (iblk1 V c 1 t) (ix2 r q)
/-- and to the second: the sum of its squares. -/
def tsq1 (c : Dev nD) (t : Fin cfg1.N) (q : Fin 128) : EReal :=
  ∑ r : Fin 2000, k1_pay1 (iblk1 V c 0 t) (iblk1 V c 1 t) (ix2 r q) * k1_pay1 (iblk1 V c 0 t) (iblk1 V c 1 t) (ix2 r q)

/-- After grid point `n` the first accumulator holds the tiles' column sums added in order. -/
theorem accval1_0 (c : Dev nD) (q : Fin 128) : ∀ (n : ℕ) (hn : n < cfg1.N),
    (acc1 V c n hn).1 (ix2 (0 : Fin 1) q) = ∑ s : Fin (n + 1), tsum1 V c ⟨s.val, by have := s.isLt; omega⟩ q
  | 0, hn => by
    rw [Fin.sum_univ_one]
    show scA1_0 (iblk1 V c 0 ⟨0, hn⟩) (iblk1 V c 1 ⟨0, hn⟩) (ix2 (0 : Fin 1) q) = _
    rw [val1_scA0]
    exact val1_pay2 (iblk1 V c 0 ⟨0, hn⟩) (iblk1 V c 1 ⟨0, hn⟩) q
  | n + 1, hn => by
    rw [Fin.sum_univ_castSucc]
    show scB1_0 (iblk1 V c 0 ⟨n + 1, hn⟩) (iblk1 V c 1 ⟨n + 1, hn⟩) (acc1 V c n (Nat.lt_of_succ_lt hn)).1 (ix2 (0 : Fin 1) q) = _
    rw [val1_scB0, accval1_0 c q n (Nat.lt_of_succ_lt hn)]
    congr 1
    exact val1_pay2 (iblk1 V c 0 ⟨n + 1, hn⟩) (iblk1 V c 1 ⟨n + 1, hn⟩) q

/-- After grid point `n` the second accumulator holds the tiles' column sums of squares added in order. -/
theorem accval1_1 (c : Dev nD) (q : Fin 128) : ∀ (n : ℕ) (hn : n < cfg1.N),
    (acc1 V c n hn).2 (ix2 (0 : Fin 1) q) = ∑ s : Fin (n + 1), tsq1 V c ⟨s.val, by have := s.isLt; omega⟩ q
  | 0, hn => by
    rw [Fin.sum_univ_one]
    show scA1_1 (iblk1 V c 0 ⟨0, hn⟩) (iblk1 V c 1 ⟨0, hn⟩) (ix2 (0 : Fin 1) q) = _
    rw [val1_scA1]
    exact val1_pay3 (iblk1 V c 0 ⟨0, hn⟩) (iblk1 V c 1 ⟨0, hn⟩) q
  | n + 1, hn => by
    rw [Fin.sum_univ_castSucc]
    show scB1_1 (iblk1 V c 0 ⟨n + 1, hn⟩) (iblk1 V c 1 ⟨n + 1, hn⟩) (acc1 V c n (Nat.lt_of_succ_lt hn)).2 (ix2 (0 : Fin 1) q) = _
    rw [val1_scB1, accval1_1 c q n (Nat.lt_of_succ_lt hn)]
    congr 1
    exact val1_pay3 (iblk1 V c 0 ⟨n + 1, hn⟩) (iblk1 V c 1 ⟨n + 1, hn⟩) q

/-- A tile's contribution is the sum of the whole-array function over the tile's rows. -/
theorem tsum1_eq (c : Dev nD) (t : Fin cfg1.N) (t' : Fin 50) (ht : t'.val = t.val) (q : Fin 128) :
    tsum1 V c t q = ∑ r : Fin 2000, reluRows (V c main_v47) (V c main_v48) (ix2 (trow t' r) q) := by
  unfold tsum1
  refine Finset.sum_congr rfl fun r _ => ?_
  refine (val1_pay1 (iblk1 V c 0 t) (iblk1 V c 1 t) r q).trans ?_
  rw [← blockrow1 t t' ht r q]
  exact blockval1 (V c main_v47) (V c main_v48) t r q

theorem tsq1_eq (c : Dev nD) (t : Fin cfg1.N) (t' : Fin 50) (ht : t'.val = t.val) (q : Fin 128) :
    tsq1 V c t q = ∑ r : Fin 2000, reluRows (V c main_v47) (V c main_v48) (ix2 (trow t' r) q) * reluRows (V c main_v47) (V c main_v48) (ix2 (trow t' r) q) := by
  unfold tsq1
  refine Finset.sum_congr rfl fun r _ => ?_
  have e : k1_pay1 (iblk1 V c 0 t) (iblk1 V c 1 t) (ix2 r q) = reluRows (V c main_v47) (V c main_v48) (ix2 (trow t' r) q) := by
    refine (val1_pay1 (iblk1 V c 0 t) (iblk1 V c 1 t) r q).trans ?_
    rw [← blockrow1 t t' ht r q]
    exact blockval1 (V c main_v47) (V c main_v48) t r q
  rw [e]

/-! ## The two one-row output arrays -/

theorem mem1_blk3 (t : Fin cfg1.N) (i : S1x128.Idx) :
    i ∈ ((cfg1.win 3).blk t).view.set ↔ ∀ a : Fin 2, win1_3.index t a * S1x128.size a ≤ (i a).val ∧ (i a).val < win1_3.index t a * S1x128.size a + S1x128.size a := by
  show i ∈ ((View.whole main_v49_1).slice (win1_3.rect t)).set ↔ _
  rw [View.set_slice_whole, Rect.mem_set_unit]
  exact Iff.rfl

/-- The one write-back of this one-row output, at the last grid point, writes the accumulated sums. -/
theorem flushed1_3_eq (c : Dev nD) (t : Fin cfg1.N) (hf : (cfg1.win 3).flush t = true) :
    (dat1 V c).flushed 3 t = ((cfg1.win 3).blk t).view.read (Elt Ideal) (colSum (reluRows (V c main_v47) (V c main_v48))) := by
  have hN : cfg1.N = 50 := N_1
  have h49 : t.val = 49 := by have := (flush1_3 t).mp hf; have := t.isLt; omega
  obtain ⟨-, -, -, -, -, -, e30, e31, e40, e41⟩ := idx1_facts t
  show (cfg1.win 3).cut (grid1.coords t) ((dat1 V c).after 3 t) = _
  rw [after1_3, val1_out3]
  funext j
  obtain ⟨p, q, rfl⟩ : ∃ (p : Fin 1) (q : Fin 128), j = ix2 p q := ⟨j 0, j 1, eq_ix2 j⟩
  obtain rfl : p = 0 := Subsingleton.elim _ _
  have hq : ((((cfg1.win 3).blk t).view.emb (ix2 (0 : Fin 1) q)) 1) = q := by
    apply Fin.ext; show win1_3.index t (1 : Fin 2) * 128 + 1 * q.val = q.val; omega
  show (acc1 V c t.val t.isLt).1 (ix2 (0 : Fin 1) q) = colSum (reluRows (V c main_v47) (V c main_v48)) (((cfg1.win 3).blk t).view.emb (ix2 (0 : Fin 1) q))
  unfold colSum
  show _ = ∑ t' : Fin 50, ∑ r : Fin 2000, _
  rw [accval1_0 V c q t.val t.isLt]
  obtain ⟨n, hn⟩ := t
  simp only at h49
  subst h49
  refine Finset.sum_congr rfl fun s _ => ?_
  refine (tsum1_eq V c ⟨s.val, by have := s.isLt; omega⟩ s rfl q).trans ?_
  rw [hq]

theorem cover1_3 (i : S1x128.Idx) : ∃ t : Fin cfg1.N, (cfg1.win 3).flush t = true ∧ i ∈ ((cfg1.win 3).blk t).view.set := by
  have hi0 : (i 0).val < 1 := (i 0).isLt
  have hi1 : (i 1).val < 128 := (i 1).isLt
  have hN : cfg1.N = 50 := N_1
  obtain ⟨-, -, -, -, -, -, e30, e31, e40, e41⟩ := idx1_facts ⟨49, by omega⟩
  refine ⟨⟨49, by omega⟩, (flush1_3 ⟨49, by omega⟩).mpr rfl, ?_⟩
  rw [mem1_blk3]
  intro a
  match a with
  | ⟨0, _⟩ => show win1_3.index ⟨49, _⟩ (0 : Fin 2) * 1 ≤ (i 0).val ∧ (i 0).val < win1_3.index ⟨49, _⟩ (0 : Fin 2) * 1 + 1; omega
  | ⟨1, _⟩ => show win1_3.index ⟨49, _⟩ (1 : Fin 2) * 128 ≤ (i 1).val ∧ (i 1).val < win1_3.index ⟨49, _⟩ (1 : Fin 2) * 128 + 128; omega

/-- The first one-row output after the region: the column sums of the tile output array, tile by tile. -/
theorem final1_3 (c : Dev nD) : (dat1 V c).arrAt 3 cfg1.N = colSum (reluRows (V c main_v47) (V c main_v48)) :=
  (dat1 V c).arrAt_eq_of_cover 3 (colSum (reluRows (V c main_v47) (V c main_v48))) (fun t hf => flushed1_3_eq V c t hf) cover1_3

theorem mem1_blk4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v49_2).slice (win1_4.rect t)).set ↔ _
  rw [View.set_slice_whole, Rect.mem_set_unit]
  exact Iff.rfl

/-- The one write-back of this one-row output, at the last grid point, writes the accumulated sums. -/
theorem flushed1_4_eq (c : Dev nD) (t : Fin cfg1.N) (hf : (cfg1.win 4).flush t = true) :
    (dat1 V c).flushed 4 t = ((cfg1.win 4).blk t).view.read (Elt Ideal) (colSq (reluRows (V c main_v47) (V c main_v48))) := by
  have hN : cfg1.N = 50 := N_1
  have h49 : t.val = 49 := by have := (flush1_4 t).mp hf; have := t.isLt; omega
  obtain ⟨-, -, -, -, -, -, e30, e31, e40, e41⟩ := idx1_facts t
  show (cfg1.win 4).cut (grid1.coords t) ((dat1 V c).after 4 t) = _
  rw [after1_4, val1_out4]
  funext j
  obtain ⟨p, q, rfl⟩ : ∃ (p : Fin 1) (q : Fin 128), j = ix2 p q := ⟨j 0, j 1, eq_ix2 j⟩
  obtain rfl : p = 0 := Subsingleton.elim _ _
  have hq : ((((cfg1.win 4).blk t).view.emb (ix2 (0 : Fin 1) q)) 1) = q := by
    apply Fin.ext; show win1_4.index t (1 : Fin 2) * 128 + 1 * q.val = q.val; omega
  show (acc1 V c t.val t.isLt).2 (ix2 (0 : Fin 1) q) = colSq (reluRows (V c main_v47) (V c main_v48)) (((cfg1.win 4).blk t).view.emb (ix2 (0 : Fin 1) q))
  unfold colSq
  show _ = ∑ t' : Fin 50, ∑ r : Fin 2000, _
  rw [accval1_1 V c q t.val t.isLt]
  obtain ⟨n, hn⟩ := t
  simp only at h49
  subst h49
  refine Finset.sum_congr rfl fun s _ => ?_
  refine (tsq1_eq V c ⟨s.val, by have := s.isLt; omega⟩ s rfl q).trans ?_
  rw [hq]

theorem cover1_4 (i : S1x128.Idx) : ∃ t : Fin cfg1.N, (cfg1.win 4).flush t = true ∧ i ∈ ((cfg1.win 4).blk t).view.set := by
  have hi0 : (i 0).val < 1 := (i 0).isLt
  have hi1 : (i 1).val < 128 := (i 1).isLt
  have hN : cfg1.N = 50 := N_1
  obtain ⟨-, -, -, -, -, -, e30, e31, e40, e41⟩ := idx1_facts ⟨49, by omega⟩
  refine ⟨⟨49, by omega⟩, (flush1_4 ⟨49, by omega⟩).mpr rfl, ?_⟩
  rw [mem1_blk4]
  intro a
  match a with
  | ⟨0, _⟩ => show win1_4.index ⟨49, _⟩ (0 : Fin 2) * 1 ≤ (i 0).val ∧ (i 0).val < win1_4.index ⟨49, _⟩ (0 : Fin 2) * 1 + 1; omega
  | ⟨1, _⟩ => show win1_4.index ⟨49, _⟩ (1 : Fin 2) * 128 ≤ (i 1).val ∧ (i 1).val < win1_4.index ⟨49, _⟩ (1 : Fin 2) * 128 + 128; omega

/-- The second one-row output after the region: the column sums of the squares of the tile output array, tile by tile. -/
theorem final1_4 (c : Dev nD) : (dat1 V c).arrAt 4 cfg1.N = colSq (reluRows (V c main_v47) (V c main_v48)) :=
  (dat1 V c).arrAt_eq_of_cover 4 (colSq (reluRows (V c main_v47) (V c main_v48))) (fun t hf => flushed1_4_eq V c t hf) cover1_4

end Cert.KernelIdeal.Reg

end
-- ==== Proof.Br.BnFn.lean ====
import proofs.«168427_j26276609917010_1_alg».proof.Proof.Ref.Out
import proofs.«168427_j26276609917010_1_alg».proof.Proof.KI.ValCommon
import proofs.«168427_j26276609917010_1_alg».proof.Proof.Alg.Bn
import Idealize.ShloMosaic.Lib.IdealHost
import Idealize.ShloMosaic.Lib.Pipeline.Value

/-! The reference's bias-and-clamp and batch normalisation read entry by entry over the extended reals: a row vector
    repeated down 100000 rows, the clamp at zero, the column mean and variance as sums over the rows from an initial
    zero, and the normalised entry as the centred spelling of one column. -/

noncomputable section

namespace Cert.Br

open Idealize.ShloMosaic Idealize.ShloMosaic.ValueIdx
open Cert.ReferenceIdeal Cert.ReferenceIdeal.Gen Cert.ReferenceIdeal.RefRun Cert.KernelIdeal.Reg
open scoped BigOperators

/-- A vector of 128 repeated down the rows, at entry (i, j): its entry j. -/
theorem rows128_apply (b : Vec Ideal S128 .f32) (i : Fin 100000) (j : Fin 128) : rows128 b (ix2 i j) = b (ix1 j) := by
  unfold rows128
  refine (broadcastInDim_apply ![0, 1] bcast_S1x128_S100000x128_0_1 _ (ix2 i j) (ix2 (0 : Fin 1) j)
    (fun a => by match a with | ⟨0, _⟩ => rfl | ⟨1, _⟩ => rfl)).trans ?_
  exact broadcastInDim_apply ![1] bcast_S128_S1x128_1 b (ix2 (0 : Fin 1) j) (ix1 j) (fun a => by match a with | ⟨0, _⟩ => rfl)

/-- The clamp at zero, at any entry. -/
theorem relu128_apply (x : Vec Ideal S100000x128 .f32) (i : S100000x128.Idx) : relu128 x i = max (x i) 0 := by
  unfold relu128
  show max (x i) (broadcastInDim S100000x128 ![] bcast_S_S100000x128 (constant (F := Ideal) S_ .f32 0x00000000#32) i) = _
  rw [broadcastInDim_scalar_apply]
  show max (x i) (Ideal.ofBits .f32 0x00000000#32) = _
  rw [Ideal.ofBits_zero_f32]

/-- Bias and clamp, entry by entry: the one-row bias `bk` of the tiled spelling holds the vector `b`. -/
theorem reluRows_eq (a : Vec Ideal S100000x128 .f32) (bk : (⟨2, ![1, 128]⟩ : Shape).Idx → EReal) (b : Vec Ideal S128 .f32)
    (hb : ∀ q : Fin 128, bk (ix2 (0 : Fin 1) q) = b (ix1 q)) :
    reluRows a bk = relu128 (addf a (rows128 b)) := by
  funext i
  obtain ⟨p, q, rfl⟩ : ∃ (p : Fin 100000) (q : Fin 128), i = ix2 p q := ⟨i 0, i 1, eq_ix2 i⟩
  rw [relu128_apply]
  show max (a (ix2 p q) + bk (ix2 (0 : Fin 1) q)) 0 = max (a (ix2 p q) + rows128 b (ix2 p q)) 0
  rw [hb, rows128_apply]

/-- The sum over the rows of column j, from the initial zero. -/
theorem colSum0_apply (x : Vec Ideal S100000x128 .f32) (j : Fin 128) :
    Host.reduceAdd x (constant (F := Ideal) S_ .f32 0x00000000#32) reducesTo_S100000x128_S128_d0 h_S_ (ix1 j)
      = 0 + ∑ i : Fin 100000, x (ix2 i j) := by
  have hR : S100000x128.Reduces [0] S128 := by decide
  rw [hostReduceAdd_apply]
  refine (Ideal.hostReduceAdd_single reducesTo_S100000x128_S128_d0 hR x _ (ix1 j)).trans ?_
  refine congrArg₂ (· + ·) (show Ideal.ofBits .f32 0x00000000#32 = 0 from Ideal.ofBits_zero_f32)
    (Finset.sum_congr rfl fun i _ => congrArg x ?_)
  funext a; match a with | ⟨0, _⟩ => rfl | ⟨1, _⟩ => rfl

/-- The column mean at j. -/
theorem colMean_apply (r : Vec Ideal S100000x128 .f32) (j : Fin 128) :
    colMean r (ix1 j) = Cert.Alg.meanR (fun i => r (ix2 i j)) := by
  unfold colMean Cert.Alg.meanR
  show Ideal.div (Host.reduceAdd r (constant (F := Ideal) S_ .f32 0x00000000#32) reducesTo_S100000x128_S128_d0 h_S_ (ix1 j))
      (broadcastInDim S128 ![] bcast_S_S128 (constant (F := Ideal) S_ .f32 0x47C35000#32) (ix1 j)) = _
  rw [colSum0_apply, broadcastInDim_scalar_apply]
  rfl

/-- The column variance about the means `mu`, at j. -/
theorem colVar_apply (r : Vec Ideal S100000x128 .f32) (mu : Vec Ideal S128 .f32) (j : Fin 128) :
    colVar r mu (ix1 j) = Ideal.div (0 + ∑ i : Fin 100000, (r (ix2 i j) - mu (ix1 j)) * (r (ix2 i j) - mu (ix1 j))) Cert.Alg.Nf := by
  unfold colVar
  show Ideal.div (Host.reduceAdd (mulf (subf r (rows128 mu)) (subf r (rows128 mu))) (constant (F := Ideal) S_ .f32 0x00000000#32) reducesTo_S100000x128_S128_d0 h_S_ (ix1 j))
      (broadcastInDim S128 ![] bcast_S_S128 (constant (F := Ideal) S_ .f32 0x47C35000#32) (ix1 j)) = _
  rw [colSum0_apply, broadcastInDim_scalar_apply]
  refine congrArg₂ Ideal.div (congrArg (0 + ·) (Finset.sum_congr rfl fun i _ => ?_)) rfl
  show (r (ix2 i j) - rows128 mu (ix2 i j)) * (r (ix2 i j) - rows128 mu (ix2 i j)) = _
  rw [rows128_apply]

/-- Batch normalisation at entry (i, j): the centred spelling of column j. -/
theorem batchNorm_apply (r : Vec Ideal S100000x128 .f32) (g β : Vec Ideal S128 .f32) (i : Fin 100000) (j : Fin 128) :
    batchNorm r g β (ix2 i j) = Cert.Alg.bnR (fun i => r (ix2 i j)) (g (ix1 j)) (β (ix1 j)) i := by
  unfold batchNorm RefRun.normalize
  show rows128 g (ix2 i j) * (r (ix2 i j) - rows128 (colMean r) (ix2 i j))
      * rows128 (Host.rsqrt (addf (colVar r (colMean r)) (broadcastInDim S128 ![] bcast_S_S128 (constant (F := Ideal) S_ .f32 0x3727C5AC#32)))) (ix2 i j)
      + rows128 β (ix2 i j) = _
  rw [rows128_apply, rows128_apply, rows128_apply, rows128_apply]
  show g (ix1 j) * (r (ix2 i j) - colMean r (ix1 j))
      * Ideal.rsqrt (colVar r (colMean r) (ix1 j) + broadcastInDim S128 ![] bcast_S_S128 (constant (F := Ideal) S_ .f32 0x3727C5AC#32) (ix1 j))
      + β (ix1 j) = _
  rw [broadcastInDim_scalar_apply, colVar_apply, colMean_apply]
  rfl

end Cert.Br

end
-- ==== Proof.Br.B4.lean ====
import proofs.«168427_j26276609917010_1_alg».proof.Proof.KI.Run
import proofs.«168427_j26276609917010_1_alg».proof.Proof.KI.Val1
import proofs.«168427_j26276609917010_1_alg».proof.Proof.Br.BnFn

/-! Region 1's three arrays after the region, in the reference's terms: the tile output array is the reference's
    bias-and-clamp of the region's input array, and the two one-row arrays are its column sums and column sums of
    squares, tile by tile. -/

set_option maxRecDepth 16384

noncomputable section

namespace Cert.Br

open Idealize.ShloMosaic Idealize.ShloMosaic.TcCoe Idealize.SL.Sem Idealize.ShloMosaic.ValueIdx
open Cert.KernelIdeal.Reg Cert.ReferenceIdeal.RefRun

variable (m : (ℓ : Loc Cert.KernelIdeal.nD Cert.KernelIdeal.τ Cert.KernelIdeal.sig) → Buf (Elt Ideal) ℓ) (c : Dev Cert.KernelIdeal.nD)

/-- A vector of 128 laid out as one row reads, at column q, its entry q. -/
theorem reshape_row1_apply (v : Cert.KernelIdeal.S128.Idx → EReal) (q : Fin 128) :
    shapeCast Cert.KernelIdeal.S1x128 v Cert.KernelIdeal.Gen.shapeCasts_S128_S1x128 (ix2 (0 : Fin 1) q) = v (ix1 q) := by
  refine shapeCast_apply _ Cert.KernelIdeal.Gen.shapeCasts_S128_S1x128 (ix2 (0 : Fin 1) q) (ix1 q) ?_
  rw [Shape.rowMajor_val_one, Shape.rowMajor_val_two]; show q.val = 0 * 128 + q.val; omega

/-- The tile output array after region 1: the bias-and-clamp of the aggregated array, the bias `b` being what the
    one-row bias operand holds. -/
theorem b6_relu (b : Vec Ideal Cert.ReferenceIdeal.S128 .f32)
    (hb : ∀ q : Fin 128, W5 m c (Proc.devRef .tc Cert.KernelIdeal.main_v48) (ix2 (0 : Fin 1) q) = b (ix1 q)) :
    W6 m c (Proc.devRef .tc Cert.KernelIdeal.main_v49_0)
      = relu128 (addf (W5 m c (Proc.devRef .tc Cert.KernelIdeal.main_v47)) (rows128 b)) := by
  refine (W6_arr m c 2).trans ?_
  rw [final1_2]
  exact reluRows_eq _ _ b hb

/-- The same with the bias operand given as the reshaped vector. -/
theorem b6_relu' (b : Cert.KernelIdeal.S128.Idx → EReal)
    (h48 : W5 m c (Proc.devRef .tc Cert.KernelIdeal.main_v48) = shapeCast Cert.KernelIdeal.S1x128 b Cert.KernelIdeal.Gen.shapeCasts_S128_S1x128) :
    W6 m c (Proc.devRef .tc Cert.KernelIdeal.main_v49_0)
      = relu128 (addf (W5 m c (Proc.devRef .tc Cert.KernelIdeal.main_v47)) (rows128 b)) :=
  b6_relu m c b fun q => by rw [h48]; exact reshape_row1_apply b q

/-- The first one-row array after region 1: the column sums of the tile output array, tile by tile. -/
theorem b6_sum : W6 m c (Proc.devRef .tc Cert.KernelIdeal.main_v49_1) = colSum (W6 m c (Proc.devRef .tc Cert.KernelIdeal.main_v49_0)) := by
  rw [show W6 m c (Proc.devRef .tc Cert.KernelIdeal.main_v49_1) = _ from (W6_arr m c 3).trans (final1_3 _ c),
    show W6 m c (Proc.devRef .tc Cert.KernelIdeal.main_v49_0) = _ from (W6_arr m c 2).trans (final1_2 _ c)]

/-- The second: the column sums of its squares. -/
theorem b6_sq : W6 m c (Proc.devRef .tc Cert.KernelIdeal.main_v49_2) = colSq (W6 m c (Proc.devRef .tc Cert.KernelIdeal.main_v49_0)) := by
  rw [show W6 m c (Proc.devRef .tc Cert.KernelIdeal.main_v49_2) = _ from (W6_arr m c 4).trans (final1_4 _ c),
    show W6 m c (Proc.devRef .tc Cert.KernelIdeal.main_v49_0) = _ from (W6_arr m c 2).trans (final1_2 _ c)]

end Cert.Br

end
-- ==== Proof.Br.BnK.lean ====
import proofs.«168427_j26276609917010_1_alg».proof.Proof.Gen.KernelIdeal
import proofs.«168427_j26276609917010_1_alg».proof.Proof.Br.BnFn

/-! The scale-and-shift spelling of batch normalisation as the kernel program's host stretch computes it from the
    one-row column sums and column sums of squares: mean = sum / N, scale = g · rsqrt (sumsq / N − mean² + ε),
    shift = β − mean · scale; and its agreement, on real entries, with the reference's centred spelling. -/

set_option maxRecDepth 16384

noncomputable section

namespace Cert.Br

open Idealize.ShloMosaic Idealize.ShloMosaic.ValueIdx
open Cert.KernelIdeal Cert.KernelIdeal.Gen
open scoped BigOperators

/-- The column means from the one-row sums. -/
def kMean (S : FVec Ideal S1x128 .f32) : FVec Ideal S1x128 .f32 :=
  Host.divf S (broadcastInDim S1x128 ![] bcast_S_S1x128 (constant (F := Ideal) S_ .f32 0x47C35000#32))

/-- The scale row. -/
def kScale (S Q : FVec Ideal S1x128 .f32) (g : FVec Ideal S128 .f32) : FVec Ideal S1x128 .f32 :=
  mulf (broadcastInDim S1x128 ![1] bcast_S128_S1x128_1 g)
    (Host.rsqrt (addf (subf (Host.divf Q (broadcastInDim S1x128 ![] bcast_S_S1x128 (constant (F := Ideal) S_ .f32 0x47C35000#32)))
        (mulf (kMean S) (kMean S)))
      (broadcastInDim S1x128 ![] bcast_S_S1x128 (constant (F := Ideal) S_ .f32 0x3727C5AC#32))))

/-- The shift row. -/
def kShift (S Q : FVec Ideal S1x128 .f32) (g β : FVec Ideal S128 .f32) : FVec Ideal S1x128 .f32 :=
  subf (broadcastInDim S1x128 ![1] bcast_S128_S1x128_1 β) (mulf (kMean S) (kScale S Q g))

theorem row128_apply (g : FVec Ideal S128 .f32) (q : Fin 128) :
    broadcastInDim S1x128 ![1] bcast_S128_S1x128_1 g (ix2 (0 : Fin 1) q) = g (ix1 q) :=
  broadcastInDim_apply ![1] bcast_S128_S1x128_1 g (ix2 (0 : Fin 1) q) (ix1 q) (fun a => by match a with | ⟨0, _⟩ => rfl)

theorem kMean_apply (S : FVec Ideal S1x128 .f32) (q : Fin 128) :
    kMean S (ix2 (0 : Fin 1) q) = Ideal.div (S (ix2 (0 : Fin 1) q)) Cert.Alg.Nf := by
  unfold kMean
  show Ideal.div (S (ix2 (0 : Fin 1) q)) (broadcastInDim S1x128 ![] bcast_S_S1x128 (constant (F := Ideal) S_ .f32 0x47C35000#32) (ix2 (0 : Fin 1) q)) = _
  rw [broadcastInDim_scalar_apply]
  rfl

theorem kScale_apply (S Q : FVec Ideal S1x128 .f32) (g : FVec Ideal S128 .f32) (q : Fin 128) :
    kScale S Q g (ix2 (0 : Fin 1) q)
      = g (ix1 q) * Ideal.rsqrt (Ideal.div (Q (ix2 (0 : Fin 1) q)) Cert.Alg.Nf
          - Ideal.div (S (ix2 (0 : Fin 1) q)) Cert.Alg.Nf * Ideal.div (S (ix2 (0 : Fin 1) q)) Cert.Alg.Nf + Cert.Alg.εf) := by
  unfold kScale
  show broadcastInDim S1x128 ![1] bcast_S128_S1x128_1 g (ix2 (0 : Fin 1) q)
      * Ideal.rsqrt (Ideal.div (Q (ix2 (0 : Fin 1) q)) (broadcastInDim S1x128 ![] bcast_S_S1x128 (constant (F := Ideal) S_ .f32 0x47C35000#32) (ix2 (0 : Fin 1) q))
          - kMean S (ix2 (0 : Fin 1) q) * kMean S (ix2 (0 : Fin 1) q)
          + broadcastInDim S1x128 ![] bcast_S_S1x128 (constant (F := Ideal) S_ .f32 0x3727C5AC#32) (ix2 (0 : Fin 1) q)) = _
  rw [row128_apply, kMean_apply, broadcastInDim_scalar_apply, broadcastInDim_scalar_apply]
  rfl

theorem kShift_apply (S Q : FVec Ideal S1x128 .f32) (g β : FVec Ideal S128 .f32) (q : Fin 128) :
    kShift S Q g β (ix2 (0 : Fin 1) q)
      = β (ix1 q) - Ideal.div (S (ix2 (0 : Fin 1) q)) Cert.Alg.Nf * kScale S Q g (ix2 (0 : Fin 1) q) := by
  unfold kShift
  show broadcastInDim S1x128 ![1] bcast_S128_S1x128_1 β (ix2 (0 : Fin 1) q)
      - kMean S (ix2 (0 : Fin 1) q) * kScale S Q g (ix2 (0 : Fin 1) q) = _
  rw [row128_apply, kMean_apply]

/-- Scale and shift from the tile-by-tile column sums of an array of reals give the reference's batch normalisation. -/
theorem affine_bn (H : FVec Ideal S100000x128 .f32) (g β : FVec Ideal S128 .f32)
    (hH : ∀ i, Cert.Alg.IsReal (H i)) (hg : ∀ j, Cert.Alg.IsReal (g j)) (hβ : ∀ j, Cert.Alg.IsReal (β j))
    (p : Fin 100000) (q : Fin 128) :
    H (ix2 p q) * kScale (Cert.KernelIdeal.Reg.colSum H) (Cert.KernelIdeal.Reg.colSq H) g (ix2 (0 : Fin 1) q)
        + kShift (Cert.KernelIdeal.Reg.colSum H) (Cert.KernelIdeal.Reg.colSq H) g β (ix2 (0 : Fin 1) q)
      = Cert.ReferenceIdeal.RefRun.batchNorm (F := Ideal) H g β (ix2 p q) := by
  rw [batchNorm_apply, ← Cert.Alg.bnK_eq_bnR (fun i => H (ix2 i q)) (fun i => hH _) (hg _) (hβ _) p]
  rw [kShift_apply, kScale_apply]
  rfl

end Cert.Br

end
-- ==== Proof.Br.B6.lean ====
import proofs.«168427_j26276609917010_1_alg».proof.Proof.KI.Keep
import proofs.«168427_j26276609917010_1_alg».proof.Proof.KI.Val2
import proofs.«168427_j26276609917010_1_alg».proof.Proof.Br.B4
import proofs.«168427_j26276609917010_1_alg».proof.Proof.Br.BnK
import Idealize.ShloMosaic.Lib.StableHlo.Run

/-! The normalised array after region 2: the host stretch before it turns the one-row sums into a scale row and a
    shift row, the region applies them entry by entry, and on real entries the result is the reference's batch
    normalisation of the clamped array. -/

set_option maxRecDepth 16384

noncomputable section

namespace Cert.Br

open Idealize.ShloMosaic Idealize.ShloMosaic.TcCoe Idealize.SL.Sem Idealize.ShloMosaic.ValueIdx Idealize.ShloMosaic.StableHlo
open Cert.KernelIdeal Cert.KernelIdeal.Gen Cert.KernelIdeal.Reg

variable (m : (ℓ : Loc nD τ sig) → Buf (Elt Ideal) ℓ) (c : Dev nD)

/-- The scale row the host stretch leaves, -/
theorem b8_scale : W7 m c (Proc.devRef .tc main_v60)
    = kScale (W6 m c (Proc.devRef .tc main_v49_1)) (W6 m c (Proc.devRef .tc main_v49_2)) (W6 m c (Proc.devRef .tc main_arg7)) := by
  show StableHlo.after hostOps2 (W6 m c) _ = _
  after_results_simp
  rfl

/-- and the shift row. -/
theorem b8_shift : W7 m c (Proc.devRef .tc main_v63)
    = kShift (W6 m c (Proc.devRef .tc main_v49_1)) (W6 m c (Proc.devRef .tc main_v49_2)) (W6 m c (Proc.devRef .tc main_arg7)) (W6 m c (Proc.devRef .tc main_arg8)) := by
  show StableHlo.after hostOps2 (W6 m c) _ = _
  after_results_simp
  rfl

/-- The normalised array: the reference's batch normalisation of the clamped array, when that array's entries and the
    two parameter vectors' are real. -/
theorem b8_bn (hH : ∀ i, Cert.Alg.IsReal (W6 m c (Proc.devRef .tc main_v49_0) i))
    (hg : ∀ j, Cert.Alg.IsReal (W6 m c (Proc.devRef .tc main_arg7) j)) (hβ : ∀ j, Cert.Alg.IsReal (W6 m c (Proc.devRef .tc main_arg8) j)) :
    W8 m c (Proc.devRef .tc main_v64)
      = Cert.ReferenceIdeal.RefRun.batchNorm (F := Ideal) (W6 m c (Proc.devRef .tc main_v49_0)) (W6 m c (Proc.devRef .tc main_arg7)) (W6 m c (Proc.devRef .tc main_arg8)) := by
  refine (W8_arr m c 3).trans ?_
  rw [final2]
  have h49 : W7 m c (Proc.devRef .tc main_v49_0) = W6 m c (Proc.devRef .tc main_v49_0) := keep_W7 m c main_v49_0 (by decide)
  show G2 (W7 m c (Proc.devRef .tc main_v49_0)) (W7 m c (Proc.devRef .tc main_v60)) (W7 m c (Proc.devRef .tc main_v63)) = _
  rw [h49, b8_scale, b8_shift, b6_sum, b6_sq]
  funext i
  obtain ⟨p, q, rfl⟩ : ∃ (p : Fin 100000) (q : Fin 128), i = ix2 p q := ⟨i 0, i 1, eq_ix2 i⟩
  exact affine_bn (W6 m c (Proc.devRef .tc main_v49_0)) (W6 m c (Proc.devRef .tc main_arg7)) (W6 m c (Proc.devRef .tc main_arg8)) hH hg hβ p q

end Cert.Br

end
-- ==== Proof.Br.Chain1.lean ====
/-
  The first layer on the kernel program's side, boundary by boundary: the dense product, the aggregation along the
  edges, the bias and the cut at zero with its column sums, and the normalisation; it is the reference's first layer of
  the same arguments.
-/
import proofs.«168427_j26276609917010_1_alg».proof.Proof.KI.Move
import proofs.«168427_j26276609917010_1_alg».proof.Proof.Br.Setup
import proofs.«168427_j26276609917010_1_alg».proof.Proof.Br.Dense
import proofs.«168427_j26276609917010_1_alg».proof.Proof.Br.Shared
import proofs.«168427_j26276609917010_1_alg».proof.Proof.Br.B6
import proofs.«168427_j26276609917010_1_alg».proof.Proof.Br.RealConv
import Idealize.ShloMosaic.Lib.Pipeline.Value
import Idealize.ShloMosaic.Lib.ValueIdx
import Idealize.ShloMosaic.PureOps.Ideal.Laws

set_option maxRecDepth 16384

noncomputable section

namespace Cert.Br

open Idealize.ShloMosaic Idealize.ShloMosaic.TcCoe Idealize.SL.Sem Idealize.ShloMosaic.StableHlo
open Cert.KernelIdeal.Reg

variable (m : KM) (c : Dev Cert.KernelIdeal.nD)

theorem zero33_term : W3 m c (Proc.devRef .tc Cert.KernelIdeal.main_v33)
    = shapeCast Cert.KernelIdeal.S1x128 (broadcastInDim Cert.KernelIdeal.S128 ![] Cert.KernelIdeal.Gen.bcast_S_S128 (constant (F := Ideal) Cert.KernelIdeal.S_ .f32 0#32)) Cert.KernelIdeal.Gen.shapeCasts_S128_S1x128 := by
  show after Cert.KernelIdeal.Gen.hostOps0_2 (W2 m c) _ = _
  after_results_simp
  rfl

theorem zero33 (i : Cert.KernelIdeal.S1x128.Idx) : (W3 m c (Proc.devRef .tc Cert.KernelIdeal.main_v33) : FVec Ideal Cert.KernelIdeal.S1x128 .f32) i = (0 : Elt Ideal .f32) := by
  rw [zero33_term]
  show Ideal.ofBits .f32 0x00000000#32 = 0
  exact Ideal.ofBits_zero_f32

/-- The first dense layer: region 0's array is the host's product of the two argument arrays. -/
theorem dense1 : W4 m c (Proc.devRef .tc Cert.KernelIdeal.main_v34)
    = Host.dotGeneral (F := Ideal) (φ₁ := .f32) (φ₂ := .f32) Cert.ReferenceIdeal.dot_S100000x200_S200x128_S100000x128_1_0_0_1_n_n none
        (m ((c : Thread Cert.KernelIdeal.nD Cert.KernelIdeal.τ).loc Cert.KernelIdeal.main_arg0)) (m ((c : Thread Cert.KernelIdeal.nD Cert.KernelIdeal.τ).loc Cert.KernelIdeal.main_arg3)) := by
  have h := W4_arr m c 3
  have e := region0_eq_dot (atTc (W3 m)) c (zero33 m c)
  dsimp only [atTc] at e
  rw [W3_launch m c Cert.KernelIdeal.main_arg0 (by decide) (by decide) (by decide), W3_launch m c Cert.KernelIdeal.main_arg3 (by decide) (by decide) (by decide)] at e
  exact h.trans e

/-- The first convolution: region 1's tile output array is the reference's aggregation, bias and cut at zero of the
    dense product of the arguments. -/
theorem conv1 : W6 m c (Proc.devRef .tc Cert.KernelIdeal.main_v49_0)
    = Cert.ReferenceIdeal.RefRun.convRelu (F := Ideal)
        (Host.dotGeneral (F := Ideal) (φ₁ := .f32) (φ₂ := .f32) Cert.ReferenceIdeal.dot_S100000x200_S200x128_S100000x128_1_0_0_1_n_n none (m ((c : Thread Cert.KernelIdeal.nD Cert.KernelIdeal.τ).loc Cert.KernelIdeal.main_arg0)) (m ((c : Thread Cert.KernelIdeal.nD Cert.KernelIdeal.τ).loc Cert.KernelIdeal.main_arg3)))
        (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) := by
  rw [b6_relu' m c (W0 m c (Proc.devRef .tc Cert.KernelIdeal.main_arg4)) (bias1 m c), agg1, dense1]
  rfl

/-- The first layer: region 2's array is the reference's first layer of the arguments, every float argument's entries
    being real. -/
theorem chain1 (hre : RealArgs m c) : W8 m c (Proc.devRef .tc Cert.KernelIdeal.main_v64)
    = Cert.ReferenceIdeal.RefRun.layer1 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg7)) (m ((c : Thread Cert.KernelIdeal.nD Cert.KernelIdeal.τ).loc Cert.KernelIdeal.main_arg8)) := by
  have h6 := conv1 m c
  have hH : ∀ i, Cert.Alg.IsReal (W6 m c (Proc.devRef .tc Cert.KernelIdeal.main_v49_0) i) := by
    rw [h6]
    exact isReal_conv1 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) hre.r0 hre.r2 hre.r3 hre.r4
  have e7 : W6 m c (Proc.devRef .tc Cert.KernelIdeal.main_arg7) = (m ((c : Thread Cert.KernelIdeal.nD Cert.KernelIdeal.τ).loc Cert.KernelIdeal.main_arg7)) := W6_launch m c Cert.KernelIdeal.main_arg7 (by decide) (by decide) (by decide) (by decide) (by decide) (by decide)
  have e8 : W6 m c (Proc.devRef .tc Cert.KernelIdeal.main_arg8) = (m ((c : Thread Cert.KernelIdeal.nD Cert.KernelIdeal.τ).loc Cert.KernelIdeal.main_arg8)) := W6_launch m c Cert.KernelIdeal.main_arg8 (by decide) (by decide) (by decide) (by decide) (by decide) (by decide)
  rw [b8_bn m c hH (by rw [e7]; exact hre.r7) (by rw [e8]; exact hre.r8), h6, e7, e8]
  rfl

end Cert.Br

end
-- ==== Proof.KI.Val4Pay.lean ====
import proofs.«168427_j26276609917010_1_alg».proof.Proof.KI.Reg4Run
import Idealize.ShloMosaic.Lib.Pipeline.Value
import Idealize.ShloMosaic.Lib.ValueIdx
import Idealize.ShloMosaic.PureOps.Ideal.Laws

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! # Region 4's body at the ideal numbers, entry by entry

The tile output's entry (p, q) is max (tile (p, q) + bias q, 0); the sums a grid point contributes to the two
accumulators at column q are the sums over the tile's 2000 rows of that entry and of its square. -/

theorem hz4 : (![0, 0] : Fin 2 → Nat) = fun _ => 0 := funext fun a => by fin_cases a <;> rfl

/-- The tile output at row `p`, column `q`. -/
theorem val4_pay1 (x0 : Vec Ideal S2000x128 .f32) (x1 : Vec Ideal S1x128 .f32) (p : Fin 2000) (q : Fin 128) :
    k4_pay1 x0 x1 (ix2 p q) = max (x0 (ix2 p q) + x1 (ix2 (0 : Fin 1) q)) 0 := by
  have e0 : shapeCast S2000x128 x0 shapeCasts_S2000x128_S2000x128 = x0 := shapeCast_self _ _
  have e1 : broadcastTo S2000x128 (shapeCast S1x128 x1 shapeCasts_S1x128_S1x128) broadcasts_S1x128_S2000x128 (ix2 p q) = x1 (ix2 (0 : Fin 1) q) := by
    rw [shapeCast_self]
    exact broadcastTo_apply x1 _ (ix2 p q) (ix2 (0 : Fin 1) q) (fun a => by match a with | ⟨0, _⟩ => rfl | ⟨1, _⟩ => rfl)
  unfold k4_pay1
  show max (shapeCast S2000x128 x0 shapeCasts_S2000x128_S2000x128 (ix2 p q)
      + broadcastTo S2000x128 (shapeCast S1x128 x1 shapeCasts_S1x128_S1x128) broadcasts_S1x128_S2000x128 (ix2 p q))
      (Ideal.ofBits .f32 0x00000000#32) = _
  rw [e0, e1, Ideal.ofBits_zero_f32]

/-- A one-row result of a sum over the tile's rows, read at column `q`. -/
theorem val4_colsum (v : FVec Ideal S2000x128 .f32) (q : Fin 128) :
    shapeCast S1x128 (multiReduction .add [0] S128 v 0x00000000#32 reduces_S2000x128_S128 (.inl rfl) rfl) shapeCasts_S128_S1x128 (ix2 (0 : Fin 1) q)
      = ∑ r : Fin 2000, v (ix2 r q) := by
  refine (shapeCast_apply _ shapeCasts_S128_S1x128 (ix2 (0 : Fin 1) q) (ix1 q) ?_).trans ?_
  · rw [Shape.rowMajor_val_one, Shape.rowMajor_val_two]; show q.val = 0 * 128 + q.val; omega
  · refine (Ideal.multiReduction_add_single v 0x00000000#32 reduces_S2000x128_S128 (.inl rfl) rfl (ix1 q)).trans ?_
    refine Finset.sum_congr rfl fun r _ => congrArg v ?_
    funext a; match a with | ⟨0, _⟩ => rfl | ⟨1, _⟩ => rfl

/-- The tile's column sum at column `q`. -/
theorem val4_pay2 (x0 : Vec Ideal S2000x128 .f32) (x1 : Vec Ideal S1x128 .f32) (q : Fin 128) :
    k4_pay2 x0 x1 (ix2 (0 : Fin 1) q) = ∑ r : Fin 2000, k4_pay1 x0 x1 (ix2 r q) := by
  unfold k4_pay2
  exact val4_colsum (k4_pay1 x0 x1) q

/-- The tile's column sum of squares at column `q`. -/
theorem val4_pay3 (x0 : Vec Ideal S2000x128 .f32) (x1 : Vec Ideal S1x128 .f32) (q : Fin 128) :
    k4_pay3 x0 x1 (ix2 (0 : Fin 1) q) = ∑ r : Fin 2000, k4_pay1 x0 x1 (ix2 r q) * k4_pay1 x0 x1 (ix2 r q) := by
  unfold k4_pay3
  exact val4_colsum (mulf (k4_pay1 x0 x1) (k4_pay1 x0 x1)) q

theorem val4_pay4 (x0 : Vec Ideal S2000x128 .f32) (x1 : Vec Ideal S1x128 .f32) : k4_pay4 x0 x1 = k4_pay2 x0 x1 := by
  unfold k4_pay4; exact shapeCast_self _ _
theorem val4_pay5 (x0 : Vec Ideal S2000x128 .f32) (x1 : Vec Ideal S1x128 .f32) : k4_pay5 x0 x1 = k4_pay3 x0 x1 := by
  unfold k4_pay5; exact shapeCast_self _ _
theorem val4_pay6 (x0 : Vec Ideal S2000x128 .f32) (x1 s : Vec Ideal S1x128 .f32) (j : S1x128.Idx) :
    k4_pay6 x0 x1 s j = s j + k4_pay2 x0 x1 j := by
  unfold k4_pay6
  show shapeCast S1x128 (addf s (k4_pay2 x0 x1)) shapeCasts_S1x128_S1x128 j = _
  rw [shapeCast_self]; rfl
theorem val4_pay7 (x0 : Vec Ideal S2000x128 .f32) (x1 s : Vec Ideal S1x128 .f32) (j : S1x128.Idx) :
    k4_pay7 x0 x1 s j = s j + k4_pay3 x0 x1 j := by
  unfold k4_pay7
  show shapeCast S1x128 (addf s (k4_pay3 x0 x1)) shapeCasts_S1x128_S1x128 j = _
  rw [shapeCast_self]; rfl

/-! ## What the body's named results are, as functions -/

theorem val4_out2 (x0 : Vec Ideal S2000x128 .f32) (x1 : Vec Ideal S1x128 .f32) : out4_2 x0 x1 = k4_pay1 x0 x1 := by
  unfold out4_2
  rw [View.canon_unit_zero hz4]
  simp only [View.ld_unit_zero (S := S2000x128) hz4, View.ld_unit_zero (S := S1x128) hz4]
theorem val4_scA0 (x0 : Vec Ideal S2000x128 .f32) (x1 : Vec Ideal S1x128 .f32) : scA4_0 x0 x1 = k4_pay2 x0 x1 := by
  unfold scA4_0
  rw [View.canon_unit_zero hz4]
  simp only [View.ld_unit_zero (S := S2000x128) hz4, View.ld_unit_zero (S := S1x128) hz4, val4_pay4]
theorem val4_scA1 (x0 : Vec Ideal S2000x128 .f32) (x1 : Vec Ideal S1x128 .f32) : scA4_1 x0 x1 = k4_pay3 x0 x1 := by
  unfold scA4_1
  rw [View.canon_unit_zero hz4]
  simp only [View.ld_unit_zero (S := S2000x128) hz4, View.ld_unit_zero (S := S1x128) hz4, val4_pay5]
theorem val4_scB0 (x0 : Vec Ideal S2000x128 .f32) (x1 s : Vec Ideal S1x128 .f32) (j : S1x128.Idx) :
    scB4_0 x0 x1 s j = s j + k4_pay2 x0 x1 j := by
  unfold scB4_0
  rw [View.canon_unit_zero hz4]
  simp only [View.ld_unit_zero (S := S2000x128) hz4, View.ld_unit_zero (S := S1x128) hz4]
  exact val4_pay6 x0 x1 s j
theorem val4_scB1 (x0 : Vec Ideal S2000x128 .f32) (x1 s : Vec Ideal S1x128 .f32) (j : S1x128.Idx) :
    scB4_1 x0 x1 s j = s j + k4_pay3 x0 x1 j := by
  unfold scB4_1
  rw [View.canon_unit_zero hz4]
  simp only [View.ld_unit_zero (S := S2000x128) hz4, View.ld_unit_zero (S := S1x128) hz4]
  exact val4_pay7 x0 x1 s j
theorem val4_out3 (s : Vec Ideal S1x128 .f32) : out4_3 s = s := by
  unfold out4_3
  rw [View.canon_unit_zero hz4]
  exact View.ld_unit_zero (S := S1x128) hz4 _ s
theorem val4_out4 (s : Vec Ideal S1x128 .f32) : out4_4 s = s := by
  unfold out4_4
  rw [View.canon_unit_zero hz4]
  exact View.ld_unit_zero (S := S1x128) hz4 _ s

end Cert.KernelIdeal.Reg

end
-- ==== Proof.KI.Val4.lean ====
import proofs.«168427_j26276609917010_1_alg».proof.Proof.KI.Reg4
import proofs.«168427_j26276609917010_1_alg».proof.Proof.KI.Val4Pay
import proofs.«168427_j26276609917010_1_alg».proof.Proof.KI.ValCommon
import Idealize.ShloMosaic.Lib.Pipeline.Value
import Idealize.ShloMosaic.Lib.ValueIdx
import Idealize.ShloMosaic.PureOps.Ideal.Laws

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! # Region 4's three output arrays at the ideal numbers

After the region has run over its 50 grid points: the tile output array is max (input + bias row, 0) entry by entry,
and the two one-row outputs are the column sums of that array and of its squares, added tile by tile in the grid's order. -/

variable (V : (c : Dev nD) → (b : Ref sig .tc) → Buf (Elt Ideal) ((c : Thread nD τ).loc b))

/-- The block index maps over the grid: the tile windows are at block row `t`, the one-row windows stay put. -/
theorem idx4_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Entry (p, q) of the tile at grid point `t`, read through the windows, is the whole-array function at the
    output block's entry (p, q). -/
theorem blockval4 (a : S100000x128.Idx → Elt Ideal .f32) (b : S1x128.Idx → Elt Ideal .f32) (t : Fin cfg4.N) (p : Fin 2000) (q : Fin 128) :
    max (a (((cfg4.win 0).blk t).view.emb (ix2 p q)) + b (((cfg4.win 1).blk t).view.emb (ix2 (0 : Fin 1) q))) 0
    = reluRows a b (((cfg4.win 2).blk t).view.emb (ix2 p q)) := by
  obtain ⟨e00, e01, e10, e11, e20, e21, -⟩ := idx4_facts t
  have h0 : ((cfg4.win 0).blk t).view.emb (ix2 p q) = ((cfg4.win 2).blk t).view.emb (ix2 p q) := by
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * q.val = win4_2.index t (1 : Fin 2) * 128 + 1 * q.val; omega
  have h1 : ((cfg4.win 1).blk t).view.emb (ix2 (0 : Fin 1) q) = ix2 (0 : Fin 1) ((((cfg4.win 2).blk t).view.emb (ix2 p q)) 1) := by
    funext a; apply Fin.ext
    match a with
    | ⟨0, _⟩ => show win4_1.index t (0 : Fin 2) * 1 + 1 * 0 = 0; omega
    | ⟨1, _⟩ => show win4_1.index t (1 : Fin 2) * 128 + 1 * q.val = win4_2.index t (1 : Fin 2) * 128 + 1 * q.val; omega
  unfold reluRows
  rw [h0, h1]
  rfl

/-- The output block's entry (p, q) at grid point `t` is row `2000 t + p`, column `q` of the array. -/
theorem blockrow4 (t : Fin cfg4.N) (t' : Fin 50) (ht : t'.val = t.val) (p : Fin 2000) (q : Fin 128) :
    ((cfg4.win 2).blk t).view.emb (ix2 p q) = ix2 (trow t' p) q := by
  obtain ⟨-, -, -, -, e20, e21, -⟩ := idx4_facts t
  funext a; apply Fin.ext
  match a with
  | ⟨0, _⟩ => show win4_2.index t (0 : Fin 2) * 2000 + 1 * p.val = t'.val * 2000 + p.val; omega
  | ⟨1, _⟩ => show win4_2.index t (1 : Fin 2) * 128 + 1 * q.val = q.val; omega

/-! ## The tile output array -/

/-- What grid point `t` writes back to the tile output array is block `t` of the whole-array function. -/
theorem flushed4_2_eq (c : Dev nD) (t : Fin cfg4.N) :
    (dat4 V c).flushed 2 t = ((cfg4.win 2).blk t).view.read (Elt Ideal) (reluRows (V c main_v80) (V c main_v81)) := by
  show (cfg4.win 2).cut (grid4.coords t) ((dat4 V c).after 2 t) = _
  rw [after4_2, val4_out2]
  funext j
  obtain ⟨p, q, rfl⟩ : ∃ (p : Fin 2000) (q : Fin 128), j = ix2 p q := ⟨j 0, j 1, eq_ix2 j⟩
  show k4_pay1 (iblk4 V c 0 t) (iblk4 V c 1 t) (ix2 p q)
    = reluRows (V c main_v80) (V c main_v81) (((cfg4.win 2).blk t).view.emb (ix2 p q))
  refine (val4_pay1 (iblk4 V c 0 t) (iblk4 V c 1 t) p q).trans ?_
  exact blockval4 (V c main_v80) (V c main_v81) t p q

theorem mem4_blk2 (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v82_0).slice (win4_2.rect t)).set ↔ _
  rw [View.set_slice_whole, Rect.mem_set_unit]
  exact Iff.rfl

theorem idx4_onto : ∀ q0 : Fin 50, ∃ t : Fin cfg4.N, win4_2.index t = ![q0.val, 0] :=
  (by decide +kernel : ∀ q0 : Fin 50, ∃ t : Fin grid4.N, win4_2.index t = ![q0.val, 0])

/-- Every index of the tile output array is in the block of the grid point that holds its row. -/
theorem cover4_2 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx4_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem4_blk2]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The tile output array after the region: max (input + bias row, 0), entry by entry. -/
theorem final4_2 (c : Dev nD) : (dat4 V c).arrAt 2 cfg4.N = reluRows (V c main_v80) (V c main_v81) :=
  (dat4 V c).arrAt_eq_of_cover 2 (reluRows (V c main_v80) (V c main_v81)) (fun t _ => flushed4_2_eq V c t) cover4_2

/-! ## The accumulators -/

/-- What grid point `t` adds to the first accumulator at column `q`: the sum of the tile output's column, -/
def tsum4 (c : Dev nD) (t : Fin cfg4.N) (q : Fin 128) : EReal :=
  ∑ r : Fin 2000, k4_pay1 (iblk4 V c 0 t) (iblk4 V c 1 t) (ix2 r q)
/-- and to the second: the sum of its squares. -/
def tsq4 (c : Dev nD) (t : Fin cfg4.N) (q : Fin 128) : EReal :=
  ∑ r : Fin 2000, k4_pay1 (iblk4 V c 0 t) (iblk4 V c 1 t) (ix2 r q) * k4_pay1 (iblk4 V c 0 t) (iblk4 V c 1 t) (ix2 r q)

/-- After grid point `n` the first accumulator holds the tiles' column sums added in order. -/
theorem accval4_0 (c : Dev nD) (q : Fin 128) : ∀ (n : ℕ) (hn : n < cfg4.N),
    (acc4 V c n hn).1 (ix2 (0 : Fin 1) q) = ∑ s : Fin (n + 1), tsum4 V c ⟨s.val, by have := s.isLt; omega⟩ q
  | 0, hn => by
    rw [Fin.sum_univ_one]
    show scA4_0 (iblk4 V c 0 ⟨0, hn⟩) (iblk4 V c 1 ⟨0, hn⟩) (ix2 (0 : Fin 1) q) = _
    rw [val4_scA0]
    exact val4_pay2 (iblk4 V c 0 ⟨0, hn⟩) (iblk4 V c 1 ⟨0, hn⟩) q
  | n + 1, hn => by
    rw [Fin.sum_univ_castSucc]
    show scB4_0 (iblk4 V c 0 ⟨n + 1, hn⟩) (iblk4 V c 1 ⟨n + 1, hn⟩) (acc4 V c n (Nat.lt_of_succ_lt hn)).1 (ix2 (0 : Fin 1) q) = _
    rw [val4_scB0, accval4_0 c q n (Nat.lt_of_succ_lt hn)]
    congr 1
    exact val4_pay2 (iblk4 V c 0 ⟨n + 1, hn⟩) (iblk4 V c 1 ⟨n + 1, hn⟩) q

/-- After grid point `n` the second accumulator holds the tiles' column sums of squares added in order. -/
theorem accval4_1 (c : Dev nD) (q : Fin 128) : ∀ (n : ℕ) (hn : n < cfg4.N),
    (acc4 V c n hn).2 (ix2 (0 : Fin 1) q) = ∑ s : Fin (n + 1), tsq4 V c ⟨s.val, by have := s.isLt; omega⟩ q
  | 0, hn => by
    rw [Fin.sum_univ_one]
    show scA4_1 (iblk4 V c 0 ⟨0, hn⟩) (iblk4 V c 1 ⟨0, hn⟩) (ix2 (0 : Fin 1) q) = _
    rw [val4_scA1]
    exact val4_pay3 (iblk4 V c 0 ⟨0, hn⟩) (iblk4 V c 1 ⟨0, hn⟩) q
  | n + 1, hn => by
    rw [Fin.sum_univ_castSucc]
    show scB4_1 (iblk4 V c 0 ⟨n + 1, hn⟩) (iblk4 V c 1 ⟨n + 1, hn⟩) (acc4 V c n (Nat.lt_of_succ_lt hn)).2 (ix2 (0 : Fin 1) q) = _
    rw [val4_scB1, accval4_1 c q n (Nat.lt_of_succ_lt hn)]
    congr 1
    exact val4_pay3 (iblk4 V c 0 ⟨n + 1, hn⟩) (iblk4 V c 1 ⟨n + 1, hn⟩) q

/-- A tile's contribution is the sum of the whole-array function over the tile's rows. -/
theorem tsum4_eq (c : Dev nD) (t : Fin cfg4.N) (t' : Fin 50) (ht : t'.val = t.val) (q : Fin 128) :
    tsum4 V c t q = ∑ r : Fin 2000, reluRows (V c main_v80) (V c main_v81) (ix2 (trow t' r) q) := by
  unfold tsum4
  refine Finset.sum_congr rfl fun r _ => ?_
  refine (val4_pay1 (iblk4 V c 0 t) (iblk4 V c 1 t) r q).trans ?_
  rw [← blockrow4 t t' ht r q]
  exact blockval4 (V c main_v80) (V c main_v81) t r q

theorem tsq4_eq (c : Dev nD) (t : Fin cfg4.N) (t' : Fin 50) (ht : t'.val = t.val) (q : Fin 128) :
    tsq4 V c t q = ∑ r : Fin 2000, reluRows (V c main_v80) (V c main_v81) (ix2 (trow t' r) q) * reluRows (V c main_v80) (V c main_v81) (ix2 (trow t' r) q) := by
  unfold tsq4
  refine Finset.sum_congr rfl fun r _ => ?_
  have e : k4_pay1 (iblk4 V c 0 t) (iblk4 V c 1 t) (ix2 r q) = reluRows (V c main_v80) (V c main_v81) (ix2 (trow t' r) q) := by
    refine (val4_pay1 (iblk4 V c 0 t) (iblk4 V c 1 t) r q).trans ?_
    rw [← blockrow4 t t' ht r q]
    exact blockval4 (V c main_v80) (V c main_v81) t r q
  rw [e]

/-! ## The two one-row output arrays -/

theorem mem4_blk3 (t : Fin cfg4.N) (i : S1x128.Idx) :
    i ∈ ((cfg4.win 3).blk t).view.set ↔ ∀ a : Fin 2, win4_3.index t a * S1x128.size a ≤ (i a).val ∧ (i a).val < win4_3.index t a * S1x128.size a + S1x128.size a := by
  show i ∈ ((View.whole main_v82_1).slice (win4_3.rect t)).set ↔ _
  rw [View.set_slice_whole, Rect.mem_set_unit]
  exact Iff.rfl

/-- The one write-back of this one-row output, at the last grid point, writes the accumulated sums. -/
theorem flushed4_3_eq (c : Dev nD) (t : Fin cfg4.N) (hf : (cfg4.win 3).flush t = true) :
    (dat4 V c).flushed 3 t = ((cfg4.win 3).blk t).view.read (Elt Ideal) (colSum (reluRows (V c main_v80) (V c main_v81))) := by
  have hN : cfg4.N = 50 := N_4
  have h49 : t.val = 49 := by have := (flush4_3 t).mp hf; have := t.isLt; omega
  obtain ⟨-, -, -, -, -, -, e30, e31, e40, e41⟩ := idx4_facts t
  show (cfg4.win 3).cut (grid4.coords t) ((dat4 V c).after 3 t) = _
  rw [after4_3, val4_out3]
  funext j
  obtain ⟨p, q, rfl⟩ : ∃ (p : Fin 1) (q : Fin 128), j = ix2 p q := ⟨j 0, j 1, eq_ix2 j⟩
  obtain rfl : p = 0 := Subsingleton.elim _ _
  have hq : ((((cfg4.win 3).blk t).view.emb (ix2 (0 : Fin 1) q)) 1) = q := by
    apply Fin.ext; show win4_3.index t (1 : Fin 2) * 128 + 1 * q.val = q.val; omega
  show (acc4 V c t.val t.isLt).1 (ix2 (0 : Fin 1) q) = colSum (reluRows (V c main_v80) (V c main_v81)) (((cfg4.win 3).blk t).view.emb (ix2 (0 : Fin 1) q))
  unfold colSum
  show _ = ∑ t' : Fin 50, ∑ r : Fin 2000, _
  rw [accval4_0 V c q t.val t.isLt]
  obtain ⟨n, hn⟩ := t
  simp only at h49
  subst h49
  refine Finset.sum_congr rfl fun s _ => ?_
  refine (tsum4_eq V c ⟨s.val, by have := s.isLt; omega⟩ s rfl q).trans ?_
  rw [hq]

theorem cover4_3 (i : S1x128.Idx) : ∃ t : Fin cfg4.N, (cfg4.win 3).flush t = true ∧ i ∈ ((cfg4.win 3).blk t).view.set := by
  have hi0 : (i 0).val < 1 := (i 0).isLt
  have hi1 : (i 1).val < 128 := (i 1).isLt
  have hN : cfg4.N = 50 := N_4
  obtain ⟨-, -, -, -, -, -, e30, e31, e40, e41⟩ := idx4_facts ⟨49, by omega⟩
  refine ⟨⟨49, by omega⟩, (flush4_3 ⟨49, by omega⟩).mpr rfl, ?_⟩
  rw [mem4_blk3]
  intro a
  match a with
  | ⟨0, _⟩ => show win4_3.index ⟨49, _⟩ (0 : Fin 2) * 1 ≤ (i 0).val ∧ (i 0).val < win4_3.index ⟨49, _⟩ (0 : Fin 2) * 1 + 1; omega
  | ⟨1, _⟩ => show win4_3.index ⟨49, _⟩ (1 : Fin 2) * 128 ≤ (i 1).val ∧ (i 1).val < win4_3.index ⟨49, _⟩ (1 : Fin 2) * 128 + 128; omega

/-- The first one-row output after the region: the column sums of the tile output array, tile by tile. -/
theorem final4_3 (c : Dev nD) : (dat4 V c).arrAt 3 cfg4.N = colSum (reluRows (V c main_v80) (V c main_v81)) :=
  (dat4 V c).arrAt_eq_of_cover 3 (colSum (reluRows (V c main_v80) (V c main_v81))) (fun t hf => flushed4_3_eq V c t hf) cover4_3

theorem mem4_blk4 (t : Fin cfg4.N) (i : S1x128.Idx) :
    i ∈ ((cfg4.win 4).blk t).view.set ↔ ∀ a : Fin 2, win4_4.index t a * S1x128.size a ≤ (i a).val ∧ (i a).val < win4_4.index t a * S1x128.size a + S1x128.size a := by
  show i ∈ ((View.whole main_v82_2).slice (win4_4.rect t)).set ↔ _
  rw [View.set_slice_whole, Rect.mem_set_unit]
  exact Iff.rfl

/-- The one write-back of this one-row output, at the last grid point, writes the accumulated sums. -/
theorem flushed4_4_eq (c : Dev nD) (t : Fin cfg4.N) (hf : (cfg4.win 4).flush t = true) :
    (dat4 V c).flushed 4 t = ((cfg4.win 4).blk t).view.read (Elt Ideal) (colSq (reluRows (V c main_v80) (V c main_v81))) := by
  have hN : cfg4.N = 50 := N_4
  have h49 : t.val = 49 := by have := (flush4_4 t).mp hf; have := t.isLt; omega
  obtain ⟨-, -, -, -, -, -, e30, e31, e40, e41⟩ := idx4_facts t
  show (cfg4.win 4).cut (grid4.coords t) ((dat4 V c).after 4 t) = _
  rw [after4_4, val4_out4]
  funext j
  obtain ⟨p, q, rfl⟩ : ∃ (p : Fin 1) (q : Fin 128), j = ix2 p q := ⟨j 0, j 1, eq_ix2 j⟩
  obtain rfl : p = 0 := Subsingleton.elim _ _
  have hq : ((((cfg4.win 4).blk t).view.emb (ix2 (0 : Fin 1) q)) 1) = q := by
    apply Fin.ext; show win4_4.index t (1 : Fin 2) * 128 + 1 * q.val = q.val; omega
  show (acc4 V c t.val t.isLt).2 (ix2 (0 : Fin 1) q) = colSq (reluRows (V c main_v80) (V c main_v81)) (((cfg4.win 4).blk t).view.emb (ix2 (0 : Fin 1) q))
  unfold colSq
  show _ = ∑ t' : Fin 50, ∑ r : Fin 2000, _
  rw [accval4_1 V c q t.val t.isLt]
  obtain ⟨n, hn⟩ := t
  simp only at h49
  subst h49
  refine Finset.sum_congr rfl fun s _ => ?_
  refine (tsq4_eq V c ⟨s.val, by have := s.isLt; omega⟩ s rfl q).trans ?_
  rw [hq]

theorem cover4_4 (i : S1x128.Idx) : ∃ t : Fin cfg4.N, (cfg4.win 4).flush t = true ∧ i ∈ ((cfg4.win 4).blk t).view.set := by
  have hi0 : (i 0).val < 1 := (i 0).isLt
  have hi1 : (i 1).val < 128 := (i 1).isLt
  have hN : cfg4.N = 50 := N_4
  obtain ⟨-, -, -, -, -, -, e30, e31, e40, e41⟩ := idx4_facts ⟨49, by omega⟩
  refine ⟨⟨49, by omega⟩, (flush4_4 ⟨49, by omega⟩).mpr rfl, ?_⟩
  rw [mem4_blk4]
  intro a
  match a with
  | ⟨0, _⟩ => show win4_4.index ⟨49, _⟩ (0 : Fin 2) * 1 ≤ (i 0).val ∧ (i 0).val < win4_4.index ⟨49, _⟩ (0 : Fin 2) * 1 + 1; omega
  | ⟨1, _⟩ => show win4_4.index ⟨49, _⟩ (1 : Fin 2) * 128 ≤ (i 1).val ∧ (i 1).val < win4_4.index ⟨49, _⟩ (1 : Fin 2) * 128 + 128; omega

/-- The second one-row output after the region: the column sums of the squares of the tile output array, tile by tile. -/
theorem final4_4 (c : Dev nD) : (dat4 V c).arrAt 4 cfg4.N = colSq (reluRows (V c main_v80) (V c main_v81)) :=
  (dat4 V c).arrAt_eq_of_cover 4 (colSq (reluRows (V c main_v80) (V c main_v81))) (fun t hf => flushed4_4_eq V c t hf) cover4_4

end Cert.KernelIdeal.Reg

end
-- ==== Proof.Br.B9.lean ====
import proofs.«168427_j26276609917010_1_alg».proof.Proof.KI.Run
import proofs.«168427_j26276609917010_1_alg».proof.Proof.KI.Val4
import proofs.«168427_j26276609917010_1_alg».proof.Proof.Br.BnFn

/-! Region 4's three arrays after the region, in the reference's terms: the tile output array is the reference's
    bias-and-clamp of the region's input array, and the two one-row arrays are its column sums and column sums of
    squares, tile by tile. -/

set_option maxRecDepth 16384

noncomputable section

namespace Cert.Br

open Idealize.ShloMosaic Idealize.ShloMosaic.TcCoe Idealize.SL.Sem Idealize.ShloMosaic.ValueIdx
open Cert.KernelIdeal.Reg Cert.ReferenceIdeal.RefRun

variable (m : (ℓ : Loc Cert.KernelIdeal.nD Cert.KernelIdeal.τ Cert.KernelIdeal.sig) → Buf (Elt Ideal) ℓ) (c : Dev Cert.KernelIdeal.nD)

/-- A vector of 128 laid out as one row reads, at column q, its entry q. -/
theorem reshape_row4_apply (v : Cert.KernelIdeal.S128.Idx → EReal) (q : Fin 128) :
    shapeCast Cert.KernelIdeal.S1x128 v Cert.KernelIdeal.Gen.shapeCasts_S128_S1x128 (ix2 (0 : Fin 1) q) = v (ix1 q) := by
  refine shapeCast_apply _ Cert.KernelIdeal.Gen.shapeCasts_S128_S1x128 (ix2 (0 : Fin 1) q) (ix1 q) ?_
  rw [Shape.rowMajor_val_one, Shape.rowMajor_val_two]; show q.val = 0 * 128 + q.val; omega

/-- The tile output array after region 4: the bias-and-clamp of the aggregated array, the bias `b` being what the
    one-row bias operand holds. -/
theorem b12_relu (b : Vec Ideal Cert.ReferenceIdeal.S128 .f32)
    (hb : ∀ q : Fin 128, W11 m c (Proc.devRef .tc Cert.KernelIdeal.main_v81) (ix2 (0 : Fin 1) q) = b (ix1 q)) :
    W12 m c (Proc.devRef .tc Cert.KernelIdeal.main_v82_0)
      = relu128 (addf (W11 m c (Proc.devRef .tc Cert.KernelIdeal.main_v80)) (rows128 b)) := by
  refine (W12_arr m c 2).trans ?_
  rw [final4_2]
  exact reluRows_eq _ _ b hb

/-- The same with the bias operand given as the reshaped vector. -/
theorem b12_relu' (b : Cert.KernelIdeal.S128.Idx → EReal)
    (h48 : W11 m c (Proc.devRef .tc Cert.KernelIdeal.main_v81) = shapeCast Cert.KernelIdeal.S1x128 b Cert.KernelIdeal.Gen.shapeCasts_S128_S1x128) :
    W12 m c (Proc.devRef .tc Cert.KernelIdeal.main_v82_0)
      = relu128 (addf (W11 m c (Proc.devRef .tc Cert.KernelIdeal.main_v80)) (rows128 b)) :=
  b12_relu m c b fun q => by rw [h48]; exact reshape_row4_apply b q

/-- The first one-row array after region 4: the column sums of the tile output array, tile by tile. -/
theorem b12_sum : W12 m c (Proc.devRef .tc Cert.KernelIdeal.main_v82_1) = colSum (W12 m c (Proc.devRef .tc Cert.KernelIdeal.main_v82_0)) := by
  rw [show W12 m c (Proc.devRef .tc Cert.KernelIdeal.main_v82_1) = _ from (W12_arr m c 3).trans (final4_3 _ c),
    show W12 m c (Proc.devRef .tc Cert.KernelIdeal.main_v82_0) = _ from (W12_arr m c 2).trans (final4_2 _ c)]

/-- The second: the column sums of its squares. -/
theorem b12_sq : W12 m c (Proc.devRef .tc Cert.KernelIdeal.main_v82_2) = colSq (W12 m c (Proc.devRef .tc Cert.KernelIdeal.main_v82_0)) := by
  rw [show W12 m c (Proc.devRef .tc Cert.KernelIdeal.main_v82_2) = _ from (W12_arr m c 4).trans (final4_4 _ c),
    show W12 m c (Proc.devRef .tc Cert.KernelIdeal.main_v82_0) = _ from (W12_arr m c 2).trans (final4_2 _ c)]

end Cert.Br

end
-- ==== Proof.KI.Val5.lean ====
import proofs.«168427_j26276609917010_1_alg».proof.Proof.KI.Reg5
import Idealize.ShloMosaic.Lib.Pipeline.Value
import Idealize.ShloMosaic.Lib.ValueIdx
import Idealize.ShloMosaic.PureOps.Ideal.Laws

/-! The value of region 5's output array at the ideal numbers: after the region's pipeline has run over all its grid
    points, the output array is one function of the region's input arrays as it found them, index by index. -/

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz5 : (![0, 0] : Fin 2 → Nat) = fun _ => 0 := funext fun a => by fin_cases a <;> rfl

/-- The affine map of the region, on whole arrays: entry (r, j) of the result is entry (r, j) of the first array times entry j of the row `a1` plus entry j of the row `a2`. -/
def G5 (a0 : S100000x128.Idx → Elt Ideal .f32) (a1 : S1x128.Idx → Elt Ideal .f32) (a2 : S1x128.Idx → Elt Ideal .f32) : S100000x128.Idx → Elt Ideal .f32 :=
  fun i => a0 i * a1 (ix2 (0 : Fin 1) (i 1)) + a2 (ix2 (0 : Fin 1) (i 1))

/-- The body's stored value at row `p`, column `q` of the tile: the tile's entry times the scale row's entry `q` plus the shift row's entry `q` (the two rows are repeated down the tile's rows). -/
theorem pay5_apply (x0 : Vec Ideal S2000x128 .f32) (x1 : Vec Ideal S1x128 .f32) (x2 : Vec Ideal S1x128 .f32) (p : Fin 2000) (q : Fin 128) :
    k5_pay1 x0 x1 x2 (ix2 p q) = x0 (ix2 p q) * x1 (ix2 (0 : Fin 1) q) + x2 (ix2 (0 : Fin 1) q) := by
  have eb1 : broadcastTo S2000x128 x1 broadcasts_S1x128_S2000x128 (ix2 p q) = x1 (ix2 (0 : Fin 1) q) :=
    broadcastTo_apply x1 _ (ix2 p q) (ix2 (0 : Fin 1) q) (fun a => by match a with | ⟨0, _⟩ => rfl | ⟨1, _⟩ => rfl)
  have eb2 : broadcastTo S2000x128 x2 broadcasts_S1x128_S2000x128 (ix2 p q) = x2 (ix2 (0 : Fin 1) q) :=
    broadcastTo_apply x2 _ (ix2 p q) (ix2 (0 : Fin 1) q) (fun a => by match a with | ⟨0, _⟩ => rfl | ⟨1, _⟩ => rfl)
  unfold k5_pay1
  simp only [shapeCast_self]
  show x0 (ix2 p q) * broadcastTo S2000x128 x1 broadcasts_S1x128_S2000x128 (ix2 p q) + broadcastTo S2000x128 x2 broadcasts_S1x128_S2000x128 (ix2 p q) = _
  rw [eb1, eb2]

/-- The block index maps over the grid: a row-tiled window is at block row `t`, the other windows stay put. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The stored tile's entry (p, q) written over the windows at grid point `t` — each row-tiled array at row
    `2000 t + p`, the other arrays where the block has them — is `G5` at the output block's entry (p, q). -/
theorem blockval5 (a0 : S100000x128.Idx → Elt Ideal .f32) (a1 : S1x128.Idx → Elt Ideal .f32) (a2 : S1x128.Idx → Elt Ideal .f32) (t : Fin cfg5.N) (p : Fin 2000) (q : Fin 128) :
    a0 (((cfg5.win 0).blk t).view.emb (ix2 p q)) * a1 (((cfg5.win 1).blk t).view.emb (ix2 (0 : Fin 1) q)) + a2 (((cfg5.win 2).blk t).view.emb (ix2 (0 : Fin 1) q))
    = G5 a0 a1 a2 (((cfg5.win 3).blk t).view.emb (ix2 p q)) := by
  obtain ⟨e00, e01, e10, e11, e20, e21, e30, e31⟩ := idx_facts5 t
  have hX0 : (((cfg5.win 0).blk t).view.emb (ix2 p q)) = (((cfg5.win 3).blk t).view.emb (ix2 p q)) := by
    funext a; apply Fin.ext
    match a with
    | ⟨0, _⟩ => show win5_0.index t (0 : Fin 2) * 2000 + 1 * p.val = win5_3.index t (0 : Fin 2) * 2000 + 1 * p.val; omega
    | ⟨1, _⟩ => show win5_0.index t (1 : Fin 2) * 128 + 1 * q.val = win5_3.index t (1 : Fin 2) * 128 + 1 * q.val; omega
  have hB1 : (((cfg5.win 1).blk t).view.emb (ix2 (0 : Fin 1) q)) = ix2 (0 : Fin 1) ((((cfg5.win 3).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_3.index t (1 : Fin 2) * 128 + 1 * q.val; omega
  have hB2 : (((cfg5.win 2).blk t).view.emb (ix2 (0 : Fin 1) q)) = ix2 (0 : Fin 1) ((((cfg5.win 3).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  unfold G5
  simp only [hX0, hB1, hB2] <;> rfl

/-- What grid point `t` writes back is block `t` of `G5` of the input arrays as the region finds them. -/
theorem flushed5_eq (c : Dev nD) (t : Fin cfg5.N) :
    (dat5 V c).flushed 3 t = ((cfg5.win 3).blk t).view.read (Elt Ideal) (G5 (V c main_v82_0) (V c main_v93) (V c main_v96)) := by
  show (cfg5.win 3).cut (grid5.coords t) ((dat5 V c).after 3 t) = _
  rw [after5_3]
  unfold out5_3
  rw [View.canon_unit_zero hz5]
  simp only [View.ld_unit_zero (S := S2000x128) hz5, View.ld_unit_zero (S := S1x128) hz5]
  funext j
  obtain ⟨p, q, rfl⟩ : ∃ (p : Fin 2000) (q : Fin 128), j = ix2 p q := ⟨j 0, j 1, eq_ix2 j⟩
  show k5_pay1 (iblk5 V c 0 t) (iblk5 V c 1 t) (iblk5 V c 2 t) (ix2 p q) = G5 (V c main_v82_0) (V c main_v93) (V c main_v96) (((cfg5.win 3).blk t).view.emb (ix2 p q))
  refine (pay5_apply (iblk5 V c 0 t) (iblk5 V c 1 t) (iblk5 V c 2 t) p q).trans ?_
  exact blockval5 (V c main_v82_0) (V c main_v93) (V c main_v96) t p q

/-- An index of the output array is in point `t`'s block iff each coordinate is in the block's range on its axis. -/
theorem mem_blk5 (t : Fin cfg5.N) (i : S100000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v97).slice (win5_3.rect t)).set ↔ _
  rw [View.set_slice_whole, Rect.mem_set_unit]
  exact Iff.rfl

/-- Every block row of the output array is some grid point's. -/
theorem idx_onto5 : ∀ q0 : Fin 50, ∃ t : Fin cfg5.N, win5_3.index t = ![q0.val, 0] :=
  (by decide +kernel : ∀ q0 : Fin 50, ∃ t : Fin grid5.N, win5_3.index t = ![q0.val, 0])

/-- Every index of the output array is in the block of the grid point that holds its row: row `r` is in block `r / 2000`. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto5 ⟨(i 0).val / 2000, by omega⟩
  have q0 : win5_3.index t (0 : Fin 2) = (i 0).val / 2000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- The output array after the region: `G5` of the input arrays as the region found them. -/
theorem final5 (c : Dev nD) : (dat5 V c).arrAt 3 cfg5.N = G5 (V c main_v82_0) (V c main_v93) (V c main_v96) :=
  (dat5 V c).arrAt_eq_of_cover 3 (G5 (V c main_v82_0) (V c main_v93) (V c main_v96)) (fun t _ => flushed5_eq V c t) cover5

end Cert.KernelIdeal.Reg
-- ==== Proof.Br.B11.lean ====
import proofs.«168427_j26276609917010_1_alg».proof.Proof.KI.Keep
import proofs.«168427_j26276609917010_1_alg».proof.Proof.KI.Val5
import proofs.«168427_j26276609917010_1_alg».proof.Proof.Br.B9
import proofs.«168427_j26276609917010_1_alg».proof.Proof.Br.BnK
import Idealize.ShloMosaic.Lib.StableHlo.Run

/-! The normalised array after region 5: the host stretch before it turns the one-row sums into a scale row and a
    shift row, the region applies them entry by entry, and on real entries the result is the reference's batch
    normalisation of the clamped array. -/

set_option maxRecDepth 16384

noncomputable section

namespace Cert.Br

open Idealize.ShloMosaic Idealize.ShloMosaic.TcCoe Idealize.SL.Sem Idealize.ShloMosaic.ValueIdx Idealize.ShloMosaic.StableHlo
open Cert.KernelIdeal Cert.KernelIdeal.Gen Cert.KernelIdeal.Reg

variable (m : (ℓ : Loc nD τ sig) → Buf (Elt Ideal) ℓ) (c : Dev nD)

/-- The scale row the host stretch leaves, -/
theorem b14_scale : W13 m c (Proc.devRef .tc main_v93)
    = kScale (W12 m c (Proc.devRef .tc main_v82_1)) (W12 m c (Proc.devRef .tc main_v82_2)) (W12 m c (Proc.devRef .tc main_arg9)) := by
  show StableHlo.after hostOps5 (W12 m c) _ = _
  after_results_simp
  rfl

/-- and the shift row. -/
theorem b14_shift : W13 m c (Proc.devRef .tc main_v96)
    = kShift (W12 m c (Proc.devRef .tc main_v82_1)) (W12 m c (Proc.devRef .tc main_v82_2)) (W12 m c (Proc.devRef .tc main_arg9)) (W12 m c (Proc.devRef .tc main_arg10)) := by
  show StableHlo.after hostOps5 (W12 m c) _ = _
  after_results_simp
  rfl

/-- The normalised array: the reference's batch normalisation of the clamped array, when that array's entries and the
    two parameter vectors' are real. -/
theorem b14_bn (hH : ∀ i, Cert.Alg.IsReal (W12 m c (Proc.devRef .tc main_v82_0) i))
    (hg : ∀ j, Cert.Alg.IsReal (W12 m c (Proc.devRef .tc main_arg9) j)) (hβ : ∀ j, Cert.Alg.IsReal (W12 m c (Proc.devRef .tc main_arg10) j)) :
    W14 m c (Proc.devRef .tc main_v97)
      = Cert.ReferenceIdeal.RefRun.batchNorm (F := Ideal) (W12 m c (Proc.devRef .tc main_v82_0)) (W12 m c (Proc.devRef .tc main_arg9)) (W12 m c (Proc.devRef .tc main_arg10)) := by
  refine (W14_arr m c 3).trans ?_
  rw [final5]
  have h49 : W13 m c (Proc.devRef .tc main_v82_0) = W12 m c (Proc.devRef .tc main_v82_0) := keep_W13 m c main_v82_0 (by decide)
  show G5 (W13 m c (Proc.devRef .tc main_v82_0)) (W13 m c (Proc.devRef .tc main_v93)) (W13 m c (Proc.devRef .tc main_v96)) = _
  rw [h49, b14_scale, b14_shift, b12_sum, b12_sq]
  funext i
  obtain ⟨p, q, rfl⟩ : ∃ (p : Fin 100000) (q : Fin 128), i = ix2 p q := ⟨i 0, i 1, eq_ix2 i⟩
  exact affine_bn (W12 m c (Proc.devRef .tc main_v82_0)) (W12 m c (Proc.devRef .tc main_arg9)) (W12 m c (Proc.devRef .tc main_arg10)) hH hg hβ p q

end Cert.Br

end
-- ==== Proof.Br.Chain2.lean ====
/-
  The second layer on the kernel program's side, boundary by boundary: the dense product of the first layer's result
  with the second weight, the aggregation along the edges, the bias and the cut at zero with its column sums, and the
  normalisation; it is the reference's second layer of the same arguments.
-/
import proofs.«168427_j26276609917010_1_alg».proof.Proof.KI.Move
import proofs.«168427_j26276609917010_1_alg».proof.Proof.Br.Setup
import proofs.«168427_j26276609917010_1_alg».proof.Proof.Br.Dense
import proofs.«168427_j26276609917010_1_alg».proof.Proof.Br.Shared
import proofs.«168427_j26276609917010_1_alg».proof.Proof.Br.B9
import proofs.«168427_j26276609917010_1_alg».proof.Proof.Br.B11
import proofs.«168427_j26276609917010_1_alg».proof.Proof.Br.RealConv
import Idealize.ShloMosaic.Lib.Pipeline.Value
import Idealize.ShloMosaic.Lib.ValueIdx
import Idealize.ShloMosaic.PureOps.Ideal.Laws

set_option maxRecDepth 16384

noncomputable section

namespace Cert.Br

open Idealize.ShloMosaic Idealize.ShloMosaic.TcCoe Idealize.SL.Sem Idealize.ShloMosaic.StableHlo
open Cert.KernelIdeal.Reg Cert.ReferenceIdeal.RefRun

variable (m : KM) (c : Dev Cert.KernelIdeal.nD)

/-- The second dense product's bias row is zero. -/
theorem zero66 (i : Cert.KernelIdeal.S1x128.Idx) :
    (W9 m c (Proc.devRef .tc Cert.KernelIdeal.main_v66) : FVec Ideal Cert.KernelIdeal.S1x128 .f32) i = (0 : Elt Ideal .f32) := by
  rw [bias9 m c]
  show Ideal.ofBits .f32 0x00000000#32 = 0
  exact Ideal.ofBits_zero_f32

/-- The second dense layer: region 3's array is the host's product of the first layer's result and the weight. -/
theorem dense2 (h1 : Vec Ideal Cert.ReferenceIdeal.S100000x128 .f32)
    (h64 : W8 m c (Proc.devRef .tc Cert.KernelIdeal.main_v64) = h1) :
    W10 m c (Proc.devRef .tc Cert.KernelIdeal.main_v67)
      = Host.dotGeneral (F := Ideal) (φ₁ := .f32) (φ₂ := .f32) Cert.ReferenceIdeal.dot_S100000x128_S128x128_S100000x128_1_0_0_1_n_n none
          h1 (m ((c : Thread Cert.KernelIdeal.nD Cert.KernelIdeal.τ).loc Cert.KernelIdeal.main_arg5)) := by
  have h := W10_arr m c 3
  have e := region3_eq_dot (atTc (W9 m)) c (zero66 m c)
  dsimp only [atTc] at e
  rw [keep_W9 m c Cert.KernelIdeal.main_v64 (by decide), h64,
    W9_launch m c Cert.KernelIdeal.main_arg5 (by decide) (by decide) (by decide) (by decide) (by decide) (by decide) (by decide) (by decide) (by decide)] at e
  exact h.trans e

/-- The second convolution: region 4's first array is the reference's convolution of that product. -/
theorem conv2 (h1 : Vec Ideal Cert.ReferenceIdeal.S100000x128 .f32)
    (h64 : W8 m c (Proc.devRef .tc Cert.KernelIdeal.main_v64) = h1) :
    W12 m c (Proc.devRef .tc Cert.KernelIdeal.main_v82_0)
      = convRelu (F := Ideal)
          (Host.dotGeneral (F := Ideal) (φ₁ := .f32) (φ₂ := .f32) Cert.ReferenceIdeal.dot_S100000x128_S128x128_S100000x128_1_0_0_1_n_n none
            h1 (m ((c : Thread Cert.KernelIdeal.nD Cert.KernelIdeal.τ).loc Cert.KernelIdeal.main_arg5)))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg6)) := by
  rw [b12_relu' m c _ (bias2 m c), agg2 m c, dense2 m c h1 h64]
  rfl

/-- The second layer. -/
theorem chain2 (hre : RealArgs m c) (h1 : Vec Ideal Cert.ReferenceIdeal.S100000x128 .f32)
    (hh1 : ∀ i, Cert.Alg.IsReal (h1 i)) (h64 : W8 m c (Proc.devRef .tc Cert.KernelIdeal.main_v64) = h1) :
    W14 m c (Proc.devRef .tc Cert.KernelIdeal.main_v97)
      = layer2 (F := Ideal) h1
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg9))
          (m ((c : Thread Cert.KernelIdeal.nD Cert.KernelIdeal.τ).loc Cert.KernelIdeal.main_arg10)) := by
  have hc := conv2 m c h1 h64
  have e9 := W12_launch m c Cert.KernelIdeal.main_arg9 (by decide) (by decide) (by decide) (by decide) (by decide) (by decide) (by decide) (by decide) (by decide) (by decide) (by decide) (by decide)
  have e10 := W12_launch m c Cert.KernelIdeal.main_arg10 (by decide) (by decide) (by decide) (by decide) (by decide) (by decide) (by decide) (by decide) (by decide) (by decide) (by decide) (by decide)
  have hH : ∀ i, Cert.Alg.IsReal (W12 m c (Proc.devRef .tc Cert.KernelIdeal.main_v82_0) i) := by
    rw [hc]
    exact isReal_conv2 h1 _ _ _ _ hh1 hre.r2 hre.r5 hre.r6
  have hbn := b14_bn m c hH (by rw [e9]; exact hre.r9) (by rw [e10]; exact hre.r10)
  rw [hbn, hc, e9, e10]
  rfl

end Cert.Br

end
-- ==== Proof.KI.Val6.lean ====
import proofs.«168427_j26276609917010_1_alg».proof.Proof.KI.Reg6
import Idealize.ShloMosaic.Lib.Pipeline.Value
import Idealize.ShloMosaic.Lib.ValueIdx
import Idealize.ShloMosaic.PureOps.Ideal.Laws

/-! The value of region 6's output array at the ideal numbers: after the region's pipeline has run over all its grid
    points, the output array is one function of the region's input arrays as it found them, index by index. -/

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz6 : (![0, 0] : Fin 2 → Nat) = fun _ => 0 := funext fun a => by fin_cases a <;> rfl

/-- The region's map on whole arrays: entry (r, j) of the result is the larger of zero and the sum of three matrix products at (r, j) — the first three arrays by the next three — plus entry j of the row `a6`. -/
def G6 (a0 : S100000x200.Idx → Elt Ideal .f32) (a1 : S100000x128.Idx → Elt Ideal .f32) (a2 : S100000x128.Idx → Elt Ideal .f32) (a3 : S200x128.Idx → Elt Ideal .f32) (a4 : S128x128.Idx → Elt Ideal .f32) (a5 : S128x128.Idx → Elt Ideal .f32) (a6 : S1x128.Idx → Elt Ideal .f32) : S100000x128.Idx → Elt Ideal .f32 :=
  fun i => max ((((∑ k : Fin 200, a0 (ix2 (i 0) k) * a3 (ix2 k (i 1))) + (∑ k : Fin 128, a1 (ix2 (i 0) k) * a4 (ix2 k (i 1)))) + (∑ k : Fin 128, a2 (ix2 (i 0) k) * a5 (ix2 k (i 1)))) + a6 (ix2 (0 : Fin 1) (i 1))) 0

/-- The matrix product into a zero accumulator at entry (p, q): the sum over the 200 contraction positions `k` of the left
    factor's entry (p, k) times the right factor's entry (k, q). -/
theorem dot200_apply6 (a : FVec Ideal S2000x200 .bf16) (b : FVec Ideal S200x128 .bf16) (p : Fin 2000) (q : Fin 128) :
    matmul dot_S2000x200_S200x128_S2000x128_1_0_0_1_n_n none a b (constant S2000x128 .f32 0x00000000#32) (ix2 p q)
      = ∑ k : Fin 200, a (ix2 p k) * b (ix2 k q) := by
  refine (Ideal.matmul_constant_zero_apply dot_S2000x200_S200x128_S2000x128_1_0_0_1_n_n none a b (ix2 p q)).trans ?_
  rw [← Equiv.sum_comp (contrEquiv1 dot_S2000x200_S200x128_S2000x128_1_0_0_1_n_n 200 rfl rfl).symm]
  refine Finset.sum_congr rfl fun k _ => ?_
  have hk : ((((contrEquiv1 dot_S2000x200_S200x128_S2000x128_1_0_0_1_n_n 200 rfl rfl).symm k) ⟨0, by decide⟩ : Fin _) : ℕ) = k.val :=
    contrEquiv1_symm_val dot_S2000x200_S200x128_S2000x128_1_0_0_1_n_n 200 rfl rfl k
  have ea : dot_S2000x200_S200x128_S2000x128_1_0_0_1_n_n.lhsIdx (ix2 p q) ((contrEquiv1 dot_S2000x200_S200x128_S2000x128_1_0_0_1_n_n 200 rfl rfl).symm k) = ix2 p k := by
    funext ax; apply Fin.ext
    match ax with
    | ⟨0, _⟩ => rfl
    | ⟨1, _⟩ => exact hk
  have eb : dot_S2000x200_S200x128_S2000x128_1_0_0_1_n_n.rhsIdx (ix2 p q) ((contrEquiv1 dot_S2000x200_S200x128_S2000x128_1_0_0_1_n_n 200 rfl rfl).symm k) = ix2 k q := by
    funext ax; apply Fin.ext
    match ax with
    | ⟨0, _⟩ => exact hk
    | ⟨1, _⟩ => rfl
  rw [ea, eb]

/-- The matrix product into a zero accumulator at entry (p, q): the sum over the 128 contraction positions `k` of the left
    factor's entry (p, k) times the right factor's entry (k, q). -/
theorem dot128_apply6 (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (contrEquiv1 dot_S2000x128_S128x128_S2000x128_1_0_0_1_n_n 128 rfl rfl).symm]
  refine Finset.sum_congr rfl fun k _ => ?_
  have hk : ((((contrEquiv1 dot_S2000x128_S128x128_S2000x128_1_0_0_1_n_n 128 rfl rfl).symm k) ⟨0, by decide⟩ : Fin _) : ℕ) = k.val :=
    contrEquiv1_symm_val dot_S2000x128_S128x128_S2000x128_1_0_0_1_n_n 128 rfl rfl k
  have ea : dot_S2000x128_S128x128_S2000x128_1_0_0_1_n_n.lhsIdx (ix2 p q) ((contrEquiv1 dot_S2000x128_S128x128_S2000x128_1_0_0_1_n_n 128 rfl rfl).symm k) = ix2 p k := by
    funext ax; apply Fin.ext
    match ax with
    | ⟨0, _⟩ => rfl
    | ⟨1, _⟩ => exact hk
  have eb : dot_S2000x128_S128x128_S2000x128_1_0_0_1_n_n.rhsIdx (ix2 p q) ((contrEquiv1 dot_S2000x128_S128x128_S2000x128_1_0_0_1_n_n 128 rfl rfl).symm k) = ix2 k q := by
    funext ax; apply Fin.ext
    match ax with
    | ⟨0, _⟩ => exact hk
    | ⟨1, _⟩ => rfl
  rw [ea, eb]

/-- The body's stored value at row `p`, column `q` of the tile: the larger of zero and the three matrix products at (p, q), added in the body's order, plus the row's entry `q` (at the ideal numbers the rounding of the factors is the identity). -/
theorem pay6_apply (x0 : Vec Ideal S2000x200 .f32) (x3 : Vec Ideal S200x128 .f32) (x1 : Vec Ideal S2000x128 .f32) (x4 : Vec Ideal S128x128 .f32) (x2 : Vec Ideal S2000x128 .f32) (x5 : Vec Ideal S128x128 .f32) (x6 : Vec Ideal S1x128 .f32) (p : Fin 2000) (q : Fin 128) :
    k6_pay1 x0 x3 x1 x4 x2 x5 x6 (ix2 p q) = max ((((∑ k : Fin 200, x0 (ix2 p k) * x3 (ix2 k q)) + (∑ k : Fin 128, x1 (ix2 p k) * x4 (ix2 k q))) + (∑ k : Fin 128, x2 (ix2 p k) * x5 (ix2 k q))) + x6 (ix2 (0 : Fin 1) q)) 0 := by
  have eb6 : broadcastTo S2000x128 x6 broadcasts_S1x128_S2000x128 (ix2 p q) = x6 (ix2 (0 : Fin 1) q) :=
    broadcastTo_apply x6 _ (ix2 p q) (ix2 (0 : Fin 1) q) (fun a => by match a with | ⟨0, _⟩ => rfl | ⟨1, _⟩ => rfl)
  unfold k6_pay1
  simp only [shapeCast_self]
  show max (((matmul (F := Ideal) dot_S2000x200_S200x128_S2000x128_1_0_0_1_n_n none (truncf (F := Ideal) .bf16 x0 bitsLt_bf16_f32) (truncf (F := Ideal) .bf16 x3 bitsLt_bf16_f32) (constant (F := Ideal) S2000x128 .f32 0x00000000#32) (ix2 p q) + matmul (F := Ideal) dot_S2000x128_S128x128_S2000x128_1_0_0_1_n_n none (truncf (F := Ideal) .bf16 x1 bitsLt_bf16_f32) (truncf (F := Ideal) .bf16 x4 bitsLt_bf16_f32) (constant (F := Ideal) S2000x128 .f32 0x00000000#32) (ix2 p q)) + matmul (F := Ideal) dot_S2000x128_S128x128_S2000x128_1_0_0_1_n_n none (truncf (F := Ideal) .bf16 x2 bitsLt_bf16_f32) (truncf (F := Ideal) .bf16 x5 bitsLt_bf16_f32) (constant (F := Ideal) S2000x128 .f32 0x00000000#32) (ix2 p q)) + broadcastTo S2000x128 x6 broadcasts_S1x128_S2000x128 (ix2 p q)) (Ideal.ofBits .f32 0x00000000#32) = _
  rw [eb6, dot200_apply6, dot128_apply6, dot128_apply6, Ideal.ofBits_zero_f32]
  rfl

/-- The block index maps over the grid: a row-tiled window is at block row `t`, the other windows stay put. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- The stored tile's entry (p, q) written over the windows at grid point `t` — each row-tiled array at row
    `2000 t + p`, the other arrays where the block has them — is `G6` at the output block's entry (p, q). -/
theorem blockval6 (a0 : S100000x200.Idx → Elt Ideal .f32) (a1 : S100000x128.Idx → Elt Ideal .f32) (a2 : S100000x128.Idx → Elt Ideal .f32) (a3 : S200x128.Idx → Elt Ideal .f32) (a4 : S128x128.Idx → Elt Ideal .f32) (a5 : S128x128.Idx → Elt Ideal .f32) (a6 : S1x128.Idx → Elt Ideal .f32) (t : Fin cfg6.N) (p : Fin 2000) (q : Fin 128) :
    max ((((∑ k : Fin 200, a0 (((cfg6.win 0).blk t).view.emb (ix2 p k)) * a3 (((cfg6.win 3).blk t).view.emb (ix2 k q))) + (∑ k : Fin 128, a1 (((cfg6.win 1).blk t).view.emb (ix2 p k)) * a4 (((cfg6.win 4).blk t).view.emb (ix2 k q)))) + (∑ k : Fin 128, a2 (((cfg6.win 2).blk t).view.emb (ix2 p k)) * a5 (((cfg6.win 5).blk t).view.emb (ix2 k q)))) + a6 (((cfg6.win 6).blk t).view.emb (ix2 (0 : Fin 1) q))) 0
    = G6 a0 a1 a2 a3 a4 a5 a6 (((cfg6.win 7).blk t).view.emb (ix2 p q)) := by
  obtain ⟨e00, e01, e10, e11, e20, e21, e30, e31, e40, e41, e50, e51, e60, e61, e70, e71⟩ := idx_facts6 t
  have hT0 : ∀ k : Fin 200, (((cfg6.win 0).blk t).view.emb (ix2 p k)) = ix2 ((((cfg6.win 7).blk t).view.emb (ix2 p q)) 0) k := fun k => by
    funext a; apply Fin.ext
    match a with
    | ⟨0, _⟩ => show win6_0.index t (0 : Fin 2) * 2000 + 1 * p.val = win6_7.index t (0 : Fin 2) * 2000 + 1 * p.val; omega
    | ⟨1, _⟩ => show win6_0.index t (1 : Fin 2) * 200 + 1 * k.val = k.val; omega
  have hW3 : ∀ k : Fin 200, (((cfg6.win 3).blk t).view.emb (ix2 k q)) = ix2 k ((((cfg6.win 7).blk t).view.emb (ix2 p q)) 1) := fun k => by
    funext a; apply Fin.ext
    match a with
    | ⟨0, _⟩ => show win6_3.index t (0 : Fin 2) * 200 + 1 * k.val = k.val; omega
    | ⟨1, _⟩ => show win6_3.index t (1 : Fin 2) * 128 + 1 * q.val = win6_7.index t (1 : Fin 2) * 128 + 1 * q.val; omega
  have hT1 : ∀ k : Fin 128, (((cfg6.win 1).blk t).view.emb (ix2 p k)) = ix2 ((((cfg6.win 7).blk t).view.emb (ix2 p q)) 0) k := fun k => by
    funext a; apply Fin.ext
    match a with
    | ⟨0, _⟩ => show win6_1.index t (0 : Fin 2) * 2000 + 1 * p.val = win6_7.index t (0 : Fin 2) * 2000 + 1 * p.val; omega
    | ⟨1, _⟩ => show win6_1.index t (1 : Fin 2) * 128 + 1 * k.val = k.val; omega
  have hW4 : ∀ k : Fin 128, (((cfg6.win 4).blk t).view.emb (ix2 k q)) = ix2 k ((((cfg6.win 7).blk t).view.emb (ix2 p q)) 1) := fun k => by
    funext a; apply Fin.ext
    match a with
    | ⟨0, _⟩ => show win6_4.index t (0 : Fin 2) * 128 + 1 * k.val = k.val; omega
    | ⟨1, _⟩ => show win6_4.index t (1 : Fin 2) * 128 + 1 * q.val = win6_7.index t (1 : Fin 2) * 128 + 1 * q.val; omega
  have hT2 : ∀ k : Fin 128, (((cfg6.win 2).blk t).view.emb (ix2 p k)) = ix2 ((((cfg6.win 7).blk t).view.emb (ix2 p q)) 0) k := fun k => by
    funext a; apply Fin.ext
    match a with
    | ⟨0, _⟩ => show win6_2.index t (0 : Fin 2) * 2000 + 1 * p.val = win6_7.index t (0 : Fin 2) * 2000 + 1 * p.val; omega
    | ⟨1, _⟩ => show win6_2.index t (1 : Fin 2) * 128 + 1 * k.val = k.val; omega
  have hW5 : ∀ k : Fin 128, (((cfg6.win 5).blk t).view.emb (ix2 k q)) = ix2 k ((((cfg6.win 7).blk t).view.emb (ix2 p q)) 1) := fun k => by
    funext a; apply Fin.ext
    match a with
    | ⟨0, _⟩ => show win6_5.index t (0 : Fin 2) * 128 + 1 * k.val = k.val; omega
    | ⟨1, _⟩ => show win6_5.index t (1 : Fin 2) * 128 + 1 * q.val = win6_7.index t (1 : Fin 2) * 128 + 1 * q.val; omega
  have hB6 : (((cfg6.win 6).blk t).view.emb (ix2 (0 : Fin 1) q)) = ix2 (0 : Fin 1) ((((cfg6.win 7).blk t).view.emb (ix2 p q)) 1) := by
    funext a; apply Fin.ext
    match a with
    | ⟨0, _⟩ => show win6_6.index t (0 : Fin 2) * 1 + 1 * 0 = 0; omega
    | ⟨1, _⟩ => show win6_6.index t (1 : Fin 2) * 128 + 1 * q.val = win6_7.index t (1 : Fin 2) * 128 + 1 * q.val; omega
  unfold G6
  exact congrArg (fun s => max s 0) (congrArg₂ (· + ·) (congrArg₂ (· + ·) (congrArg₂ (· + ·) (Finset.sum_congr rfl fun k _ => congrArg₂ (· * ·) (congrArg a0 (hT0 k)) (congrArg a3 (hW3 k))) (Finset.sum_congr rfl fun k _ => congrArg₂ (· * ·) (congrArg a1 (hT1 k)) (congrArg a4 (hW4 k)))) (Finset.sum_congr rfl fun k _ => congrArg₂ (· * ·) (congrArg a2 (hT2 k)) (congrArg a5 (hW5 k)))) (congrArg a6 hB6))

/-- What grid point `t` writes back is block `t` of `G6` of the input arrays as the region finds them. -/
theorem flushed6_eq (c : Dev nD) (t : Fin cfg6.N) :
    (dat6 V c).flushed 7 t = ((cfg6.win 7).blk t).view.read (Elt Ideal) (G6 (V c main_arg0) (V c main_v64) (V c main_v97) (V c main_v98) (V c main_v99) (V c main_v100) (V c main_v101)) := by
  show (cfg6.win 7).cut (grid6.coords t) ((dat6 V c).after 7 t) = _
  rw [after6_7]
  unfold out6_7
  rw [View.canon_unit_zero hz6]
  simp only [View.ld_unit_zero (S := S2000x200) hz6, View.ld_unit_zero (S := S2000x128) hz6, View.ld_unit_zero (S := S200x128) hz6, View.ld_unit_zero (S := S128x128) hz6, View.ld_unit_zero (S := S1x128) hz6]
  funext j
  obtain ⟨p, q, rfl⟩ : ∃ (p : Fin 2000) (q : Fin 128), j = ix2 p q := ⟨j 0, j 1, eq_ix2 j⟩
  show k6_pay1 (iblk6 V c 0 t) (iblk6 V c 3 t) (iblk6 V c 1 t) (iblk6 V c 4 t) (iblk6 V c 2 t) (iblk6 V c 5 t) (iblk6 V c 6 t) (ix2 p q) = G6 (V c main_arg0) (V c main_v64) (V c main_v97) (V c main_v98) (V c main_v99) (V c main_v100) (V c main_v101) (((cfg6.win 7).blk t).view.emb (ix2 p q))
  refine (pay6_apply (iblk6 V c 0 t) (iblk6 V c 3 t) (iblk6 V c 1 t) (iblk6 V c 4 t) (iblk6 V c 2 t) (iblk6 V c 5 t) (iblk6 V c 6 t) p q).trans ?_
  exact blockval6 (V c main_arg0) (V c main_v64) (V c main_v97) (V c main_v98) (V c main_v99) (V c main_v100) (V c main_v101) t p q

/-- An index of the output array is in point `t`'s block iff each coordinate is in the block's range on its axis. -/
theorem mem_blk6 (t : Fin cfg6.N) (i : S100000x128.Idx) :
    i ∈ ((cfg6.win 7).blk t).view.set ↔ ∀ a : Fin 2, win6_7.index t a * S2000x128.size a ≤ (i a).val ∧ (i a).val < win6_7.index t a * S2000x128.size a + S2000x128.size a := by
  show i ∈ ((View.whole main_v102).slice (win6_7.rect t)).set ↔ _
  rw [View.set_slice_whole, Rect.mem_set_unit]
  exact Iff.rfl

/-- Every block row of the output array is some grid point's. -/
theorem idx_onto6 : ∀ q0 : Fin 50, ∃ t : Fin cfg6.N, win6_7.index t = ![q0.val, 0] :=
  (by decide +kernel : ∀ q0 : Fin 50, ∃ t : Fin grid6.N, win6_7.index t = ![q0.val, 0])

/-- Every index of the output array is in the block of the grid point that holds its row: row `r` is in block `r / 2000`. -/
theorem cover6 (i : S100000x128.Idx) : ∃ t : Fin cfg6.N, (cfg6.win 7).flush t = true ∧ i ∈ ((cfg6.win 7).blk t).view.set := by
  have hi0 : (i 0).val < 100000 := (i 0).isLt
  have hi1 : (i 1).val < 128 := (i 1).isLt
  obtain ⟨t, ht⟩ := idx_onto6 ⟨(i 0).val / 2000, by omega⟩
  have q0 : win6_7.index t (0 : Fin 2) = (i 0).val / 2000 := congrFun ht 0
  have q1 : win6_7.index t (1 : Fin 2) = 0 := congrFun ht 1
  refine ⟨t, flush6_7 t, ?_⟩
  rw [mem_blk6]
  intro a
  match a with
  | ⟨0, _⟩ => show win6_7.index t (0 : Fin 2) * 2000 ≤ (i 0).val ∧ (i 0).val < win6_7.index t (0 : Fin 2) * 2000 + 2000; omega
  | ⟨1, _⟩ => show win6_7.index t (1 : Fin 2) * 128 ≤ (i 1).val ∧ (i 1).val < win6_7.index t (1 : Fin 2) * 128 + 128; omega

/-- The output array after the region: `G6` of the input arrays as the region found them. -/
theorem final6 (c : Dev nD) : (dat6 V c).arrAt 7 cfg6.N = G6 (V c main_arg0) (V c main_v64) (V c main_v97) (V c main_v98) (V c main_v99) (V c main_v100) (V c main_v101) :=
  (dat6 V c).arrAt_eq_of_cover 7 (G6 (V c main_arg0) (V c main_v64) (V c main_v97) (V c main_v98) (V c main_v99) (V c main_v100) (V c main_v101)) (fun t _ => flushed6_eq V c t) cover6

end Cert.KernelIdeal.Reg
-- ==== Proof.KI.Val7.lean ====
import proofs.«168427_j26276609917010_1_alg».proof.Proof.KI.Reg7
import Idealize.ShloMosaic.Lib.Pipeline.Value
import Idealize.ShloMosaic.Lib.ValueIdx
import Idealize.ShloMosaic.PureOps.Ideal.Laws

/-! The value of region 7's output array at the ideal numbers: after the region's pipeline has run over all its grid
    points, the output array is one function of the region's input arrays as it found them, index by index. -/

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz7 : (![0, 0] : Fin 2 → Nat) = fun _ => 0 := funext fun a => by fin_cases a <;> rfl

/-- The region's map on whole arrays: entry (r, j) of the result is the larger of zero and the sum over the 128 columns `k` of entry (r, k) of the first array times entry (k, j) of the second, plus entry j of the row `a2`. -/
def G7 (a0 : S100000x128.Idx → Elt Ideal .f32) (a1 : S128x64.Idx → Elt Ideal .f32) (a2 : S1x64.Idx → Elt Ideal .f32) : S100000x64.Idx → Elt Ideal .f32 :=
  fun i => max ((∑ k : Fin 128, a0 (ix2 (i 0) k) * a1 (ix2 k (i 1))) + a2 (ix2 (0 : Fin 1) (i 1))) 0

/-- The matrix product into a zero accumulator at entry (p, q): the sum over the 128 contraction positions `k` of the left
    factor's entry (p, k) times the right factor's entry (k, q). -/
theorem dot64_apply7 (a : FVec Ideal S2000x128 .bf16) (b : FVec Ideal S128x64 .bf16) (p : Fin 2000) (q : Fin 64) :
    matmul dot_S2000x128_S128x64_S2000x64_1_0_0_1_n_n none a b (constant S2000x64 .f32 0x00000000#32) (ix2 p q)
      = ∑ k : Fin 128, a (ix2 p k) * b (ix2 k q) := by
  refine (Ideal.matmul_constant_zero_apply dot_S2000x128_S128x64_S2000x64_1_0_0_1_n_n none a b (ix2 p q)).trans ?_
  rw [← Equiv.sum_comp (contrEquiv1 dot_S2000x128_S128x64_S2000x64_1_0_0_1_n_n 128 rfl rfl).symm]
  refine Finset.sum_congr rfl fun k _ => ?_
  have hk : ((((contrEquiv1 dot_S2000x128_S128x64_S2000x64_1_0_0_1_n_n 128 rfl rfl).symm k) ⟨0, by decide⟩ : Fin _) : ℕ) = k.val :=
    contrEquiv1_symm_val dot_S2000x128_S128x64_S2000x64_1_0_0_1_n_n 128 rfl rfl k
  have ea : dot_S2000x128_S128x64_S2000x64_1_0_0_1_n_n.lhsIdx (ix2 p q) ((contrEquiv1 dot_S2000x128_S128x64_S2000x64_1_0_0_1_n_n 128 rfl rfl).symm k) = ix2 p k := by
    funext ax; apply Fin.ext
    match ax with
    | ⟨0, _⟩ => rfl
    | ⟨1, _⟩ => exact hk
  have eb : dot_S2000x128_S128x64_S2000x64_1_0_0_1_n_n.rhsIdx (ix2 p q) ((contrEquiv1 dot_S2000x128_S128x64_S2000x64_1_0_0_1_n_n 128 rfl rfl).symm k) = ix2 k q := by
    funext ax; apply Fin.ext
    match ax with
    | ⟨0, _⟩ => exact hk
    | ⟨1, _⟩ => rfl
  rw [ea, eb]

/-- The body's stored value at row `p`, column `q` of the tile: the larger of zero and the matrix product of the tile by the second block at (p, q) — at the ideal numbers the rounding of the factors is the identity — plus the row's entry `q`. -/
theorem pay7_apply (x0 : Vec Ideal S2000x128 .f32) (x1 : Vec Ideal S128x64 .f32) (x2 : Vec Ideal S1x64 .f32) (p : Fin 2000) (q : Fin 64) :
    k7_pay1 x0 x1 x2 (ix2 p q) = max ((∑ k : Fin 128, x0 (ix2 p k) * x1 (ix2 k q)) + x2 (ix2 (0 : Fin 1) q)) 0 := by
  have eb2 : broadcastTo S2000x64 x2 broadcasts_S1x64_S2000x64 (ix2 p q) = x2 (ix2 (0 : Fin 1) q) :=
    broadcastTo_apply x2 _ (ix2 p q) (ix2 (0 : Fin 1) q) (fun a => by match a with | ⟨0, _⟩ => rfl | ⟨1, _⟩ => rfl)
  unfold k7_pay1
  simp only [shapeCast_self]
  show max (matmul (F := Ideal) dot_S2000x128_S128x64_S2000x64_1_0_0_1_n_n none (truncf (F := Ideal) .bf16 x0 bitsLt_bf16_f32) (truncf (F := Ideal) .bf16 x1 bitsLt_bf16_f32) (constant (F := Ideal) S2000x64 .f32 0x00000000#32) (ix2 p q) + broadcastTo S2000x64 x2 broadcasts_S1x64_S2000x64 (ix2 p q)) (Ideal.ofBits .f32 0x00000000#32) = _
  rw [eb2, dot64_apply7, Ideal.ofBits_zero_f32]
  rfl

/-- The block index maps over the grid: a row-tiled window is at block row `t`, the other windows stay put. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The stored tile's entry (p, q) written over the windows at grid point `t` — each row-tiled array at row
    `2000 t + p`, the other arrays where the block has them — is `G7` at the output block's entry (p, q). -/
theorem blockval7 (a0 : S100000x128.Idx → Elt Ideal .f32) (a1 : S128x64.Idx → Elt Ideal .f32) (a2 : S1x64.Idx → Elt Ideal .f32) (t : Fin cfg7.N) (p : Fin 2000) (q : Fin 64) :
    max ((∑ k : Fin 128, a0 (((cfg7.win 0).blk t).view.emb (ix2 p k)) * a1 (((cfg7.win 1).blk t).view.emb (ix2 k q))) + a2 (((cfg7.win 2).blk t).view.emb (ix2 (0 : Fin 1) q))) 0
    = G7 a0 a1 a2 (((cfg7.win 3).blk t).view.emb (ix2 p q)) := by
  obtain ⟨e00, e01, e10, e11, e20, e21, e30, e31⟩ := idx_facts7 t
  have hT0 : ∀ k : Fin 128, (((cfg7.win 0).blk t).view.emb (ix2 p k)) = ix2 ((((cfg7.win 3).blk t).view.emb (ix2 p q)) 0) k := fun k => by
    funext a; apply Fin.ext
    match a with
    | ⟨0, _⟩ => show win7_0.index t (0 : Fin 2) * 2000 + 1 * p.val = win7_3.index t (0 : Fin 2) * 2000 + 1 * p.val; omega
    | ⟨1, _⟩ => show win7_0.index t (1 : Fin 2) * 128 + 1 * k.val = k.val; omega
  have hW1 : ∀ k : Fin 128, (((cfg7.win 1).blk t).view.emb (ix2 k q)) = ix2 k ((((cfg7.win 3).blk t).view.emb (ix2 p q)) 1) := fun k => by
    funext a; apply Fin.ext
    match a with
    | ⟨0, _⟩ => show win7_1.index t (0 : Fin 2) * 128 + 1 * k.val = k.val; omega
    | ⟨1, _⟩ => show win7_1.index t (1 : Fin 2) * 64 + 1 * q.val = win7_3.index t (1 : Fin 2) * 64 + 1 * q.val; omega
  have hB2 : (((cfg7.win 2).blk t).view.emb (ix2 (0 : Fin 1) q)) = ix2 (0 : Fin 1) ((((cfg7.win 3).blk t).view.emb (ix2 p q)) 1) := by
    funext a; apply Fin.ext
    match a with
    | ⟨0, _⟩ => show win7_2.index t (0 : Fin 2) * 1 + 1 * 0 = 0; omega
    | ⟨1, _⟩ => show win7_2.index t (1 : Fin 2) * 64 + 1 * q.val = win7_3.index t (1 : Fin 2) * 64 + 1 * q.val; omega
  unfold G7
  exact congrArg (fun s => max s 0) (congrArg₂ (· + ·) (Finset.sum_congr rfl fun k _ => congrArg₂ (· * ·) (congrArg a0 (hT0 k)) (congrArg a1 (hW1 k))) (congrArg a2 hB2))

/-- What grid point `t` writes back is block `t` of `G7` of the input arrays as the region finds them. -/
theorem flushed7_eq (c : Dev nD) (t : Fin cfg7.N) :
    (dat7 V c).flushed 3 t = ((cfg7.win 3).blk t).view.read (Elt Ideal) (G7 (V c main_v102) (V c main_arg13) (V c main_v103)) := by
  show (cfg7.win 3).cut (grid7.coords t) ((dat7 V c).after 3 t) = _
  rw [after7_3]
  unfold out7_3
  rw [View.canon_unit_zero hz7]
  simp only [View.ld_unit_zero (S := S2000x128) hz7, View.ld_unit_zero (S := S128x64) hz7, View.ld_unit_zero (S := S1x64) hz7, View.ld_unit_zero (S := S2000x64) hz7]
  funext j
  obtain ⟨p, q, rfl⟩ : ∃ (p : Fin 2000) (q : Fin 64), j = ix2 p q := ⟨j 0, j 1, eq_ix2 j⟩
  show k7_pay1 (iblk7 V c 0 t) (iblk7 V c 1 t) (iblk7 V c 2 t) (ix2 p q) = G7 (V c main_v102) (V c main_arg13) (V c main_v103) (((cfg7.win 3).blk t).view.emb (ix2 p q))
  refine (pay7_apply (iblk7 V c 0 t) (iblk7 V c 1 t) (iblk7 V c 2 t) p q).trans ?_
  exact blockval7 (V c main_v102) (V c main_arg13) (V c main_v103) t p q

/-- An index of the output array is in point `t`'s block iff each coordinate is in the block's range on its axis. -/
theorem mem_blk7 (t : Fin cfg7.N) (i : S100000x64.Idx) :
    i ∈ ((cfg7.win 3).blk t).view.set ↔ ∀ a : Fin 2, win7_3.index t a * S2000x64.size a ≤ (i a).val ∧ (i a).val < win7_3.index t a * S2000x64.size a + S2000x64.size a := by
  show i ∈ ((View.whole main_v104).slice (win7_3.rect t)).set ↔ _
  rw [View.set_slice_whole, Rect.mem_set_unit]
  exact Iff.rfl

/-- Every block row of the output array is some grid point's. -/
theorem idx_onto7 : ∀ q0 : Fin 50, ∃ t : Fin cfg7.N, win7_3.index t = ![q0.val, 0] :=
  (by decide +kernel : ∀ q0 : Fin 50, ∃ t : Fin grid7.N, win7_3.index t = ![q0.val, 0])

/-- Every index of the output array is in the block of the grid point that holds its row: row `r` is in block `r / 2000`. -/
theorem cover7 (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ := idx_onto7 ⟨(i 0).val / 2000, by omega⟩
  have q0 : win7_3.index t (0 : Fin 2) = (i 0).val / 2000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 2000 ≤ (i 0).val ∧ (i 0).val < win7_3.index t (0 : Fin 2) * 2000 + 2000; omega
  | ⟨1, _⟩ => show win7_3.index t (1 : Fin 2) * 64 ≤ (i 1).val ∧ (i 1).val < win7_3.index t (1 : Fin 2) * 64 + 64; omega

/-- The output array after the region: `G7` of the input arrays as the region found them. -/
theorem final7 (c : Dev nD) : (dat7 V c).arrAt 3 cfg7.N = G7 (V c main_v102) (V c main_arg13) (V c main_v103) :=
  (dat7 V c).arrAt_eq_of_cover 3 (G7 (V c main_v102) (V c main_arg13) (V c main_v103)) (fun t _ => flushed7_eq V c t) cover7

end Cert.KernelIdeal.Reg
-- ==== Proof.Alg.Head.lean ====
/-
  The head's first layer: a contraction over the 456 stacked features (200 + 128 + 128) against a
  weight of 456 rows is the sum of the three contractions of the pieces against the weight's
  three row blocks.
-/
import proofs.«168427_j26276609917010_1_alg».proof.Proof.Alg.Sums

namespace Cert.Alg

open scoped BigOperators

variable {M : Type*} [AddCommMonoid M] [Mul M]

/-- `cat` reads `x` on the first 200 indices, `h₁` on the next 128 and `h₂` on the last 128. -/
theorem sum_cat_mul (x : Fin 200 → M) (h₁ h₂ : Fin 128 → M) (cat W : Fin 456 → M)
    (hx : ∀ k : Fin 200, cat ⟨k.val, by have := k.isLt; omega⟩ = x k)
    (h1 : ∀ k : Fin 128, cat ⟨200 + k.val, by have := k.isLt; omega⟩ = h₁ k)
    (h2 : ∀ k : Fin 128, cat ⟨328 + k.val, by have := k.isLt; omega⟩ = h₂ k) :
    ∑ k, cat k * W k
      = ∑ k : Fin 200, x k * W ⟨k.val, by have := k.isLt; omega⟩
        + ∑ k : Fin 128, h₁ k * W ⟨200 + k.val, by have := k.isLt; omega⟩
        + ∑ k : Fin 128, h₂ k * W ⟨328 + k.val, by have := k.isLt; omega⟩ := by
  rw [sum_456 (fun k => cat k * W k)]
  simp only [hx, h1, h2]

end Cert.Alg
-- ==== Proof.Br.Head.lean ====
import proofs.«168427_j26276609917010_1_alg».proof.Proof.KI.Val6
import proofs.«168427_j26276609917010_1_alg».proof.Proof.KI.Val7
import proofs.«168427_j26276609917010_1_alg».proof.Proof.Ref.Out
import proofs.«168427_j26276609917010_1_alg».proof.Proof.Alg.Head
import Idealize.ShloMosaic.Lib.ValueIdx
import Idealize.ShloMosaic.PureOps.Ideal.Laws
import Idealize.ShloMosaic.Lib.KernelVsHost
import Idealize.ShloMosaic.Lib.IdealHost

/-! The head of the network: what the kernel program's regions 6 and 7 leave in their output arrays against the reference's two dense layers with bias and cut at zero; region 6 multiplies the three feature blocks by three row blocks of the weight matrix where the reference multiplies their concatenation by the whole matrix. -/

noncomputable section

namespace Cert.Br

open Idealize.ShloMosaic Idealize.ShloMosaic.TcCoe Idealize.SL.Sem
open Idealize.ShloMosaic.ValueIdx
open Cert.KernelIdeal (nD τ sig)

/-- The reference's matrix product at entry (r, j): the sum over the 128 contraction positions `k` of the left factor's
    entry (r, k) times the right factor's entry (k, j). -/
theorem refdot64_apply (a : FVec Ideal Cert.ReferenceIdeal.S100000x128 .f32) (b : FVec Ideal Cert.ReferenceIdeal.S128x64 .f32) (r : Fin 100000) (j : Fin 64) :
    Host.dotGeneral (F := Ideal) (φ₁ := .f32) (φ₂ := .f32) Cert.ReferenceIdeal.dot_S100000x128_S128x64_S100000x64_1_0_0_1_n_n none a b (ix2 r j)
      = ∑ k : Fin 128, a (ix2 r k) * b (ix2 k j) := by
  refine (Ideal.dotGeneral_apply Cert.ReferenceIdeal.dot_S100000x128_S128x64_S100000x64_1_0_0_1_n_n none .single a b (ix2 r j)).trans ?_
  rw [← Equiv.sum_comp (contrEquiv1 Cert.ReferenceIdeal.dot_S100000x128_S128x64_S100000x64_1_0_0_1_n_n 128 rfl rfl).symm]
  refine Finset.sum_congr rfl fun k _ => ?_
  have hk : ((((contrEquiv1 Cert.ReferenceIdeal.dot_S100000x128_S128x64_S100000x64_1_0_0_1_n_n 128 rfl rfl).symm k) ⟨0, by decide⟩ : Fin _) : ℕ) = k.val :=
    contrEquiv1_symm_val Cert.ReferenceIdeal.dot_S100000x128_S128x64_S100000x64_1_0_0_1_n_n 128 rfl rfl k
  have ea : Cert.ReferenceIdeal.dot_S100000x128_S128x64_S100000x64_1_0_0_1_n_n.lhsIdx (ix2 r j) ((contrEquiv1 Cert.ReferenceIdeal.dot_S100000x128_S128x64_S100000x64_1_0_0_1_n_n 128 rfl rfl).symm k) = ix2 r k := by
    funext ax; apply Fin.ext
    match ax with
    | ⟨0, _⟩ => rfl
    | ⟨1, _⟩ => exact hk
  have eb : Cert.ReferenceIdeal.dot_S100000x128_S128x64_S100000x64_1_0_0_1_n_n.rhsIdx (ix2 r j) ((contrEquiv1 Cert.ReferenceIdeal.dot_S100000x128_S128x64_S100000x64_1_0_0_1_n_n 128 rfl rfl).symm k) = ix2 k j := by
    funext ax; apply Fin.ext
    match ax with
    | ⟨0, _⟩ => exact hk
    | ⟨1, _⟩ => rfl
  rw [ea, eb]

/-- The reference's matrix product at entry (r, j): the sum over the 456 contraction positions `k` of the left factor's
    entry (r, k) times the right factor's entry (k, j). -/
theorem refdot456_apply (a : FVec Ideal Cert.ReferenceIdeal.S100000x456 .f32) (b : FVec Ideal Cert.ReferenceIdeal.S456x128 .f32) (r : Fin 100000) (j : Fin 128) :
    Host.dotGeneral (F := Ideal) (φ₁ := .f32) (φ₂ := .f32) Cert.ReferenceIdeal.dot_S100000x456_S456x128_S100000x128_1_0_0_1_n_n none a b (ix2 r j)
      = ∑ k : Fin 456, a (ix2 r k) * b (ix2 k j) := by
  refine (Ideal.dotGeneral_apply Cert.ReferenceIdeal.dot_S100000x456_S456x128_S100000x128_1_0_0_1_n_n none .single a b (ix2 r j)).trans ?_
  rw [← Equiv.sum_comp (contrEquiv1 Cert.ReferenceIdeal.dot_S100000x456_S456x128_S100000x128_1_0_0_1_n_n 456 rfl rfl).symm]
  refine Finset.sum_congr rfl fun k _ => ?_
  have hk : ((((contrEquiv1 Cert.ReferenceIdeal.dot_S100000x456_S456x128_S100000x128_1_0_0_1_n_n 456 rfl rfl).symm k) ⟨0, by decide⟩ : Fin _) : ℕ) = k.val :=
    contrEquiv1_symm_val Cert.ReferenceIdeal.dot_S100000x456_S456x128_S100000x128_1_0_0_1_n_n 456 rfl rfl k
  have ea : Cert.ReferenceIdeal.dot_S100000x456_S456x128_S100000x128_1_0_0_1_n_n.lhsIdx (ix2 r j) ((contrEquiv1 Cert.ReferenceIdeal.dot_S100000x456_S456x128_S100000x128_1_0_0_1_n_n 456 rfl rfl).symm k) = ix2 r k := by
    funext ax; apply Fin.ext
    match ax with
    | ⟨0, _⟩ => rfl
    | ⟨1, _⟩ => exact hk
  have eb : Cert.ReferenceIdeal.dot_S100000x456_S456x128_S100000x128_1_0_0_1_n_n.rhsIdx (ix2 r j) ((contrEquiv1 Cert.ReferenceIdeal.dot_S100000x456_S456x128_S100000x128_1_0_0_1_n_n 456 rfl rfl).symm k) = ix2 k j := by
    funext ax; apply Fin.ext
    match ax with
    | ⟨0, _⟩ => exact hk
    | ⟨1, _⟩ => rfl
  rw [ea, eb]

/-! ## The reference's layout operations read at an index -/

/-- A vector of 64 laid along every row, read at (r, j): the vector's entry j. -/
theorem rows64_apply (b : Vec Ideal Cert.ReferenceIdeal.S64 .f32) (r : Fin 100000) (j : Fin 64) : Cert.ReferenceIdeal.RefRun.rows64 b (ix2 r j) = b (ix1 j) := by
  unfold Cert.ReferenceIdeal.RefRun.rows64
  refine (broadcastInDim_oneRow_apply _ _ r j).trans ?_
  refine broadcastInDim_apply _ _ b (ix2 (0 : Fin 1) j) (ix1 j) (fun a => ?_)
  match a with
  | ⟨0, _⟩ => show j.val = if (64 : ℕ) = 1 then 0 else j.val; rw [if_neg (by decide)]

/-- A vector of 128 laid along every row, read at (r, j): the vector's entry j. -/
theorem rows128_at (b : Vec Ideal Cert.ReferenceIdeal.S128 .f32) (r : Fin 100000) (j : Fin 128) : Cert.ReferenceIdeal.RefRun.rows128 b (ix2 r j) = b (ix1 j) := by
  unfold Cert.ReferenceIdeal.RefRun.rows128
  refine (broadcastInDim_oneRow_apply _ _ r j).trans ?_
  refine broadcastInDim_apply _ _ b (ix2 (0 : Fin 1) j) (ix1 j) (fun a => ?_)
  match a with
  | ⟨0, _⟩ => show j.val = if (128 : ℕ) = 1 then 0 else j.val; rw [if_neg (by decide)]

/-- The cut at zero, entry by entry. -/
theorem relu64_apply (x : Vec Ideal Cert.ReferenceIdeal.S100000x64 .f32) (i : Cert.ReferenceIdeal.S100000x64.Idx) : Cert.ReferenceIdeal.RefRun.relu64 x i = max (x i) 0 := by
  unfold Cert.ReferenceIdeal.RefRun.relu64
  show max (x i) (broadcastInDim Cert.ReferenceIdeal.S100000x64 ![] Cert.ReferenceIdeal.Gen.bcast_S_S100000x64 (constant (F := Ideal) Cert.ReferenceIdeal.S_ .f32 0x00000000#32) i) = _
  rw [broadcastInDim_scalar_apply]
  show max (x i) (Ideal.ofBits .f32 0x00000000#32) = _
  rw [Ideal.ofBits_zero_f32]

theorem relu128_at (x : Vec Ideal Cert.ReferenceIdeal.S100000x128 .f32) (i : Cert.ReferenceIdeal.S100000x128.Idx) : Cert.ReferenceIdeal.RefRun.relu128 x i = max (x i) 0 := by
  unfold Cert.ReferenceIdeal.RefRun.relu128
  show max (x i) (broadcastInDim Cert.ReferenceIdeal.S100000x128 ![] Cert.ReferenceIdeal.Gen.bcast_S_S100000x128 (constant (F := Ideal) Cert.ReferenceIdeal.S_ .f32 0x00000000#32) i) = _
  rw [broadcastInDim_scalar_apply]
  show max (x i) (Ideal.ofBits .f32 0x00000000#32) = _
  rw [Ideal.ofBits_zero_f32]

/-- The three feature blocks side by side, read in the first 200 columns: the first block. -/
theorem cat_left (x : Vec Ideal Cert.ReferenceIdeal.S100000x200 .f32) (h₁ h₂ : Vec Ideal Cert.ReferenceIdeal.S100000x128 .f32) (r : Fin 100000) (k : Fin 200) :
    concatenate Cert.ReferenceIdeal.S100000x456 1 [⟨Cert.ReferenceIdeal.S100000x200, x⟩, ⟨Cert.ReferenceIdeal.S100000x128, h₁⟩, ⟨Cert.ReferenceIdeal.S100000x128, h₂⟩] Cert.ReferenceIdeal.Gen.concatenates_S100000x200_S100000x128_S100000x128_S100000x456_d1
      (ix2 r (⟨k.val, by have := k.isLt; omega⟩ : Fin 456)) = x (ix2 r k) :=
  concatenate_apply_piece (1 : Fin 2) _ _ (ix2 r (⟨k.val, by have := k.isLt; omega⟩ : Fin 456)) 0 (by show (0 : ℕ) < 3; omega) Cert.ReferenceIdeal.S100000x200 x rfl rfl 0 rfl (ix2 r k)
    (fun b => by match b with | ⟨0, _⟩ => exact fun _ => rfl | ⟨1, _⟩ => exact fun hb => absurd rfl hb)
    (Nat.zero_add _)

/-- … in the next 128 columns: the second block. -/
theorem cat_mid (x : Vec Ideal Cert.ReferenceIdeal.S100000x200 .f32) (h₁ h₂ : Vec Ideal Cert.ReferenceIdeal.S100000x128 .f32) (r : Fin 100000) (k : Fin 128) :
    concatenate Cert.ReferenceIdeal.S100000x456 1 [⟨Cert.ReferenceIdeal.S100000x200, x⟩, ⟨Cert.ReferenceIdeal.S100000x128, h₁⟩, ⟨Cert.ReferenceIdeal.S100000x128, h₂⟩] Cert.ReferenceIdeal.Gen.concatenates_S100000x200_S100000x128_S100000x128_S100000x456_d1
      (ix2 r (⟨200 + k.val, by have := k.isLt; omega⟩ : Fin 456)) = h₁ (ix2 r k) :=
  concatenate_apply_piece (1 : Fin 2) _ _ (ix2 r (⟨200 + k.val, by have := k.isLt; omega⟩ : Fin 456)) 1 (by show (1 : ℕ) < 3; omega) Cert.ReferenceIdeal.S100000x128 h₁ rfl rfl 200 rfl (ix2 r k)
    (fun b => by match b with | ⟨0, _⟩ => exact fun _ => rfl | ⟨1, _⟩ => exact fun hb => absurd rfl hb)
    rfl

/-- … in the last 128 columns: the third block. -/
theorem cat_right (x : Vec Ideal Cert.ReferenceIdeal.S100000x200 .f32) (h₁ h₂ : Vec Ideal Cert.ReferenceIdeal.S100000x128 .f32) (r : Fin 100000) (k : Fin 128) :
    concatenate Cert.ReferenceIdeal.S100000x456 1 [⟨Cert.ReferenceIdeal.S100000x200, x⟩, ⟨Cert.ReferenceIdeal.S100000x128, h₁⟩, ⟨Cert.ReferenceIdeal.S100000x128, h₂⟩] Cert.ReferenceIdeal.Gen.concatenates_S100000x200_S100000x128_S100000x128_S100000x456_d1
      (ix2 r (⟨328 + k.val, by have := k.isLt; omega⟩ : Fin 456)) = h₂ (ix2 r k) :=
  concatenate_apply_piece (1 : Fin 2) _ _ (ix2 r (⟨328 + k.val, by have := k.isLt; omega⟩ : Fin 456)) 2 (by show (2 : ℕ) < 3; omega) Cert.ReferenceIdeal.S100000x128 h₂ rfl rfl 328 rfl (ix2 r k)
    (fun b => by match b with | ⟨0, _⟩ => exact fun _ => rfl | ⟨1, _⟩ => exact fun hb => absurd rfl hb)
    rfl

/-! ## The two layers of the head -/

/-- Region 7's map, with its bias row the second bias vector: the reference's second dense layer of the head. -/
theorem G7_eq (y : Cert.KernelIdeal.S100000x128.Idx → Elt Ideal .f32) (w : Cert.KernelIdeal.S128x64.Idx → Elt Ideal .f32) (b7 : Cert.KernelIdeal.S1x64.Idx → Elt Ideal .f32)
    (fc2b : Vec Ideal Cert.ReferenceIdeal.S64 .f32) (hb : ∀ j : Fin 64, b7 (ix2 (0 : Fin 1) j) = fc2b (ix1 j)) :
    Cert.KernelIdeal.Reg.G7 y w b7
      = Cert.ReferenceIdeal.RefRun.relu64 (addf (Host.dotGeneral (F := Ideal) (φ₁ := .f32) (φ₂ := .f32) Cert.ReferenceIdeal.dot_S100000x128_S128x64_S100000x64_1_0_0_1_n_n none y w) (Cert.ReferenceIdeal.RefRun.rows64 fc2b)) := by
  funext i
  obtain ⟨r, j, rfl⟩ : ∃ (r : Fin 100000) (j : Fin 64), i = ix2 r j := ⟨i 0, i 1, eq_ix2 i⟩
  refine Eq.trans ?_ (relu64_apply _ _).symm
  show max ((∑ k : Fin 128, y (ix2 r k) * w (ix2 k j)) + b7 (ix2 (0 : Fin 1) j)) 0
    = max (Host.dotGeneral (F := Ideal) (φ₁ := .f32) (φ₂ := .f32) Cert.ReferenceIdeal.dot_S100000x128_S128x64_S100000x64_1_0_0_1_n_n none y w (ix2 r j) + Cert.ReferenceIdeal.RefRun.rows64 fc2b (ix2 r j)) 0
  rw [refdot64_apply, rows64_apply, hb]

/-- Region 6's map, with its three weight blocks the three row blocks of the first weight matrix of the head and its
    bias row the first bias vector: the reference's first dense layer of the head on the three feature blocks side by side. -/
theorem G6_eq (x : Cert.KernelIdeal.S100000x200.Idx → Elt Ideal .f32) (h₁ h₂ : Cert.KernelIdeal.S100000x128.Idx → Elt Ideal .f32)
    (w3 : Cert.KernelIdeal.S200x128.Idx → Elt Ideal .f32) (w4 w5 : Cert.KernelIdeal.S128x128.Idx → Elt Ideal .f32) (b6 : Cert.KernelIdeal.S1x128.Idx → Elt Ideal .f32)
    (fc1W : Vec Ideal Cert.ReferenceIdeal.S456x128 .f32) (fc1b : Vec Ideal Cert.ReferenceIdeal.S128 .f32)
    (hw3 : ∀ (k : Fin 200) (j : Fin 128), w3 (ix2 k j) = fc1W (ix2 (⟨k.val, by have := k.isLt; omega⟩ : Fin 456) j))
    (hw4 : ∀ (k : Fin 128) (j : Fin 128), w4 (ix2 k j) = fc1W (ix2 (⟨200 + k.val, by have := k.isLt; omega⟩ : Fin 456) j))
    (hw5 : ∀ (k : Fin 128) (j : Fin 128), w5 (ix2 k j) = fc1W (ix2 (⟨328 + k.val, by have := k.isLt; omega⟩ : Fin 456) j))
    (hb : ∀ j : Fin 128, b6 (ix2 (0 : Fin 1) j) = fc1b (ix1 j)) :
    Cert.KernelIdeal.Reg.G6 x h₁ h₂ w3 w4 w5 b6
      = Cert.ReferenceIdeal.RefRun.relu128 (addf (Host.dotGeneral (F := Ideal) (φ₁ := .f32) (φ₂ := .f32) Cert.ReferenceIdeal.dot_S100000x456_S456x128_S100000x128_1_0_0_1_n_n none
          (concatenate Cert.ReferenceIdeal.S100000x456 1 [⟨Cert.ReferenceIdeal.S100000x200, x⟩, ⟨Cert.ReferenceIdeal.S100000x128, h₁⟩, ⟨Cert.ReferenceIdeal.S100000x128, h₂⟩] Cert.ReferenceIdeal.Gen.concatenates_S100000x200_S100000x128_S100000x128_S100000x456_d1) fc1W)
        (Cert.ReferenceIdeal.RefRun.rows128 fc1b)) := by
  funext i
  obtain ⟨r, j, rfl⟩ : ∃ (r : Fin 100000) (j : Fin 128), i = ix2 r j := ⟨i 0, i 1, eq_ix2 i⟩
  refine Eq.trans ?_ (relu128_at _ _).symm
  show max ((((∑ k : Fin 200, x (ix2 r k) * w3 (ix2 k j)) + (∑ k : Fin 128, h₁ (ix2 r k) * w4 (ix2 k j))) + (∑ k : Fin 128, h₂ (ix2 r k) * w5 (ix2 k j))) + b6 (ix2 (0 : Fin 1) j)) 0
    = max (Host.dotGeneral (F := Ideal) (φ₁ := .f32) (φ₂ := .f32) Cert.ReferenceIdeal.dot_S100000x456_S456x128_S100000x128_1_0_0_1_n_n none
          (concatenate Cert.ReferenceIdeal.S100000x456 1 [⟨Cert.ReferenceIdeal.S100000x200, x⟩, ⟨Cert.ReferenceIdeal.S100000x128, h₁⟩, ⟨Cert.ReferenceIdeal.S100000x128, h₂⟩] Cert.ReferenceIdeal.Gen.concatenates_S100000x200_S100000x128_S100000x128_S100000x456_d1) fc1W (ix2 r j)
        + Cert.ReferenceIdeal.RefRun.rows128 fc1b (ix2 r j)) 0
  rw [refdot456_apply, rows128_at, hb]
  rw [Cert.Alg.sum_cat_mul (fun k => x (ix2 r k)) (fun k => h₁ (ix2 r k)) (fun k => h₂ (ix2 r k)) _ (fun k => fc1W (ix2 k j))
    (fun k => cat_left x h₁ h₂ r k) (fun k => cat_mid x h₁ h₂ r k) (fun k => cat_right x h₁ h₂ r k)]
  simp only [hw3, hw4, hw5]

/-! ## The kernel program's side inputs of the head, read at an index -/

/-- Rows 0 … 199 of the head's first weight matrix. -/
theorem slice0_apply (W : Cert.KernelIdeal.S456x128.Idx → Elt Ideal .f32) (h : Cert.KernelIdeal.S456x128.Slices ![0, 0] Cert.KernelIdeal.S200x128) (k : Fin 200) (j : Fin 128) :
    extractStridedSlice Cert.KernelIdeal.S200x128 ![0, 0] W h (ix2 k j) = W (ix2 (⟨k.val, by have := k.isLt; omega⟩ : Fin 456) j) :=
  extractStridedSlice_apply ![0, 0] W h (ix2 k j) (ix2 (⟨k.val, by have := k.isLt; omega⟩ : Fin 456) j)
    (fun a => by match a with | ⟨0, _⟩ => exact (Nat.zero_add _).symm | ⟨1, _⟩ => exact (Nat.zero_add _).symm)

/-- Rows 200 … 327. -/
theorem slice200_apply (W : Cert.KernelIdeal.S456x128.Idx → Elt Ideal .f32) (h : Cert.KernelIdeal.S456x128.Slices ![200, 0] Cert.KernelIdeal.S128x128) (k : Fin 128) (j : Fin 128) :
    extractStridedSlice Cert.KernelIdeal.S128x128 ![200, 0] W h (ix2 k j) = W (ix2 (⟨200 + k.val, by have := k.isLt; omega⟩ : Fin 456) j) :=
  extractStridedSlice_apply ![200, 0] W h (ix2 k j) (ix2 (⟨200 + k.val, by have := k.isLt; omega⟩ : Fin 456) j)
    (fun a => by match a with | ⟨0, _⟩ => rfl | ⟨1, _⟩ => exact (Nat.zero_add _).symm)

/-- Rows 328 … 455. -/
theorem slice328_apply (W : Cert.KernelIdeal.S456x128.Idx → Elt Ideal .f32) (h : Cert.KernelIdeal.S456x128.Slices ![328, 0] Cert.KernelIdeal.S128x128) (k : Fin 128) (j : Fin 128) :
    extractStridedSlice Cert.KernelIdeal.S128x128 ![328, 0] W h (ix2 k j) = W (ix2 (⟨328 + k.val, by have := k.isLt; omega⟩ : Fin 456) j) :=
  extractStridedSlice_apply ![328, 0] W h (ix2 k j) (ix2 (⟨328 + k.val, by have := k.isLt; omega⟩ : Fin 456) j)
    (fun a => by match a with | ⟨0, _⟩ => rfl | ⟨1, _⟩ => exact (Nat.zero_add _).symm)

/-- A vector of 128 recast as a one-row matrix, read at (0, j): the vector's entry j. -/
theorem row128_at (b : Cert.KernelIdeal.S128.Idx → Elt Ideal .f32) (h : Cert.KernelIdeal.S128.ShapeCasts Cert.KernelIdeal.S1x128) (j : Fin 128) :
    shapeCast Cert.KernelIdeal.S1x128 b h (ix2 (0 : Fin 1) j) = b (ix1 j) :=
  shapeCast_apply b h (ix2 (0 : Fin 1) j) (ix1 j) (by
    rw [Shape.rowMajor_val_two, Shape.rowMajor_val_one]; show j.val = 0 * 128 + j.val; omega)

/-- A vector of 64 recast as a one-row matrix, read at (0, j): the vector's entry j. -/
theorem row64_apply (b : Cert.KernelIdeal.S64.Idx → Elt Ideal .f32) (h : Cert.KernelIdeal.S64.ShapeCasts Cert.KernelIdeal.S1x64) (j : Fin 64) :
    shapeCast Cert.KernelIdeal.S1x64 b h (ix2 (0 : Fin 1) j) = b (ix1 j) :=
  shapeCast_apply b h (ix2 (0 : Fin 1) j) (ix1 j) (by
    rw [Shape.rowMajor_val_two, Shape.rowMajor_val_one]; show j.val = 0 * 64 + j.val; omega)

/-! ## The two regions of the head, from any entry contents -/

variable (V : (c : Dev nD) → (b : Ref sig .tc) → Buf (Elt Ideal) ((c : Thread nD τ).loc b))

/-- Region 7's output array when its bias row is the second bias vector `b` recast as a row: the reference's second
    dense layer of the head applied to the region's first input array. -/
theorem region7_eq (c : Dev nD) (b : Cert.KernelIdeal.S64.Idx → Elt Ideal .f32)
    (h103 : V c Cert.KernelIdeal.main_v103 = shapeCast Cert.KernelIdeal.S1x64 b Cert.KernelIdeal.Gen.shapeCasts_S64_S1x64) :
    (Cert.KernelIdeal.Reg.dat7 V c).arrAt 3 Cert.KernelIdeal.cfg7.N
      = Cert.ReferenceIdeal.RefRun.relu64 (addf (Host.dotGeneral (F := Ideal) (φ₁ := .f32) (φ₂ := .f32) Cert.ReferenceIdeal.dot_S100000x128_S128x64_S100000x64_1_0_0_1_n_n none
          (V c Cert.KernelIdeal.main_v102) (V c Cert.KernelIdeal.main_arg13)) (Cert.ReferenceIdeal.RefRun.rows64 b)) :=
  (Cert.KernelIdeal.Reg.final7 V c).trans (G7_eq _ _ _ b (fun j => by rw [h103]; exact row64_apply b _ j))

/-- Region 6's output array when its three weight blocks are the three row blocks of the weight matrix `W` and its bias
    row is the bias vector `b` recast as a row: the reference's first dense layer of the head applied to the region's
    three feature arrays side by side. -/
theorem region6_eq (c : Dev nD) (W : Cert.KernelIdeal.S456x128.Idx → Elt Ideal .f32) (b : Cert.KernelIdeal.S128.Idx → Elt Ideal .f32)
    (h98 : V c Cert.KernelIdeal.main_v98 = extractStridedSlice Cert.KernelIdeal.S200x128 ![0, 0] W Cert.KernelIdeal.Gen.slices_S456x128_S200x128_0_0)
    (h99 : V c Cert.KernelIdeal.main_v99 = extractStridedSlice Cert.KernelIdeal.S128x128 ![200, 0] W Cert.KernelIdeal.Gen.slices_S456x128_S128x128_200_0)
    (h100 : V c Cert.KernelIdeal.main_v100 = extractStridedSlice Cert.KernelIdeal.S128x128 ![328, 0] W Cert.KernelIdeal.Gen.slices_S456x128_S128x128_328_0)
    (h101 : V c Cert.KernelIdeal.main_v101 = shapeCast Cert.KernelIdeal.S1x128 b Cert.KernelIdeal.Gen.shapeCasts_S128_S1x128) :
    (Cert.KernelIdeal.Reg.dat6 V c).arrAt 7 Cert.KernelIdeal.cfg6.N
      = Cert.ReferenceIdeal.RefRun.relu128 (addf (Host.dotGeneral (F := Ideal) (φ₁ := .f32) (φ₂ := .f32) Cert.ReferenceIdeal.dot_S100000x456_S456x128_S100000x128_1_0_0_1_n_n none
          (concatenate Cert.ReferenceIdeal.S100000x456 1 [⟨Cert.ReferenceIdeal.S100000x200, V c Cert.KernelIdeal.main_arg0⟩, ⟨Cert.ReferenceIdeal.S100000x128, V c Cert.KernelIdeal.main_v64⟩, ⟨Cert.ReferenceIdeal.S100000x128, V c Cert.KernelIdeal.main_v97⟩]
            Cert.ReferenceIdeal.Gen.concatenates_S100000x200_S100000x128_S100000x128_S100000x456_d1) W)
        (Cert.ReferenceIdeal.RefRun.rows128 b)) :=
  (Cert.KernelIdeal.Reg.final6 V c).trans (G6_eq _ _ _ _ _ _ _ W b
    (fun k j => by rw [h98]; exact slice0_apply W _ k j)
    (fun k j => by rw [h99]; exact slice200_apply W _ k j)
    (fun k j => by rw [h100]; exact slice328_apply W _ k j)
    (fun j => by rw [h101]; exact row128_at b _ j))

/-- The two layers composed: an array that is the second layer of an array that is the first layer of the three feature
    blocks is the reference's head of them. -/
theorem head_of_layers (x : Vec Ideal Cert.ReferenceIdeal.S100000x200 .f32) (h₁ h₂ : Vec Ideal Cert.ReferenceIdeal.S100000x128 .f32) (W : Vec Ideal Cert.ReferenceIdeal.S456x128 .f32)
    (b : Vec Ideal Cert.ReferenceIdeal.S128 .f32) (W₂ : Vec Ideal Cert.ReferenceIdeal.S128x64 .f32) (b₂ : Vec Ideal Cert.ReferenceIdeal.S64 .f32)
    (o₁ : Vec Ideal Cert.ReferenceIdeal.S100000x128 .f32) (o₂ : Vec Ideal Cert.ReferenceIdeal.S100000x64 .f32)
    (e₁ : o₁ = Cert.ReferenceIdeal.RefRun.relu128 (addf (Host.dotGeneral (F := Ideal) (φ₁ := .f32) (φ₂ := .f32) Cert.ReferenceIdeal.dot_S100000x456_S456x128_S100000x128_1_0_0_1_n_n none
          (concatenate Cert.ReferenceIdeal.S100000x456 1 [⟨Cert.ReferenceIdeal.S100000x200, x⟩, ⟨Cert.ReferenceIdeal.S100000x128, h₁⟩, ⟨Cert.ReferenceIdeal.S100000x128, h₂⟩]
            Cert.ReferenceIdeal.Gen.concatenates_S100000x200_S100000x128_S100000x128_S100000x456_d1) W)
        (Cert.ReferenceIdeal.RefRun.rows128 b)))
    (e₂ : o₂ = Cert.ReferenceIdeal.RefRun.relu64 (addf (Host.dotGeneral (F := Ideal) (φ₁ := .f32) (φ₂ := .f32) Cert.ReferenceIdeal.dot_S100000x128_S128x64_S100000x64_1_0_0_1_n_n none o₁ W₂) (Cert.ReferenceIdeal.RefRun.rows64 b₂))) :
    o₂ = Cert.ReferenceIdeal.RefRun.head x h₁ h₂ W b W₂ b₂ := by
  rw [e₂, e₁]
  rfl

end Cert.Br
-- ==== Proof.Br.Chain3.lean ====
/-
  The head on the kernel program's side, boundary by boundary: the three row blocks of the first weight matrix and the
  two bias rows as the host stretches build them, the three feature arrays as earlier regions left them, the two dense
  layers with their cut at zero; it is the reference's head of the same arrays.
-/
import proofs.«168427_j26276609917010_1_alg».proof.Proof.KI.Move
import proofs.«168427_j26276609917010_1_alg».proof.Proof.Br.Setup
import proofs.«168427_j26276609917010_1_alg».proof.Proof.Br.Head
import Idealize.ShloMosaic.Lib.Pipeline.Value
import Idealize.ShloMosaic.Lib.ValueIdx
import Idealize.ShloMosaic.PureOps.Ideal.Laws

set_option maxRecDepth 16384

noncomputable section

namespace Cert.Br

open Idealize.ShloMosaic Idealize.ShloMosaic.TcCoe Idealize.SL.Sem Idealize.ShloMosaic.StableHlo
open Cert.KernelIdeal.Reg

variable (m : KM) (c : Dev Cert.KernelIdeal.nD)

/-- Before region 6 its first weight block is rows 0 … 199 of the head's first weight matrix. -/
theorem slice98 : W15 m c (Proc.devRef .tc Cert.KernelIdeal.main_v98)
    = extractStridedSlice Cert.KernelIdeal.S200x128 ![0, 0] (W14 m c (Proc.devRef .tc Cert.KernelIdeal.main_arg11)) Cert.KernelIdeal.Gen.slices_S456x128_S200x128_0_0 := by
  show after Cert.KernelIdeal.Gen.hostOps6 (W14 m c) _ = _
  after_results_simp

/-- … its second weight block rows 200 … 327, -/
theorem slice99 : W15 m c (Proc.devRef .tc Cert.KernelIdeal.main_v99)
    = extractStridedSlice Cert.KernelIdeal.S128x128 ![200, 0] (W14 m c (Proc.devRef .tc Cert.KernelIdeal.main_arg11)) Cert.KernelIdeal.Gen.slices_S456x128_S128x128_200_0 := by
  show after Cert.KernelIdeal.Gen.hostOps6 (W14 m c) _ = _
  after_results_simp

/-- … its third weight block rows 328 … 455, -/
theorem slice100 : W15 m c (Proc.devRef .tc Cert.KernelIdeal.main_v100)
    = extractStridedSlice Cert.KernelIdeal.S128x128 ![328, 0] (W14 m c (Proc.devRef .tc Cert.KernelIdeal.main_arg11)) Cert.KernelIdeal.Gen.slices_S456x128_S128x128_328_0 := by
  show after Cert.KernelIdeal.Gen.hostOps6 (W14 m c) _ = _
  after_results_simp

/-- … and its bias row the head's first bias vector recast as a row. -/
theorem reshape101 : W15 m c (Proc.devRef .tc Cert.KernelIdeal.main_v101)
    = shapeCast Cert.KernelIdeal.S1x128 (W14 m c (Proc.devRef .tc Cert.KernelIdeal.main_arg12)) Cert.KernelIdeal.Gen.shapeCasts_S128_S1x128 := by
  show after Cert.KernelIdeal.Gen.hostOps6 (W14 m c) _ = _
  after_results_simp
  rfl

/-- Before region 7 its bias row is the head's second bias vector recast as a row. -/
theorem reshape103 : W17 m c (Proc.devRef .tc Cert.KernelIdeal.main_v103)
    = shapeCast Cert.KernelIdeal.S1x64 (W16 m c (Proc.devRef .tc Cert.KernelIdeal.main_arg14)) Cert.KernelIdeal.Gen.shapeCasts_S64_S1x64 := by
  show after Cert.KernelIdeal.Gen.hostOps7 (W16 m c) _ = _
  after_results_simp
  rfl

/-- The head: with the first layer's result `h₁` where region 2 left it and the second layer's result `h₂` where region 5
    left it, the program's result array is the reference's head of the features, `h₁`, `h₂` and the head's four arguments. -/
theorem chain3 (hre : RealArgs m c) (h₁ h₂ : Vec Ideal Cert.ReferenceIdeal.S100000x128 .f32)
    (h64 : W8 m c (Proc.devRef .tc Cert.KernelIdeal.main_v64) = h₁) (h97 : W14 m c (Proc.devRef .tc Cert.KernelIdeal.main_v97) = h₂) :
    W18 m c (Proc.devRef .tc Cert.KernelIdeal.main_v104)
      = Cert.ReferenceIdeal.RefRun.head (m ((c : Thread Cert.KernelIdeal.nD Cert.KernelIdeal.τ).loc Cert.KernelIdeal.main_arg0)) h₁ h₂ (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) := by
  -- the arrays region 6 reads, as they stand when it is entered
  have k64 : W15 m c (Proc.devRef .tc Cert.KernelIdeal.main_v64) = h₁ :=
    (keep_W15 m c Cert.KernelIdeal.main_v64 (by decide)).trans ((keep_W14 m c Cert.KernelIdeal.main_v64 (by decide)).trans ((keep_W13 m c Cert.KernelIdeal.main_v64 (by decide)).trans
      ((keep_W12 m c Cert.KernelIdeal.main_v64 (by decide)).trans ((keep_W11 m c Cert.KernelIdeal.main_v64 (by decide)).trans ((keep_W10 m c Cert.KernelIdeal.main_v64 (by decide)).trans
        ((keep_W9 m c Cert.KernelIdeal.main_v64 (by decide)).trans h64))))))
  have k97 : W15 m c (Proc.devRef .tc Cert.KernelIdeal.main_v97) = h₂ := (keep_W15 m c Cert.KernelIdeal.main_v97 (by decide)).trans h97
  have e6 := region6_eq (atTc (W15 m)) c (W14 m c (Proc.devRef .tc Cert.KernelIdeal.main_arg11)) (W14 m c (Proc.devRef .tc Cert.KernelIdeal.main_arg12))
    (slice98 m c) (slice99 m c) (slice100 m c) (reshape101 m c)
  dsimp only [atTc] at e6
  rw [k64, k97, W15_launch m c Cert.KernelIdeal.main_arg0 (by decide) (by decide) (by decide) (by decide) (by decide) (by decide) (by decide) (by decide) (by decide) (by decide) (by decide) (by decide) (by decide) (by decide) (by decide), W14_launch m c Cert.KernelIdeal.main_arg11 (by decide) (by decide) (by decide) (by decide) (by decide) (by decide) (by decide) (by decide) (by decide) (by decide) (by decide) (by decide) (by decide) (by decide),
    W14_launch m c Cert.KernelIdeal.main_arg12 (by decide) (by decide) (by decide) (by decide) (by decide) (by decide) (by decide) (by decide) (by decide) (by decide) (by decide) (by decide) (by decide) (by decide)] at e6
  have o6 := (W16_arr m c 7).trans e6
  -- the arrays region 7 reads
  have e7 := region7_eq (atTc (W17 m)) c (W16 m c (Proc.devRef .tc Cert.KernelIdeal.main_arg14)) (reshape103 m c)
  dsimp only [atTc] at e7
  rw [keep_W17 m c Cert.KernelIdeal.main_v102 (by decide), W17_launch m c Cert.KernelIdeal.main_arg13 (by decide) (by decide) (by decide) (by decide) (by decide) (by decide) (by decide) (by decide) (by decide) (by decide) (by decide) (by decide) (by decide) (by decide) (by decide) (by decide) (by decide),
    W16_launch m c Cert.KernelIdeal.main_arg14 (by decide) (by decide) (by decide) (by decide) (by decide) (by decide) (by decide) (by decide) (by decide) (by decide) (by decide) (by decide) (by decide) (by decide) (by decide) (by decide)] at e7
  have o7 := (W18_arr m c 3).trans e7
  exact head_of_layers _ _ _ _ _ _ _ _ _ o6 o7

end Cert.Br

end
-- ==== Proof.Br.Final.lean ====
/-
  The two idealized programs end with equal results. The kernel program's last boundary holds, in its result buffer, the
  reference's function of the argument arrays: its three stages (first layer, second layer, head) are the reference's,
  the first layer's array being real entry by entry so that the second layer's normalisation may use it. The
  reference's run ends with that same function of its own arguments, which are the kernel program's.
-/
import proofs.«168427_j26276609917010_1_alg».proof.Defs
import proofs.«168427_j26276609917010_1_alg».proof.Proof.Gen.KernelIdeal
import proofs.«168427_j26276609917010_1_alg».proof.Proof.Gen.ReferenceIdeal
import proofs.«168427_j26276609917010_1_alg».proof.Proof.Gen.Pre_finite_inputs
import proofs.«168427_j26276609917010_1_alg».proof.Proof.KI.Keep
import proofs.«168427_j26276609917010_1_alg».proof.Proof.Ref.Run
import proofs.«168427_j26276609917010_1_alg».proof.Proof.Ref.PreRealArgs
import proofs.«168427_j26276609917010_1_alg».proof.Proof.Br.RealBn
import proofs.«168427_j26276609917010_1_alg».proof.Proof.Br.Chain1
import proofs.«168427_j26276609917010_1_alg».proof.Proof.Br.Chain2
import proofs.«168427_j26276609917010_1_alg».proof.Proof.Br.Chain3

set_option maxRecDepth 16384

noncomputable section

namespace Cert.Br

open Idealize.ShloMosaic Idealize.ShloMosaic.TcCoe Idealize.SL.Sem
open Cert.KernelIdeal.Reg Cert.ReferenceIdeal.RefRun

/-- The kernel program's result buffer at the last boundary is the reference's function of the arguments. -/
theorem result_eq (m : KM) (c : Dev Cert.KernelIdeal.nD) (hre : RealArgs m c) :
    W18 m c (Proc.devRef .tc Cert.KernelIdeal.main_v104)
      = refOut (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) := by
  unfold refOut
  exact chain3 m c hre _ _ (chain1 m c hre)
    (chain2 m c hre _ (fun i => isReal_layer1 _ _ _ _ _ _ _ hre.r0 hre.r2 hre.r3 hre.r4 hre.r7 hre.r8 i) (chain1 m c hre))

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m g m' g' hpre hagree
  refine ⟨fun c => W18 m c (Proc.devRef .tc Cert.KernelIdeal.main_v104), ?_, ?_⟩
  · refine (θ_run Cert.KernelIdeal.defs _ _).mono (fun r h c => ?_) (run_all (F := Ideal) m g)
    exact ⟨h c _ (mem_uc Cert.KernelIdeal.main_v104 (by decide)),
      (h c _ (mem_uc Cert.KernelIdeal.main_arg0 (by decide))).trans (W18_untouched m c Cert.KernelIdeal.main_arg0 (by decide)),
      (h c _ (mem_uc Cert.KernelIdeal.main_arg1 (by decide))).trans (W18_untouched m c Cert.KernelIdeal.main_arg1 (by decide)),
      (h c _ (mem_uc Cert.KernelIdeal.main_arg2 (by decide))).trans (W18_untouched m c Cert.KernelIdeal.main_arg2 (by decide)),
      (h c _ (mem_uc Cert.KernelIdeal.main_arg3 (by decide))).trans (W18_untouched m c Cert.KernelIdeal.main_arg3 (by decide)),
      (h c _ (mem_uc Cert.KernelIdeal.main_arg4 (by decide))).trans (W18_untouched m c Cert.KernelIdeal.main_arg4 (by decide)),
      (h c _ (mem_uc Cert.KernelIdeal.main_arg5 (by decide))).trans (W18_untouched m c Cert.KernelIdeal.main_arg5 (by decide)),
      (h c _ (mem_uc Cert.KernelIdeal.main_arg6 (by decide))).trans (W18_untouched m c Cert.KernelIdeal.main_arg6 (by decide)),
      (h c _ (mem_uc Cert.KernelIdeal.main_arg7 (by decide))).trans (W18_untouched m c Cert.KernelIdeal.main_arg7 (by decide)),
      (h c _ (mem_uc Cert.KernelIdeal.main_arg8 (by decide))).trans (W18_untouched m c Cert.KernelIdeal.main_arg8 (by decide)),
      (h c _ (mem_uc Cert.KernelIdeal.main_arg9 (by decide))).trans (W18_untouched m c Cert.KernelIdeal.main_arg9 (by decide)),
      (h c _ (mem_uc Cert.KernelIdeal.main_arg10 (by decide))).trans (W18_untouched m c Cert.KernelIdeal.main_arg10 (by decide)),
      (h c _ (mem_uc Cert.KernelIdeal.main_arg11 (by decide))).trans (W18_untouched m c Cert.KernelIdeal.main_arg11 (by decide)),
      (h c _ (mem_uc Cert.KernelIdeal.main_arg12 (by decide))).trans (W18_untouched m c Cert.KernelIdeal.main_arg12 (by decide)),
      (h c _ (mem_uc Cert.KernelIdeal.main_arg13 (by decide))).trans (W18_untouched m c Cert.KernelIdeal.main_arg13 (by decide)),
      (h c _ (mem_uc Cert.KernelIdeal.main_arg14 (by decide))).trans (W18_untouched m c Cert.KernelIdeal.main_arg14 (by decide))⟩
  · refine (θ_run Cert.ReferenceIdeal.defs _ _).mono (fun r h c => ⟨(h c).1.trans ?_, (h c).2⟩) (run (F := Ideal) m' g')
    obtain ⟨a0, a1, a2, a3, a4, a5, a6, a7, a8, a9, a10, a11, a12, a13, a14⟩ := hagree c
    rw [a0, a1, a2, a3, a4, a5, a6, a7, a8, a9, a10, a11, a12, a13, a14]
    exact (result_eq m c (pre_real m hpre c)).symm

end Cert.Br

end
-- ==== Proof.lean ====
/-
  The certificate of a two-layer graph convolution network with batch normalisation and a two-layer head, computed by
  eight tiled kernels among stretches of host operations, against its plain reference.

  The frames. Each of the kernel program's eight regions is run point by point over its grid of fifty row tiles: a
  region's body loads its blocks, computes and stores, and its output array ends as the blocks the points wrote; the two
  regions that accumulate column sums keep them in two scratch rows between points and copy them out at the last point.
  The regions and the host stretches are composed in order, the contents of every buffer named at every boundary; no
  item writes an argument array. The same text serves the word-level program and its idealization. The reference is a
  straight line of host operations, each reading buffers written before it.

  The value. At the idealized instance a float is an extended real and a change of format is the identity, so a tiled
  matrix product into a zero accumulator is the host's product, and the head's three products of row blocks are the one
  product with the concatenated features. The batch normalisation is where the two programs differ in arrangement: the
  kernel takes the variance as the mean of the squares less the squared mean and applies the normalisation as a
  precomputed scale and shift, the reference takes the mean of the squared deviations and normalises directly. The two
  agree on real numbers, and every entry that reaches a normalisation is real because the arguments are (the
  precondition), sums, products, maxima and the degree's inverse square root where it is positive keeping it so.
-/
import proofs.«168427_j26276609917010_1_alg».proof.Defs
import proofs.«168427_j26276609917010_1_alg».proof.Proof.Gen.Kernel
import proofs.«168427_j26276609917010_1_alg».proof.Proof.Gen.KernelIdeal
import proofs.«168427_j26276609917010_1_alg».proof.Proof.Gen.ReferenceIdeal
import proofs.«168427_j26276609917010_1_alg».proof.Proof.Gen.Pre_finite_inputs
import proofs.«168427_j26276609917010_1_alg».proof.Proof.K.Keep
import proofs.«168427_j26276609917010_1_alg».proof.Proof.KI.Keep
import proofs.«168427_j26276609917010_1_alg».proof.Proof.Ref.Run
import proofs.«168427_j26276609917010_1_alg».proof.Proof.Br.Final
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Reg.frame_all (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Reg.frame_all (F := Ideal) m ρ

theorem claim : Cert.Claim := ⟨Cert.Kernel.Gen.facts, Cert.KernelIdeal.Gen.facts, Cert.ReferenceIdeal.Gen.facts, Cert.Pre_finite_inputs.Gen.facts,
  frame_kernel, frame_kernelIdeal, Cert.ReferenceIdeal.RefRun.frame, trivial, Cert.Br.algebraic⟩

end Cert.Proof

end
